-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S1600000x2 : Shape := ⟨2, ![1600000, 2]⟩
abbrev S1600000x3 : Shape := ⟨2, ![1600000, 3]⟩
abbrev S16x64 : Shape := ⟨2, ![16, 64]⟩
abbrev S64 : Shape := ⟨1, ![64]⟩
abbrev S64x64 : Shape := ⟨2, ![64, 64]⟩
abbrev S2x131x64 : Shape := ⟨3, ![2, 131, 64]⟩
abbrev S2x64 : Shape := ⟨2, ![2, 64]⟩
abbrev S2x64x64 : Shape := ⟨3, ![2, 64, 64]⟩
abbrev S2x128x64 : Shape := ⟨3, ![2, 128, 64]⟩
abbrev S64x1 : Shape := ⟨2, ![64, 1]⟩
abbrev S1 : Shape := ⟨1, ![1]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S1600000x3 : S_.BroadcastsInDim S1600000x3 (![] : Fin 0 → Fin S1600000x3.rank)
  reducesTo_S1600000x3_S_d0_1 : S1600000x3.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S2x131x64 : S_.BroadcastsInDim S2x131x64 (![] : Fin 0 → Fin S2x131x64.rank)
  reducesTo_S2x131x64_S_d0_1_2 : S2x131x64.ReducesTo [0, 1, 2] S_
  bcast_S_S2x64 : S_.BroadcastsInDim S2x64 (![] : Fin 0 → Fin S2x64.rank)
  reducesTo_S2x64_S_d0_1 : S2x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S2x128x64 : S_.BroadcastsInDim S2x128x64 (![] : Fin 0 → Fin S2x128x64.rank)
  reducesTo_S2x128x64_S_d0_1_2 : S2x128x64.ReducesTo [0, 1, 2] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg15 : FVec F S64x64 .f32) (main_arg16 : FVec F S64 .f32) (main_arg17 : FVec F S64x1 .f32) (main_arg18 : FVec F S1 .f32) (main_v63 : IVec S_ 1) (main_v67 : IVec S_ 1) : IVec S_ 1 :=
  let main_v68 : IVec S_ 1 := andi main_v63 main_v67
  let main_v69 : FVec F S64x64 .f32 := Host.absf main_arg15
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x1 .f32 := Host.absf main_arg17
  let main_cst_30 : FVec F S_ .f32 := constant S_ .f32 0x7F800000#32
  let main_v80 : FVec F S64x1 .f32 := broadcastInDim S64x1 ![] bcast_S_S64x1 main_cst_30
  let main_v81 : IVec S64x1 1 := cmpf .olt main_v79 main_v80
  let main_c_31 : IVec S_ 1 := constantI S_ 1 1#1
  let main_v82 : IVec S_ 1 := (fun x v => Host.reduce IntOp.andi x v reducesTo_S64x1_S_d0_1 h_S_) main_v81 main_c_31
  let main_v83 : IVec S_ 1 := andi main_v78 main_v82
  let main_v84 : FVec F S1 .f32 := Host.absf main_arg18
  let main_cst_32 : FVec F S_ .f32 := constant S_ .f32 0x7F800000#32
  fn_part5 (F := F) main_v83 main_v84 main_cst_32

def fn_part3 {F : FTy → Type} [FloatOps F] (main_arg12 : FVec F S2x64 .f32) (main_arg13 : FVec F S2x64x64 .f32) (main_arg14 : FVec F S2x64 .f32) (main_arg15 : FVec F S64x64 .f32) (main_arg16 : FVec F S64 .f32) (main_arg17 : FVec F S64x1 .f32) (main_arg18 : FVec F S1 .f32) (main_v48 : IVec S_ 1) (main_v49 : FVec F S2x128x64 .f32) (main_v50 : FVec F S2x128x64 .f32) : IVec S_ 1 :=
  let main_v51 : IVec S2x128x64 1 := cmpf .olt main_v49 main_v50
  let main_c_19 : IVec S_ 1 := constantI S_ 1 1#1
  let main_v52 : IVec S_ 1 := (fun x v => Host.reduce IntOp.andi x v reducesTo_S2x128x64_S_d0_1_2 h_S_) main_v51 main_c_19
  let main_v53 : IVec S_ 1 := andi main_v48 main_v52
  let main_v54 : FVec F S2x64 .f32 := Host.absf main_arg12
  let main_cst_20 : FVec F S_ .f32 := constant S_ .f32 0x7F800000#32
  let main_v55 : FVec F S2x64 .f32 := broadcastInDim S2x64 ![] bcast_S_S2x64 main_cst_20
  let main_v56 : IVec S2x64 1 := cmpf .olt main_v54 main_v55
  let main_c_21 : IVec S_ 1 := constantI S_ 1 1#1
  let main_v57 : IVec S_ 1 := (fun x v => Host.reduce IntOp.andi x v reducesTo_S2x64_S_d0_1 h_S_) main_v56 main_c_21
  let main_v58 : IVec S_ 1 := andi main_v53 main_v57
  let main_v59 : FVec F S2x64x64 .f32 := Host.absf main_arg13
  let main_cst_22 : FVec F S_ .f32 := constant S_ .f32 0x7F800000#32
  let main_v60 : FVec F S2x64x64 .f32 := broadcastInDim S2x64x64 ![] bcast_S_S2x64x64 main_cst_22
  let main_v61 : IVec S2x64x64 1 := cmpf .olt main_v59 main_v60
  let main_c_23 : IVec S_ 1 := constantI S_ 1 1#1
  let main_v62 : IVec S_ 1 := (fun x v => Host.reduce IntOp.andi x v reducesTo_S2x64x64_S_d0_1_2 h_S_) main_v61 main_c_23
  let main_v63 : IVec S_ 1 := andi main_v58 main_v62
  let main_v64 : FVec F S2x64 .f32 := Host.absf main_arg14
  let main_cst_24 : FVec F S_ .f32 := constant S_ .f32 0x7F800000#32
  let main_v65 : FVec F S2x64 .f32 := broadcastInDim S2x64 ![] bcast_S_S2x64 main_cst_24
  let main_v66 : IVec S2x64 1 := cmpf .olt main_v64 main_v65
  let main_c_25 : IVec S_ 1 := constantI S_ 1 1#1
  let main_v67 : IVec S_ 1 := (fun x v => Host.reduce IntOp.andi x v reducesTo_S2x64_S_d0_1 h_S_) main_v66 main_c_25
  fn_part4 (F := F) main_arg15 main_arg16 main_arg17 main_arg18 main_v63 main_v67

def fn_part2 {F : FTy → Type} [FloatOps F] (main_arg8 : FVec F S2x64 .f32) (main_arg9 : FVec F S2x64x64 .f32) (main_arg10 : FVec F S2x64 .f32) (main_arg11 : FVec F S2x128x64 .f32) (main_arg12 : FVec F S2x64 .f32) (main_arg13 : FVec F S2x64x64 .f32) (main_arg14 : FVec F S2x64 .f32) (main_arg15 : FVec F S64x64 .f32) (main_arg16 : FVec F S64 .f32) (main_arg17 : FVec F S64x1 .f32) (main_arg18 : FVec F S1 .f32) (main_v33 : IVec S_ 1) : IVec S_ 1 :=
  let main_v34 : FVec F S2x64 .f32 := Host.absf main_arg8
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2x64x64 .f32 := Host.absf main_arg9
  let main_cst_14 : FVec F S_ .f32 := constant S_ .f32 0x7F800000#32
  let main_v40 : FVec F S2x64x64 .f32 := broadcastInDim S2x64x64 ![] bcast_S_S2x64x64 main_cst_14
  let main_v41 : IVec S2x64x64 1 := cmpf .olt main_v39 main_v40
  let main_c_15 : IVec S_ 1 := constantI S_ 1 1#1
  let main_v42 : IVec S_ 1 := (fun x v => Host.reduce IntOp.andi x v reducesTo_S2x64x64_S_d0_1_2 h_S_) main_v41 main_c_15
  let main_v43 : IVec S_ 1 := andi main_v38 main_v42
  let main_v44 : FVec F S2x64 .f32 := Host.absf main_arg10
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  let main_v49 : FVec F S2x128x64 .f32 := Host.absf main_arg11
  let main_cst_18 : FVec F S_ .f32 := constant S_ .f32 0x7F800000#32
  let main_v50 : FVec F S2x128x64 .f32 := broadcastInDim S2x128x64 ![] bcast_S_S2x128x64 main_cst_18
  fn_part3 (F := F) main_arg12 main_arg13 main_arg14 main_arg15 main_arg16 main_arg17 main_arg18 main_v48 main_v49 main_v50

def fn_part1 {F : FTy → Type} [FloatOps F] (main_arg5 : FVec F S64x64 .f32) (main_arg6 : FVec F S64 .f32) (main_arg7 : FVec F S2x131x64 .f32) (main_arg8 : FVec F S2x64 .f32) (main_arg9 : FVec F S2x64x64 .f32) (main_arg10 : FVec F S2x64 .f32) (main_arg11 : FVec F S2x128x64 .f32) (main_arg12 : FVec F S2x64 .f32) (main_arg13 : FVec F S2x64x64 .f32) (main_arg14 : FVec F S2x64 .f32) (main_arg15 : FVec F S64x64 .f32) (main_arg16 : FVec F S64 .f32) (main_arg17 : FVec F S64x1 .f32) (main_arg18 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S2x131x64 .f32 := Host.absf main_arg7
  let main_cst_10 : FVec F S_ .f32 := constant S_ .f32 0x7F800000#32
  let main_v30 : FVec F S2x131x64 .f32 := broadcastInDim S2x131x64 ![] bcast_S_S2x131x64 main_cst_10
  let main_v31 : IVec S2x131x64 1 := cmpf .olt main_v29 main_v30
  let main_c_11 : IVec S_ 1 := constantI S_ 1 1#1
  let main_v32 : IVec S_ 1 := (fun x v => Host.reduce IntOp.andi x v reducesTo_S2x131x64_S_d0_1_2 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S50000x16 .f32) (main_arg1 : IVec S1600000x2 32) (main_arg2 : FVec F S1600000x3 .f32) (main_arg3 : FVec F S16x64 .f32) (main_arg4 : FVec F S64 .f32) (main_arg5 : FVec F S64x64 .f32) (main_arg6 : FVec F S64 .f32) (main_arg7 : FVec F S2x131x64 .f32) (main_arg8 : FVec F S2x64 .f32) (main_arg9 : FVec F S2x64x64 .f32) (main_arg10 : FVec F S2x64 .f32) (main_arg11 : FVec F S2x128x64 .f32) (main_arg12 : FVec F S2x64 .f32) (main_arg13 : FVec F S2x64x64 .f32) (main_arg14 : FVec F S2x64 .f32) (main_arg15 : FVec F S64x64 .f32) (main_arg16 : FVec F S64 .f32) (main_arg17 : FVec F S64x1 .f32) (main_arg18 : FVec F S1 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S1600000x3 .f32 := Host.absf main_arg2
  let main_cst_0 : FVec F S_ .f32 := constant S_ .f32 0x7F800000#32
  let main_v5 : FVec F S1600000x3 .f32 := broadcastInDim S1600000x3 ![] bcast_S_S1600000x3 main_cst_0
  let main_v6 : IVec S1600000x3 1 := cmpf .olt main_v4 main_v5
  let main_c_1 : IVec S_ 1 := constantI S_ 1 1#1
  let main_v7 : IVec S_ 1 := (fun x v => Host.reduce IntOp.andi x v reducesTo_S1600000x3_S_d0_1 h_S_) main_v6 main_c_1
  let main_v8 : IVec S_ 1 := andi main_v3 main_v7
  let main_v9 : FVec F S16x64 .f32 := Host.absf main_arg3
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S50000x16 : Shape := ⟨2, ![50000, 16]⟩
abbrev S1600000x2 : Shape := ⟨2, ![1600000, 2]⟩
abbrev S1600000x3 : Shape := ⟨2, ![1600000, 3]⟩
abbrev S16x64 : Shape := ⟨2, ![16, 64]⟩
abbrev S64 : Shape := ⟨1, ![64]⟩
abbrev S64x64 : Shape := ⟨2, ![64, 64]⟩
abbrev S2x131x64 : Shape := ⟨3, ![2, 131, 64]⟩
abbrev S2x64 : Shape := ⟨2, ![2, 64]⟩
abbrev S2x64x64 : Shape := ⟨3, ![2, 64, 64]⟩
abbrev S2x128x64 : Shape := ⟨3, ![2, 128, 64]⟩
abbrev S64x1 : Shape := ⟨2, ![64, 1]⟩
abbrev S1 : Shape := ⟨1, ![1]⟩
abbrev S1600000x1 : Shape := ⟨2, ![1600000, 1]⟩
abbrev S1600000 : Shape := ⟨1, ![1600000]⟩
abbrev S50000x64 : Shape := ⟨2, ![50000, 64]⟩
abbrev S5000x16 : Shape := ⟨2, ![5000, 16]⟩
abbrev S5000x64 : Shape := ⟨2, ![5000, 64]⟩
abbrev S1x64 : Shape := ⟨2, ![1, 64]⟩
abbrev S_ : Shape := ⟨0, ![]⟩
abbrev S1600000x64 : Shape := ⟨2, ![1600000, 64]⟩
abbrev S1x131x64 : Shape := ⟨3, ![1, 131, 64]⟩
abbrev S131x64 : Shape := ⟨2, ![131, 64]⟩
abbrev S3x64 : Shape := ⟨2, ![3, 64]⟩
abbrev S1x64x64 : Shape := ⟨3, ![1, 64, 64]⟩
abbrev S8000x64 : Shape := ⟨2, ![8000, 64]⟩
abbrev S8000x3 : Shape := ⟨2, ![8000, 3]⟩
abbrev S1x128x64 : Shape := ⟨3, ![1, 128, 64]⟩
abbrev S128x64 : Shape := ⟨2, ![128, 64]⟩
abbrev S50000x1 : Shape := ⟨2, ![50000, 1]⟩
abbrev S5000x1 : Shape := ⟨2, ![5000, 1]⟩
abbrev S1x1 : Shape := ⟨2, ![1, 1]⟩
abbrev S50000 : Shape := ⟨1, ![50000]⟩

abbrev nBuf : Space → Nat
  | .hbm => 131
  | .vmem => 66
  | .smem => 0
  | _ => 0

abbrev hbmTy0_0 (i : Nat) : BufTy := match i % 128 with
  | 0 => ⟨S50000x16, .f32⟩
  | 1 => ⟨S1600000x2, .i32⟩
  | 2 => ⟨S1600000x3, .f32⟩
  | 3 => ⟨S16x64, .f32⟩
  | 4 => ⟨S64, .f32⟩
  | 5 => ⟨S64x64, .f32⟩
  | 6 => ⟨S64, .f32⟩
  | 7 => ⟨S2x131x64, .f32⟩
  | 8 => ⟨S2x64, .f32⟩
  | 9 => ⟨S2x64x64, .f32⟩
  | 10 => ⟨S2x64, .f32⟩
  | 11 => ⟨S2x128x64, .f32⟩
  | 12 => ⟨S2x64, .f32⟩
  | 13 => ⟨S2x64x64, .f32⟩
  | 14 => ⟨S2x64, .f32⟩
  | 15 => ⟨S64x64, .f32⟩
  | 16 => ⟨S64, .f32⟩
  | 17 => ⟨S64x1, .f32⟩
  | 18 => ⟨S1, .f32⟩
  | 19 => ⟨S1600000x1, .i32⟩
  | 20 => ⟨S1600000, .i32⟩
  | 21 => ⟨S1600000x1, .i32⟩
  | 22 => ⟨S1600000, .i32⟩
  | 23 => ⟨S50000x64, .f32⟩
  | 24 => ⟨S1600000x3, .bf16⟩
  | 25 => ⟨S50000x64, .bf16⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x64, .bf16⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x64, .bf16⟩
  | 44 => ⟨S1x131x64, .f32⟩
  | 45 => ⟨S131x64, .f32⟩
  | 46 => ⟨S64x64, .f32⟩
  | 47 => ⟨S1x131x64, .f32⟩
  | 48 => ⟨S131x64, .f32⟩
  | 49 => ⟨S64x64, .f32⟩
  | 50 => ⟨S1x131x64, .f32⟩
  | 51 => ⟨S131x64, .f32⟩
  | 52 => ⟨S3x64, .f32⟩
  | 53 => ⟨S1x64, .f32⟩
  | 54 => ⟨S64, .f32⟩
  | 55 => ⟨S1x64x64, .f32⟩
  | 56 => ⟨S64x64, .f32⟩
  | 57 => ⟨S1x64, .f32⟩
  | 58 => ⟨S64, .f32⟩
  | 59 => ⟨S1600000x64, .f32⟩
  | 60 => ⟨S_, .f32⟩
  | 61 => ⟨S50000x64, .f32⟩
  | 62 => ⟨S1600000x1, .i32⟩
  | 63 => ⟨S50000x64, .f32⟩
  | 64 => ⟨S1x128x64, .f32⟩
  | 65 => ⟨S128x64, .f32⟩
  | 66 => ⟨S64x64, .f32⟩
  | 67 => ⟨S1x128x64, .f32⟩
  | 68 => ⟨S128x64, .f32⟩
  | 69 => ⟨S64x64, .f32⟩
  | 70 => ⟨S1x64, .f32⟩
  | 71 => ⟨S64, .f32⟩
  | 72 => ⟨S1x64x64, .f32⟩
  | 73 => ⟨S64x64, .f32⟩
  | 74 => ⟨S1x64, .f32⟩
  | 75 => ⟨S64, .f32⟩
  | 76 => ⟨S50000x64, .f32⟩
  | 77 => ⟨S50000x64, .bf16⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000x64, .bf16⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x64, .bf16⟩
  | 96 => ⟨S1x131x64, .f32⟩
  | 97 => ⟨S131x64, .f32⟩
  | 98 => ⟨S64x64, .f32⟩
  | 99 => ⟨S1x131x64, .f32⟩
  | 100 => ⟨S131x64, .f32⟩
  | 101 => ⟨S64x64, .f32⟩
  | 102 => ⟨S1x131x64, .f32⟩
  | 103 => ⟨S131x64, .f32⟩
  | 104 => ⟨S3x64, .f32⟩
  | 105 => ⟨S1x64, .f32⟩
  | 106 => ⟨S64, .f32⟩
  | 107 => ⟨S1x64x64, .f32⟩
  | 108 => ⟨S64x64, .f32⟩
  | 109 => ⟨S1x64, .f32⟩
  | 110 => ⟨S64, .f32⟩
  | 111 => ⟨S1600000x64, .f32⟩
  | 112 => ⟨S_, .f32⟩
  | 113 => ⟨S50000x64, .f32⟩
  | 114 => ⟨S1600000x1, .i32⟩
  | 115 => ⟨S50000x64, .f32⟩
  | 116 => ⟨S1x128x64, .f32⟩
  | 117 => ⟨S128x64, .f32⟩
  | 118 => ⟨S64x64, .f32⟩
  | 119 => ⟨S1x128x64, .f32⟩
  | 120 => ⟨S128x64, .f32⟩
  | 121 => ⟨S64x64, .f32⟩
  | 122 => ⟨S1x64, .f32⟩
  | 123 => ⟨S64, .f32⟩
  | 124 => ⟨S1x64x64, .f32⟩
  | 125 => ⟨S64x64, .f32⟩
  | 126 => ⟨S1x64, .f32⟩
  | 127 => ⟨S64, .f32⟩
  | _ => ⟨S50000x16, .f32⟩

abbrev hbmTy0_1 (i : Nat) : BufTy := match i % 128 with
  | 0 => ⟨S50000x64, .f32⟩
  | 1 => ⟨S50000x1, .f32⟩
  | 2 => ⟨S50000, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | .local _ .vmem, ⟨0, _⟩ => ⟨S5000x16, .f32⟩
  | .local _ .vmem, ⟨1, _⟩ => ⟨S5000x16, .f32⟩
  | .local _ .vmem, ⟨2, _⟩ => ⟨S16x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S5000x64, .f32⟩
  | .local _ .vmem, ⟨7, _⟩ => ⟨S5000x64, .f32⟩
  | .local _ .vmem, ⟨8, _⟩ => ⟨S8000x64, .bf16⟩
  | .local _ .vmem, ⟨9, _⟩ => ⟨S8000x64, .bf16⟩
  | .local _ .vmem, ⟨10, _⟩ => ⟨S8000x64, .bf16⟩
  | .local _ .vmem, ⟨11, _⟩ => ⟨S8000x64, .bf16⟩
  | .local _ .vmem, ⟨12, _⟩ => ⟨S8000x3, .bf16⟩
  | .local _ .vmem, ⟨13, _⟩ => ⟨S8000x3, .bf16⟩
  | .local _ .vmem, ⟨14, _⟩ => ⟨S64x64, .f32⟩
  | .local _ .vmem, ⟨15, _⟩ => ⟨S64x64, .f32⟩
  | .local _ .vmem, ⟨16, _⟩ => ⟨S3x64, .f32⟩
  | .local _ .vmem, ⟨17, _⟩ => ⟨S64, .f32⟩
  | .local _ .vmem, ⟨18, _⟩ => ⟨S64x64, .f32⟩
  | .local _ .vmem, ⟨19, _⟩ => ⟨S64, .f32⟩
  | .local _ .vmem, ⟨20, _⟩ => ⟨S8000x64, .f32⟩
  | .local _ .vmem, ⟨21, _⟩ => ⟨S8000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S64x64, .f32⟩
  | .local _ .vmem, ⟨28, _⟩ => ⟨S64, .f32⟩
  | .local _ .vmem, ⟨29, _⟩ => ⟨S64x64, .f32⟩
  | .local _ .vmem, ⟨30, _⟩ => ⟨S64, .f32⟩
  | .local _ .vmem, ⟨31, _⟩ => ⟨S5000x64, .f32⟩
  | .local _ .vmem, ⟨32, _⟩ => ⟨S5000x64, .f32⟩
  | .local _ .vmem, ⟨33, _⟩ => ⟨S8000x64, .bf16⟩
  | .local _ .vmem, ⟨34, _⟩ => ⟨S8000x64, .bf16⟩
  | .local _ .vmem, ⟨35, _⟩ => ⟨S8000x64, .bf16⟩
  | .local _ .vmem, ⟨36, _⟩ => ⟨S8000x64, .bf16⟩
  | .local _ .vmem, ⟨37, _⟩ => ⟨S8000x3, .bf16⟩
  | .local _ .vmem, ⟨38, _⟩ => ⟨S8000x3, .bf16⟩
  | .local _ .vmem, ⟨39, _⟩ => ⟨S64x64, .f32⟩
  | .local _ .vmem, ⟨40, _⟩ => ⟨S64x64, .f32⟩
  | .local _ .vmem, ⟨41, _⟩ => ⟨S3x64, .f32⟩
  | .local _ .vmem, ⟨42, _⟩ => ⟨S64, .f32⟩
  | .local _ .vmem, ⟨43, _⟩ => ⟨S64x64, .f32⟩
  | .local _ .vmem, ⟨44, _⟩ => ⟨S64, .f32⟩
  | .local _ .vmem, ⟨45, _⟩ => ⟨S8000x64, .f32⟩
  | .local _ .vmem, ⟨46, _⟩ => ⟨S8000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S64x64, .f32⟩
  | .local _ .vmem, ⟨52, _⟩ => ⟨S64x64, .f32⟩
  | .local _ .vmem, ⟨53, _⟩ => ⟨S64, .f32⟩
  | .local _ .vmem, ⟨54, _⟩ => ⟨S64x64, .f32⟩
  | .local _ .vmem, ⟨55, _⟩ => ⟨S64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S5000x64, .f32⟩
  | .local _ .vmem, ⟨60, _⟩ => ⟨S64x64, .f32⟩
  | .local _ .vmem, ⟨61, _⟩ => ⟨S64, .f32⟩
  | .local _ .vmem, ⟨62, _⟩ => ⟨S64x1, .f32⟩
  | .local _ .vmem, ⟨63, _⟩ => ⟨S1, .f32⟩
  | .local _ .vmem, ⟨64, _⟩ => ⟨S5000x1, .f32⟩
  | .local _ .vmem, ⟨65, _⟩ => ⟨S5000x1, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c : Ref sig .tc := ⟨.hbm, 26, rfl⟩
abbrev main_v7 : Ref sig .tc := ⟨.hbm, 27, rfl⟩
abbrev main_v8 : Ref sig .tc := ⟨.hbm, 28, rfl⟩
abbrev main_c_0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_1 : Ref sig .tc := ⟨.hbm, 35, rfl⟩
abbrev main_v14 : Ref sig .tc := ⟨.hbm, 36, rfl⟩
abbrev main_v15 : Ref sig .tc := ⟨.hbm, 37, rfl⟩
abbrev main_c_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_3 : Ref sig .tc := ⟨.hbm, 78, rfl⟩
abbrev main_v54 : Ref sig .tc := ⟨.hbm, 79, rfl⟩
abbrev main_v55 : Ref sig .tc := ⟨.hbm, 80, rfl⟩
abbrev main_c_4 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_5 : Ref sig .tc := ⟨.hbm, 87, rfl⟩
abbrev main_v61 : Ref sig .tc := ⟨.hbm, 88, rfl⟩
abbrev main_v62 : Ref sig .tc := ⟨.hbm, 89, rfl⟩
abbrev main_c_6 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_7 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg7_0 : Ref sig .tc := ⟨.vmem, 43, rfl⟩
abbrev cc3_stg8_0 : Ref sig .tc := ⟨.vmem, 44, rfl⟩
abbrev cc3_stg9_0 : Ref sig .tc := ⟨.vmem, 45, rfl⟩
abbrev cc3_stg9_1 : Ref sig .tc := ⟨.vmem, 46, rfl⟩
abbrev cc4_stg0_0 : Ref sig .tc := ⟨.vmem, 47, rfl⟩
abbrev cc4_stg0_1 : Ref sig .tc := ⟨.vmem, 48, rfl⟩
abbrev cc4_stg1_0 : Ref sig .tc := ⟨.vmem, 49, rfl⟩
abbrev cc4_stg1_1 : Ref sig .tc := ⟨.vmem, 50, rfl⟩
abbrev cc4_stg2_0 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg6_0 : Ref sig .tc := ⟨.vmem, 55, rfl⟩
abbrev cc4_stg7_0 : Ref sig .tc := ⟨.vmem, 56, rfl⟩
abbrev cc4_stg7_1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg2_0 : Ref sig .tc := ⟨.vmem, 61, rfl⟩
abbrev cc5_stg3_0 : Ref sig .tc := ⟨.vmem, 62, rfl⟩
abbrev cc5_stg4_0 : Ref sig .tc := ⟨.vmem, 63, rfl⟩
abbrev cc5_stg5_0 : Ref sig .tc := ⟨.vmem, 64, rfl⟩
abbrev cc5_stg5_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem7_0 : DmaSem sig := 43
abbrev cc3_sem8_0 : DmaSem sig := 44
abbrev cc3_sem9_0 : DmaSem sig := 45
abbrev cc3_sem9_1 : DmaSem sig := 46
abbrev cc4_sem0_0 : DmaSem sig := 47
abbrev cc4_sem0_1 : DmaSem sig := 48
abbrev cc4_sem1_0 : DmaSem sig := 49
abbrev cc4_sem1_1 : DmaSem sig := 50
abbrev cc4_sem2_0 : DmaSem sig := 51
abbrev cc4_sem3_0 : DmaSem sig := 52
abbrev cc4_sem4_0 : DmaSem sig := 53
abbrev cc4_sem5_0 : DmaSem sig := 54
abbrev cc4_sem6_0 : DmaSem sig := 55
abbrev cc4_sem7_0 : DmaSem sig := 56
abbrev cc4_sem7_1 : DmaSem sig := 57
abbrev cc5_sem0_0 : DmaSem sig := 58
abbrev cc5_sem0_1 : DmaSem sig := 59
abbrev cc5_sem1_0 : DmaSem sig := 60
abbrev cc5_sem2_0 : DmaSem sig := 61
abbrev cc5_sem3_0 : DmaSem sig := 62
abbrev cc5_sem4_0 : DmaSem sig := 63
abbrev cc5_sem5_0 : DmaSem sig := 64
abbrev cc5_sem5_1 : DmaSem sig := 65

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x3 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S8000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x3 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S3x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S8000x64 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x1 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S1600000x2_S1600000x1_0_0 : S1600000x2.Slices ![0, 0] S1600000x1
  shapeCasts_S1600000x1_S1600000 : S1600000x1.ShapeCasts S1600000
  slices_S1600000x2_S1600000x1_0_1 : S1600000x2.Slices ![0, 1] S1600000x1
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x131x64_S1x131x64_0_0_0 : S2x131x64.Slices ![0, 0, 0] S1x131x64
  shapeCasts_S1x131x64_S131x64 : S1x131x64.ShapeCasts S131x64
  slices_S131x64_S64x64_0_0 : S131x64.Slices ![0, 0] S64x64
  slices_S131x64_S64x64_64_0 : S131x64.Slices ![64, 0] S64x64
  slices_S131x64_S3x64_128_0 : S131x64.Slices ![128, 0] S3x64
  slices_S2x64_S1x64_0_0 : S2x64.Slices ![0, 0] S1x64
  shapeCasts_S1x64_S64 : S1x64.ShapeCasts S64
  slices_S2x64x64_S1x64x64_0_0_0 : S2x64x64.Slices ![0, 0, 0] S1x64x64
  shapeCasts_S1x64x64_S64x64 : S1x64x64.ShapeCasts S64x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x3_S8000x3_0_0 : ∀ a, (![0, 0] : Fin 2 → Nat) a + S8000x3.size a ≤ S8000x3.size a
  h_S8000x3 : 0 < S8000x3.numel
  shapeCasts_S8000x3_S8000x3 : S8000x3.ShapeCasts S8000x3
  shapeCasts_S64x64_S64x64 : S64x64.ShapeCasts S64x64
  inb_S3x64_S3x64_0_0 : ∀ a, (![0, 0] : Fin 2 → Nat) a + S3x64.size a ≤ S3x64.size a
  h_S3x64 : 0 < S3x64.numel
  shapeCasts_S3x64_S3x64 : S3x64.ShapeCasts S3x64
  shapeCasts_S64_S64 : S64.ShapeCasts S64
  broadcasts_S1x64_S8000x64 : S1x64.Broadcasts S8000x64
  bcast_S_S50000x64 : S_.BroadcastsInDim S50000x64 (![] : Fin 0 → Fin S50000x64.rank)
  slices_S2x128x64_S1x128x64_0_0_0 : S2x128x64.Slices ![0, 0, 0] S1x128x64
  shapeCasts_S1x128x64_S128x64 : S1x128x64.ShapeCasts S128x64
  slices_S128x64_S64x64_0_0 : S128x64.Slices ![0, 0] S64x64
  slices_S128x64_S64x64_64_0 : S128x64.Slices ![64, 0] S64x64
  shapeCasts_S5000x64_S5000x64 : S5000x64.ShapeCasts S5000x64
  slices_S2x131x64_S1x131x64_1_0_0 : S2x131x64.Slices ![1, 0, 0] S1x131x64
  slices_S2x64_S1x64_1_0 : S2x64.Slices ![1, 0] S1x64
  slices_S2x64x64_S1x64x64_1_0_0 : S2x64x64.Slices ![1, 0, 0] S1x64x64
  slices_S2x128x64_S1x128x64_1_0_0 : S2x128x64.Slices ![1, 0, 0] S1x128x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S50000x1_S50000 : S50000x1.ShapeCasts S50000
  dot_S5000x16_S16x64_S5000x64_1_0_0_1_n_n_wf : DotDims.WF S5000x16 S16x64 S5000x64 [1] [0] [0] [1] [] []
  dot_S5000x64_S64x64_S5000x64_1_0_0_1_n_n_wf : DotDims.WF S5000x64 S64x64 S5000x64 [1] [0] [0] [1] [] []
  gather_S50000x64_S1600000x1_S1600000x64_1_0_n_n_0_1_164_wf : GatherDims.WF S50000x64 S1600000x1 S1600000x64 [1] [0] [] [0] [] 1 ![1, 64]
  dot_S8000x64_S64x64_S8000x64_1_0_0_1_n_n_wf : DotDims.WF S8000x64 S64x64 S8000x64 [1] [0] [0] [1] [] []
  dot_S8000x3_S3x64_S8000x64_1_0_0_1_n_n_wf : DotDims.WF S8000x3 S3x64 S8000x64 [1] [0] [0] [1] [] []
  scatter_S50000x64_S1600000x1_S1600000x64_1_0_0_1_wf : ScatterDims.WF S50000x64 S1600000x1 S1600000x64 [1] [0] [0] 1
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S50000x16.size a
  hwx0_0 : ∀ i : grid0.Coords, EltTy.bits .f32 = 32 ∨ (Rect.block (s := S50000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1600000x64.size a
  hwx1_0 : ∀ i : grid1.Coords, EltTy.bits .bf16 = 32 ∨ (Rect.block (s := S1600000x64) S8000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S1600000x64.size a
  hwx1_1 : ∀ i : grid1.Coords, EltTy.bits .bf16 = 32 ∨ (Rect.block (s := S1600000x64) S8000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x3.size a ≤ S1600000x3.size a
  hwx1_2 : ∀ i : grid1.Coords, EltTy.bits .bf16 = 32 ∨ (Rect.block (s := S1600000x3) S8000x3.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x64.size a ≤ S3x64.size a
  hwx1_5 : ∀ i : grid1.Coords, EltTy.bits .f32 = 32 ∨ (Rect.block (s := S3x64) S3x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8000x64.size a ≤ S1600000x64.size a
  hwx1_9 : ∀ i : grid1.Coords, EltTy.bits .f32 = 32 ∨ (Rect.block (s := S1600000x64) S8000x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S50000x64.size a
  hwx2_7 : ∀ i : grid2.Coords, EltTy.bits .f32 = 32 ∨ (Rect.block (s := S50000x64) S5000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S1600000x64.size a
  hwx3_0 : ∀ i : grid3.Coords, EltTy.bits .bf16 = 32 ∨ (Rect.block (s := S1600000x64) S8000x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x64.size a ≤ S1600000x64.size a
  hwx3_1 : ∀ i : grid3.Coords, EltTy.bits .bf16 = 32 ∨ (Rect.block (s := S1600000x64) S8000x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x3.size a ≤ S1600000x3.size a
  hwx3_2 : ∀ i : grid3.Coords, EltTy.bits .bf16 = 32 ∨ (Rect.block (s := S1600000x3) S8000x3.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S3x64.size a ≤ S3x64.size a
  hwx3_5 : ∀ i : grid3.Coords, EltTy.bits .f32 = 32 ∨ (Rect.block (s := S3x64) S3x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64.size a ≤ S64.size a
  hwx3_6 : ∀ i : grid3.Coords, EltTy.bits .f32 = 32 ∨ (Rect.block (s := S64) S64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x64.size a ≤ S64x64.size a
  hwx3_7 : ∀ i : grid3.Coords, EltTy.bits .f32 = 32 ∨ (Rect.block (s := S64x64) S64x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64.size a ≤ S64.size a
  hwx3_8 : ∀ i : grid3.Coords, EltTy.bits .f32 = 32 ∨ (Rect.block (s := S64) S64.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S8000x64.size a ≤ S1600000x64.size a
  hwx3_9 : ∀ i : grid3.Coords, EltTy.bits .f32 = 32 ∨ (Rect.block (s := S1600000x64) S8000x64.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64.size a ≤ S64.size a
  hwx4_4 : ∀ i : grid4.Coords, EltTy.bits .f32 = 32 ∨ (Rect.block (s := S64) S64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64.size a ≤ S64.size a
  hwx4_6 : ∀ i : grid4.Coords, EltTy.bits .f32 = 32 ∨ (Rect.block (s := S64) S64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x64.size a ≤ S50000x64.size a
  hwx4_7 : ∀ i : grid4.Coords, EltTy.bits .f32 = 32 ∨ (Rect.block (s := S50000x64) S5000x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64.size a ≤ S64.size a
  hwx5_2 : ∀ i : grid5.Coords, EltTy.bits .f32 = 32 ∨ (Rect.block (s := S64) S64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x1.size a ≤ S64x1.size a
  hwx5_3 : ∀ i : grid5.Coords, EltTy.bits .f32 = 32 ∨ (Rect.block (s := S64x1) S64x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1.size a ≤ S1.size a
  hwx5_4 : ∀ i : grid5.Coords, EltTy.bits .f32 = 32 ∨ (Rect.block (s := S1) S1.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x1.size a ≤ S50000x1.size a
  hwx5_5 : ∀ i : grid5.Coords, EltTy.bits .f32 = 32 ∨ (Rect.block (s := S50000x1) S5000x1.size (cc5_transform_5 i) (hinb5_5 i)).WholeWords (EltTy.packing .f32)

variable [Facts₀]

def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x3_S3x64_S8000x64_1_0_0_1_n_n : DotDims S8000x3 S3x64 S8000x64 where
  lhsContracting := [1]
  rhsContracting := [0]
  lhsNonContracting := [0]
  rhsNonContracting := [1]
  lhsBatch := []
  rhsBatch := []
  wf := dot_S8000x3_S3x64_S8000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v13) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S8000x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S3x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v35) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v36) S8000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v4) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v51) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v52) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v60) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S8000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S8000x3.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v70) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v73) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v76) S3x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v78) S64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v80) S64x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v82) S64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v83) S8000x64.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v52) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v86) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v89) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v92) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v94) S64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v96) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v98) S64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v99) S5000x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v99) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg15) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg16) S64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg17) S64x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg18) S1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v100) S5000x1.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x16 : Shape := ⟨2, ![50000, 16]⟩
abbrev S1600000x2 : Shape := ⟨2, ![1600000, 2]⟩
abbrev S1600000x3 : Shape := ⟨2, ![1600000, 3]⟩
abbrev S16x64 : Shape := ⟨2, ![16, 64]⟩
abbrev S64 : Shape := ⟨1, ![64]⟩
abbrev S64x64 : Shape := ⟨2, ![64, 64]⟩
abbrev S2x131x64 : Shape := ⟨3, ![2, 131, 64]⟩
abbrev S2x64 : Shape := ⟨2, ![2, 64]⟩
abbrev S2x64x64 : Shape := ⟨3, ![2, 64, 64]⟩
abbrev S2x128x64 : Shape := ⟨3, ![2, 128, 64]⟩
abbrev S64x1 : Shape := ⟨2, ![64, 1]⟩
abbrev S1 : Shape := ⟨1, ![1]⟩
abbrev S50000x64 : Shape := ⟨2, ![50000, 64]⟩
abbrev S1x64 : Shape := ⟨2, ![1, 64]⟩
abbrev S_ : Shape := ⟨0, ![]⟩
abbrev S1600000x1 : Shape := ⟨2, ![1600000, 1]⟩
abbrev S1600000 : Shape := ⟨1, ![1600000]⟩
abbrev S1600000x64 : Shape := ⟨2, ![1600000, 64]⟩
abbrev S1600000x131 : Shape := ⟨2, ![1600000, 131]⟩
abbrev S1x131x64 : Shape := ⟨3, ![1, 131, 64]⟩
abbrev S131x64 : Shape := ⟨2, ![131, 64]⟩
abbrev S1x64x64 : Shape := ⟨3, ![1, 64, 64]⟩
abbrev S50000x128 : Shape := ⟨2, ![50000, 128]⟩
abbrev S1x128x64 : Shape := ⟨3, ![1, 128, 64]⟩
abbrev S128x64 : Shape := ⟨2, ![128, 64]⟩
abbrev S50000x1 : Shape := ⟨2, ![50000, 1]⟩
abbrev S1x1 : Shape := ⟨2, ![1, 1]⟩
abbrev S50000 : Shape := ⟨1, ![50000]⟩

abbrev nBuf : Space → Nat
  | .hbm => 172
  | .vmem => 0
  | .smem => 0
  | _ => 0

abbrev hbmTy0_0 (i : Nat) : BufTy := match i % 128 with
  | 0 => ⟨S50000x16, .f32⟩
  | 1 => ⟨S1600000x2, .i32⟩
  | 2 => ⟨S1600000x3, .f32⟩
  | 3 => ⟨S16x64, .f32⟩
  | 4 => ⟨S64, .f32⟩
  | 5 => ⟨S64x64, .f32⟩
  | 6 => ⟨S64, .f32⟩
  | 7 => ⟨S2x131x64, .f32⟩
  | 8 => ⟨S2x64, .f32⟩
  | 9 => ⟨S2x64x64, .f32⟩
  | 10 => ⟨S2x64, .f32⟩
  | 11 => ⟨S2x128x64, .f32⟩
  | 12 => ⟨S2x64, .f32⟩
  | 13 => ⟨S2x64x64, .f32⟩
  | 14 => ⟨S2x64, .f32⟩
  | 15 => ⟨S64x64, .f32⟩
  | 16 => ⟨S64, .f32⟩
  | 17 => ⟨S64x1, .f32⟩
  | 18 => ⟨S1, .f32⟩
  | 19 => ⟨S50000x64, .f32⟩
  | 20 => ⟨S1x64, .f32⟩
  | 21 => ⟨S50000x64, .f32⟩
  | 22 => ⟨S50000x64, .f32⟩
  | 23 => ⟨S_, .f32⟩
  | 24 => ⟨S50000x64, .f32⟩
  | 25 => ⟨S50000x64, .f32⟩
  | 26 => ⟨S50000x64, .f32⟩
  | 27 => ⟨S1x64, .f32⟩
  | 28 => ⟨S50000x64, .f32⟩
  | 29 => ⟨S50000x64, .f32⟩
  | 30 => ⟨S1600000x1, .i32⟩
  | 31 => ⟨S1600000, .i32⟩
  | 32 => ⟨S1600000x1, .i32⟩
  | 33 => ⟨S1600000, .i32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x64, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x64, .f32⟩
  | 52 => ⟨S1600000x131, .f32⟩
  | 53 => ⟨S1x131x64, .f32⟩
  | 54 => ⟨S131x64, .f32⟩
  | 55 => ⟨S1x64, .f32⟩
  | 56 => ⟨S64, .f32⟩
  | 57 => ⟨S1x64x64, .f32⟩
  | 58 => ⟨S64x64, .f32⟩
  | 59 => ⟨S1x64, .f32⟩
  | 60 => ⟨S64, .f32⟩
  | 61 => ⟨S1600000x64, .f32⟩
  | 62 => ⟨S1x64, .f32⟩
  | 63 => ⟨S1600000x64, .f32⟩
  | 64 => ⟨S1600000x64, .f32⟩
  | 65 => ⟨S_, .f32⟩
  | 66 => ⟨S1600000x64, .f32⟩
  | 67 => ⟨S1600000x64, .f32⟩
  | 68 => ⟨S1600000x64, .f32⟩
  | 69 => ⟨S1x64, .f32⟩
  | 70 => ⟨S1600000x64, .f32⟩
  | 71 => ⟨S1600000x64, .f32⟩
  | 72 => ⟨S_, .f32⟩
  | 73 => ⟨S50000x64, .f32⟩
  | 74 => ⟨S1600000x1, .i32⟩
  | 75 => ⟨S50000x64, .f32⟩
  | 76 => ⟨S50000x128, .f32⟩
  | 77 => ⟨S1x128x64, .f32⟩
  | 78 => ⟨S128x64, .f32⟩
  | 79 => ⟨S1x64, .f32⟩
  | 80 => ⟨S64, .f32⟩
  | 81 => ⟨S1x64x64, .f32⟩
  | 82 => ⟨S64x64, .f32⟩
  | 83 => ⟨S1x64, .f32⟩
  | 84 => ⟨S64, .f32⟩
  | 85 => ⟨S50000x64, .f32⟩
  | 86 => ⟨S1x64, .f32⟩
  | 87 => ⟨S50000x64, .f32⟩
  | 88 => ⟨S50000x64, .f32⟩
  | 89 => ⟨S_, .f32⟩
  | 90 => ⟨S50000x64, .f32⟩
  | 91 => ⟨S50000x64, .f32⟩
  | 92 => ⟨S50000x64, .f32⟩
  | 93 => ⟨S1x64, .f32⟩
  | 94 => ⟨S50000x64, .f32⟩
  | 95 => ⟨S50000x64, .f32⟩
  | 96 => ⟨S50000x64, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x64, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x64, .f32⟩
  | 115 => ⟨S1600000x131, .f32⟩
  | 116 => ⟨S1x131x64, .f32⟩
  | 117 => ⟨S131x64, .f32⟩
  | 118 => ⟨S1x64, .f32⟩
  | 119 => ⟨S64, .f32⟩
  | 120 => ⟨S1x64x64, .f32⟩
  | 121 => ⟨S64x64, .f32⟩
  | 122 => ⟨S1x64, .f32⟩
  | 123 => ⟨S64, .f32⟩
  | 124 => ⟨S1600000x64, .f32⟩
  | 125 => ⟨S1x64, .f32⟩
  | 126 => ⟨S1600000x64, .f32⟩
  | 127 => ⟨S1600000x64, .f32⟩
  | _ => ⟨S50000x16, .f32⟩

abbrev hbmTy0_1 (i : Nat) : BufTy := match i % 128 with
  | 0 => ⟨S_, .f32⟩
  | 1 => ⟨S1600000x64, .f32⟩
  | 2 => ⟨S1600000x64, .f32⟩
  | 3 => ⟨S1600000x64, .f32⟩
  | 4 => ⟨S1x64, .f32⟩
  | 5 => ⟨S1600000x64, .f32⟩
  | 6 => ⟨S1600000x64, .f32⟩
  | 7 => ⟨S_, .f32⟩
  | 8 => ⟨S50000x64, .f32⟩
  | 9 => ⟨S1600000x1, .i32⟩
  | 10 => ⟨S50000x64, .f32⟩
  | 11 => ⟨S50000x128, .f32⟩
  | 12 => ⟨S1x128x64, .f32⟩
  | 13 => ⟨S128x64, .f32⟩
  | 14 => ⟨S1x64, .f32⟩
  | 15 => ⟨S64, .f32⟩
  | 16 => ⟨S1x64x64, .f32⟩
  | 17 => ⟨S64x64, .f32⟩
  | 18 => ⟨S1x64, .f32⟩
  | 19 => ⟨S64, .f32⟩
  | 20 => ⟨S50000x64, .f32⟩
  | 21 => ⟨S1x64, .f32⟩
  | 22 => ⟨S50000x64, .f32⟩
  | 23 => ⟨S50000x64, .f32⟩
  | 24 => ⟨S_, .f32⟩
  | 25 => ⟨S50000x64, .f32⟩
  | 26 => ⟨S50000x64, .f32⟩
  | 27 => ⟨S50000x64, .f32⟩
  | 28 => ⟨S1x64, .f32⟩
  | 29 => ⟨S50000x64, .f32⟩
  | 30 => ⟨S50000x64, .f32⟩
  | 31 => ⟨S50000x64, .f32⟩
  | 32 => ⟨S50000x64, .f32⟩
  | 33 => ⟨S1x64, .f32⟩
  | 34 => ⟨S50000x64, .f32⟩
  | 35 => ⟨S50000x64, .f32⟩
  | 36 => ⟨S_, .f32⟩
  | 37 => ⟨S50000x64, .f32⟩
  | 38 => ⟨S50000x64, .f32⟩
  | 39 => ⟨S50000x1, .f32⟩
  | 40 => ⟨S1x1, .f32⟩
  | 41 => ⟨S50000x1, .f32⟩
  | 42 => ⟨S50000x1, .f32⟩
  | 43 => ⟨S50000, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c : Ref sig .tc := ⟨.hbm, 34, rfl⟩
abbrev main_v14 : Ref sig .tc := ⟨.hbm, 35, rfl⟩
abbrev main_v15 : Ref sig .tc := ⟨.hbm, 36, rfl⟩
abbrev main_c_0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_1 : Ref sig .tc := ⟨.hbm, 43, rfl⟩
abbrev main_v21 : Ref sig .tc := ⟨.hbm, 44, rfl⟩
abbrev main_v22 : Ref sig .tc := ⟨.hbm, 45, rfl⟩
abbrev main_c_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_3 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_4 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_5 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_6 : Ref sig .tc := ⟨.hbm, 97, rfl⟩
abbrev main_v70 : Ref sig .tc := ⟨.hbm, 98, rfl⟩
abbrev main_v71 : Ref sig .tc := ⟨.hbm, 99, rfl⟩
abbrev main_c_7 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_8 : Ref sig .tc := ⟨.hbm, 106, rfl⟩
abbrev main_v77 : Ref sig .tc := ⟨.hbm, 107, rfl⟩
abbrev main_v78 : Ref sig .tc := ⟨.hbm, 108, rfl⟩
abbrev main_c_9 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_10 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_11 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_12 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_cst_13 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S1600000x2_S1600000x1_0_0 : S1600000x2.Slices ![0, 0] S1600000x1
  shapeCasts_S1600000x1_S1600000 : S1600000x1.ShapeCasts S1600000
  slices_S1600000x2_S1600000x1_0_1 : S1600000x2.Slices ![0, 1] S1600000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x3_S1600000x131_d1 : Shape.Concatenates [S1600000x64, S1600000x64, S1600000x3] S1600000x131 1
  slices_S2x131x64_S1x131x64_0_0_0 : S2x131x64.Slices ![0, 0, 0] S1x131x64
  shapeCasts_S1x131x64_S131x64 : S1x131x64.ShapeCasts S131x64
  slices_S2x64_S1x64_0_0 : S2x64.Slices ![0, 0] S1x64
  shapeCasts_S1x64_S64 : S1x64.ShapeCasts S64
  slices_S2x64x64_S1x64x64_0_0_0 : S2x64x64.Slices ![0, 0, 0] S1x64x64
  shapeCasts_S1x64x64_S64x64 : S1x64x64.ShapeCasts S64x64
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  concatenates_S50000x64_S50000x64_S50000x128_d1 : Shape.Concatenates [S50000x64, S50000x64] S50000x128 1
  slices_S2x128x64_S1x128x64_0_0_0 : S2x128x64.Slices ![0, 0, 0] S1x128x64
  shapeCasts_S1x128x64_S128x64 : S1x128x64.ShapeCasts S128x64
  slices_S2x131x64_S1x131x64_1_0_0 : S2x131x64.Slices ![1, 0, 0] S1x131x64
  slices_S2x64_S1x64_1_0 : S2x64.Slices ![1, 0] S1x64
  slices_S2x64x64_S1x64x64_1_0_0 : S2x64x64.Slices ![1, 0, 0] S1x64x64
  slices_S2x128x64_S1x128x64_1_0_0 : S2x128x64.Slices ![1, 0, 0] S1x128x64
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  dot_S50000x16_S16x64_S50000x64_1_0_0_1_n_n_wf : DotDims.WF S50000x16 S16x64 S50000x64 [1] [0] [0] [1] [] []
  dot_S50000x64_S64x64_S50000x64_1_0_0_1_n_n_wf : DotDims.WF S50000x64 S64x64 S50000x64 [1] [0] [0] [1] [] []
  gather_S50000x64_S1600000x1_S1600000x64_1_0_n_n_0_1_164_wf : GatherDims.WF S50000x64 S1600000x1 S1600000x64 [1] [0] [] [0] [] 1 ![1, 64]
  dot_S1600000x131_S131x64_S1600000x64_1_0_0_1_n_n_wf : DotDims.WF S1600000x131 S131x64 S1600000x64 [1] [0] [0] [1] [] []
  dot_S1600000x64_S64x64_S1600000x64_1_0_0_1_n_n_wf : DotDims.WF S1600000x64 S64x64 S1600000x64 [1] [0] [0] [1] [] []
  scatter_S50000x64_S1600000x1_S1600000x64_1_0_0_1_wf : ScatterDims.WF S50000x64 S1600000x1 S1600000x64 [1] [0] [0] 1
  dot_S50000x128_S128x64_S50000x64_1_0_0_1_n_n_wf : DotDims.WF S50000x128 S128x64 S50000x64 [1] [0] [0] [1] [] []
  dot_S50000x64_S64x1_S50000x1_1_0_0_1_n_n_wf : DotDims.WF S50000x64 S64x1 S50000x1 [1] [0] [0] [1] [] []

variable [Facts₀]

def dot_S50000x16_S16x64_S50000x64_1_0_0_1_n_n : DotDims S50000x16 S16x64 S50000x64 where
  lhsContracting := [1]
  rhsContracting := [0]
  lhsNonContracting := [0]
  rhsNonContracting := [1]
  lhsBatch := []
  rhsBatch := []
  wf := dot_S50000x16_S16x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S1600000x131_S131x64_S1600000x64_1_0_0_1_n_n : DotDims S1600000x131 S131x64 S1600000x64 where
  lhsContracting := [1]
  rhsContracting := [0]
  lhsNonContracting := [0]
  rhsNonContracting := [1]
  lhsBatch := []
  rhsBatch := []
  wf := dot_S1600000x131_S131x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.LibStretch.lean ====
/-
  Reading a program's host operations stretch by stretch.  The buffer contents after a list of host operations is a fold
  of the operations over the contents the list is entered with; over two stretches run one after the other it is the
  second stretch's fold over the first's (`after_append`).  So a long host program is read one short stretch at a time,
  each stretch over ANY contents V: which buffers it leaves as they were (`unwritten`), and what it writes into the
  buffers a later stretch reads, as the operations' term of what it finds (`read_stretch`).  Short stretches matter where
  operations carry casts between a buffer's recorded type and its literal type (the operations of an outlined function):
  many of them nested under one comparison are costly, two or three are not.
-/
import Idealize.ShloMosaic.Lib.StableHlo.Run

namespace Cert.Stretch

open Idealize.ShloMosaic Idealize.ShloMosaic.StableHlo

/-- The contents after two stretches run one after the other: the second stretch's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

end Cert.Stretch

/-- `unwritten ops` closes `after ops V b = V b` for a literal stretch `ops` (named by an identifier that unfolds to the
    list) and a literal buffer `b` none of its operations writes: each operation's written buffer is another reference. -/
macro "unwritten" ops:ident : tactic =>
  `(tactic| exact Idealize.ShloMosaic.StableHlo.after_of_forall_not_mem _ _ (List.forall_iff_forall_mem.mp (by
      simp only [$ops:ident, List.Forall, Idealize.ShloMosaic.StableHlo.nullary_writes, Idealize.ShloMosaic.StableHlo.unary_writes, Idealize.ShloMosaic.StableHlo.binary_writes, Idealize.ShloMosaic.StableHlo.ternary_writes, Idealize.ShloMosaic.StableHlo.quaternary_writes, Idealize.ShloMosaic.StableHlo.reshape_writes, Idealize.ShloMosaic.StableHlo.binaryIndexed_writes, Finset.mem_singleton]
      repeat' apply And.intro
      all_goals exact Idealize.ShloMosaic.StableHlo.devRef_ne_of_ne (by decide))))

/-- `read_stretch` closes `after ops V b = t` for a literal stretch and a buffer it writes, `t` the operations' term over
    `V` at the buffers the stretch reads: every operation's result at its own buffer is its function's value, at any other
    buffer what was there (one pass over the stretch); what is left is the same term on both sides. -/
macro "read_stretch" : tactic =>
  `(tactic| ((open Idealize.ShloMosaic.StableHlo in after_results_simp) <;> rfl))

/-- The same, one rewrite per operation: for a stretch of a few operations. -/
macro "read_stretch_small" : tactic =>
  `(tactic| ((open Idealize.ShloMosaic.StableHlo in after_results) <;> rfl))
-- ==== Proof.LibNary3.lean ====
/- The result of an n-ary host operation over a LITERAL family of three references (a concatenate of three
   operands): each operand's contents at its own reference, so that the operands' contents can be rewritten further. -/
import Idealize.ShloMosaic.Lib.StableHlo.Run

noncomputable section

namespace Cert.ReferenceIdeal.RefRun

open Idealize.ShloMosaic Idealize.ShloMosaic.StableHlo

variable {τ : Topo} {sig : RefSig} {Val : EltTy → Type} {x a b y : Ref sig .tc}

/-- `nary` over the literal family `![x, a, b]`: the result buffer holds `f` of the three operands' contents, each read
    at its own reference (`Fin.cons` at the literals `0, 1, 2` in place of `fun k => F ↑(![x, a, b] k)`). -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, for rewriting. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The fold of a literal line at a reference, in one rewriting pass: each operation's result at its own result buffer is
    its function's value, at any other reference what was there (the references' inequalities decided); a three-operand
    `nary` reads each operand at its own reference. -/
macro "after_results_simp3" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne']))

end Cert.ReferenceIdeal.RefRun

end
-- ==== Proof.LibNary2.lean ====
/- The result of an n-ary host operation over a LITERAL family of two references (a concatenate of two operands): each
   operand's contents at its own reference, so that the operands' contents can be rewritten further; and the one-pass
   reading of a literal line of host operations that knows the two- and the three-operand forms. -/
import Idealize.ShloMosaic.Lib.StableHlo.Run
import proofs.«102956_j57483842290055_2_alg».proof.Proof.LibNary3

noncomputable section

namespace Cert.ReferenceIdeal.RefRun

open Idealize.ShloMosaic Idealize.ShloMosaic.StableHlo

variable {τ : Topo} {sig : RefSig} {Val : EltTy → Type} {x a y : Ref sig .tc}

/-- `nary` over the literal family `![x, a]`: the result buffer holds `f` of the two operands' contents, each read at its
    own reference (`Fin.cons` at the literals `0, 1` in place of `fun k => F ↑(![x, a] k)`). -/
theorem nary2_result
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) := by
  rw [nary_result]; congr 1; funext k; fin_cases k <;> rfl

/-- The same with the result reference un-indexed, for rewriting. -/
theorem nary2_result'
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) :=
  nary2_result f hxs hy F

/-- The fold of a literal line at a reference, in one rewriting pass: each operation's result at its own result buffer is
    its function's value, at any other reference what was there (the references' inequalities decided); a two- or a
    three-operand `nary` reads each operand at its own reference. -/
macro "after_results_simp23" : tactic =>
  `(tactic| (simp (disch := decide) only [after_cons, after_nil,
      nullary_result', unary_result', binary_result', ternary_result', quaternary_result', reshape_result', nary2_result', nary3_result',
      nullary_result_ne', unary_result_ne', binary_result_ne', ternary_result_ne', quaternary_result_ne', reshape_result_ne',
      nary_result_ne']))

end Cert.ReferenceIdeal.RefRun

end
-- ==== Proof.RefRun.lean ====
/-
  The reference's result buffer, read stretch by stretch.  The 153 host operations of @main are cut after the
  encoder's output, each round's gathered rows, messages, aggregate and node states, and the head's column (a
  concatenation opens its stretch, so that it reads its operands as the stretch finds them); within a stretch every
  operation's result is its function of its operands' contents, and what an earlier stretch wrote is found unchanged.
  Over ANY contents V a stretch is entered with, each value a later stretch reads is the operations' term of the values
  the stretch finds (`read…`), and a buffer it does not write keeps its contents (`kept…`).  Chained from the launch
  contents this gives the result buffer as the reference's term of the arguments, one stage at a time, each stage's
  value named once instead of repeated wherever a later operation reads it.
-/
import proofs.«102956_j57483842290055_2_alg».proof.Proof.RunPa
import proofs.«102956_j57483842290055_2_alg».proof.Proof.ReadP
import proofs.«102956_j57483842290055_2_alg».proof.Proof.LibStretch
import proofs.«102956_j57483842290055_2_alg».proof.Proof.LibNary2

set_option maxRecDepth 16384

noncomputable section

namespace Cert.ReferenceIdeal.RunRead

open Cert.ReferenceIdeal Cert.ReferenceIdeal.Gen Cert.ReferenceIdeal.Read Cert.ReferenceIdeal.RefRun
open Idealize.ShloMosaic Idealize.ShloMosaic.TcCoe Idealize.SL.Sem Idealize.ShloMosaic.StableHlo

variable {F : FTy → Type} [FloatOps F]

/-- A buffer no operation of the literal stretch writes keeps its contents. -/
macro "stretch_keeps" ops:ident : tactic =>
  `(tactic| exact Idealize.ShloMosaic.StableHlo.after_of_forall_not_mem _ _ (List.forall_iff_forall_mem.mp (by
      simp only [$ops:ident, List.Forall, Idealize.ShloMosaic.StableHlo.nullary_writes, Idealize.ShloMosaic.StableHlo.unary_writes, Idealize.ShloMosaic.StableHlo.binary_writes, Idealize.ShloMosaic.StableHlo.ternary_writes, Idealize.ShloMosaic.StableHlo.reshape_writes, Idealize.ShloMosaic.StableHlo.nary_writes, Finset.mem_singleton]
      repeat' apply And.intro
      all_goals exact Idealize.ShloMosaic.StableHlo.devRef_ne_of_ne (by decide))))

/-! ## The stretches -/

/-- Operations 1 … 11 of @main. -/
abbrev st0 : List (HloOp τ sig (Elt F)) :=
  [ StableHlo.binary main_arg0 main_arg3 main_v0 ((fun l r => Host.dotGeneral dot_S50000x16_S16x64_S50000x64_1_0_0_1_n_n none l r) : (⟨S50000x16, .f32⟩ : BufTy).Contents (Elt F) → (⟨S16x64, .f32⟩ : BufTy).Contents (Elt F) → (⟨S50000x64, .f32⟩ : BufTy).Contents (Elt F)),
    StableHlo.unary main_arg4 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S50000x64 ![0, 1] bcast_S1x64_S50000x64_0_1 : (⟨S1x64, .f32⟩ : BufTy).Contents (Elt F) → (⟨S50000x64, .f32⟩ : BufTy).Contents (Elt F)),
    StableHlo.binary main_v0 main_v2 main_v3 (addf : (⟨S50000x64, .f32⟩ : BufTy).Contents (Elt F) → (⟨S50000x64, .f32⟩ : BufTy).Contents (Elt F) → (⟨S50000x64, .f32⟩ : BufTy).Contents (Elt F)),
    StableHlo.nullary main_cst (constant S_ .f32 0x00000000#32),
    StableHlo.unary main_cst main_v4 (broadcastInDim S50000x64 ![] bcast_S_S50000x64 : (⟨S_, .f32⟩ : BufTy).Contents (Elt F) → (⟨S50000x64, .f32⟩ : BufTy).Contents (Elt F)),
    StableHlo.binary main_v3 main_v4 main_v5 (maximumf : (⟨S50000x64, .f32⟩ : BufTy).Contents (Elt F) → (⟨S50000x64, .f32⟩ : BufTy).Contents (Elt F) → (⟨S50000x64, .f32⟩ : BufTy).Contents (Elt F)),
    StableHlo.binary main_v5 main_arg5 main_v6 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg6 main_v7 (broadcastInDim S1x64 ![1] bcast_S64_S1x64_1 : (⟨S64, .f32⟩ : BufTy).Contents (Elt F) → (⟨S1x64, .f32⟩ : BufTy).Contents (Elt F)),
    StableHlo.unary main_v7 main_v8 (broadcastInDim S50000x64 ![0, 1] bcast_S1x64_S50000x64_0_1 : (⟨S1x64, .f32⟩ : BufTy).Contents (Elt F) → (⟨S50000x64, .f32⟩ : BufTy).Contents (Elt F)),
    StableHlo.binary main_v6 main_v8 main_v9 (addf : (⟨S50000x64, .f32⟩ : BufTy).Contents (Elt F) → (⟨S50000x64, .f32⟩ : BufTy).Contents (Elt F) → (⟨S50000x64, .f32⟩ : BufTy).Contents (Elt F)) ]

/-- Operations 12 … 33 of @main. -/
abbrev st1 : List (HloOp τ sig (Elt F)) :=
  [ StableHlo.unary main_arg1 main_v10 ((extractStridedSlice S1600000x1 ![0, 0] · slices_S1600000x2_S1600000x1_0_0) : (⟨S1600000x2, .i32⟩ : BufTy).Contents (Elt F) → (⟨S1600000x1, .i32⟩ : BufTy).Contents (Elt F)),
    StableHlo.reshape main_v10 main_v11 rfl shapeCasts_S1600000x1_S1600000,
    StableHlo.unary main_arg1 main_v12 ((extractStridedSlice S1600000x1 ![0, 1] · slices_S1600000x2_S1600000x1_0_1) : (⟨S1600000x2, .i32⟩ : BufTy).Contents (Elt F) → (⟨S1600000x1, .i32⟩ : BufTy).Contents (Elt F)),
    StableHlo.reshape main_v12 main_v13 rfl shapeCasts_S1600000x1_S1600000,
    StableHlo.nullary main_c (constantI S_ 32 0#32),
    StableHlo.unary main_c main_v14 (broadcastInDim S1600000 ![] bcast_S_S1600000 : (⟨S_, .i32⟩ : BufTy).Contents (Elt F) → (⟨S1600000, .i32⟩ : BufTy).Contents (Elt F)),
    StableHlo.binary main_v11 main_v14 main_v15 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 50000#32),
    StableHlo.unary main_c_0 main_v16 (broadcastInDim S1600000 ![] bcast_S_S1600000 : (⟨S_, .i32⟩ : BufTy).Contents (Elt F) → (⟨S1600000, .i32⟩ : BufTy).Contents (Elt F)),
    StableHlo.binary main_v11 main_v16 main_v17 (addi : (⟨S1600000, .i32⟩ : BufTy).Contents (Elt F) → (⟨S1600000, .i32⟩ : BufTy).Contents (Elt F) → (⟨S1600000, .i32⟩ : BufTy).Contents (Elt F)),
    StableHlo.ternary main_v15 main_v17 main_v11 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v18 main_v19 (broadcastInDim S1600000x1 ![0] bcast_S1600000_S1600000x1_0 : (⟨S1600000, .i32⟩ : BufTy).Contents (Elt F) → (⟨S1600000x1, .i32⟩ : BufTy).Contents (Elt F)),
    StableHlo.binary main_v9 main_v19 main_v20 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    StableHlo.nullary main_c_1 (constantI S_ 32 0#32),
    StableHlo.unary main_c_1 main_v21 (broadcastInDim S1600000 ![] bcast_S_S1600000 : (⟨S_, .i32⟩ : BufTy).Contents (Elt F) → (⟨S1600000, .i32⟩ : BufTy).Contents (Elt F)),
    StableHlo.binary main_v13 main_v21 main_v22 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 50000#32),
    StableHlo.unary main_c_2 main_v23 (broadcastInDim S1600000 ![] bcast_S_S1600000 : (⟨S_, .i32⟩ : BufTy).Contents (Elt F) → (⟨S1600000, .i32⟩ : BufTy).Contents (Elt F)),
    StableHlo.binary main_v13 main_v23 main_v24 (addi : (⟨S1600000, .i32⟩ : BufTy).Contents (Elt F) → (⟨S1600000, .i32⟩ : BufTy).Contents (Elt F) → (⟨S1600000, .i32⟩ : BufTy).Contents (Elt F)),
    StableHlo.ternary main_v22 main_v24 main_v13 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v25 main_v26 (broadcastInDim S1600000x1 ![0] bcast_S1600000_S1600000x1_0 : (⟨S1600000, .i32⟩ : BufTy).Contents (Elt F) → (⟨S1600000x1, .i32⟩ : BufTy).Contents (Elt F)),
    StableHlo.binary main_v9 main_v26 main_v27 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)) ]

/-- Operations 34 … 53 of @main. -/
abbrev st2 : List (HloOp τ sig (Elt F)) :=
  [ StableHlo.nary ![main_v20, main_v27, main_arg2] main_v28 (fun u => concatenate S1600000x131 1 [⟨S1600000x64, u 0⟩, ⟨S1600000x64, u 1⟩, ⟨S1600000x3, u 2⟩] concatenates_S1600000x64_S1600000x64_S1600000x3_S1600000x131_d1),
    StableHlo.unary main_arg7 main_v29 ((extractStridedSlice S1x131x64 ![0, 0, 0] · slices_S2x131x64_S1x131x64_0_0_0) : (⟨S2x131x64, .f32⟩ : BufTy).Contents (Elt F) → (⟨S1x131x64, .f32⟩ : BufTy).Contents (Elt F)),
    StableHlo.reshape main_v29 main_v30 rfl shapeCasts_S1x131x64_S131x64,
    StableHlo.unary main_arg8 main_v31 ((extractStridedSlice S1x64 ![0, 0] · slices_S2x64_S1x64_0_0) : (⟨S2x64, .f32⟩ : BufTy).Contents (Elt F) → (⟨S1x64, .f32⟩ : BufTy).Contents (Elt F)),
    StableHlo.reshape main_v31 main_v32 rfl shapeCasts_S1x64_S64,
    StableHlo.unary main_arg9 main_v33 ((extractStridedSlice S1x64x64 ![0, 0, 0] · slices_S2x64x64_S1x64x64_0_0_0) : (⟨S2x64x64, .f32⟩ : BufTy).Contents (Elt F) → (⟨S1x64x64, .f32⟩ : BufTy).Contents (Elt F)),
    StableHlo.reshape main_v33 main_v34 rfl shapeCasts_S1x64x64_S64x64,
    StableHlo.unary main_arg10 main_v35 ((extractStridedSlice S1x64 ![0, 0] · slices_S2x64_S1x64_0_0) : (⟨S2x64, .f32⟩ : BufTy).Contents (Elt F) → (⟨S1x64, .f32⟩ : BufTy).Contents (Elt F)),
    StableHlo.reshape main_v35 main_v36 rfl shapeCasts_S1x64_S64,
    StableHlo.binary main_v28 main_v30 main_v37 ((fun l r => Host.dotGeneral dot_S1600000x131_S131x64_S1600000x64_1_0_0_1_n_n none l r) : (⟨S1600000x131, .f32⟩ : BufTy).Contents (Elt F) → (⟨S131x64, .f32⟩ : BufTy).Contents (Elt F) → (⟨S1600000x64, .f32⟩ : BufTy).Contents (Elt F)),
    StableHlo.unary main_v32 main_v38 (broadcastInDim S1x64 ![1] bcast_S64_S1x64_1 : (⟨S64, .f32⟩ : BufTy).Contents (Elt F) → (⟨S1x64, .f32⟩ : BufTy).Contents (Elt F)),
    StableHlo.unary main_v38 main_v39 (broadcastInDim S1600000x64 ![0, 1] bcast_S1x64_S1600000x64_0_1 : (⟨S1x64, .f32⟩ : BufTy).Contents (Elt F) → (⟨S1600000x64, .f32⟩ : BufTy).Contents (Elt F)),
    StableHlo.binary main_v37 main_v39 main_v40 (addf : (⟨S1600000x64, .f32⟩ : BufTy).Contents (Elt F) → (⟨S1600000x64, .f32⟩ : BufTy).Contents (Elt F) → (⟨S1600000x64, .f32⟩ : BufTy).Contents (Elt F)),
    StableHlo.nullary main_cst_3 (constant S_ .f32 0x00000000#32),
    StableHlo.unary main_cst_3 main_v41 (broadcastInDim S1600000x64 ![] bcast_S_S1600000x64 : (⟨S_, .f32⟩ : BufTy).Contents (Elt F) → (⟨S1600000x64, .f32⟩ : BufTy).Contents (Elt F)),
    StableHlo.binary main_v40 main_v41 main_v42 (maximumf : (⟨S1600000x64, .f32⟩ : BufTy).Contents (Elt F) → (⟨S1600000x64, .f32⟩ : BufTy).Contents (Elt F) → (⟨S1600000x64, .f32⟩ : BufTy).Contents (Elt F)),
    StableHlo.binary main_v42 main_v34 main_v43 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    StableHlo.unary main_v36 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S1600000x64 ![0, 1] bcast_S1x64_S1600000x64_0_1 : (⟨S1x64, .f32⟩ : BufTy).Contents (Elt F) → (⟨S1600000x64, .f32⟩ : BufTy).Contents (Elt F)),
    StableHlo.binary main_v43 main_v45 main_v46 (addf : (⟨S1600000x64, .f32⟩ : BufTy).Contents (Elt F) → (⟨S1600000x64, .f32⟩ : BufTy).Contents (Elt F) → (⟨S1600000x64, .f32⟩ : BufTy).Contents (Elt F)) ]

/-- Operations 54 … 57 of @main. -/
abbrev st3 : List (HloOp τ sig (Elt F)) :=
  [ StableHlo.nullary main_cst_4 (constant S_ .f32 0x00000000#32),
    StableHlo.unary main_cst_4 main_v47 (broadcastInDim S50000x64 ![] bcast_S_S50000x64 : (⟨S_, .f32⟩ : BufTy).Contents (Elt F) → (⟨S50000x64, .f32⟩ : BufTy).Contents (Elt F)),
    StableHlo.unary main_v13 main_v48 (broadcastInDim S1600000x1 ![0] bcast_S1600000_S1600000x1_0 : (⟨S1600000, .i32⟩ : BufTy).Contents (Elt F) → (⟨S1600000x1, .i32⟩ : BufTy).Contents (Elt F)),
    StableHlo.ternary main_v47 main_v48 main_v46 main_v49 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)) ]

/-- Operations 58 … 78 of @main. -/
abbrev st4 : List (HloOp τ sig (Elt F)) :=
  [ StableHlo.binary main_v9 main_v49 main_v50 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    StableHlo.unary main_arg11 main_v51 ((extractStridedSlice S1x128x64 ![0, 0, 0] · slices_S2x128x64_S1x128x64_0_0_0) : (⟨S2x128x64, .f32⟩ : BufTy).Contents (Elt F) → (⟨S1x128x64, .f32⟩ : BufTy).Contents (Elt F)),
    StableHlo.reshape main_v51 main_v52 rfl shapeCasts_S1x128x64_S128x64,
    StableHlo.unary main_arg12 main_v53 ((extractStridedSlice S1x64 ![0, 0] · slices_S2x64_S1x64_0_0) : (⟨S2x64, .f32⟩ : BufTy).Contents (Elt F) → (⟨S1x64, .f32⟩ : BufTy).Contents (Elt F)),
    StableHlo.reshape main_v53 main_v54 rfl shapeCasts_S1x64_S64,
    StableHlo.unary main_arg13 main_v55 ((extractStridedSlice S1x64x64 ![0, 0, 0] · slices_S2x64x64_S1x64x64_0_0_0) : (⟨S2x64x64, .f32⟩ : BufTy).Contents (Elt F) → (⟨S1x64x64, .f32⟩ : BufTy).Contents (Elt F)),
    StableHlo.reshape main_v55 main_v56 rfl shapeCasts_S1x64x64_S64x64,
    StableHlo.unary main_arg14 main_v57 ((extractStridedSlice S1x64 ![0, 0] · slices_S2x64_S1x64_0_0) : (⟨S2x64, .f32⟩ : BufTy).Contents (Elt F) → (⟨S1x64, .f32⟩ : BufTy).Contents (Elt F)),
    StableHlo.reshape main_v57 main_v58 rfl shapeCasts_S1x64_S64,
    StableHlo.binary main_v50 main_v52 main_v59 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_v54 main_v60 (broadcastInDim S1x64 ![1] bcast_S64_S1x64_1 : (⟨S64, .f32⟩ : BufTy).Contents (Elt F) → (⟨S1x64, .f32⟩ : BufTy).Contents (Elt F)),
    StableHlo.unary main_v60 main_v61 (broadcastInDim S50000x64 ![0, 1] bcast_S1x64_S50000x64_0_1 : (⟨S1x64, .f32⟩ : BufTy).Contents (Elt F) → (⟨S50000x64, .f32⟩ : BufTy).Contents (Elt F)),
    StableHlo.binary main_v59 main_v61 main_v62 (addf : (⟨S50000x64, .f32⟩ : BufTy).Contents (Elt F) → (⟨S50000x64, .f32⟩ : BufTy).Contents (Elt F) → (⟨S50000x64, .f32⟩ : BufTy).Contents (Elt F)),
    StableHlo.nullary main_cst_5 (constant S_ .f32 0x00000000#32),
    StableHlo.unary main_cst_5 main_v63 (broadcastInDim S50000x64 ![] bcast_S_S50000x64 : (⟨S_, .f32⟩ : BufTy).Contents (Elt F) → (⟨S50000x64, .f32⟩ : BufTy).Contents (Elt F)),
    StableHlo.binary main_v62 main_v63 main_v64 (maximumf : (⟨S50000x64, .f32⟩ : BufTy).Contents (Elt F) → (⟨S50000x64, .f32⟩ : BufTy).Contents (Elt F) → (⟨S50000x64, .f32⟩ : BufTy).Contents (Elt F)),
    StableHlo.binary main_v64 main_v56 main_v65 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_v58 main_v66 (broadcastInDim S1x64 ![1] bcast_S64_S1x64_1 : (⟨S64, .f32⟩ : BufTy).Contents (Elt F) → (⟨S1x64, .f32⟩ : BufTy).Contents (Elt F)),
    StableHlo.unary main_v66 main_v67 (broadcastInDim S50000x64 ![0, 1] bcast_S1x64_S50000x64_0_1 : (⟨S1x64, .f32⟩ : BufTy).Contents (Elt F) → (⟨S50000x64, .f32⟩ : BufTy).Contents (Elt F)),
    StableHlo.binary main_v65 main_v67 main_v68 (addf : (⟨S50000x64, .f32⟩ : BufTy).Contents (Elt F) → (⟨S50000x64, .f32⟩ : BufTy).Contents (Elt F) → (⟨S50000x64, .f32⟩ : BufTy).Contents (Elt F)),
    StableHlo.binary main_v9 main_v68 main_v69 (addf : (⟨S50000x64, .f32⟩ : BufTy).Contents (Elt F) → (⟨S50000x64, .f32⟩ : BufTy).Contents (Elt F) → (⟨S50000x64, .f32⟩ : BufTy).Contents (Elt F)) ]

/-- Operations 79 … 96 of @main. -/
abbrev st5 : List (HloOp τ sig (Elt F)) :=
  [ StableHlo.nullary main_c_6 (constantI S_ 32 0#32),
    StableHlo.unary main_c_6 main_v70 (broadcastInDim S1600000 ![] bcast_S_S1600000 : (⟨S_, .i32⟩ : BufTy).Contents (Elt F) → (⟨S1600000, .i32⟩ : BufTy).Contents (Elt F)),
    StableHlo.binary main_v11 main_v70 main_v71 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 50000#32),
    StableHlo.unary main_c_7 main_v72 (broadcastInDim S1600000 ![] bcast_S_S1600000 : (⟨S_, .i32⟩ : BufTy).Contents (Elt F) → (⟨S1600000, .i32⟩ : BufTy).Contents (Elt F)),
    StableHlo.binary main_v11 main_v72 main_v73 (addi : (⟨S1600000, .i32⟩ : BufTy).Contents (Elt F) → (⟨S1600000, .i32⟩ : BufTy).Contents (Elt F) → (⟨S1600000, .i32⟩ : BufTy).Contents (Elt F)),
    StableHlo.ternary main_v71 main_v73 main_v11 main_v74 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v74 main_v75 (broadcastInDim S1600000x1 ![0] bcast_S1600000_S1600000x1_0 : (⟨S1600000, .i32⟩ : BufTy).Contents (Elt F) → (⟨S1600000x1, .i32⟩ : BufTy).Contents (Elt F)),
    StableHlo.binary main_v69 main_v75 main_v76 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    StableHlo.nullary main_c_8 (constantI S_ 32 0#32),
    StableHlo.unary main_c_8 main_v77 (broadcastInDim S1600000 ![] bcast_S_S1600000 : (⟨S_, .i32⟩ : BufTy).Contents (Elt F) → (⟨S1600000, .i32⟩ : BufTy).Contents (Elt F)),
    StableHlo.binary main_v13 main_v77 main_v78 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 50000#32),
    StableHlo.unary main_c_9 main_v79 (broadcastInDim S1600000 ![] bcast_S_S1600000 : (⟨S_, .i32⟩ : BufTy).Contents (Elt F) → (⟨S1600000, .i32⟩ : BufTy).Contents (Elt F)),
    StableHlo.binary main_v13 main_v79 main_v80 (addi : (⟨S1600000, .i32⟩ : BufTy).Contents (Elt F) → (⟨S1600000, .i32⟩ : BufTy).Contents (Elt F) → (⟨S1600000, .i32⟩ : BufTy).Contents (Elt F)),
    StableHlo.ternary main_v78 main_v80 main_v13 main_v81 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v81 main_v82 (broadcastInDim S1600000x1 ![0] bcast_S1600000_S1600000x1_0 : (⟨S1600000, .i32⟩ : BufTy).Contents (Elt F) → (⟨S1600000x1, .i32⟩ : BufTy).Contents (Elt F)),
    StableHlo.binary main_v69 main_v82 main_v83 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)) ]

/-- Operations 97 … 116 of @main. -/
abbrev st6 : List (HloOp τ sig (Elt F)) :=
  [ StableHlo.nary ![main_v76, main_v83, main_arg2] main_v84 (fun u => concatenate S1600000x131 1 [⟨S1600000x64, u 0⟩, ⟨S1600000x64, u 1⟩, ⟨S1600000x3, u 2⟩] concatenates_S1600000x64_S1600000x64_S1600000x3_S1600000x131_d1),
    StableHlo.unary main_arg7 main_v85 ((extractStridedSlice S1x131x64 ![1, 0, 0] · slices_S2x131x64_S1x131x64_1_0_0) : (⟨S2x131x64, .f32⟩ : BufTy).Contents (Elt F) → (⟨S1x131x64, .f32⟩ : BufTy).Contents (Elt F)),
    StableHlo.reshape main_v85 main_v86 rfl shapeCasts_S1x131x64_S131x64,
    StableHlo.unary main_arg8 main_v87 ((extractStridedSlice S1x64 ![1, 0] · slices_S2x64_S1x64_1_0) : (⟨S2x64, .f32⟩ : BufTy).Contents (Elt F) → (⟨S1x64, .f32⟩ : BufTy).Contents (Elt F)),
    StableHlo.reshape main_v87 main_v88 rfl shapeCasts_S1x64_S64,
    StableHlo.unary main_arg9 main_v89 ((extractStridedSlice S1x64x64 ![1, 0, 0] · slices_S2x64x64_S1x64x64_1_0_0) : (⟨S2x64x64, .f32⟩ : BufTy).Contents (Elt F) → (⟨S1x64x64, .f32⟩ : BufTy).Contents (Elt F)),
    StableHlo.reshape main_v89 main_v90 rfl shapeCasts_S1x64x64_S64x64,
    StableHlo.unary main_arg10 main_v91 ((extractStridedSlice S1x64 ![1, 0] · slices_S2x64_S1x64_1_0) : (⟨S2x64, .f32⟩ : BufTy).Contents (Elt F) → (⟨S1x64, .f32⟩ : BufTy).Contents (Elt F)),
    StableHlo.reshape main_v91 main_v92 rfl shapeCasts_S1x64_S64,
    StableHlo.binary main_v84 main_v86 main_v93 ((fun l r => Host.dotGeneral dot_S1600000x131_S131x64_S1600000x64_1_0_0_1_n_n none l r) : (⟨S1600000x131, .f32⟩ : BufTy).Contents (Elt F) → (⟨S131x64, .f32⟩ : BufTy).Contents (Elt F) → (⟨S1600000x64, .f32⟩ : BufTy).Contents (Elt F)),
    StableHlo.unary main_v88 main_v94 (broadcastInDim S1x64 ![1] bcast_S64_S1x64_1 : (⟨S64, .f32⟩ : BufTy).Contents (Elt F) → (⟨S1x64, .f32⟩ : BufTy).Contents (Elt F)),
    StableHlo.unary main_v94 main_v95 (broadcastInDim S1600000x64 ![0, 1] bcast_S1x64_S1600000x64_0_1 : (⟨S1x64, .f32⟩ : BufTy).Contents (Elt F) → (⟨S1600000x64, .f32⟩ : BufTy).Contents (Elt F)),
    StableHlo.binary main_v93 main_v95 main_v96 (addf : (⟨S1600000x64, .f32⟩ : BufTy).Contents (Elt F) → (⟨S1600000x64, .f32⟩ : BufTy).Contents (Elt F) → (⟨S1600000x64, .f32⟩ : BufTy).Contents (Elt F)),
    StableHlo.nullary main_cst_10 (constant S_ .f32 0x00000000#32),
    StableHlo.unary main_cst_10 main_v97 (broadcastInDim S1600000x64 ![] bcast_S_S1600000x64 : (⟨S_, .f32⟩ : BufTy).Contents (Elt F) → (⟨S1600000x64, .f32⟩ : BufTy).Contents (Elt F)),
    StableHlo.binary main_v96 main_v97 main_v98 (maximumf : (⟨S1600000x64, .f32⟩ : BufTy).Contents (Elt F) → (⟨S1600000x64, .f32⟩ : BufTy).Contents (Elt F) → (⟨S1600000x64, .f32⟩ : BufTy).Contents (Elt F)),
    StableHlo.binary main_v98 main_v90 main_v99 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    StableHlo.unary main_v92 main_v100 (broadcastInDim S1x64 ![1] bcast_S64_S1x64_1 : (⟨S64, .f32⟩ : BufTy).Contents (Elt F) → (⟨S1x64, .f32⟩ : BufTy).Contents (Elt F)),
    StableHlo.unary main_v100 main_v101 (broadcastInDim S1600000x64 ![0, 1] bcast_S1x64_S1600000x64_0_1 : (⟨S1x64, .f32⟩ : BufTy).Contents (Elt F) → (⟨S1600000x64, .f32⟩ : BufTy).Contents (Elt F)),
    StableHlo.binary main_v99 main_v101 main_v102 (addf : (⟨S1600000x64, .f32⟩ : BufTy).Contents (Elt F) → (⟨S1600000x64, .f32⟩ : BufTy).Contents (Elt F) → (⟨S1600000x64, .f32⟩ : BufTy).Contents (Elt F)) ]

/-- Operations 117 … 120 of @main. -/
abbrev st7 : List (HloOp τ sig (Elt F)) :=
  [ StableHlo.nullary main_cst_11 (constant S_ .f32 0x00000000#32),
    StableHlo.unary main_cst_11 main_v103 (broadcastInDim S50000x64 ![] bcast_S_S50000x64 : (⟨S_, .f32⟩ : BufTy).Contents (Elt F) → (⟨S50000x64, .f32⟩ : BufTy).Contents (Elt F)),
    StableHlo.unary main_v13 main_v104 (broadcastInDim S1600000x1 ![0] bcast_S1600000_S1600000x1_0 : (⟨S1600000, .i32⟩ : BufTy).Contents (Elt F) → (⟨S1600000x1, .i32⟩ : BufTy).Contents (Elt F)),
    StableHlo.ternary main_v103 main_v104 main_v102 main_v105 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)) ]

/-- Operations 121 … 141 of @main. -/
abbrev st8 : List (HloOp τ sig (Elt F)) :=
  [ StableHlo.binary main_v69 main_v105 main_v106 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    StableHlo.unary main_arg11 main_v107 ((extractStridedSlice S1x128x64 ![1, 0, 0] · slices_S2x128x64_S1x128x64_1_0_0) : (⟨S2x128x64, .f32⟩ : BufTy).Contents (Elt F) → (⟨S1x128x64, .f32⟩ : BufTy).Contents (Elt F)),
    StableHlo.reshape main_v107 main_v108 rfl shapeCasts_S1x128x64_S128x64,
    StableHlo.unary main_arg12 main_v109 ((extractStridedSlice S1x64 ![1, 0] · slices_S2x64_S1x64_1_0) : (⟨S2x64, .f32⟩ : BufTy).Contents (Elt F) → (⟨S1x64, .f32⟩ : BufTy).Contents (Elt F)),
    StableHlo.reshape main_v109 main_v110 rfl shapeCasts_S1x64_S64,
    StableHlo.unary main_arg13 main_v111 ((extractStridedSlice S1x64x64 ![1, 0, 0] · slices_S2x64x64_S1x64x64_1_0_0) : (⟨S2x64x64, .f32⟩ : BufTy).Contents (Elt F) → (⟨S1x64x64, .f32⟩ : BufTy).Contents (Elt F)),
    StableHlo.reshape main_v111 main_v112 rfl shapeCasts_S1x64x64_S64x64,
    StableHlo.unary main_arg14 main_v113 ((extractStridedSlice S1x64 ![1, 0] · slices_S2x64_S1x64_1_0) : (⟨S2x64, .f32⟩ : BufTy).Contents (Elt F) → (⟨S1x64, .f32⟩ : BufTy).Contents (Elt F)),
    StableHlo.reshape main_v113 main_v114 rfl shapeCasts_S1x64_S64,
    StableHlo.binary main_v106 main_v108 main_v115 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_v110 main_v116 (broadcastInDim S1x64 ![1] bcast_S64_S1x64_1 : (⟨S64, .f32⟩ : BufTy).Contents (Elt F) → (⟨S1x64, .f32⟩ : BufTy).Contents (Elt F)),
    StableHlo.unary main_v116 main_v117 (broadcastInDim S50000x64 ![0, 1] bcast_S1x64_S50000x64_0_1 : (⟨S1x64, .f32⟩ : BufTy).Contents (Elt F) → (⟨S50000x64, .f32⟩ : BufTy).Contents (Elt F)),
    StableHlo.binary main_v115 main_v117 main_v118 (addf : (⟨S50000x64, .f32⟩ : BufTy).Contents (Elt F) → (⟨S50000x64, .f32⟩ : BufTy).Contents (Elt F) → (⟨S50000x64, .f32⟩ : BufTy).Contents (Elt F)),
    StableHlo.nullary main_cst_12 (constant S_ .f32 0x00000000#32),
    StableHlo.unary main_cst_12 main_v119 (broadcastInDim S50000x64 ![] bcast_S_S50000x64 : (⟨S_, .f32⟩ : BufTy).Contents (Elt F) → (⟨S50000x64, .f32⟩ : BufTy).Contents (Elt F)),
    StableHlo.binary main_v118 main_v119 main_v120 (maximumf : (⟨S50000x64, .f32⟩ : BufTy).Contents (Elt F) → (⟨S50000x64, .f32⟩ : BufTy).Contents (Elt F) → (⟨S50000x64, .f32⟩ : BufTy).Contents (Elt F)),
    StableHlo.binary main_v120 main_v112 main_v121 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_v114 main_v122 (broadcastInDim S1x64 ![1] bcast_S64_S1x64_1 : (⟨S64, .f32⟩ : BufTy).Contents (Elt F) → (⟨S1x64, .f32⟩ : BufTy).Contents (Elt F)),
    StableHlo.unary main_v122 main_v123 (broadcastInDim S50000x64 ![0, 1] bcast_S1x64_S50000x64_0_1 : (⟨S1x64, .f32⟩ : BufTy).Contents (Elt F) → (⟨S50000x64, .f32⟩ : BufTy).Contents (Elt F)),
    StableHlo.binary main_v121 main_v123 main_v124 (addf : (⟨S50000x64, .f32⟩ : BufTy).Contents (Elt F) → (⟨S50000x64, .f32⟩ : BufTy).Contents (Elt F) → (⟨S50000x64, .f32⟩ : BufTy).Contents (Elt F)),
    StableHlo.binary main_v69 main_v124 main_v125 (addf : (⟨S50000x64, .f32⟩ : BufTy).Contents (Elt F) → (⟨S50000x64, .f32⟩ : BufTy).Contents (Elt F) → (⟨S50000x64, .f32⟩ : BufTy).Contents (Elt F)) ]

/-- Operations 142 … 153 of @main. -/
abbrev st9 : List (HloOp τ sig (Elt F)) :=
  [ StableHlo.binary main_v125 main_arg15 main_v126 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg16 main_v127 (broadcastInDim S1x64 ![1] bcast_S64_S1x64_1 : (⟨S64, .f32⟩ : BufTy).Contents (Elt F) → (⟨S1x64, .f32⟩ : BufTy).Contents (Elt F)),
    StableHlo.unary main_v127 main_v128 (broadcastInDim S50000x64 ![0, 1] bcast_S1x64_S50000x64_0_1 : (⟨S1x64, .f32⟩ : BufTy).Contents (Elt F) → (⟨S50000x64, .f32⟩ : BufTy).Contents (Elt F)),
    StableHlo.binary main_v126 main_v128 main_v129 (addf : (⟨S50000x64, .f32⟩ : BufTy).Contents (Elt F) → (⟨S50000x64, .f32⟩ : BufTy).Contents (Elt F) → (⟨S50000x64, .f32⟩ : BufTy).Contents (Elt F)),
    StableHlo.nullary main_cst_13 (constant S_ .f32 0x00000000#32),
    StableHlo.unary main_cst_13 main_v130 (broadcastInDim S50000x64 ![] bcast_S_S50000x64 : (⟨S_, .f32⟩ : BufTy).Contents (Elt F) → (⟨S50000x64, .f32⟩ : BufTy).Contents (Elt F)),
    StableHlo.binary main_v129 main_v130 main_v131 (maximumf : (⟨S50000x64, .f32⟩ : BufTy).Contents (Elt F) → (⟨S50000x64, .f32⟩ : BufTy).Contents (Elt F) → (⟨S50000x64, .f32⟩ : BufTy).Contents (Elt F)),
    StableHlo.binary main_v131 main_arg17 main_v132 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    StableHlo.unary main_arg18 main_v133 (broadcastInDim S1x1 ![1] bcast_S1_S1x1_1 : (⟨S1, .f32⟩ : BufTy).Contents (Elt F) → (⟨S1x1, .f32⟩ : BufTy).Contents (Elt F)),
    StableHlo.unary main_v133 main_v134 (broadcastInDim S50000x1 ![0, 1] bcast_S1x1_S50000x1_0_1 : (⟨S1x1, .f32⟩ : BufTy).Contents (Elt F) → (⟨S50000x1, .f32⟩ : BufTy).Contents (Elt F)),
    StableHlo.binary main_v132 main_v134 main_v135 (addf : (⟨S50000x1, .f32⟩ : BufTy).Contents (Elt F) → (⟨S50000x1, .f32⟩ : BufTy).Contents (Elt F) → (⟨S50000x1, .f32⟩ : BufTy).Contents (Elt F)),
    StableHlo.reshape main_v135 main_v136 rfl shapeCasts_S50000x1_S50000 ]

/-- @main's operations are the stretches one after the other. -/
theorem ops_split : (Cert.ReferenceIdeal.Value.ops : List (HloOp τ sig (Elt F))) = st0 ++ (st1 ++ (st2 ++ (st3 ++ (st4 ++ (st5 ++ (st6 ++ (st7 ++ (st8 ++ (st9))))))))) := rfl

/-! ## Each stretch over any contents -/

/-- Stretch 0: `main_v9` as the operations' term of what the stretch finds. -/
theorem read0_v9 (V : Valuation τ sig (Elt F)) (x0 : (⟨S50000x16, .f32⟩ : BufTy).Contents (Elt F)) (x3 : (⟨S16x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F))
    (ha0 : V (Proc.devRef .tc main_arg0) = x0) (ha3 : V (Proc.devRef .tc main_arg3) = x3) (ha4 : V (Proc.devRef .tc main_arg4) = x4) (ha5 : V (Proc.devRef .tc main_arg5) = x5) (ha6 : V (Proc.devRef .tc main_arg6) = x6) :
    after st0 V (Proc.devRef .tc main_v9) = val_main_v9 (F := F) x0 x3 x4 x5 x6 := by
  after_results_simp23
  try simp only [ha0, ha3, ha4, ha5, ha6]
  try rw [ha0]
  try rw [ha3]
  try rw [ha4]
  try rw [ha5]
  try rw [ha6]
  rfl

/-- Stretch 1: `main_v11` as the operations' term of what the stretch finds. -/
theorem read1_v11 (V : Valuation τ sig (Elt F)) (x1 : (⟨S1600000x2, .i32⟩ : BufTy).Contents (Elt F))
    (ha1 : V (Proc.devRef .tc main_arg1) = x1) :
    after st1 V (Proc.devRef .tc main_v11) = val_main_v11 (F := F) x1 := by
  after_results_simp23
  try simp only [ha1]
  try rw [ha1]
  rfl

/-- Stretch 1: `main_v13` as the operations' term of what the stretch finds. -/
theorem read1_v13 (V : Valuation τ sig (Elt F)) (x1 : (⟨S1600000x2, .i32⟩ : BufTy).Contents (Elt F))
    (ha1 : V (Proc.devRef .tc main_arg1) = x1) :
    after st1 V (Proc.devRef .tc main_v13) = val_main_v13 (F := F) x1 := by
  after_results_simp23
  try simp only [ha1]
  try rw [ha1]
  rfl

/-- Stretch 1: `main_v20` as the operations' term of what the stretch finds. -/
theorem read1_v20 (V : Valuation τ sig (Elt F)) (x0 : (⟨S50000x16, .f32⟩ : BufTy).Contents (Elt F)) (x1 : (⟨S1600000x2, .i32⟩ : BufTy).Contents (Elt F)) (x3 : (⟨S16x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F))
    (hv9 : V (Proc.devRef .tc main_v9) = val_main_v9 (F := F) x0 x3 x4 x5 x6) (ha1 : V (Proc.devRef .tc main_arg1) = x1) :
    after st1 V (Proc.devRef .tc main_v20) = val_main_v20 (F := F) x0 x1 x3 x4 x5 x6 := by
  after_results_simp23
  try simp only [hv9, ha1]
  try rw [hv9]
  try rw [ha1]
  rfl

/-- Stretch 1: `main_v27` as the operations' term of what the stretch finds. -/
theorem read1_v27 (V : Valuation τ sig (Elt F)) (x0 : (⟨S50000x16, .f32⟩ : BufTy).Contents (Elt F)) (x1 : (⟨S1600000x2, .i32⟩ : BufTy).Contents (Elt F)) (x3 : (⟨S16x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F))
    (hv9 : V (Proc.devRef .tc main_v9) = val_main_v9 (F := F) x0 x3 x4 x5 x6) (ha1 : V (Proc.devRef .tc main_arg1) = x1) :
    after st1 V (Proc.devRef .tc main_v27) = val_main_v27 (F := F) x0 x1 x3 x4 x5 x6 := by
  after_results_simp23
  try simp only [hv9, ha1]
  try rw [hv9]
  try rw [ha1]
  rfl

/-- Stretch 2: `main_v46` as the operations' term of what the stretch finds. -/
theorem read2_v46 (V : Valuation τ sig (Elt F)) (x0 : (⟨S50000x16, .f32⟩ : BufTy).Contents (Elt F)) (x1 : (⟨S1600000x2, .i32⟩ : BufTy).Contents (Elt F)) (x2 : (⟨S1600000x3, .f32⟩ : BufTy).Contents (Elt F)) (x3 : (⟨S16x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S2x131x64, .f32⟩ : BufTy).Contents (Elt F)) (x8 : (⟨S2x64, .f32⟩ : BufTy).Contents (Elt F)) (x9 : (⟨S2x64x64, .f32⟩ : BufTy).Contents (Elt F)) (x10 : (⟨S2x64, .f32⟩ : BufTy).Contents (Elt F))
    (hv20 : V (Proc.devRef .tc main_v20) = val_main_v20 (F := F) x0 x1 x3 x4 x5 x6) (hv27 : V (Proc.devRef .tc main_v27) = val_main_v27 (F := F) x0 x1 x3 x4 x5 x6) (ha2 : V (Proc.devRef .tc main_arg2) = x2) (ha7 : V (Proc.devRef .tc main_arg7) = x7) (ha8 : V (Proc.devRef .tc main_arg8) = x8) (ha9 : V (Proc.devRef .tc main_arg9) = x9) (ha10 : V (Proc.devRef .tc main_arg10) = x10) :
    after st2 V (Proc.devRef .tc main_v46) = val_main_v46 (F := F) x0 x1 x2 x3 x4 x5 x6 x7 x8 x9 x10 := by
  after_results_simp23
  try simp only [hv20, hv27, ha2, ha7, ha8, ha9, ha10]
  try rw [hv20]
  try rw [hv27]
  try rw [ha2]
  try rw [ha7]
  try rw [ha8]
  try rw [ha9]
  try rw [ha10]
  rfl

/-- Stretch 3: `main_v49` as the operations' term of what the stretch finds. -/
theorem read3_v49 (V : Valuation τ sig (Elt F)) (x0 : (⟨S50000x16, .f32⟩ : BufTy).Contents (Elt F)) (x1 : (⟨S1600000x2, .i32⟩ : BufTy).Contents (Elt F)) (x2 : (⟨S1600000x3, .f32⟩ : BufTy).Contents (Elt F)) (x3 : (⟨S16x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S2x131x64, .f32⟩ : BufTy).Contents (Elt F)) (x8 : (⟨S2x64, .f32⟩ : BufTy).Contents (Elt F)) (x9 : (⟨S2x64x64, .f32⟩ : BufTy).Contents (Elt F)) (x10 : (⟨S2x64, .f32⟩ : BufTy).Contents (Elt F))
    (hv13 : V (Proc.devRef .tc main_v13) = val_main_v13 (F := F) x1) (hv46 : V (Proc.devRef .tc main_v46) = val_main_v46 (F := F) x0 x1 x2 x3 x4 x5 x6 x7 x8 x9 x10) :
    after st3 V (Proc.devRef .tc main_v49) = val_main_v49 (F := F) x0 x1 x2 x3 x4 x5 x6 x7 x8 x9 x10 := by
  after_results_simp23
  try simp only [hv13, hv46]
  try rw [hv13]
  try rw [hv46]
  rfl

/-- Stretch 4: `main_v69` as the operations' term of what the stretch finds. -/
theorem read4_v69 (V : Valuation τ sig (Elt F)) (x0 : (⟨S50000x16, .f32⟩ : BufTy).Contents (Elt F)) (x1 : (⟨S1600000x2, .i32⟩ : BufTy).Contents (Elt F)) (x2 : (⟨S1600000x3, .f32⟩ : BufTy).Contents (Elt F)) (x3 : (⟨S16x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S2x131x64, .f32⟩ : BufTy).Contents (Elt F)) (x8 : (⟨S2x64, .f32⟩ : BufTy).Contents (Elt F)) (x9 : (⟨S2x64x64, .f32⟩ : BufTy).Contents (Elt F)) (x10 : (⟨S2x64, .f32⟩ : BufTy).Contents (Elt F)) (x11 : (⟨S2x128x64, .f32⟩ : BufTy).Contents (Elt F)) (x12 : (⟨S2x64, .f32⟩ : BufTy).Contents (Elt F)) (x13 : (⟨S2x64x64, .f32⟩ : BufTy).Contents (Elt F)) (x14 : (⟨S2x64, .f32⟩ : BufTy).Contents (Elt F))
    (hv9 : V (Proc.devRef .tc main_v9) = val_main_v9 (F := F) x0 x3 x4 x5 x6) (hv49 : V (Proc.devRef .tc main_v49) = val_main_v49 (F := F) x0 x1 x2 x3 x4 x5 x6 x7 x8 x9 x10) (ha11 : V (Proc.devRef .tc main_arg11) = x11) (ha12 : V (Proc.devRef .tc main_arg12) = x12) (ha13 : V (Proc.devRef .tc main_arg13) = x13) (ha14 : V (Proc.devRef .tc main_arg14) = x14) :
    after st4 V (Proc.devRef .tc main_v69) = val_main_v69 (F := F) x0 x1 x2 x3 x4 x5 x6 x7 x8 x9 x10 x11 x12 x13 x14 := by
  after_results_simp23
  try simp only [hv9, hv49, ha11, ha12, ha13, ha14]
  try rw [hv9]
  try rw [hv49]
  try rw [ha11]
  try rw [ha12]
  try rw [ha13]
  try rw [ha14]
  rfl

/-- Stretch 5: `main_v76` as the operations' term of what the stretch finds. -/
theorem read5_v76 (V : Valuation τ sig (Elt F)) (x0 : (⟨S50000x16, .f32⟩ : BufTy).Contents (Elt F)) (x1 : (⟨S1600000x2, .i32⟩ : BufTy).Contents (Elt F)) (x2 : (⟨S1600000x3, .f32⟩ : BufTy).Contents (Elt F)) (x3 : (⟨S16x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S2x131x64, .f32⟩ : BufTy).Contents (Elt F)) (x8 : (⟨S2x64, .f32⟩ : BufTy).Contents (Elt F)) (x9 : (⟨S2x64x64, .f32⟩ : BufTy).Contents (Elt F)) (x10 : (⟨S2x64, .f32⟩ : BufTy).Contents (Elt F)) (x11 : (⟨S2x128x64, .f32⟩ : BufTy).Contents (Elt F)) (x12 : (⟨S2x64, .f32⟩ : BufTy).Contents (Elt F)) (x13 : (⟨S2x64x64, .f32⟩ : BufTy).Contents (Elt F)) (x14 : (⟨S2x64, .f32⟩ : BufTy).Contents (Elt F))
    (hv69 : V (Proc.devRef .tc main_v69) = val_main_v69 (F := F) x0 x1 x2 x3 x4 x5 x6 x7 x8 x9 x10 x11 x12 x13 x14) (hv11 : V (Proc.devRef .tc main_v11) = val_main_v11 (F := F) x1) :
    after st5 V (Proc.devRef .tc main_v76) = val_main_v76 (F := F) x0 x1 x2 x3 x4 x5 x6 x7 x8 x9 x10 x11 x12 x13 x14 := by
  after_results_simp23
  try simp only [hv69, hv11]
  try rw [hv69]
  try rw [hv11]
  rfl

/-- Stretch 5: `main_v83` as the operations' term of what the stretch finds. -/
theorem read5_v83 (V : Valuation τ sig (Elt F)) (x0 : (⟨S50000x16, .f32⟩ : BufTy).Contents (Elt F)) (x1 : (⟨S1600000x2, .i32⟩ : BufTy).Contents (Elt F)) (x2 : (⟨S1600000x3, .f32⟩ : BufTy).Contents (Elt F)) (x3 : (⟨S16x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S2x131x64, .f32⟩ : BufTy).Contents (Elt F)) (x8 : (⟨S2x64, .f32⟩ : BufTy).Contents (Elt F)) (x9 : (⟨S2x64x64, .f32⟩ : BufTy).Contents (Elt F)) (x10 : (⟨S2x64, .f32⟩ : BufTy).Contents (Elt F)) (x11 : (⟨S2x128x64, .f32⟩ : BufTy).Contents (Elt F)) (x12 : (⟨S2x64, .f32⟩ : BufTy).Contents (Elt F)) (x13 : (⟨S2x64x64, .f32⟩ : BufTy).Contents (Elt F)) (x14 : (⟨S2x64, .f32⟩ : BufTy).Contents (Elt F))
    (hv69 : V (Proc.devRef .tc main_v69) = val_main_v69 (F := F) x0 x1 x2 x3 x4 x5 x6 x7 x8 x9 x10 x11 x12 x13 x14) (hv13 : V (Proc.devRef .tc main_v13) = val_main_v13 (F := F) x1) :
    after st5 V (Proc.devRef .tc main_v83) = val_main_v83 (F := F) x0 x1 x2 x3 x4 x5 x6 x7 x8 x9 x10 x11 x12 x13 x14 := by
  after_results_simp23
  try simp only [hv69, hv13]
  try rw [hv69]
  try rw [hv13]
  rfl

/-- Stretch 6: `main_v102` as the operations' term of what the stretch finds. -/
theorem read6_v102 (V : Valuation τ sig (Elt F)) (x0 : (⟨S50000x16, .f32⟩ : BufTy).Contents (Elt F)) (x1 : (⟨S1600000x2, .i32⟩ : BufTy).Contents (Elt F)) (x2 : (⟨S1600000x3, .f32⟩ : BufTy).Contents (Elt F)) (x3 : (⟨S16x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S2x131x64, .f32⟩ : BufTy).Contents (Elt F)) (x8 : (⟨S2x64, .f32⟩ : BufTy).Contents (Elt F)) (x9 : (⟨S2x64x64, .f32⟩ : BufTy).Contents (Elt F)) (x10 : (⟨S2x64, .f32⟩ : BufTy).Contents (Elt F)) (x11 : (⟨S2x128x64, .f32⟩ : BufTy).Contents (Elt F)) (x12 : (⟨S2x64, .f32⟩ : BufTy).Contents (Elt F)) (x13 : (⟨S2x64x64, .f32⟩ : BufTy).Contents (Elt F)) (x14 : (⟨S2x64, .f32⟩ : BufTy).Contents (Elt F))
    (hv76 : V (Proc.devRef .tc main_v76) = val_main_v76 (F := F) x0 x1 x2 x3 x4 x5 x6 x7 x8 x9 x10 x11 x12 x13 x14) (hv83 : V (Proc.devRef .tc main_v83) = val_main_v83 (F := F) x0 x1 x2 x3 x4 x5 x6 x7 x8 x9 x10 x11 x12 x13 x14) (ha2 : V (Proc.devRef .tc main_arg2) = x2) (ha7 : V (Proc.devRef .tc main_arg7) = x7) (ha8 : V (Proc.devRef .tc main_arg8) = x8) (ha9 : V (Proc.devRef .tc main_arg9) = x9) (ha10 : V (Proc.devRef .tc main_arg10) = x10) :
    after st6 V (Proc.devRef .tc main_v102) = val_main_v102 (F := F) x0 x1 x2 x3 x4 x5 x6 x7 x8 x9 x10 x11 x12 x13 x14 := by
  after_results_simp23
  try simp only [hv76, hv83, ha2, ha7, ha8, ha9, ha10]
  try rw [hv76]
  try rw [hv83]
  try rw [ha2]
  try rw [ha7]
  try rw [ha8]
  try rw [ha9]
  try rw [ha10]
  rfl

/-- Stretch 7: `main_v105` as the operations' term of what the stretch finds. -/
theorem read7_v105 (V : Valuation τ sig (Elt F)) (x0 : (⟨S50000x16, .f32⟩ : BufTy).Contents (Elt F)) (x1 : (⟨S1600000x2, .i32⟩ : BufTy).Contents (Elt F)) (x2 : (⟨S1600000x3, .f32⟩ : BufTy).Contents (Elt F)) (x3 : (⟨S16x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S2x131x64, .f32⟩ : BufTy).Contents (Elt F)) (x8 : (⟨S2x64, .f32⟩ : BufTy).Contents (Elt F)) (x9 : (⟨S2x64x64, .f32⟩ : BufTy).Contents (Elt F)) (x10 : (⟨S2x64, .f32⟩ : BufTy).Contents (Elt F)) (x11 : (⟨S2x128x64, .f32⟩ : BufTy).Contents (Elt F)) (x12 : (⟨S2x64, .f32⟩ : BufTy).Contents (Elt F)) (x13 : (⟨S2x64x64, .f32⟩ : BufTy).Contents (Elt F)) (x14 : (⟨S2x64, .f32⟩ : BufTy).Contents (Elt F))
    (hv13 : V (Proc.devRef .tc main_v13) = val_main_v13 (F := F) x1) (hv102 : V (Proc.devRef .tc main_v102) = val_main_v102 (F := F) x0 x1 x2 x3 x4 x5 x6 x7 x8 x9 x10 x11 x12 x13 x14) :
    after st7 V (Proc.devRef .tc main_v105) = val_main_v105 (F := F) x0 x1 x2 x3 x4 x5 x6 x7 x8 x9 x10 x11 x12 x13 x14 := by
  after_results_simp23
  try simp only [hv13, hv102]
  try rw [hv13]
  try rw [hv102]
  rfl

/-- Stretch 8: `main_v125` as the operations' term of what the stretch finds. -/
theorem read8_v125 (V : Valuation τ sig (Elt F)) (x0 : (⟨S50000x16, .f32⟩ : BufTy).Contents (Elt F)) (x1 : (⟨S1600000x2, .i32⟩ : BufTy).Contents (Elt F)) (x2 : (⟨S1600000x3, .f32⟩ : BufTy).Contents (Elt F)) (x3 : (⟨S16x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S2x131x64, .f32⟩ : BufTy).Contents (Elt F)) (x8 : (⟨S2x64, .f32⟩ : BufTy).Contents (Elt F)) (x9 : (⟨S2x64x64, .f32⟩ : BufTy).Contents (Elt F)) (x10 : (⟨S2x64, .f32⟩ : BufTy).Contents (Elt F)) (x11 : (⟨S2x128x64, .f32⟩ : BufTy).Contents (Elt F)) (x12 : (⟨S2x64, .f32⟩ : BufTy).Contents (Elt F)) (x13 : (⟨S2x64x64, .f32⟩ : BufTy).Contents (Elt F)) (x14 : (⟨S2x64, .f32⟩ : BufTy).Contents (Elt F))
    (hv69 : V (Proc.devRef .tc main_v69) = val_main_v69 (F := F) x0 x1 x2 x3 x4 x5 x6 x7 x8 x9 x10 x11 x12 x13 x14) (hv105 : V (Proc.devRef .tc main_v105) = val_main_v105 (F := F) x0 x1 x2 x3 x4 x5 x6 x7 x8 x9 x10 x11 x12 x13 x14) (ha11 : V (Proc.devRef .tc main_arg11) = x11) (ha12 : V (Proc.devRef .tc main_arg12) = x12) (ha13 : V (Proc.devRef .tc main_arg13) = x13) (ha14 : V (Proc.devRef .tc main_arg14) = x14) :
    after st8 V (Proc.devRef .tc main_v125) = val_main_v125 (F := F) x0 x1 x2 x3 x4 x5 x6 x7 x8 x9 x10 x11 x12 x13 x14 := by
  after_results_simp23
  try simp only [hv69, hv105, ha11, ha12, ha13, ha14]
  try rw [hv69]
  try rw [hv105]
  try rw [ha11]
  try rw [ha12]
  try rw [ha13]
  try rw [ha14]
  rfl

/-- Stretch 9: `main_v136` as the operations' term of what the stretch finds. -/
theorem read9_v136 (V : Valuation τ sig (Elt F)) (x0 : (⟨S50000x16, .f32⟩ : BufTy).Contents (Elt F)) (x1 : (⟨S1600000x2, .i32⟩ : BufTy).Contents (Elt F)) (x2 : (⟨S1600000x3, .f32⟩ : BufTy).Contents (Elt F)) (x3 : (⟨S16x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S2x131x64, .f32⟩ : BufTy).Contents (Elt F)) (x8 : (⟨S2x64, .f32⟩ : BufTy).Contents (Elt F)) (x9 : (⟨S2x64x64, .f32⟩ : BufTy).Contents (Elt F)) (x10 : (⟨S2x64, .f32⟩ : BufTy).Contents (Elt F)) (x11 : (⟨S2x128x64, .f32⟩ : BufTy).Contents (Elt F)) (x12 : (⟨S2x64, .f32⟩ : BufTy).Contents (Elt F)) (x13 : (⟨S2x64x64, .f32⟩ : BufTy).Contents (Elt F)) (x14 : (⟨S2x64, .f32⟩ : BufTy).Contents (Elt F)) (x15 : (⟨S64x64, .f32⟩ : BufTy).Contents (Elt F)) (x16 : (⟨S64, .f32⟩ : BufTy).Contents (Elt F)) (x17 : (⟨S64x1, .f32⟩ : BufTy).Contents (Elt F)) (x18 : (⟨S1, .f32⟩ : BufTy).Contents (Elt F))
    (hv125 : V (Proc.devRef .tc main_v125) = val_main_v125 (F := F) x0 x1 x2 x3 x4 x5 x6 x7 x8 x9 x10 x11 x12 x13 x14) (ha15 : V (Proc.devRef .tc main_arg15) = x15) (ha16 : V (Proc.devRef .tc main_arg16) = x16) (ha17 : V (Proc.devRef .tc main_arg17) = x17) (ha18 : V (Proc.devRef .tc main_arg18) = x18) :
    after st9 V (Proc.devRef .tc main_v136) = val_main_v136 (F := F) x0 x1 x2 x3 x4 x5 x6 x7 x8 x9 x10 x11 x12 x13 x14 x15 x16 x17 x18 := by
  after_results_simp23
  try simp only [hv125, ha15, ha16, ha17, ha18]
  try rw [hv125]
  try rw [ha15]
  try rw [ha16]
  try rw [ha17]
  try rw [ha18]
  rfl

/-! ## What a stretch leaves as it was -/
theorem kept0_arg1 (V : Valuation τ sig (Elt F)) : after st0 V (Proc.devRef .tc main_arg1) = V (Proc.devRef .tc main_arg1) := by stretch_keeps st0
theorem kept0_arg10 (V : Valuation τ sig (Elt F)) : after st0 V (Proc.devRef .tc main_arg10) = V (Proc.devRef .tc main_arg10) := by stretch_keeps st0
theorem kept0_arg11 (V : Valuation τ sig (Elt F)) : after st0 V (Proc.devRef .tc main_arg11) = V (Proc.devRef .tc main_arg11) := by stretch_keeps st0
theorem kept0_arg12 (V : Valuation τ sig (Elt F)) : after st0 V (Proc.devRef .tc main_arg12) = V (Proc.devRef .tc main_arg12) := by stretch_keeps st0
theorem kept0_arg13 (V : Valuation τ sig (Elt F)) : after st0 V (Proc.devRef .tc main_arg13) = V (Proc.devRef .tc main_arg13) := by stretch_keeps st0
theorem kept0_arg14 (V : Valuation τ sig (Elt F)) : after st0 V (Proc.devRef .tc main_arg14) = V (Proc.devRef .tc main_arg14) := by stretch_keeps st0
theorem kept0_arg15 (V : Valuation τ sig (Elt F)) : after st0 V (Proc.devRef .tc main_arg15) = V (Proc.devRef .tc main_arg15) := by stretch_keeps st0
theorem kept0_arg16 (V : Valuation τ sig (Elt F)) : after st0 V (Proc.devRef .tc main_arg16) = V (Proc.devRef .tc main_arg16) := by stretch_keeps st0
theorem kept0_arg17 (V : Valuation τ sig (Elt F)) : after st0 V (Proc.devRef .tc main_arg17) = V (Proc.devRef .tc main_arg17) := by stretch_keeps st0
theorem kept0_arg18 (V : Valuation τ sig (Elt F)) : after st0 V (Proc.devRef .tc main_arg18) = V (Proc.devRef .tc main_arg18) := by stretch_keeps st0
theorem kept0_arg2 (V : Valuation τ sig (Elt F)) : after st0 V (Proc.devRef .tc main_arg2) = V (Proc.devRef .tc main_arg2) := by stretch_keeps st0
theorem kept0_arg7 (V : Valuation τ sig (Elt F)) : after st0 V (Proc.devRef .tc main_arg7) = V (Proc.devRef .tc main_arg7) := by stretch_keeps st0
theorem kept0_arg8 (V : Valuation τ sig (Elt F)) : after st0 V (Proc.devRef .tc main_arg8) = V (Proc.devRef .tc main_arg8) := by stretch_keeps st0
theorem kept0_arg9 (V : Valuation τ sig (Elt F)) : after st0 V (Proc.devRef .tc main_arg9) = V (Proc.devRef .tc main_arg9) := by stretch_keeps st0
theorem kept1_arg10 (V : Valuation τ sig (Elt F)) : after st1 V (Proc.devRef .tc main_arg10) = V (Proc.devRef .tc main_arg10) := by stretch_keeps st1
theorem kept1_arg11 (V : Valuation τ sig (Elt F)) : after st1 V (Proc.devRef .tc main_arg11) = V (Proc.devRef .tc main_arg11) := by stretch_keeps st1
theorem kept1_arg12 (V : Valuation τ sig (Elt F)) : after st1 V (Proc.devRef .tc main_arg12) = V (Proc.devRef .tc main_arg12) := by stretch_keeps st1
theorem kept1_arg13 (V : Valuation τ sig (Elt F)) : after st1 V (Proc.devRef .tc main_arg13) = V (Proc.devRef .tc main_arg13) := by stretch_keeps st1
theorem kept1_arg14 (V : Valuation τ sig (Elt F)) : after st1 V (Proc.devRef .tc main_arg14) = V (Proc.devRef .tc main_arg14) := by stretch_keeps st1
theorem kept1_arg15 (V : Valuation τ sig (Elt F)) : after st1 V (Proc.devRef .tc main_arg15) = V (Proc.devRef .tc main_arg15) := by stretch_keeps st1
theorem kept1_arg16 (V : Valuation τ sig (Elt F)) : after st1 V (Proc.devRef .tc main_arg16) = V (Proc.devRef .tc main_arg16) := by stretch_keeps st1
theorem kept1_arg17 (V : Valuation τ sig (Elt F)) : after st1 V (Proc.devRef .tc main_arg17) = V (Proc.devRef .tc main_arg17) := by stretch_keeps st1
theorem kept1_arg18 (V : Valuation τ sig (Elt F)) : after st1 V (Proc.devRef .tc main_arg18) = V (Proc.devRef .tc main_arg18) := by stretch_keeps st1
theorem kept1_arg2 (V : Valuation τ sig (Elt F)) : after st1 V (Proc.devRef .tc main_arg2) = V (Proc.devRef .tc main_arg2) := by stretch_keeps st1
theorem kept1_arg7 (V : Valuation τ sig (Elt F)) : after st1 V (Proc.devRef .tc main_arg7) = V (Proc.devRef .tc main_arg7) := by stretch_keeps st1
theorem kept1_arg8 (V : Valuation τ sig (Elt F)) : after st1 V (Proc.devRef .tc main_arg8) = V (Proc.devRef .tc main_arg8) := by stretch_keeps st1
theorem kept1_arg9 (V : Valuation τ sig (Elt F)) : after st1 V (Proc.devRef .tc main_arg9) = V (Proc.devRef .tc main_arg9) := by stretch_keeps st1
theorem kept1_v9 (V : Valuation τ sig (Elt F)) : after st1 V (Proc.devRef .tc main_v9) = V (Proc.devRef .tc main_v9) := by stretch_keeps st1
theorem kept2_arg10 (V : Valuation τ sig (Elt F)) : after st2 V (Proc.devRef .tc main_arg10) = V (Proc.devRef .tc main_arg10) := by stretch_keeps st2
theorem kept2_arg11 (V : Valuation τ sig (Elt F)) : after st2 V (Proc.devRef .tc main_arg11) = V (Proc.devRef .tc main_arg11) := by stretch_keeps st2
theorem kept2_arg12 (V : Valuation τ sig (Elt F)) : after st2 V (Proc.devRef .tc main_arg12) = V (Proc.devRef .tc main_arg12) := by stretch_keeps st2
theorem kept2_arg13 (V : Valuation τ sig (Elt F)) : after st2 V (Proc.devRef .tc main_arg13) = V (Proc.devRef .tc main_arg13) := by stretch_keeps st2
theorem kept2_arg14 (V : Valuation τ sig (Elt F)) : after st2 V (Proc.devRef .tc main_arg14) = V (Proc.devRef .tc main_arg14) := by stretch_keeps st2
theorem kept2_arg15 (V : Valuation τ sig (Elt F)) : after st2 V (Proc.devRef .tc main_arg15) = V (Proc.devRef .tc main_arg15) := by stretch_keeps st2
theorem kept2_arg16 (V : Valuation τ sig (Elt F)) : after st2 V (Proc.devRef .tc main_arg16) = V (Proc.devRef .tc main_arg16) := by stretch_keeps st2
theorem kept2_arg17 (V : Valuation τ sig (Elt F)) : after st2 V (Proc.devRef .tc main_arg17) = V (Proc.devRef .tc main_arg17) := by stretch_keeps st2
theorem kept2_arg18 (V : Valuation τ sig (Elt F)) : after st2 V (Proc.devRef .tc main_arg18) = V (Proc.devRef .tc main_arg18) := by stretch_keeps st2
theorem kept2_arg2 (V : Valuation τ sig (Elt F)) : after st2 V (Proc.devRef .tc main_arg2) = V (Proc.devRef .tc main_arg2) := by stretch_keeps st2
theorem kept2_arg7 (V : Valuation τ sig (Elt F)) : after st2 V (Proc.devRef .tc main_arg7) = V (Proc.devRef .tc main_arg7) := by stretch_keeps st2
theorem kept2_arg8 (V : Valuation τ sig (Elt F)) : after st2 V (Proc.devRef .tc main_arg8) = V (Proc.devRef .tc main_arg8) := by stretch_keeps st2
theorem kept2_arg9 (V : Valuation τ sig (Elt F)) : after st2 V (Proc.devRef .tc main_arg9) = V (Proc.devRef .tc main_arg9) := by stretch_keeps st2
theorem kept2_v11 (V : Valuation τ sig (Elt F)) : after st2 V (Proc.devRef .tc main_v11) = V (Proc.devRef .tc main_v11) := by stretch_keeps st2
theorem kept2_v13 (V : Valuation τ sig (Elt F)) : after st2 V (Proc.devRef .tc main_v13) = V (Proc.devRef .tc main_v13) := by stretch_keeps st2
theorem kept2_v9 (V : Valuation τ sig (Elt F)) : after st2 V (Proc.devRef .tc main_v9) = V (Proc.devRef .tc main_v9) := by stretch_keeps st2
theorem kept3_arg10 (V : Valuation τ sig (Elt F)) : after st3 V (Proc.devRef .tc main_arg10) = V (Proc.devRef .tc main_arg10) := by stretch_keeps st3
theorem kept3_arg11 (V : Valuation τ sig (Elt F)) : after st3 V (Proc.devRef .tc main_arg11) = V (Proc.devRef .tc main_arg11) := by stretch_keeps st3
theorem kept3_arg12 (V : Valuation τ sig (Elt F)) : after st3 V (Proc.devRef .tc main_arg12) = V (Proc.devRef .tc main_arg12) := by stretch_keeps st3
theorem kept3_arg13 (V : Valuation τ sig (Elt F)) : after st3 V (Proc.devRef .tc main_arg13) = V (Proc.devRef .tc main_arg13) := by stretch_keeps st3
theorem kept3_arg14 (V : Valuation τ sig (Elt F)) : after st3 V (Proc.devRef .tc main_arg14) = V (Proc.devRef .tc main_arg14) := by stretch_keeps st3
theorem kept3_arg15 (V : Valuation τ sig (Elt F)) : after st3 V (Proc.devRef .tc main_arg15) = V (Proc.devRef .tc main_arg15) := by stretch_keeps st3
theorem kept3_arg16 (V : Valuation τ sig (Elt F)) : after st3 V (Proc.devRef .tc main_arg16) = V (Proc.devRef .tc main_arg16) := by stretch_keeps st3
theorem kept3_arg17 (V : Valuation τ sig (Elt F)) : after st3 V (Proc.devRef .tc main_arg17) = V (Proc.devRef .tc main_arg17) := by stretch_keeps st3
theorem kept3_arg18 (V : Valuation τ sig (Elt F)) : after st3 V (Proc.devRef .tc main_arg18) = V (Proc.devRef .tc main_arg18) := by stretch_keeps st3
theorem kept3_arg2 (V : Valuation τ sig (Elt F)) : after st3 V (Proc.devRef .tc main_arg2) = V (Proc.devRef .tc main_arg2) := by stretch_keeps st3
theorem kept3_arg7 (V : Valuation τ sig (Elt F)) : after st3 V (Proc.devRef .tc main_arg7) = V (Proc.devRef .tc main_arg7) := by stretch_keeps st3
theorem kept3_arg8 (V : Valuation τ sig (Elt F)) : after st3 V (Proc.devRef .tc main_arg8) = V (Proc.devRef .tc main_arg8) := by stretch_keeps st3
theorem kept3_arg9 (V : Valuation τ sig (Elt F)) : after st3 V (Proc.devRef .tc main_arg9) = V (Proc.devRef .tc main_arg9) := by stretch_keeps st3
theorem kept3_v11 (V : Valuation τ sig (Elt F)) : after st3 V (Proc.devRef .tc main_v11) = V (Proc.devRef .tc main_v11) := by stretch_keeps st3
theorem kept3_v13 (V : Valuation τ sig (Elt F)) : after st3 V (Proc.devRef .tc main_v13) = V (Proc.devRef .tc main_v13) := by stretch_keeps st3
theorem kept3_v9 (V : Valuation τ sig (Elt F)) : after st3 V (Proc.devRef .tc main_v9) = V (Proc.devRef .tc main_v9) := by stretch_keeps st3
theorem kept4_arg10 (V : Valuation τ sig (Elt F)) : after st4 V (Proc.devRef .tc main_arg10) = V (Proc.devRef .tc main_arg10) := by stretch_keeps st4
theorem kept4_arg11 (V : Valuation τ sig (Elt F)) : after st4 V (Proc.devRef .tc main_arg11) = V (Proc.devRef .tc main_arg11) := by stretch_keeps st4
theorem kept4_arg12 (V : Valuation τ sig (Elt F)) : after st4 V (Proc.devRef .tc main_arg12) = V (Proc.devRef .tc main_arg12) := by stretch_keeps st4
theorem kept4_arg13 (V : Valuation τ sig (Elt F)) : after st4 V (Proc.devRef .tc main_arg13) = V (Proc.devRef .tc main_arg13) := by stretch_keeps st4
theorem kept4_arg14 (V : Valuation τ sig (Elt F)) : after st4 V (Proc.devRef .tc main_arg14) = V (Proc.devRef .tc main_arg14) := by stretch_keeps st4
theorem kept4_arg15 (V : Valuation τ sig (Elt F)) : after st4 V (Proc.devRef .tc main_arg15) = V (Proc.devRef .tc main_arg15) := by stretch_keeps st4
theorem kept4_arg16 (V : Valuation τ sig (Elt F)) : after st4 V (Proc.devRef .tc main_arg16) = V (Proc.devRef .tc main_arg16) := by stretch_keeps st4
theorem kept4_arg17 (V : Valuation τ sig (Elt F)) : after st4 V (Proc.devRef .tc main_arg17) = V (Proc.devRef .tc main_arg17) := by stretch_keeps st4
theorem kept4_arg18 (V : Valuation τ sig (Elt F)) : after st4 V (Proc.devRef .tc main_arg18) = V (Proc.devRef .tc main_arg18) := by stretch_keeps st4
theorem kept4_arg2 (V : Valuation τ sig (Elt F)) : after st4 V (Proc.devRef .tc main_arg2) = V (Proc.devRef .tc main_arg2) := by stretch_keeps st4
theorem kept4_arg7 (V : Valuation τ sig (Elt F)) : after st4 V (Proc.devRef .tc main_arg7) = V (Proc.devRef .tc main_arg7) := by stretch_keeps st4
theorem kept4_arg8 (V : Valuation τ sig (Elt F)) : after st4 V (Proc.devRef .tc main_arg8) = V (Proc.devRef .tc main_arg8) := by stretch_keeps st4
theorem kept4_arg9 (V : Valuation τ sig (Elt F)) : after st4 V (Proc.devRef .tc main_arg9) = V (Proc.devRef .tc main_arg9) := by stretch_keeps st4
theorem kept4_v11 (V : Valuation τ sig (Elt F)) : after st4 V (Proc.devRef .tc main_v11) = V (Proc.devRef .tc main_v11) := by stretch_keeps st4
theorem kept4_v13 (V : Valuation τ sig (Elt F)) : after st4 V (Proc.devRef .tc main_v13) = V (Proc.devRef .tc main_v13) := by stretch_keeps st4
theorem kept5_arg10 (V : Valuation τ sig (Elt F)) : after st5 V (Proc.devRef .tc main_arg10) = V (Proc.devRef .tc main_arg10) := by stretch_keeps st5
theorem kept5_arg11 (V : Valuation τ sig (Elt F)) : after st5 V (Proc.devRef .tc main_arg11) = V (Proc.devRef .tc main_arg11) := by stretch_keeps st5
theorem kept5_arg12 (V : Valuation τ sig (Elt F)) : after st5 V (Proc.devRef .tc main_arg12) = V (Proc.devRef .tc main_arg12) := by stretch_keeps st5
theorem kept5_arg13 (V : Valuation τ sig (Elt F)) : after st5 V (Proc.devRef .tc main_arg13) = V (Proc.devRef .tc main_arg13) := by stretch_keeps st5
theorem kept5_arg14 (V : Valuation τ sig (Elt F)) : after st5 V (Proc.devRef .tc main_arg14) = V (Proc.devRef .tc main_arg14) := by stretch_keeps st5
theorem kept5_arg15 (V : Valuation τ sig (Elt F)) : after st5 V (Proc.devRef .tc main_arg15) = V (Proc.devRef .tc main_arg15) := by stretch_keeps st5
theorem kept5_arg16 (V : Valuation τ sig (Elt F)) : after st5 V (Proc.devRef .tc main_arg16) = V (Proc.devRef .tc main_arg16) := by stretch_keeps st5
theorem kept5_arg17 (V : Valuation τ sig (Elt F)) : after st5 V (Proc.devRef .tc main_arg17) = V (Proc.devRef .tc main_arg17) := by stretch_keeps st5
theorem kept5_arg18 (V : Valuation τ sig (Elt F)) : after st5 V (Proc.devRef .tc main_arg18) = V (Proc.devRef .tc main_arg18) := by stretch_keeps st5
theorem kept5_arg2 (V : Valuation τ sig (Elt F)) : after st5 V (Proc.devRef .tc main_arg2) = V (Proc.devRef .tc main_arg2) := by stretch_keeps st5
theorem kept5_arg7 (V : Valuation τ sig (Elt F)) : after st5 V (Proc.devRef .tc main_arg7) = V (Proc.devRef .tc main_arg7) := by stretch_keeps st5
theorem kept5_arg8 (V : Valuation τ sig (Elt F)) : after st5 V (Proc.devRef .tc main_arg8) = V (Proc.devRef .tc main_arg8) := by stretch_keeps st5
theorem kept5_arg9 (V : Valuation τ sig (Elt F)) : after st5 V (Proc.devRef .tc main_arg9) = V (Proc.devRef .tc main_arg9) := by stretch_keeps st5
theorem kept5_v13 (V : Valuation τ sig (Elt F)) : after st5 V (Proc.devRef .tc main_v13) = V (Proc.devRef .tc main_v13) := by stretch_keeps st5
theorem kept5_v69 (V : Valuation τ sig (Elt F)) : after st5 V (Proc.devRef .tc main_v69) = V (Proc.devRef .tc main_v69) := by stretch_keeps st5
theorem kept6_arg11 (V : Valuation τ sig (Elt F)) : after st6 V (Proc.devRef .tc main_arg11) = V (Proc.devRef .tc main_arg11) := by stretch_keeps st6
theorem kept6_arg12 (V : Valuation τ sig (Elt F)) : after st6 V (Proc.devRef .tc main_arg12) = V (Proc.devRef .tc main_arg12) := by stretch_keeps st6
theorem kept6_arg13 (V : Valuation τ sig (Elt F)) : after st6 V (Proc.devRef .tc main_arg13) = V (Proc.devRef .tc main_arg13) := by stretch_keeps st6
theorem kept6_arg14 (V : Valuation τ sig (Elt F)) : after st6 V (Proc.devRef .tc main_arg14) = V (Proc.devRef .tc main_arg14) := by stretch_keeps st6
theorem kept6_arg15 (V : Valuation τ sig (Elt F)) : after st6 V (Proc.devRef .tc main_arg15) = V (Proc.devRef .tc main_arg15) := by stretch_keeps st6
theorem kept6_arg16 (V : Valuation τ sig (Elt F)) : after st6 V (Proc.devRef .tc main_arg16) = V (Proc.devRef .tc main_arg16) := by stretch_keeps st6
theorem kept6_arg17 (V : Valuation τ sig (Elt F)) : after st6 V (Proc.devRef .tc main_arg17) = V (Proc.devRef .tc main_arg17) := by stretch_keeps st6
theorem kept6_arg18 (V : Valuation τ sig (Elt F)) : after st6 V (Proc.devRef .tc main_arg18) = V (Proc.devRef .tc main_arg18) := by stretch_keeps st6
theorem kept6_v13 (V : Valuation τ sig (Elt F)) : after st6 V (Proc.devRef .tc main_v13) = V (Proc.devRef .tc main_v13) := by stretch_keeps st6
theorem kept6_v69 (V : Valuation τ sig (Elt F)) : after st6 V (Proc.devRef .tc main_v69) = V (Proc.devRef .tc main_v69) := by stretch_keeps st6
theorem kept7_arg11 (V : Valuation τ sig (Elt F)) : after st7 V (Proc.devRef .tc main_arg11) = V (Proc.devRef .tc main_arg11) := by stretch_keeps st7
theorem kept7_arg12 (V : Valuation τ sig (Elt F)) : after st7 V (Proc.devRef .tc main_arg12) = V (Proc.devRef .tc main_arg12) := by stretch_keeps st7
theorem kept7_arg13 (V : Valuation τ sig (Elt F)) : after st7 V (Proc.devRef .tc main_arg13) = V (Proc.devRef .tc main_arg13) := by stretch_keeps st7
theorem kept7_arg14 (V : Valuation τ sig (Elt F)) : after st7 V (Proc.devRef .tc main_arg14) = V (Proc.devRef .tc main_arg14) := by stretch_keeps st7
theorem kept7_arg15 (V : Valuation τ sig (Elt F)) : after st7 V (Proc.devRef .tc main_arg15) = V (Proc.devRef .tc main_arg15) := by stretch_keeps st7
theorem kept7_arg16 (V : Valuation τ sig (Elt F)) : after st7 V (Proc.devRef .tc main_arg16) = V (Proc.devRef .tc main_arg16) := by stretch_keeps st7
theorem kept7_arg17 (V : Valuation τ sig (Elt F)) : after st7 V (Proc.devRef .tc main_arg17) = V (Proc.devRef .tc main_arg17) := by stretch_keeps st7
theorem kept7_arg18 (V : Valuation τ sig (Elt F)) : after st7 V (Proc.devRef .tc main_arg18) = V (Proc.devRef .tc main_arg18) := by stretch_keeps st7
theorem kept7_v69 (V : Valuation τ sig (Elt F)) : after st7 V (Proc.devRef .tc main_v69) = V (Proc.devRef .tc main_v69) := by stretch_keeps st7
theorem kept8_arg15 (V : Valuation τ sig (Elt F)) : after st8 V (Proc.devRef .tc main_arg15) = V (Proc.devRef .tc main_arg15) := by stretch_keeps st8
theorem kept8_arg16 (V : Valuation τ sig (Elt F)) : after st8 V (Proc.devRef .tc main_arg16) = V (Proc.devRef .tc main_arg16) := by stretch_keeps st8
theorem kept8_arg17 (V : Valuation τ sig (Elt F)) : after st8 V (Proc.devRef .tc main_arg17) = V (Proc.devRef .tc main_arg17) := by stretch_keeps st8
theorem kept8_arg18 (V : Valuation τ sig (Elt F)) : after st8 V (Proc.devRef .tc main_arg18) = V (Proc.devRef .tc main_arg18) := by stretch_keeps st8

/-! ## The contents at each cut, from the launch memory -/

/-- The launch contents. -/
def RW0 (m : (ℓ : Loc nD τ sig) → Buf (Elt F) ℓ) (c : Dev nD) : Valuation τ sig (Elt F) := launchContents m c
/-- The contents after stretch 0. -/
def RW1 (m : (ℓ : Loc nD τ sig) → Buf (Elt F) ℓ) (c : Dev nD) : Valuation τ sig (Elt F) := after st0 (RW0 m c)
/-- The contents after stretch 1. -/
def RW2 (m : (ℓ : Loc nD τ sig) → Buf (Elt F) ℓ) (c : Dev nD) : Valuation τ sig (Elt F) := after st1 (RW1 m c)
/-- The contents after stretch 2. -/
def RW3 (m : (ℓ : Loc nD τ sig) → Buf (Elt F) ℓ) (c : Dev nD) : Valuation τ sig (Elt F) := after st2 (RW2 m c)
/-- The contents after stretch 3. -/
def RW4 (m : (ℓ : Loc nD τ sig) → Buf (Elt F) ℓ) (c : Dev nD) : Valuation τ sig (Elt F) := after st3 (RW3 m c)
/-- The contents after stretch 4. -/
def RW5 (m : (ℓ : Loc nD τ sig) → Buf (Elt F) ℓ) (c : Dev nD) : Valuation τ sig (Elt F) := after st4 (RW4 m c)
/-- The contents after stretch 5. -/
def RW6 (m : (ℓ : Loc nD τ sig) → Buf (Elt F) ℓ) (c : Dev nD) : Valuation τ sig (Elt F) := after st5 (RW5 m c)
/-- The contents after stretch 6. -/
def RW7 (m : (ℓ : Loc nD τ sig) → Buf (Elt F) ℓ) (c : Dev nD) : Valuation τ sig (Elt F) := after st6 (RW6 m c)
/-- The contents after stretch 7. -/
def RW8 (m : (ℓ : Loc nD τ sig) → Buf (Elt F) ℓ) (c : Dev nD) : Valuation τ sig (Elt F) := after st7 (RW7 m c)
/-- The contents after stretch 8. -/
def RW9 (m : (ℓ : Loc nD τ sig) → Buf (Elt F) ℓ) (c : Dev nD) : Valuation τ sig (Elt F) := after st8 (RW8 m c)
/-- The contents after stretch 9. -/
def RW10 (m : (ℓ : Loc nD τ sig) → Buf (Elt F) ℓ) (c : Dev nD) : Valuation τ sig (Elt F) := after st9 (RW9 m c)

theorem farg0_0 (m : (ℓ : Loc nD τ sig) → Buf (Elt F) ℓ) (c : Dev nD) :
    RW0 m c (Proc.devRef .tc main_arg0) = (m ((c.tc : Thread nD τ).loc main_arg0)) :=
  rfl

theorem farg0_3 (m : (ℓ : Loc nD τ sig) → Buf (Elt F) ℓ) (c : Dev nD) :
    RW0 m c (Proc.devRef .tc main_arg3) = (m ((c.tc : Thread nD τ).loc main_arg3)) :=
  rfl

theorem farg0_4 (m : (ℓ : Loc nD τ sig) → Buf (Elt F) ℓ) (c : Dev nD) :
    RW0 m c (Proc.devRef .tc main_arg4) = (m ((c.tc : Thread nD τ).loc main_arg4)) :=
  rfl

theorem farg0_5 (m : (ℓ : Loc nD τ sig) → Buf (Elt F) ℓ) (c : Dev nD) :
    RW0 m c (Proc.devRef .tc main_arg5) = (m ((c.tc : Thread nD τ).loc main_arg5)) :=
  rfl

theorem farg0_6 (m : (ℓ : Loc nD τ sig) → Buf (Elt F) ℓ) (c : Dev nD) :
    RW0 m c (Proc.devRef .tc main_arg6) = (m ((c.tc : Thread nD τ).loc main_arg6)) :=
  rfl

theorem fbuf1_v9 (m : (ℓ : Loc nD τ sig) → Buf (Elt F) ℓ) (c : Dev nD) :
    RW1 m c (Proc.devRef .tc main_v9) = val_main_v9 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) :=
  read0_v9 (RW0 m c) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (farg0_0 m c) (farg0_3 m c) (farg0_4 m c) (farg0_5 m c) (farg0_6 m c)

theorem fbuf2_v9 (m : (ℓ : Loc nD τ sig) → Buf (Elt F) ℓ) (c : Dev nD) :
    RW2 m c (Proc.devRef .tc main_v9) = val_main_v9 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) :=
  (kept1_v9 (RW1 m c)).trans (fbuf1_v9 m c)

theorem fbuf3_v9 (m : (ℓ : Loc nD τ sig) → Buf (Elt F) ℓ) (c : Dev nD) :
    RW3 m c (Proc.devRef .tc main_v9) = val_main_v9 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) :=
  (kept2_v9 (RW2 m c)).trans (fbuf2_v9 m c)

theorem fbuf4_v9 (m : (ℓ : Loc nD τ sig) → Buf (Elt F) ℓ) (c : Dev nD) :
    RW4 m c (Proc.devRef .tc main_v9) = val_main_v9 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) :=
  (kept3_v9 (RW3 m c)).trans (fbuf3_v9 m c)

theorem farg0_1 (m : (ℓ : Loc nD τ sig) → Buf (Elt F) ℓ) (c : Dev nD) :
    RW0 m c (Proc.devRef .tc main_arg1) = (m ((c.tc : Thread nD τ).loc main_arg1)) :=
  rfl

theorem farg1_1 (m : (ℓ : Loc nD τ sig) → Buf (Elt F) ℓ) (c : Dev nD) :
    RW1 m c (Proc.devRef .tc main_arg1) = (m ((c.tc : Thread nD τ).loc main_arg1)) :=
  (kept0_arg1 (RW0 m c)).trans (farg0_1 m c)

theorem fbuf2_v13 (m : (ℓ : Loc nD τ sig) → Buf (Elt F) ℓ) (c : Dev nD) :
    RW2 m c (Proc.devRef .tc main_v13) = val_main_v13 (F := F) (m ((c.tc : Thread nD τ).loc main_arg1)) :=
  read1_v13 (RW1 m c) (m ((c.tc : Thread nD τ).loc main_arg1)) (farg1_1 m c)

theorem fbuf3_v13 (m : (ℓ : Loc nD τ sig) → Buf (Elt F) ℓ) (c : Dev nD) :
    RW3 m c (Proc.devRef .tc main_v13) = val_main_v13 (F := F) (m ((c.tc : Thread nD τ).loc main_arg1)) :=
  (kept2_v13 (RW2 m c)).trans (fbuf2_v13 m c)

theorem fbuf2_v20 (m : (ℓ : Loc nD τ sig) → Buf (Elt F) ℓ) (c : Dev nD) :
    RW2 m c (Proc.devRef .tc main_v20) = val_main_v20 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) :=
  read1_v20 (RW1 m c) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (fbuf1_v9 m c) (farg1_1 m c)

theorem fbuf2_v27 (m : (ℓ : Loc nD τ sig) → Buf (Elt F) ℓ) (c : Dev nD) :
    RW2 m c (Proc.devRef .tc main_v27) = val_main_v27 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) :=
  read1_v27 (RW1 m c) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (fbuf1_v9 m c) (farg1_1 m c)

theorem farg0_2 (m : (ℓ : Loc nD τ sig) → Buf (Elt F) ℓ) (c : Dev nD) :
    RW0 m c (Proc.devRef .tc main_arg2) = (m ((c.tc : Thread nD τ).loc main_arg2)) :=
  rfl

theorem farg1_2 (m : (ℓ : Loc nD τ sig) → Buf (Elt F) ℓ) (c : Dev nD) :
    RW1 m c (Proc.devRef .tc main_arg2) = (m ((c.tc : Thread nD τ).loc main_arg2)) :=
  (kept0_arg2 (RW0 m c)).trans (farg0_2 m c)

theorem farg2_2 (m : (ℓ : Loc nD τ sig) → Buf (Elt F) ℓ) (c : Dev nD) :
    RW2 m c (Proc.devRef .tc main_arg2) = (m ((c.tc : Thread nD τ).loc main_arg2)) :=
  (kept1_arg2 (RW1 m c)).trans (farg1_2 m c)

theorem farg0_7 (m : (ℓ : Loc nD τ sig) → Buf (Elt F) ℓ) (c : Dev nD) :
    RW0 m c (Proc.devRef .tc main_arg7) = (m ((c.tc : Thread nD τ).loc main_arg7)) :=
  rfl

theorem farg1_7 (m : (ℓ : Loc nD τ sig) → Buf (Elt F) ℓ) (c : Dev nD) :
    RW1 m c (Proc.devRef .tc main_arg7) = (m ((c.tc : Thread nD τ).loc main_arg7)) :=
  (kept0_arg7 (RW0 m c)).trans (farg0_7 m c)

theorem farg2_7 (m : (ℓ : Loc nD τ sig) → Buf (Elt F) ℓ) (c : Dev nD) :
    RW2 m c (Proc.devRef .tc main_arg7) = (m ((c.tc : Thread nD τ).loc main_arg7)) :=
  (kept1_arg7 (RW1 m c)).trans (farg1_7 m c)

theorem farg0_8 (m : (ℓ : Loc nD τ sig) → Buf (Elt F) ℓ) (c : Dev nD) :
    RW0 m c (Proc.devRef .tc main_arg8) = (m ((c.tc : Thread nD τ).loc main_arg8)) :=
  rfl

theorem farg1_8 (m : (ℓ : Loc nD τ sig) → Buf (Elt F) ℓ) (c : Dev nD) :
    RW1 m c (Proc.devRef .tc main_arg8) = (m ((c.tc : Thread nD τ).loc main_arg8)) :=
  (kept0_arg8 (RW0 m c)).trans (farg0_8 m c)

theorem farg2_8 (m : (ℓ : Loc nD τ sig) → Buf (Elt F) ℓ) (c : Dev nD) :
    RW2 m c (Proc.devRef .tc main_arg8) = (m ((c.tc : Thread nD τ).loc main_arg8)) :=
  (kept1_arg8 (RW1 m c)).trans (farg1_8 m c)

theorem farg0_9 (m : (ℓ : Loc nD τ sig) → Buf (Elt F) ℓ) (c : Dev nD) :
    RW0 m c (Proc.devRef .tc main_arg9) = (m ((c.tc : Thread nD τ).loc main_arg9)) :=
  rfl

theorem farg1_9 (m : (ℓ : Loc nD τ sig) → Buf (Elt F) ℓ) (c : Dev nD) :
    RW1 m c (Proc.devRef .tc main_arg9) = (m ((c.tc : Thread nD τ).loc main_arg9)) :=
  (kept0_arg9 (RW0 m c)).trans (farg0_9 m c)

theorem farg2_9 (m : (ℓ : Loc nD τ sig) → Buf (Elt F) ℓ) (c : Dev nD) :
    RW2 m c (Proc.devRef .tc main_arg9) = (m ((c.tc : Thread nD τ).loc main_arg9)) :=
  (kept1_arg9 (RW1 m c)).trans (farg1_9 m c)

theorem farg0_10 (m : (ℓ : Loc nD τ sig) → Buf (Elt F) ℓ) (c : Dev nD) :
    RW0 m c (Proc.devRef .tc main_arg10) = (m ((c.tc : Thread nD τ).loc main_arg10)) :=
  rfl

theorem farg1_10 (m : (ℓ : Loc nD τ sig) → Buf (Elt F) ℓ) (c : Dev nD) :
    RW1 m c (Proc.devRef .tc main_arg10) = (m ((c.tc : Thread nD τ).loc main_arg10)) :=
  (kept0_arg10 (RW0 m c)).trans (farg0_10 m c)

theorem farg2_10 (m : (ℓ : Loc nD τ sig) → Buf (Elt F) ℓ) (c : Dev nD) :
    RW2 m c (Proc.devRef .tc main_arg10) = (m ((c.tc : Thread nD τ).loc main_arg10)) :=
  (kept1_arg10 (RW1 m c)).trans (farg1_10 m c)

theorem fbuf3_v46 (m : (ℓ : Loc nD τ sig) → Buf (Elt F) ℓ) (c : Dev nD) :
    RW3 m c (Proc.devRef .tc main_v46) = val_main_v46 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  read2_v46 (RW2 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (fbuf2_v20 m c) (fbuf2_v27 m c) (farg2_2 m c) (farg2_7 m c) (farg2_8 m c) (farg2_9 m c) (farg2_10 m c)

theorem fbuf4_v49 (m : (ℓ : Loc nD τ sig) → Buf (Elt F) ℓ) (c : Dev nD) :
    RW4 m c (Proc.devRef .tc main_v49) = val_main_v49 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  read3_v49 (RW3 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (fbuf3_v13 m c) (fbuf3_v46 m c)

theorem farg0_11 (m : (ℓ : Loc nD τ sig) → Buf (Elt F) ℓ) (c : Dev nD) :
    RW0 m c (Proc.devRef .tc main_arg11) = (m ((c.tc : Thread nD τ).loc main_arg11)) :=
  rfl

theorem farg1_11 (m : (ℓ : Loc nD τ sig) → Buf (Elt F) ℓ) (c : Dev nD) :
    RW1 m c (Proc.devRef .tc main_arg11) = (m ((c.tc : Thread nD τ).loc main_arg11)) :=
  (kept0_arg11 (RW0 m c)).trans (farg0_11 m c)

theorem farg2_11 (m : (ℓ : Loc nD τ sig) → Buf (Elt F) ℓ) (c : Dev nD) :
    RW2 m c (Proc.devRef .tc main_arg11) = (m ((c.tc : Thread nD τ).loc main_arg11)) :=
  (kept1_arg11 (RW1 m c)).trans (farg1_11 m c)

theorem farg3_11 (m : (ℓ : Loc nD τ sig) → Buf (Elt F) ℓ) (c : Dev nD) :
    RW3 m c (Proc.devRef .tc main_arg11) = (m ((c.tc : Thread nD τ).loc main_arg11)) :=
  (kept2_arg11 (RW2 m c)).trans (farg2_11 m c)

theorem farg4_11 (m : (ℓ : Loc nD τ sig) → Buf (Elt F) ℓ) (c : Dev nD) :
    RW4 m c (Proc.devRef .tc main_arg11) = (m ((c.tc : Thread nD τ).loc main_arg11)) :=
  (kept3_arg11 (RW3 m c)).trans (farg3_11 m c)

theorem farg0_12 (m : (ℓ : Loc nD τ sig) → Buf (Elt F) ℓ) (c : Dev nD) :
    RW0 m c (Proc.devRef .tc main_arg12) = (m ((c.tc : Thread nD τ).loc main_arg12)) :=
  rfl

theorem farg1_12 (m : (ℓ : Loc nD τ sig) → Buf (Elt F) ℓ) (c : Dev nD) :
    RW1 m c (Proc.devRef .tc main_arg12) = (m ((c.tc : Thread nD τ).loc main_arg12)) :=
  (kept0_arg12 (RW0 m c)).trans (farg0_12 m c)

theorem farg2_12 (m : (ℓ : Loc nD τ sig) → Buf (Elt F) ℓ) (c : Dev nD) :
    RW2 m c (Proc.devRef .tc main_arg12) = (m ((c.tc : Thread nD τ).loc main_arg12)) :=
  (kept1_arg12 (RW1 m c)).trans (farg1_12 m c)

theorem farg3_12 (m : (ℓ : Loc nD τ sig) → Buf (Elt F) ℓ) (c : Dev nD) :
    RW3 m c (Proc.devRef .tc main_arg12) = (m ((c.tc : Thread nD τ).loc main_arg12)) :=
  (kept2_arg12 (RW2 m c)).trans (farg2_12 m c)

theorem farg4_12 (m : (ℓ : Loc nD τ sig) → Buf (Elt F) ℓ) (c : Dev nD) :
    RW4 m c (Proc.devRef .tc main_arg12) = (m ((c.tc : Thread nD τ).loc main_arg12)) :=
  (kept3_arg12 (RW3 m c)).trans (farg3_12 m c)

theorem farg0_13 (m : (ℓ : Loc nD τ sig) → Buf (Elt F) ℓ) (c : Dev nD) :
    RW0 m c (Proc.devRef .tc main_arg13) = (m ((c.tc : Thread nD τ).loc main_arg13)) :=
  rfl

theorem farg1_13 (m : (ℓ : Loc nD τ sig) → Buf (Elt F) ℓ) (c : Dev nD) :
    RW1 m c (Proc.devRef .tc main_arg13) = (m ((c.tc : Thread nD τ).loc main_arg13)) :=
  (kept0_arg13 (RW0 m c)).trans (farg0_13 m c)

theorem farg2_13 (m : (ℓ : Loc nD τ sig) → Buf (Elt F) ℓ) (c : Dev nD) :
    RW2 m c (Proc.devRef .tc main_arg13) = (m ((c.tc : Thread nD τ).loc main_arg13)) :=
  (kept1_arg13 (RW1 m c)).trans (farg1_13 m c)

theorem farg3_13 (m : (ℓ : Loc nD τ sig) → Buf (Elt F) ℓ) (c : Dev nD) :
    RW3 m c (Proc.devRef .tc main_arg13) = (m ((c.tc : Thread nD τ).loc main_arg13)) :=
  (kept2_arg13 (RW2 m c)).trans (farg2_13 m c)

theorem farg4_13 (m : (ℓ : Loc nD τ sig) → Buf (Elt F) ℓ) (c : Dev nD) :
    RW4 m c (Proc.devRef .tc main_arg13) = (m ((c.tc : Thread nD τ).loc main_arg13)) :=
  (kept3_arg13 (RW3 m c)).trans (farg3_13 m c)

theorem farg0_14 (m : (ℓ : Loc nD τ sig) → Buf (Elt F) ℓ) (c : Dev nD) :
    RW0 m c (Proc.devRef .tc main_arg14) = (m ((c.tc : Thread nD τ).loc main_arg14)) :=
  rfl

theorem farg1_14 (m : (ℓ : Loc nD τ sig) → Buf (Elt F) ℓ) (c : Dev nD) :
    RW1 m c (Proc.devRef .tc main_arg14) = (m ((c.tc : Thread nD τ).loc main_arg14)) :=
  (kept0_arg14 (RW0 m c)).trans (farg0_14 m c)

theorem farg2_14 (m : (ℓ : Loc nD τ sig) → Buf (Elt F) ℓ) (c : Dev nD) :
    RW2 m c (Proc.devRef .tc main_arg14) = (m ((c.tc : Thread nD τ).loc main_arg14)) :=
  (kept1_arg14 (RW1 m c)).trans (farg1_14 m c)

theorem farg3_14 (m : (ℓ : Loc nD τ sig) → Buf (Elt F) ℓ) (c : Dev nD) :
    RW3 m c (Proc.devRef .tc main_arg14) = (m ((c.tc : Thread nD τ).loc main_arg14)) :=
  (kept2_arg14 (RW2 m c)).trans (farg2_14 m c)

theorem farg4_14 (m : (ℓ : Loc nD τ sig) → Buf (Elt F) ℓ) (c : Dev nD) :
    RW4 m c (Proc.devRef .tc main_arg14) = (m ((c.tc : Thread nD τ).loc main_arg14)) :=
  (kept3_arg14 (RW3 m c)).trans (farg3_14 m c)

theorem fbuf5_v69 (m : (ℓ : Loc nD τ sig) → Buf (Elt F) ℓ) (c : Dev nD) :
    RW5 m c (Proc.devRef .tc main_v69) = val_main_v69 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  read4_v69 (RW4 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (fbuf4_v9 m c) (fbuf4_v49 m c) (farg4_11 m c) (farg4_12 m c) (farg4_13 m c) (farg4_14 m c)

theorem fbuf6_v69 (m : (ℓ : Loc nD τ sig) → Buf (Elt F) ℓ) (c : Dev nD) :
    RW6 m c (Proc.devRef .tc main_v69) = val_main_v69 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (kept5_v69 (RW5 m c)).trans (fbuf5_v69 m c)

theorem fbuf7_v69 (m : (ℓ : Loc nD τ sig) → Buf (Elt F) ℓ) (c : Dev nD) :
    RW7 m c (Proc.devRef .tc main_v69) = val_main_v69 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (kept6_v69 (RW6 m c)).trans (fbuf6_v69 m c)

theorem fbuf8_v69 (m : (ℓ : Loc nD τ sig) → Buf (Elt F) ℓ) (c : Dev nD) :
    RW8 m c (Proc.devRef .tc main_v69) = val_main_v69 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (kept7_v69 (RW7 m c)).trans (fbuf7_v69 m c)

theorem fbuf4_v13 (m : (ℓ : Loc nD τ sig) → Buf (Elt F) ℓ) (c : Dev nD) :
    RW4 m c (Proc.devRef .tc main_v13) = val_main_v13 (F := F) (m ((c.tc : Thread nD τ).loc main_arg1)) :=
  (kept3_v13 (RW3 m c)).trans (fbuf3_v13 m c)

theorem fbuf5_v13 (m : (ℓ : Loc nD τ sig) → Buf (Elt F) ℓ) (c : Dev nD) :
    RW5 m c (Proc.devRef .tc main_v13) = val_main_v13 (F := F) (m ((c.tc : Thread nD τ).loc main_arg1)) :=
  (kept4_v13 (RW4 m c)).trans (fbuf4_v13 m c)

theorem fbuf6_v13 (m : (ℓ : Loc nD τ sig) → Buf (Elt F) ℓ) (c : Dev nD) :
    RW6 m c (Proc.devRef .tc main_v13) = val_main_v13 (F := F) (m ((c.tc : Thread nD τ).loc main_arg1)) :=
  (kept5_v13 (RW5 m c)).trans (fbuf5_v13 m c)

theorem fbuf7_v13 (m : (ℓ : Loc nD τ sig) → Buf (Elt F) ℓ) (c : Dev nD) :
    RW7 m c (Proc.devRef .tc main_v13) = val_main_v13 (F := F) (m ((c.tc : Thread nD τ).loc main_arg1)) :=
  (kept6_v13 (RW6 m c)).trans (fbuf6_v13 m c)

theorem fbuf2_v11 (m : (ℓ : Loc nD τ sig) → Buf (Elt F) ℓ) (c : Dev nD) :
    RW2 m c (Proc.devRef .tc main_v11) = val_main_v11 (F := F) (m ((c.tc : Thread nD τ).loc main_arg1)) :=
  read1_v11 (RW1 m c) (m ((c.tc : Thread nD τ).loc main_arg1)) (farg1_1 m c)

theorem fbuf3_v11 (m : (ℓ : Loc nD τ sig) → Buf (Elt F) ℓ) (c : Dev nD) :
    RW3 m c (Proc.devRef .tc main_v11) = val_main_v11 (F := F) (m ((c.tc : Thread nD τ).loc main_arg1)) :=
  (kept2_v11 (RW2 m c)).trans (fbuf2_v11 m c)

theorem fbuf4_v11 (m : (ℓ : Loc nD τ sig) → Buf (Elt F) ℓ) (c : Dev nD) :
    RW4 m c (Proc.devRef .tc main_v11) = val_main_v11 (F := F) (m ((c.tc : Thread nD τ).loc main_arg1)) :=
  (kept3_v11 (RW3 m c)).trans (fbuf3_v11 m c)

theorem fbuf5_v11 (m : (ℓ : Loc nD τ sig) → Buf (Elt F) ℓ) (c : Dev nD) :
    RW5 m c (Proc.devRef .tc main_v11) = val_main_v11 (F := F) (m ((c.tc : Thread nD τ).loc main_arg1)) :=
  (kept4_v11 (RW4 m c)).trans (fbuf4_v11 m c)

theorem fbuf6_v76 (m : (ℓ : Loc nD τ sig) → Buf (Elt F) ℓ) (c : Dev nD) :
    RW6 m c (Proc.devRef .tc main_v76) = val_main_v76 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  read5_v76 (RW5 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (fbuf5_v69 m c) (fbuf5_v11 m c)

theorem fbuf6_v83 (m : (ℓ : Loc nD τ sig) → Buf (Elt F) ℓ) (c : Dev nD) :
    RW6 m c (Proc.devRef .tc main_v83) = val_main_v83 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  read5_v83 (RW5 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (fbuf5_v69 m c) (fbuf5_v13 m c)

theorem farg3_2 (m : (ℓ : Loc nD τ sig) → Buf (Elt F) ℓ) (c : Dev nD) :
    RW3 m c (Proc.devRef .tc main_arg2) = (m ((c.tc : Thread nD τ).loc main_arg2)) :=
  (kept2_arg2 (RW2 m c)).trans (farg2_2 m c)

theorem farg4_2 (m : (ℓ : Loc nD τ sig) → Buf (Elt F) ℓ) (c : Dev nD) :
    RW4 m c (Proc.devRef .tc main_arg2) = (m ((c.tc : Thread nD τ).loc main_arg2)) :=
  (kept3_arg2 (RW3 m c)).trans (farg3_2 m c)

theorem farg5_2 (m : (ℓ : Loc nD τ sig) → Buf (Elt F) ℓ) (c : Dev nD) :
    RW5 m c (Proc.devRef .tc main_arg2) = (m ((c.tc : Thread nD τ).loc main_arg2)) :=
  (kept4_arg2 (RW4 m c)).trans (farg4_2 m c)

theorem farg6_2 (m : (ℓ : Loc nD τ sig) → Buf (Elt F) ℓ) (c : Dev nD) :
    RW6 m c (Proc.devRef .tc main_arg2) = (m ((c.tc : Thread nD τ).loc main_arg2)) :=
  (kept5_arg2 (RW5 m c)).trans (farg5_2 m c)

theorem farg3_7 (m : (ℓ : Loc nD τ sig) → Buf (Elt F) ℓ) (c : Dev nD) :
    RW3 m c (Proc.devRef .tc main_arg7) = (m ((c.tc : Thread nD τ).loc main_arg7)) :=
  (kept2_arg7 (RW2 m c)).trans (farg2_7 m c)

theorem farg4_7 (m : (ℓ : Loc nD τ sig) → Buf (Elt F) ℓ) (c : Dev nD) :
    RW4 m c (Proc.devRef .tc main_arg7) = (m ((c.tc : Thread nD τ).loc main_arg7)) :=
  (kept3_arg7 (RW3 m c)).trans (farg3_7 m c)

theorem farg5_7 (m : (ℓ : Loc nD τ sig) → Buf (Elt F) ℓ) (c : Dev nD) :
    RW5 m c (Proc.devRef .tc main_arg7) = (m ((c.tc : Thread nD τ).loc main_arg7)) :=
  (kept4_arg7 (RW4 m c)).trans (farg4_7 m c)

theorem farg6_7 (m : (ℓ : Loc nD τ sig) → Buf (Elt F) ℓ) (c : Dev nD) :
    RW6 m c (Proc.devRef .tc main_arg7) = (m ((c.tc : Thread nD τ).loc main_arg7)) :=
  (kept5_arg7 (RW5 m c)).trans (farg5_7 m c)

theorem farg3_8 (m : (ℓ : Loc nD τ sig) → Buf (Elt F) ℓ) (c : Dev nD) :
    RW3 m c (Proc.devRef .tc main_arg8) = (m ((c.tc : Thread nD τ).loc main_arg8)) :=
  (kept2_arg8 (RW2 m c)).trans (farg2_8 m c)

theorem farg4_8 (m : (ℓ : Loc nD τ sig) → Buf (Elt F) ℓ) (c : Dev nD) :
    RW4 m c (Proc.devRef .tc main_arg8) = (m ((c.tc : Thread nD τ).loc main_arg8)) :=
  (kept3_arg8 (RW3 m c)).trans (farg3_8 m c)

theorem farg5_8 (m : (ℓ : Loc nD τ sig) → Buf (Elt F) ℓ) (c : Dev nD) :
    RW5 m c (Proc.devRef .tc main_arg8) = (m ((c.tc : Thread nD τ).loc main_arg8)) :=
  (kept4_arg8 (RW4 m c)).trans (farg4_8 m c)

theorem farg6_8 (m : (ℓ : Loc nD τ sig) → Buf (Elt F) ℓ) (c : Dev nD) :
    RW6 m c (Proc.devRef .tc main_arg8) = (m ((c.tc : Thread nD τ).loc main_arg8)) :=
  (kept5_arg8 (RW5 m c)).trans (farg5_8 m c)

theorem farg3_9 (m : (ℓ : Loc nD τ sig) → Buf (Elt F) ℓ) (c : Dev nD) :
    RW3 m c (Proc.devRef .tc main_arg9) = (m ((c.tc : Thread nD τ).loc main_arg9)) :=
  (kept2_arg9 (RW2 m c)).trans (farg2_9 m c)

theorem farg4_9 (m : (ℓ : Loc nD τ sig) → Buf (Elt F) ℓ) (c : Dev nD) :
    RW4 m c (Proc.devRef .tc main_arg9) = (m ((c.tc : Thread nD τ).loc main_arg9)) :=
  (kept3_arg9 (RW3 m c)).trans (farg3_9 m c)

theorem farg5_9 (m : (ℓ : Loc nD τ sig) → Buf (Elt F) ℓ) (c : Dev nD) :
    RW5 m c (Proc.devRef .tc main_arg9) = (m ((c.tc : Thread nD τ).loc main_arg9)) :=
  (kept4_arg9 (RW4 m c)).trans (farg4_9 m c)

theorem farg6_9 (m : (ℓ : Loc nD τ sig) → Buf (Elt F) ℓ) (c : Dev nD) :
    RW6 m c (Proc.devRef .tc main_arg9) = (m ((c.tc : Thread nD τ).loc main_arg9)) :=
  (kept5_arg9 (RW5 m c)).trans (farg5_9 m c)

theorem farg3_10 (m : (ℓ : Loc nD τ sig) → Buf (Elt F) ℓ) (c : Dev nD) :
    RW3 m c (Proc.devRef .tc main_arg10) = (m ((c.tc : Thread nD τ).loc main_arg10)) :=
  (kept2_arg10 (RW2 m c)).trans (farg2_10 m c)

theorem farg4_10 (m : (ℓ : Loc nD τ sig) → Buf (Elt F) ℓ) (c : Dev nD) :
    RW4 m c (Proc.devRef .tc main_arg10) = (m ((c.tc : Thread nD τ).loc main_arg10)) :=
  (kept3_arg10 (RW3 m c)).trans (farg3_10 m c)

theorem farg5_10 (m : (ℓ : Loc nD τ sig) → Buf (Elt F) ℓ) (c : Dev nD) :
    RW5 m c (Proc.devRef .tc main_arg10) = (m ((c.tc : Thread nD τ).loc main_arg10)) :=
  (kept4_arg10 (RW4 m c)).trans (farg4_10 m c)

theorem farg6_10 (m : (ℓ : Loc nD τ sig) → Buf (Elt F) ℓ) (c : Dev nD) :
    RW6 m c (Proc.devRef .tc main_arg10) = (m ((c.tc : Thread nD τ).loc main_arg10)) :=
  (kept5_arg10 (RW5 m c)).trans (farg5_10 m c)

theorem fbuf7_v102 (m : (ℓ : Loc nD τ sig) → Buf (Elt F) ℓ) (c : Dev nD) :
    RW7 m c (Proc.devRef .tc main_v102) = val_main_v102 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  read6_v102 (RW6 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (fbuf6_v76 m c) (fbuf6_v83 m c) (farg6_2 m c) (farg6_7 m c) (farg6_8 m c) (farg6_9 m c) (farg6_10 m c)

theorem fbuf8_v105 (m : (ℓ : Loc nD τ sig) → Buf (Elt F) ℓ) (c : Dev nD) :
    RW8 m c (Proc.devRef .tc main_v105) = val_main_v105 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  read7_v105 (RW7 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (fbuf7_v13 m c) (fbuf7_v102 m c)

theorem farg5_11 (m : (ℓ : Loc nD τ sig) → Buf (Elt F) ℓ) (c : Dev nD) :
    RW5 m c (Proc.devRef .tc main_arg11) = (m ((c.tc : Thread nD τ).loc main_arg11)) :=
  (kept4_arg11 (RW4 m c)).trans (farg4_11 m c)

theorem farg6_11 (m : (ℓ : Loc nD τ sig) → Buf (Elt F) ℓ) (c : Dev nD) :
    RW6 m c (Proc.devRef .tc main_arg11) = (m ((c.tc : Thread nD τ).loc main_arg11)) :=
  (kept5_arg11 (RW5 m c)).trans (farg5_11 m c)

theorem farg7_11 (m : (ℓ : Loc nD τ sig) → Buf (Elt F) ℓ) (c : Dev nD) :
    RW7 m c (Proc.devRef .tc main_arg11) = (m ((c.tc : Thread nD τ).loc main_arg11)) :=
  (kept6_arg11 (RW6 m c)).trans (farg6_11 m c)

theorem farg8_11 (m : (ℓ : Loc nD τ sig) → Buf (Elt F) ℓ) (c : Dev nD) :
    RW8 m c (Proc.devRef .tc main_arg11) = (m ((c.tc : Thread nD τ).loc main_arg11)) :=
  (kept7_arg11 (RW7 m c)).trans (farg7_11 m c)

theorem farg5_12 (m : (ℓ : Loc nD τ sig) → Buf (Elt F) ℓ) (c : Dev nD) :
    RW5 m c (Proc.devRef .tc main_arg12) = (m ((c.tc : Thread nD τ).loc main_arg12)) :=
  (kept4_arg12 (RW4 m c)).trans (farg4_12 m c)

theorem farg6_12 (m : (ℓ : Loc nD τ sig) → Buf (Elt F) ℓ) (c : Dev nD) :
    RW6 m c (Proc.devRef .tc main_arg12) = (m ((c.tc : Thread nD τ).loc main_arg12)) :=
  (kept5_arg12 (RW5 m c)).trans (farg5_12 m c)

theorem farg7_12 (m : (ℓ : Loc nD τ sig) → Buf (Elt F) ℓ) (c : Dev nD) :
    RW7 m c (Proc.devRef .tc main_arg12) = (m ((c.tc : Thread nD τ).loc main_arg12)) :=
  (kept6_arg12 (RW6 m c)).trans (farg6_12 m c)

theorem farg8_12 (m : (ℓ : Loc nD τ sig) → Buf (Elt F) ℓ) (c : Dev nD) :
    RW8 m c (Proc.devRef .tc main_arg12) = (m ((c.tc : Thread nD τ).loc main_arg12)) :=
  (kept7_arg12 (RW7 m c)).trans (farg7_12 m c)

theorem farg5_13 (m : (ℓ : Loc nD τ sig) → Buf (Elt F) ℓ) (c : Dev nD) :
    RW5 m c (Proc.devRef .tc main_arg13) = (m ((c.tc : Thread nD τ).loc main_arg13)) :=
  (kept4_arg13 (RW4 m c)).trans (farg4_13 m c)

theorem farg6_13 (m : (ℓ : Loc nD τ sig) → Buf (Elt F) ℓ) (c : Dev nD) :
    RW6 m c (Proc.devRef .tc main_arg13) = (m ((c.tc : Thread nD τ).loc main_arg13)) :=
  (kept5_arg13 (RW5 m c)).trans (farg5_13 m c)

theorem farg7_13 (m : (ℓ : Loc nD τ sig) → Buf (Elt F) ℓ) (c : Dev nD) :
    RW7 m c (Proc.devRef .tc main_arg13) = (m ((c.tc : Thread nD τ).loc main_arg13)) :=
  (kept6_arg13 (RW6 m c)).trans (farg6_13 m c)

theorem farg8_13 (m : (ℓ : Loc nD τ sig) → Buf (Elt F) ℓ) (c : Dev nD) :
    RW8 m c (Proc.devRef .tc main_arg13) = (m ((c.tc : Thread nD τ).loc main_arg13)) :=
  (kept7_arg13 (RW7 m c)).trans (farg7_13 m c)

theorem farg5_14 (m : (ℓ : Loc nD τ sig) → Buf (Elt F) ℓ) (c : Dev nD) :
    RW5 m c (Proc.devRef .tc main_arg14) = (m ((c.tc : Thread nD τ).loc main_arg14)) :=
  (kept4_arg14 (RW4 m c)).trans (farg4_14 m c)

theorem farg6_14 (m : (ℓ : Loc nD τ sig) → Buf (Elt F) ℓ) (c : Dev nD) :
    RW6 m c (Proc.devRef .tc main_arg14) = (m ((c.tc : Thread nD τ).loc main_arg14)) :=
  (kept5_arg14 (RW5 m c)).trans (farg5_14 m c)

theorem farg7_14 (m : (ℓ : Loc nD τ sig) → Buf (Elt F) ℓ) (c : Dev nD) :
    RW7 m c (Proc.devRef .tc main_arg14) = (m ((c.tc : Thread nD τ).loc main_arg14)) :=
  (kept6_arg14 (RW6 m c)).trans (farg6_14 m c)

theorem farg8_14 (m : (ℓ : Loc nD τ sig) → Buf (Elt F) ℓ) (c : Dev nD) :
    RW8 m c (Proc.devRef .tc main_arg14) = (m ((c.tc : Thread nD τ).loc main_arg14)) :=
  (kept7_arg14 (RW7 m c)).trans (farg7_14 m c)

theorem fbuf9_v125 (m : (ℓ : Loc nD τ sig) → Buf (Elt F) ℓ) (c : Dev nD) :
    RW9 m c (Proc.devRef .tc main_v125) = val_main_v125 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  read8_v125 (RW8 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (fbuf8_v69 m c) (fbuf8_v105 m c) (farg8_11 m c) (farg8_12 m c) (farg8_13 m c) (farg8_14 m c)

theorem farg0_15 (m : (ℓ : Loc nD τ sig) → Buf (Elt F) ℓ) (c : Dev nD) :
    RW0 m c (Proc.devRef .tc main_arg15) = (m ((c.tc : Thread nD τ).loc main_arg15)) :=
  rfl

theorem farg1_15 (m : (ℓ : Loc nD τ sig) → Buf (Elt F) ℓ) (c : Dev nD) :
    RW1 m c (Proc.devRef .tc main_arg15) = (m ((c.tc : Thread nD τ).loc main_arg15)) :=
  (kept0_arg15 (RW0 m c)).trans (farg0_15 m c)

theorem farg2_15 (m : (ℓ : Loc nD τ sig) → Buf (Elt F) ℓ) (c : Dev nD) :
    RW2 m c (Proc.devRef .tc main_arg15) = (m ((c.tc : Thread nD τ).loc main_arg15)) :=
  (kept1_arg15 (RW1 m c)).trans (farg1_15 m c)

theorem farg3_15 (m : (ℓ : Loc nD τ sig) → Buf (Elt F) ℓ) (c : Dev nD) :
    RW3 m c (Proc.devRef .tc main_arg15) = (m ((c.tc : Thread nD τ).loc main_arg15)) :=
  (kept2_arg15 (RW2 m c)).trans (farg2_15 m c)

theorem farg4_15 (m : (ℓ : Loc nD τ sig) → Buf (Elt F) ℓ) (c : Dev nD) :
    RW4 m c (Proc.devRef .tc main_arg15) = (m ((c.tc : Thread nD τ).loc main_arg15)) :=
  (kept3_arg15 (RW3 m c)).trans (farg3_15 m c)

theorem farg5_15 (m : (ℓ : Loc nD τ sig) → Buf (Elt F) ℓ) (c : Dev nD) :
    RW5 m c (Proc.devRef .tc main_arg15) = (m ((c.tc : Thread nD τ).loc main_arg15)) :=
  (kept4_arg15 (RW4 m c)).trans (farg4_15 m c)

theorem farg6_15 (m : (ℓ : Loc nD τ sig) → Buf (Elt F) ℓ) (c : Dev nD) :
    RW6 m c (Proc.devRef .tc main_arg15) = (m ((c.tc : Thread nD τ).loc main_arg15)) :=
  (kept5_arg15 (RW5 m c)).trans (farg5_15 m c)

theorem farg7_15 (m : (ℓ : Loc nD τ sig) → Buf (Elt F) ℓ) (c : Dev nD) :
    RW7 m c (Proc.devRef .tc main_arg15) = (m ((c.tc : Thread nD τ).loc main_arg15)) :=
  (kept6_arg15 (RW6 m c)).trans (farg6_15 m c)

theorem farg8_15 (m : (ℓ : Loc nD τ sig) → Buf (Elt F) ℓ) (c : Dev nD) :
    RW8 m c (Proc.devRef .tc main_arg15) = (m ((c.tc : Thread nD τ).loc main_arg15)) :=
  (kept7_arg15 (RW7 m c)).trans (farg7_15 m c)

theorem farg9_15 (m : (ℓ : Loc nD τ sig) → Buf (Elt F) ℓ) (c : Dev nD) :
    RW9 m c (Proc.devRef .tc main_arg15) = (m ((c.tc : Thread nD τ).loc main_arg15)) :=
  (kept8_arg15 (RW8 m c)).trans (farg8_15 m c)

theorem farg0_16 (m : (ℓ : Loc nD τ sig) → Buf (Elt F) ℓ) (c : Dev nD) :
    RW0 m c (Proc.devRef .tc main_arg16) = (m ((c.tc : Thread nD τ).loc main_arg16)) :=
  rfl

theorem farg1_16 (m : (ℓ : Loc nD τ sig) → Buf (Elt F) ℓ) (c : Dev nD) :
    RW1 m c (Proc.devRef .tc main_arg16) = (m ((c.tc : Thread nD τ).loc main_arg16)) :=
  (kept0_arg16 (RW0 m c)).trans (farg0_16 m c)

theorem farg2_16 (m : (ℓ : Loc nD τ sig) → Buf (Elt F) ℓ) (c : Dev nD) :
    RW2 m c (Proc.devRef .tc main_arg16) = (m ((c.tc : Thread nD τ).loc main_arg16)) :=
  (kept1_arg16 (RW1 m c)).trans (farg1_16 m c)

theorem farg3_16 (m : (ℓ : Loc nD τ sig) → Buf (Elt F) ℓ) (c : Dev nD) :
    RW3 m c (Proc.devRef .tc main_arg16) = (m ((c.tc : Thread nD τ).loc main_arg16)) :=
  (kept2_arg16 (RW2 m c)).trans (farg2_16 m c)

theorem farg4_16 (m : (ℓ : Loc nD τ sig) → Buf (Elt F) ℓ) (c : Dev nD) :
    RW4 m c (Proc.devRef .tc main_arg16) = (m ((c.tc : Thread nD τ).loc main_arg16)) :=
  (kept3_arg16 (RW3 m c)).trans (farg3_16 m c)

theorem farg5_16 (m : (ℓ : Loc nD τ sig) → Buf (Elt F) ℓ) (c : Dev nD) :
    RW5 m c (Proc.devRef .tc main_arg16) = (m ((c.tc : Thread nD τ).loc main_arg16)) :=
  (kept4_arg16 (RW4 m c)).trans (farg4_16 m c)

theorem farg6_16 (m : (ℓ : Loc nD τ sig) → Buf (Elt F) ℓ) (c : Dev nD) :
    RW6 m c (Proc.devRef .tc main_arg16) = (m ((c.tc : Thread nD τ).loc main_arg16)) :=
  (kept5_arg16 (RW5 m c)).trans (farg5_16 m c)

theorem farg7_16 (m : (ℓ : Loc nD τ sig) → Buf (Elt F) ℓ) (c : Dev nD) :
    RW7 m c (Proc.devRef .tc main_arg16) = (m ((c.tc : Thread nD τ).loc main_arg16)) :=
  (kept6_arg16 (RW6 m c)).trans (farg6_16 m c)

theorem farg8_16 (m : (ℓ : Loc nD τ sig) → Buf (Elt F) ℓ) (c : Dev nD) :
    RW8 m c (Proc.devRef .tc main_arg16) = (m ((c.tc : Thread nD τ).loc main_arg16)) :=
  (kept7_arg16 (RW7 m c)).trans (farg7_16 m c)

theorem farg9_16 (m : (ℓ : Loc nD τ sig) → Buf (Elt F) ℓ) (c : Dev nD) :
    RW9 m c (Proc.devRef .tc main_arg16) = (m ((c.tc : Thread nD τ).loc main_arg16)) :=
  (kept8_arg16 (RW8 m c)).trans (farg8_16 m c)

theorem farg0_17 (m : (ℓ : Loc nD τ sig) → Buf (Elt F) ℓ) (c : Dev nD) :
    RW0 m c (Proc.devRef .tc main_arg17) = (m ((c.tc : Thread nD τ).loc main_arg17)) :=
  rfl

theorem farg1_17 (m : (ℓ : Loc nD τ sig) → Buf (Elt F) ℓ) (c : Dev nD) :
    RW1 m c (Proc.devRef .tc main_arg17) = (m ((c.tc : Thread nD τ).loc main_arg17)) :=
  (kept0_arg17 (RW0 m c)).trans (farg0_17 m c)

theorem farg2_17 (m : (ℓ : Loc nD τ sig) → Buf (Elt F) ℓ) (c : Dev nD) :
    RW2 m c (Proc.devRef .tc main_arg17) = (m ((c.tc : Thread nD τ).loc main_arg17)) :=
  (kept1_arg17 (RW1 m c)).trans (farg1_17 m c)

theorem farg3_17 (m : (ℓ : Loc nD τ sig) → Buf (Elt F) ℓ) (c : Dev nD) :
    RW3 m c (Proc.devRef .tc main_arg17) = (m ((c.tc : Thread nD τ).loc main_arg17)) :=
  (kept2_arg17 (RW2 m c)).trans (farg2_17 m c)

theorem farg4_17 (m : (ℓ : Loc nD τ sig) → Buf (Elt F) ℓ) (c : Dev nD) :
    RW4 m c (Proc.devRef .tc main_arg17) = (m ((c.tc : Thread nD τ).loc main_arg17)) :=
  (kept3_arg17 (RW3 m c)).trans (farg3_17 m c)

theorem farg5_17 (m : (ℓ : Loc nD τ sig) → Buf (Elt F) ℓ) (c : Dev nD) :
    RW5 m c (Proc.devRef .tc main_arg17) = (m ((c.tc : Thread nD τ).loc main_arg17)) :=
  (kept4_arg17 (RW4 m c)).trans (farg4_17 m c)

theorem farg6_17 (m : (ℓ : Loc nD τ sig) → Buf (Elt F) ℓ) (c : Dev nD) :
    RW6 m c (Proc.devRef .tc main_arg17) = (m ((c.tc : Thread nD τ).loc main_arg17)) :=
  (kept5_arg17 (RW5 m c)).trans (farg5_17 m c)

theorem farg7_17 (m : (ℓ : Loc nD τ sig) → Buf (Elt F) ℓ) (c : Dev nD) :
    RW7 m c (Proc.devRef .tc main_arg17) = (m ((c.tc : Thread nD τ).loc main_arg17)) :=
  (kept6_arg17 (RW6 m c)).trans (farg6_17 m c)

theorem farg8_17 (m : (ℓ : Loc nD τ sig) → Buf (Elt F) ℓ) (c : Dev nD) :
    RW8 m c (Proc.devRef .tc main_arg17) = (m ((c.tc : Thread nD τ).loc main_arg17)) :=
  (kept7_arg17 (RW7 m c)).trans (farg7_17 m c)

theorem farg9_17 (m : (ℓ : Loc nD τ sig) → Buf (Elt F) ℓ) (c : Dev nD) :
    RW9 m c (Proc.devRef .tc main_arg17) = (m ((c.tc : Thread nD τ).loc main_arg17)) :=
  (kept8_arg17 (RW8 m c)).trans (farg8_17 m c)

theorem farg0_18 (m : (ℓ : Loc nD τ sig) → Buf (Elt F) ℓ) (c : Dev nD) :
    RW0 m c (Proc.devRef .tc main_arg18) = (m ((c.tc : Thread nD τ).loc main_arg18)) :=
  rfl

theorem farg1_18 (m : (ℓ : Loc nD τ sig) → Buf (Elt F) ℓ) (c : Dev nD) :
    RW1 m c (Proc.devRef .tc main_arg18) = (m ((c.tc : Thread nD τ).loc main_arg18)) :=
  (kept0_arg18 (RW0 m c)).trans (farg0_18 m c)

theorem farg2_18 (m : (ℓ : Loc nD τ sig) → Buf (Elt F) ℓ) (c : Dev nD) :
    RW2 m c (Proc.devRef .tc main_arg18) = (m ((c.tc : Thread nD τ).loc main_arg18)) :=
  (kept1_arg18 (RW1 m c)).trans (farg1_18 m c)

theorem farg3_18 (m : (ℓ : Loc nD τ sig) → Buf (Elt F) ℓ) (c : Dev nD) :
    RW3 m c (Proc.devRef .tc main_arg18) = (m ((c.tc : Thread nD τ).loc main_arg18)) :=
  (kept2_arg18 (RW2 m c)).trans (farg2_18 m c)

theorem farg4_18 (m : (ℓ : Loc nD τ sig) → Buf (Elt F) ℓ) (c : Dev nD) :
    RW4 m c (Proc.devRef .tc main_arg18) = (m ((c.tc : Thread nD τ).loc main_arg18)) :=
  (kept3_arg18 (RW3 m c)).trans (farg3_18 m c)

theorem farg5_18 (m : (ℓ : Loc nD τ sig) → Buf (Elt F) ℓ) (c : Dev nD) :
    RW5 m c (Proc.devRef .tc main_arg18) = (m ((c.tc : Thread nD τ).loc main_arg18)) :=
  (kept4_arg18 (RW4 m c)).trans (farg4_18 m c)

theorem farg6_18 (m : (ℓ : Loc nD τ sig) → Buf (Elt F) ℓ) (c : Dev nD) :
    RW6 m c (Proc.devRef .tc main_arg18) = (m ((c.tc : Thread nD τ).loc main_arg18)) :=
  (kept5_arg18 (RW5 m c)).trans (farg5_18 m c)

theorem farg7_18 (m : (ℓ : Loc nD τ sig) → Buf (Elt F) ℓ) (c : Dev nD) :
    RW7 m c (Proc.devRef .tc main_arg18) = (m ((c.tc : Thread nD τ).loc main_arg18)) :=
  (kept6_arg18 (RW6 m c)).trans (farg6_18 m c)

theorem farg8_18 (m : (ℓ : Loc nD τ sig) → Buf (Elt F) ℓ) (c : Dev nD) :
    RW8 m c (Proc.devRef .tc main_arg18) = (m ((c.tc : Thread nD τ).loc main_arg18)) :=
  (kept7_arg18 (RW7 m c)).trans (farg7_18 m c)

theorem farg9_18 (m : (ℓ : Loc nD τ sig) → Buf (Elt F) ℓ) (c : Dev nD) :
    RW9 m c (Proc.devRef .tc main_arg18) = (m ((c.tc : Thread nD τ).loc main_arg18)) :=
  (kept8_arg18 (RW8 m c)).trans (farg8_18 m c)

theorem fbuf10_v136 (m : (ℓ : Loc nD τ sig) → Buf (Elt F) ℓ) (c : Dev nD) :
    RW10 m c (Proc.devRef .tc main_v136) = val_main_v136 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) :=
  read9_v136 (RW9 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (fbuf9_v125 m c) (farg9_15 m c) (farg9_16 m c) (farg9_17 m c) (farg9_18 m c)

/-- The result buffer after all of @main's operations is the reference's result term of the launch memory's arguments:
    the stretches chained, the last stage's reading, and that the named term is the stage. -/
theorem result_eq (m : (ℓ : Loc nD τ sig) → Buf (Elt F) ℓ) (c : Dev nD) :
    after (Cert.ReferenceIdeal.Value.ops (F := F)) (launchContents m c) (Proc.devRef .tc main_v136) = Cert.ReferenceIdeal.Value.res_main_v136 m c := by
  rw [ops_split]
  simp only [Cert.Stretch.after_append]
  exact (fbuf10_v136 m c).trans (val_main_v136_eq m c).symm

end Cert.ReferenceIdeal.RunRead

end
-- ==== Proof.KRun.lean ====
/-
  The idealized kernel's whole run with its RESULT kept: every weakly fair execution of @main terminates, nothing
  faulting, the argument arrays end as launched, and the result buffer ends at the contents the last boundary of the
  program's fold holds for it (`W12`: the launch memory carried through the six stretches of host operations and the
  six regions' write-backs, one after the other).  What that is as a function of the arguments is read off the fold
  in the modules that import this one.
-/
import proofs.«102956_j57483842290055_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result buffer read at the last boundary's contents and every argument as launched. -/
theorem run_result : θ_run defs (onTc (τ := τ) (main (F := F))) ⟨m, fun _ => 0, ρ⟩ (fun r => ∀ c : Dev nD,
      r.2.mem ((c.tc : Thread nD τ).loc main_v101) = W12 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v101 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c)⟩)

end Cert.KernelIdeal.RunValue

end
-- ==== Proof.Spec.lean ====
/-
  The stages of the graph network as pure functions on the extended reals, entry by entry.

  A two-layer perceptron on the rows of x: entry (p, q) of the result is
      Σ_j max (Σ_k x(p,k)·w₁(k,j) + b₁(j)) 0 · w₂(j,q) + b₂(q).
  The message stage feeds it the three row blocks s, d, e side by side against ONE weight matrix W of 64+64+3 rows; the
  update stage the two blocks h, g against a W of 64+64 rows, and adds the result to h.  A sum over the rows of W is the
  sum over its first 64 rows plus the sum over the next 64 plus (for the message stage) the sum over the last 3: addition
  on the extended reals is commutative and associative, so the regrouping needs nothing about finiteness.  The "split"
  forms below take the row blocks of W as separate matrices; `rows off W` is the block of W that starts at row `off`.
-/
import Idealize.ShloMosaic.Lib.ValueIdx
import Idealize.ShloMosaic.PureOps.Ideal.Laws

noncomputable section

namespace Cert.Gnn

open Idealize.ShloMosaic Idealize.ShloMosaic.ValueIdx

/-- A matrix of extended reals with `a` rows and `b` columns. -/
abbrev Mat (a b : ℕ) := (⟨2, ![a, b]⟩ : Shape).Idx → EReal
/-- A vector of extended reals with `b` entries. -/
abbrev Vc (b : ℕ) := (⟨1, ![b]⟩ : Shape).Idx → EReal

variable {a K H b : ℕ}

/-- The rows `off, off+1, …, off+n-1` of `W`. -/
def rows (off : ℕ) {n : ℕ} (h : off + n ≤ K) (W : Mat K b) : Mat n b :=
  fun i => W (ix2 (⟨off + (i 0).val, by have h0 : (i 0).val < n := (i 0).isLt; omega⟩ : Fin K) (⟨(i 1).val, (i 1).isLt⟩ : Fin b))

theorem rows_ix2 (off : ℕ) {n : ℕ} (h : off + n ≤ K) (W : Mat K b) (k : Fin n) (q : Fin b) :
    rows off h W (ix2 k q) = W (ix2 (⟨off + k.val, by have := k.isLt; omega⟩ : Fin K) q) := rfl

/-- The second layer over a hidden row `hid`: Σ_j hid(j)·w₂(j,q) + b₂(q). -/
def outLayer (hid : Fin H → EReal) (w2 : Mat H b) (b2 : Vc b) (q : Fin b) : EReal :=
  (∑ j : Fin H, hid j * w2 (ix2 j q)) + b2 (ix1 q)

/-- The two-layer perceptron at entry (p, q). -/
def mlpAt (x : Mat a K) (w1 : Mat K H) (b1 : Vc H) (w2 : Mat H b) (b2 : Vc b) (p : Fin a) (q : Fin b) : EReal :=
  outLayer (fun j => max ((∑ k : Fin K, x (ix2 p k) * w1 (ix2 k j)) + b1 (ix1 j)) 0) w2 b2 q

/-- The two-layer perceptron on every row of `x`. -/
def mlp (x : Mat a K) (w1 : Mat K H) (b1 : Vc H) (w2 : Mat H b) (b2 : Vc b) : Mat a b :=
  fun i => mlpAt x w1 b1 w2 b2 (⟨(i 0).val, (i 0).isLt⟩ : Fin a) (⟨(i 1).val, (i 1).isLt⟩ : Fin b)

theorem mlp_ix2 (x : Mat a K) (w1 : Mat K H) (b1 : Vc H) (w2 : Mat H b) (b2 : Vc b) (p : Fin a) (q : Fin b) :
    mlp x w1 b1 w2 b2 (ix2 p q) = mlpAt x w1 b1 w2 b2 p q := rfl

/-- The message stage at entry (p, q), the first layer's weight given as its three row blocks:
    the hidden entry j is max (((Σ_k s(p,k)·ws(k,j) + Σ_k d(p,k)·wd(k,j)) + Σ_k e(p,k)·we(k,j)) + b₁(j)) 0. -/
def edgeAt {A B C : ℕ} (s : Mat a A) (d : Mat a B) (e : Mat a C) (ws : Mat A H) (wd : Mat B H) (we : Mat C H) (b1 : Vc H)
    (w2 : Mat H b) (b2 : Vc b) (p : Fin a) (q : Fin b) : EReal :=
  outLayer (fun j => max ((((∑ k : Fin A, s (ix2 p k) * ws (ix2 k j)) + (∑ k : Fin B, d (ix2 p k) * wd (ix2 k j)))
      + (∑ k : Fin C, e (ix2 p k) * we (ix2 k j))) + b1 (ix1 j)) 0) w2 b2 q

/-- The message stage on every row. -/
def edge {A B C : ℕ} (s : Mat a A) (d : Mat a B) (e : Mat a C) (ws : Mat A H) (wd : Mat B H) (we : Mat C H) (b1 : Vc H)
    (w2 : Mat H b) (b2 : Vc b) : Mat a b :=
  fun i => edgeAt s d e ws wd we b1 w2 b2 (⟨(i 0).val, (i 0).isLt⟩ : Fin a) (⟨(i 1).val, (i 1).isLt⟩ : Fin b)

theorem edge_ix2 {A B C : ℕ} (s : Mat a A) (d : Mat a B) (e : Mat a C) (ws : Mat A H) (wd : Mat B H) (we : Mat C H) (b1 : Vc H)
    (w2 : Mat H b) (b2 : Vc b) (p : Fin a) (q : Fin b) :
    edge s d e ws wd we b1 w2 b2 (ix2 p q) = edgeAt s d e ws wd we b1 w2 b2 p q := rfl

/-- The update stage at entry (p, q), the first layer's weight given as its two row blocks, the result added to h(p, q):
    the hidden entry j is max ((Σ_k h(p,k)·wh(k,j) + Σ_k g(p,k)·wg(k,j)) + b₁(j)) 0. -/
def updAt {A B : ℕ} (h : Mat a b) (hx : Mat a A) (g : Mat a B) (wh : Mat A H) (wg : Mat B H) (b1 : Vc H) (w2 : Mat H b) (b2 : Vc b)
    (p : Fin a) (q : Fin b) : EReal :=
  h (ix2 p q) + outLayer (fun j => max (((∑ k : Fin A, hx (ix2 p k) * wh (ix2 k j)) + (∑ k : Fin B, g (ix2 p k) * wg (ix2 k j)))
      + b1 (ix1 j)) 0) w2 b2 q

/-- The update stage on every row (the residual `h` and the first block `hx` are the same array in the network). -/
def upd {A B : ℕ} (h : Mat a b) (hx : Mat a A) (g : Mat a B) (wh : Mat A H) (wg : Mat B H) (b1 : Vc H) (w2 : Mat H b) (b2 : Vc b) :
    Mat a b :=
  fun i => updAt h hx g wh wg b1 w2 b2 (⟨(i 0).val, (i 0).isLt⟩ : Fin a) (⟨(i 1).val, (i 1).isLt⟩ : Fin b)

theorem upd_ix2 {A B : ℕ} (h : Mat a b) (hx : Mat a A) (g : Mat a B) (wh : Mat A H) (wg : Mat B H) (b1 : Vc H) (w2 : Mat H b)
    (b2 : Vc b) (p : Fin a) (q : Fin b) : upd h hx g wh wg b1 w2 b2 (ix2 p q) = updAt h hx g wh wg b1 w2 b2 p q := rfl

/-! ## Regrouping a sum over the rows of a stacked weight -/

/-- A sum over `A + B` terms is the sum of the first `A` plus the sum of the last `B`. -/
theorem sum_two {A B N : ℕ} (hN : A + B = N) (f : Fin N → EReal) :
    ∑ k : Fin N, f k = (∑ k : Fin A, f ⟨k.val, by have := k.isLt; omega⟩) + (∑ k : Fin B, f ⟨A + k.val, by have := k.isLt; omega⟩) := by
  subst hN
  rw [Fin.sum_univ_add]
  rfl

/-- A sum over `A + B + C` terms is the three partial sums, grouped to the left. -/
theorem sum_three {A B C N : ℕ} (hN : A + B + C = N) (f : Fin N → EReal) :
    ∑ k : Fin N, f k = ((∑ k : Fin A, f ⟨k.val, by have := k.isLt; omega⟩) + (∑ k : Fin B, f ⟨A + k.val, by have := k.isLt; omega⟩))
      + (∑ k : Fin C, f ⟨A + B + k.val, by have := k.isLt; omega⟩) := by
  subst hN
  rw [Fin.sum_univ_add, Fin.sum_univ_add]
  rfl

end Cert.Gnn

end
-- ==== Proof.KHyp.lean ====
/-
  What the stages below take as given, stated once: for each of the six kernel regions, that the region's output array
  after the region is the specification's function of the input arrays as the region finds them (the blocks of 5000 or
  8000 rows tile the array; every block is the body's result of the row block it reads); and for each of the reference's
  six stages, that the stage's operations compute the same specification function of the stage's operands (the
  reference multiplies the concatenated row blocks by the stacked weight; the sum over the stacked rows regroups into
  the blocks' partial sums).
-/
import proofs.«102956_j57483842290055_2_alg».proof.Proof.Gen.KernelIdeal.Frame
import proofs.«102956_j57483842290055_2_alg».proof.Proof.ReadP
import proofs.«102956_j57483842290055_2_alg».proof.Proof.Spec

set_option maxRecDepth 16384

noncomputable section

namespace Cert.KernelIdeal.Stages

open Cert.KernelIdeal Cert.KernelIdeal.Gen Cert.ReferenceIdeal.Read
open Idealize.ShloMosaic Idealize.ShloMosaic.TcCoe Idealize.ShloMosaic.StableHlo Idealize.SL.Sem

/-- The region values and the reference's stage readings. -/
structure Hyp : Prop where
  fin0 : ∀ (V : (c : Dev nD) → (b : Ref sig .tc) → Buf (Elt Ideal) ((c : Thread nD τ).loc b)) (c : Dev nD), (dat0 (F := Ideal) V c).arrAt 5 cfg0.N = Cert.Gnn.mlp (a := 50000) (K := 16) (H := 64) (b := 64) (V c main_arg0) (V c main_arg3) (V c main_arg4) (V c main_arg5) (V c main_arg6)
  fin1 : ∀ (V : (c : Dev nD) → (b : Ref sig .tc) → Buf (Elt Ideal) ((c : Thread nD τ).loc b)) (c : Dev nD), (dat1 (F := Ideal) V c).arrAt 9 cfg1.N = Cert.Gnn.edge (a := 1600000) (H := 64) (b := 64) (A := 64) (B := 64) (C := 3) (V c main_v13) (V c main_v20) (V c main_v5) (V c main_v23) (V c main_v26) (V c main_v29) (V c main_v31) (V c main_v33) (V c main_v35)
  fin2 : ∀ (V : (c : Dev nD) → (b : Ref sig .tc) → Buf (Elt Ideal) ((c : Thread nD τ).loc b)) (c : Dev nD), (dat2 (F := Ideal) V c).arrAt 7 cfg2.N = Cert.Gnn.upd (a := 50000) (H := 64) (b := 64) (A := 64) (B := 64) (V c main_v4) (V c main_v4) (V c main_v39) (V c main_v42) (V c main_v45) (V c main_v47) (V c main_v49) (V c main_v51)
  fin3 : ∀ (V : (c : Dev nD) → (b : Ref sig .tc) → Buf (Elt Ideal) ((c : Thread nD τ).loc b)) (c : Dev nD), (dat3 (F := Ideal) V c).arrAt 9 cfg3.N = Cert.Gnn.edge (a := 1600000) (H := 64) (b := 64) (A := 64) (B := 64) (C := 3) (V c main_v60) (V c main_v67) (V c main_v5) (V c main_v70) (V c main_v73) (V c main_v76) (V c main_v78) (V c main_v80) (V c main_v82)
  fin4 : ∀ (V : (c : Dev nD) → (b : Ref sig .tc) → Buf (Elt Ideal) ((c : Thread nD τ).loc b)) (c : Dev nD), (dat4 (F := Ideal) V c).arrAt 7 cfg4.N = Cert.Gnn.upd (a := 50000) (H := 64) (b := 64) (A := 64) (B := 64) (V c main_v52) (V c main_v52) (V c main_v86) (V c main_v89) (V c main_v92) (V c main_v94) (V c main_v96) (V c main_v98)
  fin5 : ∀ (V : (c : Dev nD) → (b : Ref sig .tc) → Buf (Elt Ideal) ((c : Thread nD τ).loc b)) (c : Dev nD), (dat5 (F := Ideal) V c).arrAt 5 cfg5.N = Cert.Gnn.mlp (a := 50000) (K := 64) (H := 64) (b := 1) (V c main_v99) (V c main_arg15) (V c main_arg16) (V c main_arg17) (V c main_arg18)
  enc : ∀ (x0 : (⟨S50000x16, .f32⟩ : BufTy).Contents (Elt Ideal)) (x3 : (⟨S16x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)), val_main_v9 (F := Ideal) x0 x3 x4 x5 x6 = Cert.Gnn.mlp (a := 50000) (K := 16) (H := 64) (b := 64) x0 x3 x4 x5 x6
  msg0 : ∀ (x0 : (⟨S50000x16, .f32⟩ : BufTy).Contents (Elt Ideal)) (x1 : (⟨S1600000x2, .i32⟩ : BufTy).Contents (Elt Ideal)) (x2 : (⟨S1600000x3, .f32⟩ : BufTy).Contents (Elt Ideal)) (x3 : (⟨S16x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S2x131x64, .f32⟩ : BufTy).Contents (Elt Ideal)) (x8 : (⟨S2x64, .f32⟩ : BufTy).Contents (Elt Ideal)) (x9 : (⟨S2x64x64, .f32⟩ : BufTy).Contents (Elt Ideal)) (x10 : (⟨S2x64, .f32⟩ : BufTy).Contents (Elt Ideal)), val_main_v46 (F := Ideal) x0 x1 x2 x3 x4 x5 x6 x7 x8 x9 x10
      = Cert.Gnn.edge (a := 1600000) (H := 64) (b := 64) (A := 64) (B := 64) (C := 3) (val_main_v20 (F := Ideal) x0 x1 x3 x4 x5 x6) (val_main_v27 (F := Ideal) x0 x1 x3 x4 x5 x6) x2 (Cert.Gnn.rows (K := 131) (b := 64) 0 (n := 64) (by decide) (val_main_v30 (F := Ideal) x7)) (Cert.Gnn.rows (K := 131) (b := 64) 64 (n := 64) (by decide) (val_main_v30 (F := Ideal) x7)) (Cert.Gnn.rows (K := 131) (b := 64) 128 (n := 3) (by decide) (val_main_v30 (F := Ideal) x7)) (val_main_v32 (F := Ideal) x8) (val_main_v34 (F := Ideal) x9) (val_main_v36 (F := Ideal) x10)
  upd0 : ∀ (x0 : (⟨S50000x16, .f32⟩ : BufTy).Contents (Elt Ideal)) (x1 : (⟨S1600000x2, .i32⟩ : BufTy).Contents (Elt Ideal)) (x2 : (⟨S1600000x3, .f32⟩ : BufTy).Contents (Elt Ideal)) (x3 : (⟨S16x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S2x131x64, .f32⟩ : BufTy).Contents (Elt Ideal)) (x8 : (⟨S2x64, .f32⟩ : BufTy).Contents (Elt Ideal)) (x9 : (⟨S2x64x64, .f32⟩ : BufTy).Contents (Elt Ideal)) (x10 : (⟨S2x64, .f32⟩ : BufTy).Contents (Elt Ideal)) (x11 : (⟨S2x128x64, .f32⟩ : BufTy).Contents (Elt Ideal)) (x12 : (⟨S2x64, .f32⟩ : BufTy).Contents (Elt Ideal)) (x13 : (⟨S2x64x64, .f32⟩ : BufTy).Contents (Elt Ideal)) (x14 : (⟨S2x64, .f32⟩ : BufTy).Contents (Elt Ideal)), val_main_v69 (F := Ideal) x0 x1 x2 x3 x4 x5 x6 x7 x8 x9 x10 x11 x12 x13 x14
      = Cert.Gnn.upd (a := 50000) (H := 64) (b := 64) (A := 64) (B := 64) (val_main_v9 (F := Ideal) x0 x3 x4 x5 x6) (val_main_v9 (F := Ideal) x0 x3 x4 x5 x6) (val_main_v49 (F := Ideal) x0 x1 x2 x3 x4 x5 x6 x7 x8 x9 x10) (Cert.Gnn.rows (K := 128) (b := 64) 0 (n := 64) (by decide) (val_main_v52 (F := Ideal) x11)) (Cert.Gnn.rows (K := 128) (b := 64) 64 (n := 64) (by decide) (val_main_v52 (F := Ideal) x11)) (val_main_v54 (F := Ideal) x12) (val_main_v56 (F := Ideal) x13) (val_main_v58 (F := Ideal) x14)
  msg1 : ∀ (x0 : (⟨S50000x16, .f32⟩ : BufTy).Contents (Elt Ideal)) (x1 : (⟨S1600000x2, .i32⟩ : BufTy).Contents (Elt Ideal)) (x2 : (⟨S1600000x3, .f32⟩ : BufTy).Contents (Elt Ideal)) (x3 : (⟨S16x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S2x131x64, .f32⟩ : BufTy).Contents (Elt Ideal)) (x8 : (⟨S2x64, .f32⟩ : BufTy).Contents (Elt Ideal)) (x9 : (⟨S2x64x64, .f32⟩ : BufTy).Contents (Elt Ideal)) (x10 : (⟨S2x64, .f32⟩ : BufTy).Contents (Elt Ideal)) (x11 : (⟨S2x128x64, .f32⟩ : BufTy).Contents (Elt Ideal)) (x12 : (⟨S2x64, .f32⟩ : BufTy).Contents (Elt Ideal)) (x13 : (⟨S2x64x64, .f32⟩ : BufTy).Contents (Elt Ideal)) (x14 : (⟨S2x64, .f32⟩ : BufTy).Contents (Elt Ideal)), val_main_v102 (F := Ideal) x0 x1 x2 x3 x4 x5 x6 x7 x8 x9 x10 x11 x12 x13 x14
      = Cert.Gnn.edge (a := 1600000) (H := 64) (b := 64) (A := 64) (B := 64) (C := 3) (val_main_v76 (F := Ideal) x0 x1 x2 x3 x4 x5 x6 x7 x8 x9 x10 x11 x12 x13 x14) (val_main_v83 (F := Ideal) x0 x1 x2 x3 x4 x5 x6 x7 x8 x9 x10 x11 x12 x13 x14) x2 (Cert.Gnn.rows (K := 131) (b := 64) 0 (n := 64) (by decide) (val_main_v86 (F := Ideal) x7)) (Cert.Gnn.rows (K := 131) (b := 64) 64 (n := 64) (by decide) (val_main_v86 (F := Ideal) x7)) (Cert.Gnn.rows (K := 131) (b := 64) 128 (n := 3) (by decide) (val_main_v86 (F := Ideal) x7)) (val_main_v88 (F := Ideal) x8) (val_main_v90 (F := Ideal) x9) (val_main_v92 (F := Ideal) x10)
  upd1 : ∀ (x0 : (⟨S50000x16, .f32⟩ : BufTy).Contents (Elt Ideal)) (x1 : (⟨S1600000x2, .i32⟩ : BufTy).Contents (Elt Ideal)) (x2 : (⟨S1600000x3, .f32⟩ : BufTy).Contents (Elt Ideal)) (x3 : (⟨S16x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S2x131x64, .f32⟩ : BufTy).Contents (Elt Ideal)) (x8 : (⟨S2x64, .f32⟩ : BufTy).Contents (Elt Ideal)) (x9 : (⟨S2x64x64, .f32⟩ : BufTy).Contents (Elt Ideal)) (x10 : (⟨S2x64, .f32⟩ : BufTy).Contents (Elt Ideal)) (x11 : (⟨S2x128x64, .f32⟩ : BufTy).Contents (Elt Ideal)) (x12 : (⟨S2x64, .f32⟩ : BufTy).Contents (Elt Ideal)) (x13 : (⟨S2x64x64, .f32⟩ : BufTy).Contents (Elt Ideal)) (x14 : (⟨S2x64, .f32⟩ : BufTy).Contents (Elt Ideal)), val_main_v125 (F := Ideal) x0 x1 x2 x3 x4 x5 x6 x7 x8 x9 x10 x11 x12 x13 x14
      = Cert.Gnn.upd (a := 50000) (H := 64) (b := 64) (A := 64) (B := 64) (val_main_v69 (F := Ideal) x0 x1 x2 x3 x4 x5 x6 x7 x8 x9 x10 x11 x12 x13 x14) (val_main_v69 (F := Ideal) x0 x1 x2 x3 x4 x5 x6 x7 x8 x9 x10 x11 x12 x13 x14) (val_main_v105 (F := Ideal) x0 x1 x2 x3 x4 x5 x6 x7 x8 x9 x10 x11 x12 x13 x14) (Cert.Gnn.rows (K := 128) (b := 64) 0 (n := 64) (by decide) (val_main_v108 (F := Ideal) x11)) (Cert.Gnn.rows (K := 128) (b := 64) 64 (n := 64) (by decide) (val_main_v108 (F := Ideal) x11)) (val_main_v110 (F := Ideal) x12) (val_main_v112 (F := Ideal) x13) (val_main_v114 (F := Ideal) x14)
  head : ∀ (x0 : (⟨S50000x16, .f32⟩ : BufTy).Contents (Elt Ideal)) (x1 : (⟨S1600000x2, .i32⟩ : BufTy).Contents (Elt Ideal)) (x2 : (⟨S1600000x3, .f32⟩ : BufTy).Contents (Elt Ideal)) (x3 : (⟨S16x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S2x131x64, .f32⟩ : BufTy).Contents (Elt Ideal)) (x8 : (⟨S2x64, .f32⟩ : BufTy).Contents (Elt Ideal)) (x9 : (⟨S2x64x64, .f32⟩ : BufTy).Contents (Elt Ideal)) (x10 : (⟨S2x64, .f32⟩ : BufTy).Contents (Elt Ideal)) (x11 : (⟨S2x128x64, .f32⟩ : BufTy).Contents (Elt Ideal)) (x12 : (⟨S2x64, .f32⟩ : BufTy).Contents (Elt Ideal)) (x13 : (⟨S2x64x64, .f32⟩ : BufTy).Contents (Elt Ideal)) (x14 : (⟨S2x64, .f32⟩ : BufTy).Contents (Elt Ideal)) (x15 : (⟨S64x64, .f32⟩ : BufTy).Contents (Elt Ideal)) (x16 : (⟨S64, .f32⟩ : BufTy).Contents (Elt Ideal)) (x17 : (⟨S64x1, .f32⟩ : BufTy).Contents (Elt Ideal)) (x18 : (⟨S1, .f32⟩ : BufTy).Contents (Elt Ideal)), val_main_v135 (F := Ideal) x0 x1 x2 x3 x4 x5 x6 x7 x8 x9 x10 x11 x12 x13 x14 x15 x16 x17 x18 = Cert.Gnn.mlp (a := 50000) (K := 64) (H := 64) (b := 1) (val_main_v125 (F := Ideal) x0 x1 x2 x3 x4 x5 x6 x7 x8 x9 x10 x11 x12 x13 x14) x15 x16 x17 x18

end Cert.KernelIdeal.Stages

end
-- ==== Proof.KSlices.lean ====
/-
  A block of consecutive rows of a matrix, cut out by a unit-stride slice along the rows, is the `rows` block of the
  specification: entry (j, q) of the slice that starts at row o is entry (o + j, q) of the matrix.
-/
import proofs.«102956_j57483842290055_2_alg».proof.Proof.Spec
import Idealize.ShloMosaic.Lib.ValueLayout
import Idealize.ShloMosaic.Lib.Pipeline.Value

namespace Cert.Gnn

open Idealize.ShloMosaic Idealize.ShloMosaic.ValueIdx

/-- The slice of `n` rows of `W` from row `o` on is `rows o W`. -/
theorem slice_rows {K n b : ℕ} (o : ℕ) (W : Mat K b) (h : (⟨2, ![K, b]⟩ : Shape).Slices ![o, 0] ⟨2, ![n, b]⟩) (hle : o + n ≤ K) :
    extractStridedSlice ⟨2, ![n, b]⟩ ![o, 0] W h = rows o hle W := by
  funext i
  obtain ⟨p, q, rfl⟩ : ∃ (p : Fin n) (q : Fin b), i = ix2 p q := ⟨i 0, i 1, eq_ix2 i⟩
  exact slice2_axis0_eq o W h p q

end Cert.Gnn
-- ==== Proof.KStage0.lean ====
/-
  The idealized kernel's buffers up to the encoder's output, as the reference's own terms of the launch memory's
  arguments.  The first stretch of host operations cuts the two columns of the edge list into the source and the target
  index vectors; no operation of it writes an argument.  Region 0 is the encoder: its output array is the two-layer
  perceptron of the node features, which is what the reference's first nine operations compute.
-/
import proofs.«102956_j57483842290055_2_alg».proof.Proof.Gen.KernelIdeal.Frame
import proofs.«102956_j57483842290055_2_alg».proof.Proof.ReadP
import proofs.«102956_j57483842290055_2_alg».proof.Proof.Spec
import proofs.«102956_j57483842290055_2_alg».proof.Proof.KHyp
import proofs.«102956_j57483842290055_2_alg».proof.Proof.LibStretch

set_option maxRecDepth 16384

noncomputable section

namespace Cert.KernelIdeal.Stages

open Cert.KernelIdeal Cert.KernelIdeal.Gen Cert.ReferenceIdeal.Read
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- At launch a buffer holds the launch memory. -/
theorem w0 (b : Ref sig .tc) : W0 m ρ c (Proc.devRef .tc b) = m ((c : Thread nD τ).loc b) := rfl

/-- The source index vector: column 0 of the edge list. -/
theorem w1_v1 : W1 m ρ c (Proc.devRef .tc main_v1) = val_main_v11 (F := Ideal) (m ((c : Thread nD τ).loc main_arg1)) := by
  show StableHlo.after hostOps0 (W0 m ρ c) (Proc.devRef .tc main_v1) = _
  read_stretch_small

/-- The target index vector: column 1 of the edge list. -/
theorem w1_v3 : W1 m ρ c (Proc.devRef .tc main_v3) = val_main_v13 (F := Ideal) (m ((c : Thread nD τ).loc main_arg1)) := by
  show StableHlo.after hostOps0 (W0 m ρ c) (Proc.devRef .tc main_v3) = _
  read_stretch_small

/-- The first stretch writes no argument. -/
theorem w1_arg (b : Ref sig .tc) (hb : b ≠ main_v0 ∧ b ≠ main_v1 ∧ b ≠ main_v2 ∧ b ≠ main_v3) :
    W1 m ρ c (Proc.devRef .tc b) = m ((c : Thread nD τ).loc b) := by
  show StableHlo.after hostOps0 (W0 m ρ c) (Proc.devRef .tc b) = _
  refine StableHlo.after_of_forall_not_mem _ _ (List.forall_iff_forall_mem.mp ?_)
  simp only [hostOps0, List.Forall, StableHlo.unary_writes, StableHlo.reshape_writes, Finset.mem_singleton]
  exact ⟨StableHlo.devRef_ne_of_ne hb.1, StableHlo.devRef_ne_of_ne hb.2.1, StableHlo.devRef_ne_of_ne hb.2.2.1, StableHlo.devRef_ne_of_ne hb.2.2.2⟩

section
variable (H : Hyp)
include H

/-- The encoder's output. -/
theorem w2_v4 : W2 m ρ c (Proc.devRef .tc main_v4) = val_main_v9 (F := Ideal) (m ((c : Thread nD τ).loc main_arg0)) (m ((c : Thread nD τ).loc main_arg3)) (m ((c : Thread nD τ).loc main_arg4)) (m ((c : Thread nD τ).loc main_arg5)) (m ((c : Thread nD τ).loc main_arg6)) := by
  refine (W2_arr m ρ c 5).trans ((H.fin0 (V1 m ρ) c).trans ?_)
  rw [H.enc]
  show Cert.Gnn.mlp (a := 50000) (K := 16) (H := 64) (b := 64) (W1 m ρ c (Proc.devRef .tc main_arg0)) (W1 m ρ c (Proc.devRef .tc main_arg3)) (W1 m ρ c (Proc.devRef .tc main_arg4))
    (W1 m ρ c (Proc.devRef .tc main_arg5)) (W1 m ρ c (Proc.devRef .tc main_arg6)) = _
  rw [w1_arg m ρ c main_arg0 (by decide), w1_arg m ρ c main_arg3 (by decide), w1_arg m ρ c main_arg4 (by decide),
    w1_arg m ρ c main_arg5 (by decide), w1_arg m ρ c main_arg6 (by decide)]

end

end Cert.KernelIdeal.Stages

end
-- ==== Proof.KStage1.lean ====
/-
  Round 0's message stage of the idealized kernel.  The stretch of host operations before region 1 gathers the rows of
  the encoder's output at the source and at the target indices, casts the edge features, and cuts round 0's stacked
  weight into its three row blocks; each is the reference's own term of the arguments, or a row block of it.  Region 1
  computes the message stage on them, which is what the reference computes on the concatenated rows.
-/
import proofs.«102956_j57483842290055_2_alg».proof.Proof.Gen.KernelIdeal.Frame
import proofs.«102956_j57483842290055_2_alg».proof.Proof.ReadP
import proofs.«102956_j57483842290055_2_alg».proof.Proof.Spec
import proofs.«102956_j57483842290055_2_alg».proof.Proof.KHyp
import proofs.«102956_j57483842290055_2_alg».proof.Proof.KSlices
import proofs.«102956_j57483842290055_2_alg».proof.Proof.LibStretch
import proofs.«102956_j57483842290055_2_alg».proof.Proof.KStage0

set_option maxRecDepth 16384

noncomputable section

namespace Cert.KernelIdeal.Stages

open Cert.KernelIdeal Cert.KernelIdeal.Gen Cert.ReferenceIdeal.Read
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

variable (H : Hyp)
include H

/-- The source index vector passes region 0 untouched. -/
theorem w2_v1 : W2 m ρ c (Proc.devRef .tc main_v1) = val_main_v11 (F := Ideal) (m ((c : Thread nD τ).loc main_arg1)) :=
  (calc W2 m ρ c (Proc.devRef .tc main_v1)
      _ = W1 m ρ c (Proc.devRef .tc main_v1) := (W2_of_ne m ρ c main_v1 (by decide))).trans (w1_v1 m ρ c)
/-- The target index vector passes region 0 untouched. -/
theorem w2_v3 : W2 m ρ c (Proc.devRef .tc main_v3) = val_main_v13 (F := Ideal) (m ((c : Thread nD τ).loc main_arg1)) :=
  (calc W2 m ρ c (Proc.devRef .tc main_v3)
      _ = W1 m ρ c (Proc.devRef .tc main_v3) := (W2_of_ne m ρ c main_v3 (by decide))).trans (w1_v3 m ρ c)
/-- Argument 2 is as launched at this boundary: nothing up to here writes it. -/
theorem w2_arg2 : W2 m ρ c (Proc.devRef .tc main_arg2) = (m ((c : Thread nD τ).loc main_arg2)) :=
  (calc W2 m ρ c (Proc.devRef .tc main_arg2)
      _ = W1 m ρ c (Proc.devRef .tc main_arg2) := (W2_of_ne m ρ c main_arg2 (by decide))).trans (w1_arg m ρ c main_arg2 (by decide))
/-- Argument 7 is as launched at this boundary: nothing up to here writes it. -/
theorem w2_arg7 : W2 m ρ c (Proc.devRef .tc main_arg7) = (m ((c : Thread nD τ).loc main_arg7)) :=
  (calc W2 m ρ c (Proc.devRef .tc main_arg7)
      _ = W1 m ρ c (Proc.devRef .tc main_arg7) := (W2_of_ne m ρ c main_arg7 (by decide))).trans (w1_arg m ρ c main_arg7 (by decide))
/-- Argument 8 is as launched at this boundary: nothing up to here writes it. -/
theorem w2_arg8 : W2 m ρ c (Proc.devRef .tc main_arg8) = (m ((c : Thread nD τ).loc main_arg8)) :=
  (calc W2 m ρ c (Proc.devRef .tc main_arg8)
      _ = W1 m ρ c (Proc.devRef .tc main_arg8) := (W2_of_ne m ρ c main_arg8 (by decide))).trans (w1_arg m ρ c main_arg8 (by decide))
/-- Argument 9 is as launched at this boundary: nothing up to here writes it. -/
theorem w2_arg9 : W2 m ρ c (Proc.devRef .tc main_arg9) = (m ((c : Thread nD τ).loc main_arg9)) :=
  (calc W2 m ρ c (Proc.devRef .tc main_arg9)
      _ = W1 m ρ c (Proc.devRef .tc main_arg9) := (W2_of_ne m ρ c main_arg9 (by decide))).trans (w1_arg m ρ c main_arg9 (by decide))
/-- Argument 10 is as launched at this boundary: nothing up to here writes it. -/
theorem w2_arg10 : W2 m ρ c (Proc.devRef .tc main_arg10) = (m ((c : Thread nD τ).loc main_arg10)) :=
  (calc W2 m ρ c (Proc.devRef .tc main_arg10)
      _ = W1 m ρ c (Proc.devRef .tc main_arg10) := (W2_of_ne m ρ c main_arg10 (by decide))).trans (w1_arg m ρ c main_arg10 (by decide))
/-- The rows of the encoder's output gathered at the source indices (negative indices wrapped by the row count). -/
theorem w3_v13 : W3 m ρ c (Proc.devRef .tc main_v13) = val_main_v20 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v13) = _
  after_results_simp
  rw [w2_v4 m ρ c H, w2_v1 m ρ c H]
  rfl
/-- The rows of the encoder's output gathered at the target indices. -/
theorem w3_v20 : W3 m ρ c (Proc.devRef .tc main_v20) = val_main_v27 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v20) = _
  after_results_simp
  rw [w2_v4 m ρ c H, w2_v3 m ρ c H]
  rfl
/-- The edge features: the change of float format is the identity. -/
theorem w3_v5 : W3 m ρ c (Proc.devRef .tc main_v5) = (m ((c : Thread nD τ).loc main_arg2)) := by
  show StableHlo.after hostOps1 (W2 m ρ c) (Proc.devRef .tc main_v5) = _
  after_results_simp
  rw [w2_arg2 m ρ c H]
  rfl
/-- Rows 0–63 of round 0's stacked message weight. -/
theorem w3_v23 : W3 m ρ c (Proc.devRef .tc main_v23) = (Cert.Gnn.rows (K := 131) (b := 64) 0 (n := 64) (by decide) (val_main_v30 (F := Ideal) (m ((c : Thread nD τ).loc main_arg7)))) := by
  show StableHlo.after hostOps1 (W2 m ρ c) (Proc.devRef .tc main_v23) = _
  after_results_simp
  rw [w2_arg7 m ρ c H]
  exact Cert.Gnn.slice_rows (K := 131) (n := 64) (b := 64) 0 _ _ _
/-- Rows 64–127 of round 0's stacked message weight. -/
theorem w3_v26 : W3 m ρ c (Proc.devRef .tc main_v26) = (Cert.Gnn.rows (K := 131) (b := 64) 64 (n := 64) (by decide) (val_main_v30 (F := Ideal) (m ((c : Thread nD τ).loc main_arg7)))) := by
  show StableHlo.after hostOps1 (W2 m ρ c) (Proc.devRef .tc main_v26) = _
  after_results_simp
  rw [w2_arg7 m ρ c H]
  exact Cert.Gnn.slice_rows (K := 131) (n := 64) (b := 64) 64 _ _ _
/-- Rows 128–130 of round 0's stacked message weight. -/
theorem w3_v29 : W3 m ρ c (Proc.devRef .tc main_v29) = (Cert.Gnn.rows (K := 131) (b := 64) 128 (n := 3) (by decide) (val_main_v30 (F := Ideal) (m ((c : Thread nD τ).loc main_arg7)))) := by
  show StableHlo.after hostOps1 (W2 m ρ c) (Proc.devRef .tc main_v29) = _
  after_results_simp
  rw [w2_arg7 m ρ c H]
  exact Cert.Gnn.slice_rows (K := 131) (n := 3) (b := 64) 128 _ _ _
/-- Round 0's first message bias. -/
theorem w3_v31 : W3 m ρ c (Proc.devRef .tc main_v31) = val_main_v32 (F := Ideal) (m ((c : Thread nD τ).loc main_arg8)) := by
  show StableHlo.after hostOps1 (W2 m ρ c) (Proc.devRef .tc main_v31) = _
  after_results_simp
  rw [w2_arg8 m ρ c H]
  rfl
/-- Round 0's second message weight. -/
theorem w3_v33 : W3 m ρ c (Proc.devRef .tc main_v33) = val_main_v34 (F := Ideal) (m ((c : Thread nD τ).loc main_arg9)) := by
  show StableHlo.after hostOps1 (W2 m ρ c) (Proc.devRef .tc main_v33) = _
  after_results_simp
  rw [w2_arg9 m ρ c H]
  rfl
/-- Round 0's second message bias. -/
theorem w3_v35 : W3 m ρ c (Proc.devRef .tc main_v35) = val_main_v36 (F := Ideal) (m ((c : Thread nD τ).loc main_arg10)) := by
  show StableHlo.after hostOps1 (W2 m ρ c) (Proc.devRef .tc main_v35) = _
  after_results_simp
  rw [w2_arg10 m ρ c H]
  rfl
/-- Round 0's messages: region 1's output is the reference's message stage. -/
theorem w4_v36 : W4 m ρ c (Proc.devRef .tc main_v36) = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 9).trans ((H.fin1 (V3 m ρ) c).trans ?_)
  rw [H.msg0]
  show Cert.Gnn.edge (a := 1600000) (H := 64) (b := 64) (A := 64) (B := 64) (C := 3) (W3 m ρ c (Proc.devRef .tc main_v13)) (W3 m ρ c (Proc.devRef .tc main_v20)) (W3 m ρ c (Proc.devRef .tc main_v5)) (W3 m ρ c (Proc.devRef .tc main_v23)) (W3 m ρ c (Proc.devRef .tc main_v26)) (W3 m ρ c (Proc.devRef .tc main_v29)) (W3 m ρ c (Proc.devRef .tc main_v31)) (W3 m ρ c (Proc.devRef .tc main_v33)) (W3 m ρ c (Proc.devRef .tc main_v35)) = _
  rw [w3_v13 m ρ c H, w3_v20 m ρ c H, w3_v5 m ρ c H, w3_v23 m ρ c H, w3_v26 m ρ c H, w3_v29 m ρ c H, w3_v31 m ρ c H, w3_v33 m ρ c H, w3_v35 m ρ c H]

end Cert.KernelIdeal.Stages

end
-- ==== Proof.KStage2.lean ====
/-
  Round 0's update stage of the idealized kernel.  The stretch before region 2 adds the messages up at their target
  nodes and cuts round 0's stacked update weight into its two row blocks; region 2 computes the update on the node
  states and the aggregate and adds it to the node states.
-/
import proofs.«102956_j57483842290055_2_alg».proof.Proof.Gen.KernelIdeal.Frame
import proofs.«102956_j57483842290055_2_alg».proof.Proof.ReadP
import proofs.«102956_j57483842290055_2_alg».proof.Proof.Spec
import proofs.«102956_j57483842290055_2_alg».proof.Proof.KHyp
import proofs.«102956_j57483842290055_2_alg».proof.Proof.KSlices
import proofs.«102956_j57483842290055_2_alg».proof.Proof.LibStretch
import proofs.«102956_j57483842290055_2_alg».proof.Proof.KStage0
import proofs.«102956_j57483842290055_2_alg».proof.Proof.KStage1

set_option maxRecDepth 16384

noncomputable section

namespace Cert.KernelIdeal.Stages

open Cert.KernelIdeal Cert.KernelIdeal.Gen Cert.ReferenceIdeal.Read
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

variable (H : Hyp)
include H

/-- The target index vector, unchanged up to region 1's exit. -/
theorem w4_v3 : W4 m ρ c (Proc.devRef .tc main_v3) = val_main_v13 (F := Ideal) (m ((c : Thread nD τ).loc main_arg1)) :=
  (calc W4 m ρ c (Proc.devRef .tc main_v3)
      _ = W3 m ρ c (Proc.devRef .tc main_v3) := (W4_of_ne m ρ c main_v3 (by decide))
      _ = W2 m ρ c (Proc.devRef .tc main_v3) := (by unwritten hostOps1)
      _ = W1 m ρ c (Proc.devRef .tc main_v3) := (W2_of_ne m ρ c main_v3 (by decide))).trans (w1_v3 m ρ c)
/-- Argument 11 is as launched at this boundary: nothing up to here writes it. -/
theorem w4_arg11 : W4 m ρ c (Proc.devRef .tc main_arg11) = (m ((c : Thread nD τ).loc main_arg11)) :=
  (calc W4 m ρ c (Proc.devRef .tc main_arg11)
      _ = W3 m ρ c (Proc.devRef .tc main_arg11) := (W4_of_ne m ρ c main_arg11 (by decide))
      _ = W2 m ρ c (Proc.devRef .tc main_arg11) := (by unwritten hostOps1)
      _ = W1 m ρ c (Proc.devRef .tc main_arg11) := (W2_of_ne m ρ c main_arg11 (by decide))).trans (w1_arg m ρ c main_arg11 (by decide))
/-- Argument 12 is as launched at this boundary: nothing up to here writes it. -/
theorem w4_arg12 : W4 m ρ c (Proc.devRef .tc main_arg12) = (m ((c : Thread nD τ).loc main_arg12)) :=
  (calc W4 m ρ c (Proc.devRef .tc main_arg12)
      _ = W3 m ρ c (Proc.devRef .tc main_arg12) := (W4_of_ne m ρ c main_arg12 (by decide))
      _ = W2 m ρ c (Proc.devRef .tc main_arg12) := (by unwritten hostOps1)
      _ = W1 m ρ c (Proc.devRef .tc main_arg12) := (W2_of_ne m ρ c main_arg12 (by decide))).trans (w1_arg m ρ c main_arg12 (by decide))
/-- Argument 13 is as launched at this boundary: nothing up to here writes it. -/
theorem w4_arg13 : W4 m ρ c (Proc.devRef .tc main_arg13) = (m ((c : Thread nD τ).loc main_arg13)) :=
  (calc W4 m ρ c (Proc.devRef .tc main_arg13)
      _ = W3 m ρ c (Proc.devRef .tc main_arg13) := (W4_of_ne m ρ c main_arg13 (by decide))
      _ = W2 m ρ c (Proc.devRef .tc main_arg13) := (by unwritten hostOps1)
      _ = W1 m ρ c (Proc.devRef .tc main_arg13) := (W2_of_ne m ρ c main_arg13 (by decide))).trans (w1_arg m ρ c main_arg13 (by decide))
/-- Argument 14 is as launched at this boundary: nothing up to here writes it. -/
theorem w4_arg14 : W4 m ρ c (Proc.devRef .tc main_arg14) = (m ((c : Thread nD τ).loc main_arg14)) :=
  (calc W4 m ρ c (Proc.devRef .tc main_arg14)
      _ = W3 m ρ c (Proc.devRef .tc main_arg14) := (W4_of_ne m ρ c main_arg14 (by decide))
      _ = W2 m ρ c (Proc.devRef .tc main_arg14) := (by unwritten hostOps1)
      _ = W1 m ρ c (Proc.devRef .tc main_arg14) := (W2_of_ne m ρ c main_arg14 (by decide))).trans (w1_arg m ρ c main_arg14 (by decide))
/-- Round 0's aggregate: the messages added up into the zero array at the target indices. -/
theorem w5_v39 : W5 m ρ c (Proc.devRef .tc main_v39) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps2 (W4 m ρ c) (Proc.devRef .tc main_v39) = _
  after_results_simp
  rw [w4_v36 m ρ c H, w4_v3 m ρ c H]
  rfl
/-- Rows 0–63 of round 0's stacked update weight. -/
theorem w5_v42 : W5 m ρ c (Proc.devRef .tc main_v42) = (Cert.Gnn.rows (K := 128) (b := 64) 0 (n := 64) (by decide) (val_main_v52 (F := Ideal) (m ((c : Thread nD τ).loc main_arg11)))) := by
  show StableHlo.after hostOps2 (W4 m ρ c) (Proc.devRef .tc main_v42) = _
  after_results_simp
  rw [w4_arg11 m ρ c H]
  exact Cert.Gnn.slice_rows (K := 128) (n := 64) (b := 64) 0 _ _ _
/-- Rows 64–127 of round 0's stacked update weight. -/
theorem w5_v45 : W5 m ρ c (Proc.devRef .tc main_v45) = (Cert.Gnn.rows (K := 128) (b := 64) 64 (n := 64) (by decide) (val_main_v52 (F := Ideal) (m ((c : Thread nD τ).loc main_arg11)))) := by
  show StableHlo.after hostOps2 (W4 m ρ c) (Proc.devRef .tc main_v45) = _
  after_results_simp
  rw [w4_arg11 m ρ c H]
  exact Cert.Gnn.slice_rows (K := 128) (n := 64) (b := 64) 64 _ _ _
/-- Round 0's first update bias. -/
theorem w5_v47 : W5 m ρ c (Proc.devRef .tc main_v47) = val_main_v54 (F := Ideal) (m ((c : Thread nD τ).loc main_arg12)) := by
  show StableHlo.after hostOps2 (W4 m ρ c) (Proc.devRef .tc main_v47) = _
  after_results_simp
  rw [w4_arg12 m ρ c H]
  rfl
/-- Round 0's second update weight. -/
theorem w5_v49 : W5 m ρ c (Proc.devRef .tc main_v49) = val_main_v56 (F := Ideal) (m ((c : Thread nD τ).loc main_arg13)) := by
  show StableHlo.after hostOps2 (W4 m ρ c) (Proc.devRef .tc main_v49) = _
  after_results_simp
  rw [w4_arg13 m ρ c H]
  rfl
/-- Round 0's second update bias. -/
theorem w5_v51 : W5 m ρ c (Proc.devRef .tc main_v51) = val_main_v58 (F := Ideal) (m ((c : Thread nD τ).loc main_arg14)) := by
  show StableHlo.after hostOps2 (W4 m ρ c) (Proc.devRef .tc main_v51) = _
  after_results_simp
  rw [w4_arg14 m ρ c H]
  rfl
/-- The encoder's output is still in its buffer when region 2 is entered. -/
theorem w5_v4 : W5 m ρ c (Proc.devRef .tc main_v4) = val_main_v9 (F := Ideal) (m ((c : Thread nD τ).loc main_arg0)) (m ((c : Thread nD τ).loc main_arg3)) (m ((c : Thread nD τ).loc main_arg4)) (m ((c : Thread nD τ).loc main_arg5)) (m ((c : Thread nD τ).loc main_arg6)) :=
  (calc W5 m ρ c (Proc.devRef .tc main_v4)
      _ = W4 m ρ c (Proc.devRef .tc main_v4) := (by unwritten hostOps2)
      _ = W3 m ρ c (Proc.devRef .tc main_v4) := (W4_of_ne m ρ c main_v4 (by decide))
      _ = W2 m ρ c (Proc.devRef .tc main_v4) := (by unwritten hostOps1)).trans (w2_v4 m ρ c H)
/-- The node states after round 0: region 2's output is the reference's update stage. -/
theorem w6_v52 : W6 m ρ c (Proc.devRef .tc main_v52) = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W6_arr m ρ c 7).trans ((H.fin2 (V5 m ρ) c).trans ?_)
  rw [H.upd0]
  show Cert.Gnn.upd (a := 50000) (H := 64) (b := 64) (A := 64) (B := 64) (W5 m ρ c (Proc.devRef .tc main_v4)) (W5 m ρ c (Proc.devRef .tc main_v4)) (W5 m ρ c (Proc.devRef .tc main_v39)) (W5 m ρ c (Proc.devRef .tc main_v42)) (W5 m ρ c (Proc.devRef .tc main_v45)) (W5 m ρ c (Proc.devRef .tc main_v47)) (W5 m ρ c (Proc.devRef .tc main_v49)) (W5 m ρ c (Proc.devRef .tc main_v51)) = _
  rw [w5_v4 m ρ c H, w5_v39 m ρ c H, w5_v42 m ρ c H, w5_v45 m ρ c H, w5_v47 m ρ c H, w5_v49 m ρ c H, w5_v51 m ρ c H]

end Cert.KernelIdeal.Stages

end
-- ==== Proof.KStage3.lean ====
/-
  Round 1's message stage of the idealized kernel: as round 0's, on the node states after round 0 and round 1's
  weights; the cast edge features are the ones written before region 1.
-/
import proofs.«102956_j57483842290055_2_alg».proof.Proof.Gen.KernelIdeal.Frame
import proofs.«102956_j57483842290055_2_alg».proof.Proof.ReadP
import proofs.«102956_j57483842290055_2_alg».proof.Proof.Spec
import proofs.«102956_j57483842290055_2_alg».proof.Proof.KHyp
import proofs.«102956_j57483842290055_2_alg».proof.Proof.KSlices
import proofs.«102956_j57483842290055_2_alg».proof.Proof.LibStretch
import proofs.«102956_j57483842290055_2_alg».proof.Proof.KStage0
import proofs.«102956_j57483842290055_2_alg».proof.Proof.KStage1
import proofs.«102956_j57483842290055_2_alg».proof.Proof.KStage2

set_option maxRecDepth 16384

noncomputable section

namespace Cert.KernelIdeal.Stages

open Cert.KernelIdeal Cert.KernelIdeal.Gen Cert.ReferenceIdeal.Read
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

variable (H : Hyp)
include H

/-- The source index vector, unchanged up to region 2's exit. -/
theorem w6_v1 : W6 m ρ c (Proc.devRef .tc main_v1) = val_main_v11 (F := Ideal) (m ((c : Thread nD τ).loc main_arg1)) :=
  (calc W6 m ρ c (Proc.devRef .tc main_v1)
      _ = W5 m ρ c (Proc.devRef .tc main_v1) := (W6_of_ne m ρ c main_v1 (by decide))
      _ = W4 m ρ c (Proc.devRef .tc main_v1) := (by unwritten hostOps2)
      _ = W3 m ρ c (Proc.devRef .tc main_v1) := (W4_of_ne m ρ c main_v1 (by decide))
      _ = W2 m ρ c (Proc.devRef .tc main_v1) := (by unwritten hostOps1)
      _ = W1 m ρ c (Proc.devRef .tc main_v1) := (W2_of_ne m ρ c main_v1 (by decide))).trans (w1_v1 m ρ c)
/-- The target index vector, unchanged up to region 2's exit. -/
theorem w6_v3 : W6 m ρ c (Proc.devRef .tc main_v3) = val_main_v13 (F := Ideal) (m ((c : Thread nD τ).loc main_arg1)) :=
  (calc W6 m ρ c (Proc.devRef .tc main_v3)
      _ = W5 m ρ c (Proc.devRef .tc main_v3) := (W6_of_ne m ρ c main_v3 (by decide))
      _ = W4 m ρ c (Proc.devRef .tc main_v3) := (by unwritten hostOps2)
      _ = W3 m ρ c (Proc.devRef .tc main_v3) := (W4_of_ne m ρ c main_v3 (by decide))
      _ = W2 m ρ c (Proc.devRef .tc main_v3) := (by unwritten hostOps1)
      _ = W1 m ρ c (Proc.devRef .tc main_v3) := (W2_of_ne m ρ c main_v3 (by decide))).trans (w1_v3 m ρ c)
/-- Argument 7 is as launched at this boundary: nothing up to here writes it. -/
theorem w6_arg7 : W6 m ρ c (Proc.devRef .tc main_arg7) = (m ((c : Thread nD τ).loc main_arg7)) :=
  (calc W6 m ρ c (Proc.devRef .tc main_arg7)
      _ = W5 m ρ c (Proc.devRef .tc main_arg7) := (W6_of_ne m ρ c main_arg7 (by decide))
      _ = W4 m ρ c (Proc.devRef .tc main_arg7) := (by unwritten hostOps2)
      _ = W3 m ρ c (Proc.devRef .tc main_arg7) := (W4_of_ne m ρ c main_arg7 (by decide))
      _ = W2 m ρ c (Proc.devRef .tc main_arg7) := (by unwritten hostOps1)
      _ = W1 m ρ c (Proc.devRef .tc main_arg7) := (W2_of_ne m ρ c main_arg7 (by decide))).trans (w1_arg m ρ c main_arg7 (by decide))
/-- Argument 8 is as launched at this boundary: nothing up to here writes it. -/
theorem w6_arg8 : W6 m ρ c (Proc.devRef .tc main_arg8) = (m ((c : Thread nD τ).loc main_arg8)) :=
  (calc W6 m ρ c (Proc.devRef .tc main_arg8)
      _ = W5 m ρ c (Proc.devRef .tc main_arg8) := (W6_of_ne m ρ c main_arg8 (by decide))
      _ = W4 m ρ c (Proc.devRef .tc main_arg8) := (by unwritten hostOps2)
      _ = W3 m ρ c (Proc.devRef .tc main_arg8) := (W4_of_ne m ρ c main_arg8 (by decide))
      _ = W2 m ρ c (Proc.devRef .tc main_arg8) := (by unwritten hostOps1)
      _ = W1 m ρ c (Proc.devRef .tc main_arg8) := (W2_of_ne m ρ c main_arg8 (by decide))).trans (w1_arg m ρ c main_arg8 (by decide))
/-- Argument 9 is as launched at this boundary: nothing up to here writes it. -/
theorem w6_arg9 : W6 m ρ c (Proc.devRef .tc main_arg9) = (m ((c : Thread nD τ).loc main_arg9)) :=
  (calc W6 m ρ c (Proc.devRef .tc main_arg9)
      _ = W5 m ρ c (Proc.devRef .tc main_arg9) := (W6_of_ne m ρ c main_arg9 (by decide))
      _ = W4 m ρ c (Proc.devRef .tc main_arg9) := (by unwritten hostOps2)
      _ = W3 m ρ c (Proc.devRef .tc main_arg9) := (W4_of_ne m ρ c main_arg9 (by decide))
      _ = W2 m ρ c (Proc.devRef .tc main_arg9) := (by unwritten hostOps1)
      _ = W1 m ρ c (Proc.devRef .tc main_arg9) := (W2_of_ne m ρ c main_arg9 (by decide))).trans (w1_arg m ρ c main_arg9 (by decide))
/-- Argument 10 is as launched at this boundary: nothing up to here writes it. -/
theorem w6_arg10 : W6 m ρ c (Proc.devRef .tc main_arg10) = (m ((c : Thread nD τ).loc main_arg10)) :=
  (calc W6 m ρ c (Proc.devRef .tc main_arg10)
      _ = W5 m ρ c (Proc.devRef .tc main_arg10) := (W6_of_ne m ρ c main_arg10 (by decide))
      _ = W4 m ρ c (Proc.devRef .tc main_arg10) := (by unwritten hostOps2)
      _ = W3 m ρ c (Proc.devRef .tc main_arg10) := (W4_of_ne m ρ c main_arg10 (by decide))
      _ = W2 m ρ c (Proc.devRef .tc main_arg10) := (by unwritten hostOps1)
      _ = W1 m ρ c (Proc.devRef .tc main_arg10) := (W2_of_ne m ρ c main_arg10 (by decide))).trans (w1_arg m ρ c main_arg10 (by decide))
/-- The rows of the node states after round 0 gathered at the source indices. -/
theorem w7_v60 : W7 m ρ c (Proc.devRef .tc main_v60) = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  show StableHlo.after hostOps3 (W6 m ρ c) (Proc.devRef .tc main_v60) = _
  after_results_simp
  rw [w6_v52 m ρ c H, w6_v1 m ρ c H]
  rfl
/-- The rows of the node states after round 0 gathered at the target indices. -/
theorem w7_v67 : W7 m ρ c (Proc.devRef .tc main_v67) = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  show StableHlo.after hostOps3 (W6 m ρ c) (Proc.devRef .tc main_v67) = _
  after_results_simp
  rw [w6_v52 m ρ c H, w6_v3 m ρ c H]
  rfl
/-- Rows 0–63 of round 1's stacked message weight. -/
theorem w7_v70 : W7 m ρ c (Proc.devRef .tc main_v70) = (Cert.Gnn.rows (K := 131) (b := 64) 0 (n := 64) (by decide) (val_main_v86 (F := Ideal) (m ((c : Thread nD τ).loc main_arg7)))) := by
  show StableHlo.after hostOps3 (W6 m ρ c) (Proc.devRef .tc main_v70) = _
  after_results_simp
  rw [w6_arg7 m ρ c H]
  exact Cert.Gnn.slice_rows (K := 131) (n := 64) (b := 64) 0 _ _ _
/-- Rows 64–127 of round 1's stacked message weight. -/
theorem w7_v73 : W7 m ρ c (Proc.devRef .tc main_v73) = (Cert.Gnn.rows (K := 131) (b := 64) 64 (n := 64) (by decide) (val_main_v86 (F := Ideal) (m ((c : Thread nD τ).loc main_arg7)))) := by
  show StableHlo.after hostOps3 (W6 m ρ c) (Proc.devRef .tc main_v73) = _
  after_results_simp
  rw [w6_arg7 m ρ c H]
  exact Cert.Gnn.slice_rows (K := 131) (n := 64) (b := 64) 64 _ _ _
/-- Rows 128–130 of round 1's stacked message weight. -/
theorem w7_v76 : W7 m ρ c (Proc.devRef .tc main_v76) = (Cert.Gnn.rows (K := 131) (b := 64) 128 (n := 3) (by decide) (val_main_v86 (F := Ideal) (m ((c : Thread nD τ).loc main_arg7)))) := by
  show StableHlo.after hostOps3 (W6 m ρ c) (Proc.devRef .tc main_v76) = _
  after_results_simp
  rw [w6_arg7 m ρ c H]
  exact Cert.Gnn.slice_rows (K := 131) (n := 3) (b := 64) 128 _ _ _
/-- Round 1's first message bias. -/
theorem w7_v78 : W7 m ρ c (Proc.devRef .tc main_v78) = val_main_v88 (F := Ideal) (m ((c : Thread nD τ).loc main_arg8)) := by
  show StableHlo.after hostOps3 (W6 m ρ c) (Proc.devRef .tc main_v78) = _
  after_results_simp
  rw [w6_arg8 m ρ c H]
  rfl
/-- Round 1's second message weight. -/
theorem w7_v80 : W7 m ρ c (Proc.devRef .tc main_v80) = val_main_v90 (F := Ideal) (m ((c : Thread nD τ).loc main_arg9)) := by
  show StableHlo.after hostOps3 (W6 m ρ c) (Proc.devRef .tc main_v80) = _
  after_results_simp
  rw [w6_arg9 m ρ c H]
  rfl
/-- Round 1's second message bias. -/
theorem w7_v82 : W7 m ρ c (Proc.devRef .tc main_v82) = val_main_v92 (F := Ideal) (m ((c : Thread nD τ).loc main_arg10)) := by
  show StableHlo.after hostOps3 (W6 m ρ c) (Proc.devRef .tc main_v82) = _
  after_results_simp
  rw [w6_arg10 m ρ c H]
  rfl
/-- The cast edge features, written once before region 1, are still in their buffer when region 3 is entered. -/
theorem w7_v5 : W7 m ρ c (Proc.devRef .tc main_v5) = (m ((c : Thread nD τ).loc main_arg2)) :=
  (calc W7 m ρ c (Proc.devRef .tc main_v5)
      _ = W6 m ρ c (Proc.devRef .tc main_v5) := (by unwritten hostOps3)
      _ = W5 m ρ c (Proc.devRef .tc main_v5) := (W6_of_ne m ρ c main_v5 (by decide))
      _ = W4 m ρ c (Proc.devRef .tc main_v5) := (by unwritten hostOps2)
      _ = W3 m ρ c (Proc.devRef .tc main_v5) := ((W4_arr m ρ c 2).trans (((dat1 (V3 m ρ) c).arrAt_in 2 rfl _).trans (A_eq1 (V3 m ρ) c 2)))).trans (w3_v5 m ρ c H)
/-- Round 1's messages: region 3's output is the reference's message stage. -/
theorem w8_v83 : W8 m ρ c (Proc.devRef .tc main_v83) = val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W8_arr m ρ c 9).trans ((H.fin3 (V7 m ρ) c).trans ?_)
  rw [H.msg1]
  show Cert.Gnn.edge (a := 1600000) (H := 64) (b := 64) (A := 64) (B := 64) (C := 3) (W7 m ρ c (Proc.devRef .tc main_v60)) (W7 m ρ c (Proc.devRef .tc main_v67)) (W7 m ρ c (Proc.devRef .tc main_v5)) (W7 m ρ c (Proc.devRef .tc main_v70)) (W7 m ρ c (Proc.devRef .tc main_v73)) (W7 m ρ c (Proc.devRef .tc main_v76)) (W7 m ρ c (Proc.devRef .tc main_v78)) (W7 m ρ c (Proc.devRef .tc main_v80)) (W7 m ρ c (Proc.devRef .tc main_v82)) = _
  rw [w7_v60 m ρ c H, w7_v67 m ρ c H, w7_v5 m ρ c H, w7_v70 m ρ c H, w7_v73 m ρ c H, w7_v76 m ρ c H, w7_v78 m ρ c H, w7_v80 m ρ c H, w7_v82 m ρ c H]

end Cert.KernelIdeal.Stages

end
-- ==== Proof.KStage4.lean ====
/-
  Round 1's update stage of the idealized kernel: as round 0's, on the node states after round 0, round 1's aggregate
  and round 1's weights.
-/
import proofs.«102956_j57483842290055_2_alg».proof.Proof.Gen.KernelIdeal.Frame
import proofs.«102956_j57483842290055_2_alg».proof.Proof.ReadP
import proofs.«102956_j57483842290055_2_alg».proof.Proof.Spec
import proofs.«102956_j57483842290055_2_alg».proof.Proof.KHyp
import proofs.«102956_j57483842290055_2_alg».proof.Proof.KSlices
import proofs.«102956_j57483842290055_2_alg».proof.Proof.LibStretch
import proofs.«102956_j57483842290055_2_alg».proof.Proof.KStage0
import proofs.«102956_j57483842290055_2_alg».proof.Proof.KStage1
import proofs.«102956_j57483842290055_2_alg».proof.Proof.KStage2
import proofs.«102956_j57483842290055_2_alg».proof.Proof.KStage3

set_option maxRecDepth 16384

noncomputable section

namespace Cert.KernelIdeal.Stages

open Cert.KernelIdeal Cert.KernelIdeal.Gen Cert.ReferenceIdeal.Read
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

variable (H : Hyp)
include H

/-- The target index vector, unchanged up to region 3's exit. -/
theorem w8_v3 : W8 m ρ c (Proc.devRef .tc main_v3) = val_main_v13 (F := Ideal) (m ((c : Thread nD τ).loc main_arg1)) :=
  (calc W8 m ρ c (Proc.devRef .tc main_v3)
      _ = W7 m ρ c (Proc.devRef .tc main_v3) := (W8_of_ne m ρ c main_v3 (by decide))
      _ = W6 m ρ c (Proc.devRef .tc main_v3) := (by unwritten hostOps3)
      _ = W5 m ρ c (Proc.devRef .tc main_v3) := (W6_of_ne m ρ c main_v3 (by decide))
      _ = W4 m ρ c (Proc.devRef .tc main_v3) := (by unwritten hostOps2)
      _ = W3 m ρ c (Proc.devRef .tc main_v3) := (W4_of_ne m ρ c main_v3 (by decide))
      _ = W2 m ρ c (Proc.devRef .tc main_v3) := (by unwritten hostOps1)
      _ = W1 m ρ c (Proc.devRef .tc main_v3) := (W2_of_ne m ρ c main_v3 (by decide))).trans (w1_v3 m ρ c)
/-- Argument 11 is as launched at this boundary: nothing up to here writes it. -/
theorem w8_arg11 : W8 m ρ c (Proc.devRef .tc main_arg11) = (m ((c : Thread nD τ).loc main_arg11)) :=
  (calc W8 m ρ c (Proc.devRef .tc main_arg11)
      _ = W7 m ρ c (Proc.devRef .tc main_arg11) := (W8_of_ne m ρ c main_arg11 (by decide))
      _ = W6 m ρ c (Proc.devRef .tc main_arg11) := (by unwritten hostOps3)
      _ = W5 m ρ c (Proc.devRef .tc main_arg11) := (W6_of_ne m ρ c main_arg11 (by decide))
      _ = W4 m ρ c (Proc.devRef .tc main_arg11) := (by unwritten hostOps2)
      _ = W3 m ρ c (Proc.devRef .tc main_arg11) := (W4_of_ne m ρ c main_arg11 (by decide))
      _ = W2 m ρ c (Proc.devRef .tc main_arg11) := (by unwritten hostOps1)
      _ = W1 m ρ c (Proc.devRef .tc main_arg11) := (W2_of_ne m ρ c main_arg11 (by decide))).trans (w1_arg m ρ c main_arg11 (by decide))
/-- Argument 12 is as launched at this boundary: nothing up to here writes it. -/
theorem w8_arg12 : W8 m ρ c (Proc.devRef .tc main_arg12) = (m ((c : Thread nD τ).loc main_arg12)) :=
  (calc W8 m ρ c (Proc.devRef .tc main_arg12)
      _ = W7 m ρ c (Proc.devRef .tc main_arg12) := (W8_of_ne m ρ c main_arg12 (by decide))
      _ = W6 m ρ c (Proc.devRef .tc main_arg12) := (by unwritten hostOps3)
      _ = W5 m ρ c (Proc.devRef .tc main_arg12) := (W6_of_ne m ρ c main_arg12 (by decide))
      _ = W4 m ρ c (Proc.devRef .tc main_arg12) := (by unwritten hostOps2)
      _ = W3 m ρ c (Proc.devRef .tc main_arg12) := (W4_of_ne m ρ c main_arg12 (by decide))
      _ = W2 m ρ c (Proc.devRef .tc main_arg12) := (by unwritten hostOps1)
      _ = W1 m ρ c (Proc.devRef .tc main_arg12) := (W2_of_ne m ρ c main_arg12 (by decide))).trans (w1_arg m ρ c main_arg12 (by decide))
/-- Argument 13 is as launched at this boundary: nothing up to here writes it. -/
theorem w8_arg13 : W8 m ρ c (Proc.devRef .tc main_arg13) = (m ((c : Thread nD τ).loc main_arg13)) :=
  (calc W8 m ρ c (Proc.devRef .tc main_arg13)
      _ = W7 m ρ c (Proc.devRef .tc main_arg13) := (W8_of_ne m ρ c main_arg13 (by decide))
      _ = W6 m ρ c (Proc.devRef .tc main_arg13) := (by unwritten hostOps3)
      _ = W5 m ρ c (Proc.devRef .tc main_arg13) := (W6_of_ne m ρ c main_arg13 (by decide))
      _ = W4 m ρ c (Proc.devRef .tc main_arg13) := (by unwritten hostOps2)
      _ = W3 m ρ c (Proc.devRef .tc main_arg13) := (W4_of_ne m ρ c main_arg13 (by decide))
      _ = W2 m ρ c (Proc.devRef .tc main_arg13) := (by unwritten hostOps1)
      _ = W1 m ρ c (Proc.devRef .tc main_arg13) := (W2_of_ne m ρ c main_arg13 (by decide))).trans (w1_arg m ρ c main_arg13 (by decide))
/-- Argument 14 is as launched at this boundary: nothing up to here writes it. -/
theorem w8_arg14 : W8 m ρ c (Proc.devRef .tc main_arg14) = (m ((c : Thread nD τ).loc main_arg14)) :=
  (calc W8 m ρ c (Proc.devRef .tc main_arg14)
      _ = W7 m ρ c (Proc.devRef .tc main_arg14) := (W8_of_ne m ρ c main_arg14 (by decide))
      _ = W6 m ρ c (Proc.devRef .tc main_arg14) := (by unwritten hostOps3)
      _ = W5 m ρ c (Proc.devRef .tc main_arg14) := (W6_of_ne m ρ c main_arg14 (by decide))
      _ = W4 m ρ c (Proc.devRef .tc main_arg14) := (by unwritten hostOps2)
      _ = W3 m ρ c (Proc.devRef .tc main_arg14) := (W4_of_ne m ρ c main_arg14 (by decide))
      _ = W2 m ρ c (Proc.devRef .tc main_arg14) := (by unwritten hostOps1)
      _ = W1 m ρ c (Proc.devRef .tc main_arg14) := (W2_of_ne m ρ c main_arg14 (by decide))).trans (w1_arg m ρ c main_arg14 (by decide))
/-- Round 1's aggregate: the messages added up into the zero array at the target indices. -/
theorem w9_v86 : W9 m ρ c (Proc.devRef .tc main_v86) = val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  show StableHlo.after hostOps4 (W8 m ρ c) (Proc.devRef .tc main_v86) = _
  after_results_simp
  rw [w8_v83 m ρ c H, w8_v3 m ρ c H]
  rfl
/-- Rows 0–63 of round 1's stacked update weight. -/
theorem w9_v89 : W9 m ρ c (Proc.devRef .tc main_v89) = (Cert.Gnn.rows (K := 128) (b := 64) 0 (n := 64) (by decide) (val_main_v108 (F := Ideal) (m ((c : Thread nD τ).loc main_arg11)))) := by
  show StableHlo.after hostOps4 (W8 m ρ c) (Proc.devRef .tc main_v89) = _
  after_results_simp
  rw [w8_arg11 m ρ c H]
  exact Cert.Gnn.slice_rows (K := 128) (n := 64) (b := 64) 0 _ _ _
/-- Rows 64–127 of round 1's stacked update weight. -/
theorem w9_v92 : W9 m ρ c (Proc.devRef .tc main_v92) = (Cert.Gnn.rows (K := 128) (b := 64) 64 (n := 64) (by decide) (val_main_v108 (F := Ideal) (m ((c : Thread nD τ).loc main_arg11)))) := by
  show StableHlo.after hostOps4 (W8 m ρ c) (Proc.devRef .tc main_v92) = _
  after_results_simp
  rw [w8_arg11 m ρ c H]
  exact Cert.Gnn.slice_rows (K := 128) (n := 64) (b := 64) 64 _ _ _
/-- Round 1's first update bias. -/
theorem w9_v94 : W9 m ρ c (Proc.devRef .tc main_v94) = val_main_v110 (F := Ideal) (m ((c : Thread nD τ).loc main_arg12)) := by
  show StableHlo.after hostOps4 (W8 m ρ c) (Proc.devRef .tc main_v94) = _
  after_results_simp
  rw [w8_arg12 m ρ c H]
  rfl
/-- Round 1's second update weight. -/
theorem w9_v96 : W9 m ρ c (Proc.devRef .tc main_v96) = val_main_v112 (F := Ideal) (m ((c : Thread nD τ).loc main_arg13)) := by
  show StableHlo.after hostOps4 (W8 m ρ c) (Proc.devRef .tc main_v96) = _
  after_results_simp
  rw [w8_arg13 m ρ c H]
  rfl
/-- Round 1's second update bias. -/
theorem w9_v98 : W9 m ρ c (Proc.devRef .tc main_v98) = val_main_v114 (F := Ideal) (m ((c : Thread nD τ).loc main_arg14)) := by
  show StableHlo.after hostOps4 (W8 m ρ c) (Proc.devRef .tc main_v98) = _
  after_results_simp
  rw [w8_arg14 m ρ c H]
  rfl
/-- The node states after round 0 are still in their buffer when region 4 is entered. -/
theorem w9_v52 : W9 m ρ c (Proc.devRef .tc main_v52) = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (calc W9 m ρ c (Proc.devRef .tc main_v52)
      _ = W8 m ρ c (Proc.devRef .tc main_v52) := (by unwritten hostOps4)
      _ = W7 m ρ c (Proc.devRef .tc main_v52) := (W8_of_ne m ρ c main_v52 (by decide))
      _ = W6 m ρ c (Proc.devRef .tc main_v52) := (by unwritten hostOps3)).trans (w6_v52 m ρ c H)
/-- The node states after round 1: region 4's output is the reference's update stage. -/
theorem w10_v99 : W10 m ρ c (Proc.devRef .tc main_v99) = val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W10_arr m ρ c 7).trans ((H.fin4 (V9 m ρ) c).trans ?_)
  rw [H.upd1]
  show Cert.Gnn.upd (a := 50000) (H := 64) (b := 64) (A := 64) (B := 64) (W9 m ρ c (Proc.devRef .tc main_v52)) (W9 m ρ c (Proc.devRef .tc main_v52)) (W9 m ρ c (Proc.devRef .tc main_v86)) (W9 m ρ c (Proc.devRef .tc main_v89)) (W9 m ρ c (Proc.devRef .tc main_v92)) (W9 m ρ c (Proc.devRef .tc main_v94)) (W9 m ρ c (Proc.devRef .tc main_v96)) (W9 m ρ c (Proc.devRef .tc main_v98)) = _
  rw [w9_v52 m ρ c H, w9_v86 m ρ c H, w9_v89 m ρ c H, w9_v92 m ρ c H, w9_v94 m ρ c H, w9_v96 m ρ c H, w9_v98 m ρ c H]

end Cert.KernelIdeal.Stages

end
-- ==== Proof.KStage5.lean ====
/-
  The head of the idealized kernel and its result.  Region 5 is the two-layer perceptron on the node states after round 1
  with a one-column second layer; the last host operation reads that column as a vector.  With it the kernel's result
  is, term for term, the reference's result term applied to the kernel's own arguments.
-/
import proofs.«102956_j57483842290055_2_alg».proof.Proof.Gen.KernelIdeal.Frame
import proofs.«102956_j57483842290055_2_alg».proof.Proof.ReadP
import proofs.«102956_j57483842290055_2_alg».proof.Proof.Spec
import proofs.«102956_j57483842290055_2_alg».proof.Proof.KHyp
import proofs.«102956_j57483842290055_2_alg».proof.Proof.KSlices
import proofs.«102956_j57483842290055_2_alg».proof.Proof.LibStretch
import proofs.«102956_j57483842290055_2_alg».proof.Proof.KStage0
import proofs.«102956_j57483842290055_2_alg».proof.Proof.KStage1
import proofs.«102956_j57483842290055_2_alg».proof.Proof.KStage2
import proofs.«102956_j57483842290055_2_alg».proof.Proof.KStage3
import proofs.«102956_j57483842290055_2_alg».proof.Proof.KStage4

set_option maxRecDepth 16384

noncomputable section

namespace Cert.KernelIdeal.Stages

open Cert.KernelIdeal Cert.KernelIdeal.Gen Cert.ReferenceIdeal.Read
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

variable (H : Hyp)
include H

/-- Argument 15 is as launched at this boundary: nothing up to here writes it. -/
theorem w10_arg15 : W10 m ρ c (Proc.devRef .tc main_arg15) = (m ((c : Thread nD τ).loc main_arg15)) :=
  (calc W10 m ρ c (Proc.devRef .tc main_arg15)
      _ = W9 m ρ c (Proc.devRef .tc main_arg15) := (W10_of_ne m ρ c main_arg15 (by decide))
      _ = W8 m ρ c (Proc.devRef .tc main_arg15) := (by unwritten hostOps4)
      _ = W7 m ρ c (Proc.devRef .tc main_arg15) := (W8_of_ne m ρ c main_arg15 (by decide))
      _ = W6 m ρ c (Proc.devRef .tc main_arg15) := (by unwritten hostOps3)
      _ = W5 m ρ c (Proc.devRef .tc main_arg15) := (W6_of_ne m ρ c main_arg15 (by decide))
      _ = W4 m ρ c (Proc.devRef .tc main_arg15) := (by unwritten hostOps2)
      _ = W3 m ρ c (Proc.devRef .tc main_arg15) := (W4_of_ne m ρ c main_arg15 (by decide))
      _ = W2 m ρ c (Proc.devRef .tc main_arg15) := (by unwritten hostOps1)
      _ = W1 m ρ c (Proc.devRef .tc main_arg15) := (W2_of_ne m ρ c main_arg15 (by decide))).trans (w1_arg m ρ c main_arg15 (by decide))
/-- Argument 16 is as launched at this boundary: nothing up to here writes it. -/
theorem w10_arg16 : W10 m ρ c (Proc.devRef .tc main_arg16) = (m ((c : Thread nD τ).loc main_arg16)) :=
  (calc W10 m ρ c (Proc.devRef .tc main_arg16)
      _ = W9 m ρ c (Proc.devRef .tc main_arg16) := (W10_of_ne m ρ c main_arg16 (by decide))
      _ = W8 m ρ c (Proc.devRef .tc main_arg16) := (by unwritten hostOps4)
      _ = W7 m ρ c (Proc.devRef .tc main_arg16) := (W8_of_ne m ρ c main_arg16 (by decide))
      _ = W6 m ρ c (Proc.devRef .tc main_arg16) := (by unwritten hostOps3)
      _ = W5 m ρ c (Proc.devRef .tc main_arg16) := (W6_of_ne m ρ c main_arg16 (by decide))
      _ = W4 m ρ c (Proc.devRef .tc main_arg16) := (by unwritten hostOps2)
      _ = W3 m ρ c (Proc.devRef .tc main_arg16) := (W4_of_ne m ρ c main_arg16 (by decide))
      _ = W2 m ρ c (Proc.devRef .tc main_arg16) := (by unwritten hostOps1)
      _ = W1 m ρ c (Proc.devRef .tc main_arg16) := (W2_of_ne m ρ c main_arg16 (by decide))).trans (w1_arg m ρ c main_arg16 (by decide))
/-- Argument 17 is as launched at this boundary: nothing up to here writes it. -/
theorem w10_arg17 : W10 m ρ c (Proc.devRef .tc main_arg17) = (m ((c : Thread nD τ).loc main_arg17)) :=
  (calc W10 m ρ c (Proc.devRef .tc main_arg17)
      _ = W9 m ρ c (Proc.devRef .tc main_arg17) := (W10_of_ne m ρ c main_arg17 (by decide))
      _ = W8 m ρ c (Proc.devRef .tc main_arg17) := (by unwritten hostOps4)
      _ = W7 m ρ c (Proc.devRef .tc main_arg17) := (W8_of_ne m ρ c main_arg17 (by decide))
      _ = W6 m ρ c (Proc.devRef .tc main_arg17) := (by unwritten hostOps3)
      _ = W5 m ρ c (Proc.devRef .tc main_arg17) := (W6_of_ne m ρ c main_arg17 (by decide))
      _ = W4 m ρ c (Proc.devRef .tc main_arg17) := (by unwritten hostOps2)
      _ = W3 m ρ c (Proc.devRef .tc main_arg17) := (W4_of_ne m ρ c main_arg17 (by decide))
      _ = W2 m ρ c (Proc.devRef .tc main_arg17) := (by unwritten hostOps1)
      _ = W1 m ρ c (Proc.devRef .tc main_arg17) := (W2_of_ne m ρ c main_arg17 (by decide))).trans (w1_arg m ρ c main_arg17 (by decide))
/-- Argument 18 is as launched at this boundary: nothing up to here writes it. -/
theorem w10_arg18 : W10 m ρ c (Proc.devRef .tc main_arg18) = (m ((c : Thread nD τ).loc main_arg18)) :=
  (calc W10 m ρ c (Proc.devRef .tc main_arg18)
      _ = W9 m ρ c (Proc.devRef .tc main_arg18) := (W10_of_ne m ρ c main_arg18 (by decide))
      _ = W8 m ρ c (Proc.devRef .tc main_arg18) := (by unwritten hostOps4)
      _ = W7 m ρ c (Proc.devRef .tc main_arg18) := (W8_of_ne m ρ c main_arg18 (by decide))
      _ = W6 m ρ c (Proc.devRef .tc main_arg18) := (by unwritten hostOps3)
      _ = W5 m ρ c (Proc.devRef .tc main_arg18) := (W6_of_ne m ρ c main_arg18 (by decide))
      _ = W4 m ρ c (Proc.devRef .tc main_arg18) := (by unwritten hostOps2)
      _ = W3 m ρ c (Proc.devRef .tc main_arg18) := (W4_of_ne m ρ c main_arg18 (by decide))
      _ = W2 m ρ c (Proc.devRef .tc main_arg18) := (by unwritten hostOps1)
      _ = W1 m ρ c (Proc.devRef .tc main_arg18) := (W2_of_ne m ρ c main_arg18 (by decide))).trans (w1_arg m ρ c main_arg18 (by decide))
/-- The head's output column: region 5's output is the reference's head. -/
theorem w11_v100 : W11 m ρ c (Proc.devRef .tc main_v100) = val_main_v135 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W11_arr m ρ c 5).trans ((H.fin5 (V10 m ρ) c).trans ?_)
  rw [H.head]
  show Cert.Gnn.mlp (a := 50000) (K := 64) (H := 64) (b := 1) (W10 m ρ c (Proc.devRef .tc main_v99)) (W10 m ρ c (Proc.devRef .tc main_arg15)) (W10 m ρ c (Proc.devRef .tc main_arg16)) (W10 m ρ c (Proc.devRef .tc main_arg17)) (W10 m ρ c (Proc.devRef .tc main_arg18)) = _
  rw [w10_v99 m ρ c H, w10_arg15 m ρ c H, w10_arg16 m ρ c H, w10_arg17 m ρ c H, w10_arg18 m ρ c H]
/-- The result: the head's one column read as a vector, which is the reference's result term of the launch memory's arguments. -/
theorem w12_v101 : W12 m ρ c (Proc.devRef .tc main_v101) = val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  show StableHlo.after hostOps6 (W11 m ρ c) (Proc.devRef .tc main_v101) = _
  after_results_simp
  rw [w11_v100 m ρ c H]
  rfl

end Cert.KernelIdeal.Stages

end
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.LibGcnBody.lean ====
/-
  The four kernel bodies of the graph network, read at one entry `(p, q)` of the output block, at the ideal values
  (a change of float format is the identity, a product accumulated from zero is the plain sum):

    linear          (x · w)(p, q)                         = Σ_k x(p, k) · w(k, q)
    combine         max (agg(p, q) + h(p, q) · d(p, 0) + bias(0, q)) 0
    linear + bias   Σ_k x(p, k) · w(k, q) + bias(0, q)          (and its maximum with 0)

  `d` is a column `[a, 1]` spread along the rows, `bias` a row `[1, b]` spread along the columns; the identity
  shape casts the bodies carry drop out.
-/
import Idealize.ShloMosaic.Lib.ValueIdx
import Idealize.ShloMosaic.Lib.ValueLayout
import Idealize.ShloMosaic.Lib.Pipeline.Value
import Idealize.ShloMosaic.PureOps.Ideal.Laws
import proofs.«102956_j57483842290055_2_alg».proof.Proof.LibMatmulIx
import proofs.«102956_j57483842290055_2_alg».proof.Proof.LibLayout

noncomputable section

namespace Cert.Gcn.Body

open Idealize.ShloMosaic Idealize.ShloMosaic.ValueIdx

variable {a K b : ℕ}

/-- A one-row array `[1, b]` spread over `a` rows reads, at `(p, q)`, the row's entry `q`. -/
theorem rowSpread_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The linear body: the product of the operands cut to bf16, accumulated from zero, is the plain sum of products. -/
theorem linear_apply (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hlt : FTy.bits .bf16 < FTy.bits .f32)
    (x : FVec Ideal ⟨2, ![a, K]⟩ .f32) (w : FVec Ideal ⟨2, ![K, b]⟩ .f32) (p : Fin a) (q : Fin b) :
    matmul D none (truncf .bf16 x hlt) (truncf .bf16 w hlt) (constant (F := Ideal) ⟨2, ![a, b]⟩ .f32 0x00000000#32) (ix2 p q)
      = ∑ k : Fin K, x (ix2 p k) * w (ix2 k q) :=
  MatmulIx.matmul_zero_ix2 D hr hs hl0 hl1 hr0 hr1 none (truncf .bf16 x hlt) (truncf .bf16 w hlt) p q

/-- The linear body whose input block first passes an identity shape cast. -/
theorem linearCast_apply (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hlt : FTy.bits .bf16 < FTy.bits .f32)
    (x : FVec Ideal ⟨2, ![a, K]⟩ .f32) (w : FVec Ideal ⟨2, ![K, b]⟩ .f32)
    (c0 : (⟨2, ![a, K]⟩ : Shape).ShapeCasts ⟨2, ![a, K]⟩) (p : Fin a) (q : Fin b) :
    matmul D none (truncf .bf16 (shapeCast ⟨2, ![a, K]⟩ x c0) hlt) (truncf .bf16 w hlt)
        (constant (F := Ideal) ⟨2, ![a, b]⟩ .f32 0x00000000#32) (ix2 p q)
      = ∑ k : Fin K, x (ix2 p k) * w (ix2 k q) := by
  rw [shapeCast_self x c0]
  exact linear_apply D hr hs hl0 hl1 hr0 hr1 hlt x w p q

/-- The combine body: the aggregate plus the node's own row scaled by its column entry plus the bias row, cut below at 0. -/
theorem combine_apply (agg h : FVec Ideal ⟨2, ![a, b]⟩ .f32) (d : FVec Ideal ⟨2, ![a, 1]⟩ .f32) (bias : FVec Ideal ⟨2, ![1, b]⟩ .f32)
    (c0 : (⟨2, ![a, b]⟩ : Shape).ShapeCasts ⟨2, ![a, b]⟩) (c1 : (⟨2, ![a, 1]⟩ : Shape).ShapeCasts ⟨2, ![a, 1]⟩)
    (c2 : (⟨2, ![1, b]⟩ : Shape).ShapeCasts ⟨2, ![1, b]⟩)
    (hb : (⟨2, ![1, b]⟩ : Shape).Broadcasts ⟨2, ![a, b]⟩) (hd : (⟨2, ![a, 1]⟩ : Shape).Broadcasts ⟨2, ![a, b]⟩)
    (p : Fin a) (q : Fin b) :
    maximumf (addf (addf (shapeCast ⟨2, ![a, b]⟩ agg c0)
        (mulf (shapeCast ⟨2, ![a, b]⟩ h c0) (broadcastTo ⟨2, ![a, b]⟩ (shapeCast ⟨2, ![a, 1]⟩ d c1) hd)))
        (broadcastTo ⟨2, ![a, b]⟩ (shapeCast ⟨2, ![1, b]⟩ (shapeCast ⟨2, ![1, b]⟩ bias c2) c2) hb))
      (broadcast ⟨2, ![a, b]⟩ (Scalar.ofBits (F := Ideal) .f32 0x00000000#32)) (ix2 p q)
      = max (agg (ix2 p q) + h (ix2 p q) * d (ix2 p (0 : Fin 1)) + bias (ix2 (0 : Fin 1) q)) (Ideal.ofBits .f32 0x00000000#32) := by
  rw [shapeCast_self agg c0, shapeCast_self h c0, shapeCast_self d c1, shapeCast_self bias c2, shapeCast_self bias c2]
  rw [maximumf_apply, addf_apply, addf_apply, mulf_apply, broadcast_apply, rowSpread_apply,
    Cert.Attn.Layout.broadcastTo_a1_ab_apply]
  rfl

/-- The linear body with a bias row added. -/
theorem linearBias_apply (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hlt : FTy.bits .bf16 < FTy.bits .f32)
    (x : FVec Ideal ⟨2, ![a, K]⟩ .f32) (w : FVec Ideal ⟨2, ![K, b]⟩ .f32) (bias : FVec Ideal ⟨2, ![1, b]⟩ .f32)
    (c0 : (⟨2, ![a, K]⟩ : Shape).ShapeCasts ⟨2, ![a, K]⟩) (c2 : (⟨2, ![1, b]⟩ : Shape).ShapeCasts ⟨2, ![1, b]⟩)
    (hb : (⟨2, ![1, b]⟩ : Shape).Broadcasts ⟨2, ![a, b]⟩) (p : Fin a) (q : Fin b) :
    addf (matmul D none (truncf .bf16 (shapeCast ⟨2, ![a, K]⟩ x c0) hlt) (truncf .bf16 w hlt)
        (constant (F := Ideal) ⟨2, ![a, b]⟩ .f32 0x00000000#32))
      (broadcastTo ⟨2, ![a, b]⟩ (shapeCast ⟨2, ![1, b]⟩ (shapeCast ⟨2, ![1, b]⟩ bias c2) c2) hb) (ix2 p q)
      = (∑ k : Fin K, x (ix2 p k) * w (ix2 k q)) + bias (ix2 (0 : Fin 1) q) := by
  rw [shapeCast_self x c0, shapeCast_self bias c2, shapeCast_self bias c2]
  rw [addf_apply, rowSpread_apply, linear_apply D hr hs hl0 hl1 hr0 hr1 hlt x w p q]

/-- The same, cut below at 0. -/
theorem linearBiasRelu_apply (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hlt : FTy.bits .bf16 < FTy.bits .f32)
    (x : FVec Ideal ⟨2, ![a, K]⟩ .f32) (w : FVec Ideal ⟨2, ![K, b]⟩ .f32) (bias : FVec Ideal ⟨2, ![1, b]⟩ .f32)
    (c0 : (⟨2, ![a, K]⟩ : Shape).ShapeCasts ⟨2, ![a, K]⟩) (c2 : (⟨2, ![1, b]⟩ : Shape).ShapeCasts ⟨2, ![1, b]⟩)
    (hb : (⟨2, ![1, b]⟩ : Shape).Broadcasts ⟨2, ![a, b]⟩) (p : Fin a) (q : Fin b) :
    maximumf (addf (matmul D none (truncf .bf16 (shapeCast ⟨2, ![a, K]⟩ x c0) hlt) (truncf .bf16 w hlt)
        (constant (F := Ideal) ⟨2, ![a, b]⟩ .f32 0x00000000#32))
      (broadcastTo ⟨2, ![a, b]⟩ (shapeCast ⟨2, ![1, b]⟩ (shapeCast ⟨2, ![1, b]⟩ bias c2) c2) hb))
      (broadcast ⟨2, ![a, b]⟩ (Scalar.ofBits (F := Ideal) .f32 0x00000000#32)) (ix2 p q)
      = max ((∑ k : Fin K, x (ix2 p k) * w (ix2 k q)) + bias (ix2 (0 : Fin 1) q)) (Ideal.ofBits .f32 0x00000000#32) := by
  rw [maximumf_apply, broadcast_apply, linearBias_apply D hr hs hl0 hl1 hr0 hr1 hlt x w bias c0 c2 hb p q]
  rfl

/-! ## The bodies as whole-array functions -/

/-- The combine stage over whole arrays: at row `r`, column `q`, the aggregate plus the node's own row scaled by the
    node's entry of the column `d`, plus the bias row, cut below at 0. -/
def combined (agg h : (⟨2, ![a, b]⟩ : Shape).Idx → EReal) (d : (⟨2, ![a, 1]⟩ : Shape).Idx → EReal)
    (bias : (⟨2, ![1, b]⟩ : Shape).Idx → EReal) : (⟨2, ![a, b]⟩ : Shape).Idx → EReal :=
  fun i => max (agg i + h i * d (ix2 (⟨(i 0).val, (i 0).isLt⟩ : Fin a) (0 : Fin 1))
    + bias (ix2 (0 : Fin 1) (⟨(i 1).val, (i 1).isLt⟩ : Fin b))) (Ideal.ofBits .f32 0x00000000#32)

theorem combined_ix2 (agg h : (⟨2, ![a, b]⟩ : Shape).Idx → EReal) (d : (⟨2, ![a, 1]⟩ : Shape).Idx → EReal)
    (bias : (⟨2, ![1, b]⟩ : Shape).Idx → EReal) (p : Fin a) (q : Fin b) :
    combined agg h d bias (ix2 p q)
      = max (agg (ix2 p q) + h (ix2 p q) * d (ix2 p (0 : Fin 1)) + bias (ix2 (0 : Fin 1) q)) (Ideal.ofBits .f32 0x00000000#32) := rfl

/-- A bias row added to every row of an array. -/
def biased (y : (⟨2, ![a, b]⟩ : Shape).Idx → EReal) (bias : (⟨2, ![1, b]⟩ : Shape).Idx → EReal) :
    (⟨2, ![a, b]⟩ : Shape).Idx → EReal :=
  fun i => y i + bias (ix2 (0 : Fin 1) (⟨(i 1).val, (i 1).isLt⟩ : Fin b))

theorem biased_ix2 (y : (⟨2, ![a, b]⟩ : Shape).Idx → EReal) (bias : (⟨2, ![1, b]⟩ : Shape).Idx → EReal) (p : Fin a) (q : Fin b) :
    biased y bias (ix2 p q) = y (ix2 p q) + bias (ix2 (0 : Fin 1) q) := rfl

/-- The same, cut below at 0. -/
def biasedRelu (y : (⟨2, ![a, b]⟩ : Shape).Idx → EReal) (bias : (⟨2, ![1, b]⟩ : Shape).Idx → EReal) :
    (⟨2, ![a, b]⟩ : Shape).Idx → EReal :=
  fun i => max (y i + bias (ix2 (0 : Fin 1) (⟨(i 1).val, (i 1).isLt⟩ : Fin b))) (Ideal.ofBits .f32 0x00000000#32)

theorem biasedRelu_ix2 (y : (⟨2, ![a, b]⟩ : Shape).Idx → EReal) (bias : (⟨2, ![1, b]⟩ : Shape).Idx → EReal) (p : Fin a) (q : Fin b) :
    biasedRelu y bias (ix2 p q) = max (y (ix2 p q) + bias (ix2 (0 : Fin 1) q)) (Ideal.ofBits .f32 0x00000000#32) := rfl

/-- A vector of `b` entries cast to the one row `[1, b]` reads, at `(u, q)`, the operand at `q`. -/
theorem shapeCast_b_1b_apply {α : Type} (x : (⟨1, ![b]⟩ : Shape).Idx → α) (h : (⟨1, ![b]⟩ : Shape).ShapeCasts ⟨2, ![1, b]⟩)
    (u : Fin 1) (q : Fin b) : shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

end Cert.Gcn.Body

end
-- ==== Proof.KRegion0.lean ====
/-
  Region 0 of the kernel program (the encoder): its output array after the region is the two-layer perceptron of the
  arrays the region finds, entry by entry.  The body's one store read at an entry of the block is the perceptron's entry
  (the two products accumulated from zero are plain sums, the cuts to bf16 the identity, each bias a row spread over
  the block); the input block of point t is rows 5000 t … 5000 t + 4999 of the input array and the weights' and biases'
  blocks are their whole arrays; the ten output blocks tile the output array.
-/
import proofs.«102956_j57483842290055_2_alg».proof.Proof.Gen.KernelIdeal.Frame
import proofs.«102956_j57483842290055_2_alg».proof.Proof.Spec
import proofs.«102956_j57483842290055_2_alg».proof.Proof.LibMatmulIx
import proofs.«102956_j57483842290055_2_alg».proof.Proof.LibGcnBody
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

namespace R0

/-- The record `dot_S5000x16_S16x64_S5000x64_1_0_0_1_n_n` contracts the left operand's columns with the right operand's rows. -/
theorem dotIn_l0 (i : S5000x64.Idx) (q : dot_S5000x16_S16x64_S5000x64_1_0_0_1_n_n.contr.Idx) : (dot_S5000x16_S16x64_S5000x64_1_0_0_1_n_n.lhsIdx i q 0).val = (i 0).val := by
  unfold DotDims.lhsIdx
  rw [dif_neg (show ¬(0 : Fin S5000x16.rank) ∈ dot_S5000x16_S16x64_S5000x64_1_0_0_1_n_n.lhsBatch by decide), dif_pos (show (0 : Fin S5000x16.rank) ∈ dot_S5000x16_S16x64_S5000x64_1_0_0_1_n_n.lhsNonContracting by decide)]
  rfl
theorem dotIn_l1 (i : S5000x64.Idx) (q : dot_S5000x16_S16x64_S5000x64_1_0_0_1_n_n.contr.Idx) : (dot_S5000x16_S16x64_S5000x64_1_0_0_1_n_n.lhsIdx i q 1).val = (q ⟨0, by decide⟩).val :=
  dot_S5000x16_S16x64_S5000x64_1_0_0_1_n_n.lhsIdx_val_of_single rfl i q
theorem dotIn_r0 (i : S5000x64.Idx) (q : dot_S5000x16_S16x64_S5000x64_1_0_0_1_n_n.contr.Idx) : (dot_S5000x16_S16x64_S5000x64_1_0_0_1_n_n.rhsIdx i q 0).val = (q ⟨0, by decide⟩).val :=
  dot_S5000x16_S16x64_S5000x64_1_0_0_1_n_n.rhsIdx_val_of_single rfl i q
theorem dotIn_r1 (i : S5000x64.Idx) (q : dot_S5000x16_S16x64_S5000x64_1_0_0_1_n_n.contr.Idx) : (dot_S5000x16_S16x64_S5000x64_1_0_0_1_n_n.rhsIdx i q 1).val = (i 1).val := by
  unfold DotDims.rhsIdx
  rw [dif_neg (show ¬(1 : Fin S16x64.rank) ∈ dot_S5000x16_S16x64_S5000x64_1_0_0_1_n_n.rhsBatch by decide), dif_pos (show (1 : Fin S16x64.rank) ∈ dot_S5000x16_S16x64_S5000x64_1_0_0_1_n_n.rhsNonContracting by decide)]
  rfl

/-- The record `dot_S5000x64_S64x64_S5000x64_1_0_0_1_n_n` contracts the left operand's columns with the right operand's rows. -/
theorem dotHid_l0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem dotHid_l1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem dotHid_r0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem dotHid_r1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's one store, read at row `p`, column `q` of the block: the perceptron's entry. -/
theorem mlp_block_entry (x0 : Vec Ideal S5000x16 .f32) (x1 : Vec Ideal S16x64 .f32) (x2 : Vec Ideal S64 .f32)
    (x3 : Vec Ideal S64x64 .f32) (x4 : Vec Ideal S64 .f32) (p : Fin 5000) (q : Fin 64) :
    k0_pay1 x0 x1 x2 x3 x4 (ix2 p q) = Cert.Gnn.mlpAt x0 x1 x2 x3 x4 p q := by
  unfold k0_pay1
  refine (addf_apply _ _ (ix2 p q)).trans ?_
  unfold Cert.Gnn.mlpAt Cert.Gnn.outLayer
  refine congrArg₂ (· + ·) ?_ ?_
  · refine (MatmulIx.matmul_zero_ix2 dot_S5000x64_S64x64_S5000x64_1_0_0_1_n_n rfl rfl dotHid_l0 dotHid_l1 dotHid_r0 dotHid_r1 none _ _ p q).trans ?_
    refine Finset.sum_congr rfl fun j _ => ?_
    refine congrArg₂ (· * ·) ?_ rfl
    show max (matmul dot_S5000x16_S16x64_S5000x64_1_0_0_1_n_n none (truncf .bf16 x0 bitsLt_bf16_f32) (truncf .bf16 x1 bitsLt_bf16_f32)
          (constant (F := Ideal) S5000x64 .f32 0x00000000#32) (ix2 p j)
        + broadcastTo S5000x64 (shapeCast S1x64 x2 shapeCasts_S64_S1x64) broadcasts_S1x64_S5000x64 (ix2 p j))
      (Ideal.ofBits .f32 0x00000000#32) = _
    rw [Ideal.ofBits_zero_f32]
    refine congrArg₂ max (congrArg₂ (· + ·) ?_ ?_) rfl
    · exact MatmulIx.matmul_zero_ix2 dot_S5000x16_S16x64_S5000x64_1_0_0_1_n_n rfl rfl dotIn_l0 dotIn_l1 dotIn_r0 dotIn_r1 none _ _ p j
    · exact (Cert.Gcn.Body.rowSpread_apply _ _ p j).trans (Cert.Gcn.Body.shapeCast_b_1b_apply x2 _ 0 j)
  · exact (Cert.Gcn.Body.rowSpread_apply _ _ p q).trans (Cert.Gcn.Body.shapeCast_b_1b_apply x4 _ 0 q)

/-- The same at an entry of the ARRAY: when the block `xb` holds rows `5000 tv …` of `X`, the body's store at the block
    entry `j` is the perceptron of `X` at the array entry `i` that `j` lands on. -/
theorem mlp_block_in_array (X : S50000x16.Idx → EReal) (xb : Vec Ideal S5000x16 .f32) (w1 : Vec Ideal S16x64 .f32)
    (b1 : Vec Ideal S64 .f32) (w2 : Vec Ideal S64x64 .f32) (b2 : Vec Ideal S64 .f32) (tv : ℕ)
    (hx : ∀ (p : Fin 5000) (k : Fin 16) (r : Fin 50000), r.val = 5000 * tv + p.val → xb (ix2 p k) = X (ix2 r k))
    (j : S5000x64.Idx) (i : S50000x64.Idx) (hi0 : (i 0).val = 5000 * tv + (j 0).val) (hi1 : (i 1).val = (j 1).val) :
    k0_pay1 xb w1 b1 w2 b2 j = Cert.Gnn.mlp (a := 50000) (K := 16) (H := 64) (b := 64) X w1 b1 w2 b2 i := by
  obtain ⟨p, q, rfl⟩ : ∃ (p : Fin 5000) (q : Fin 64), j = ix2 p q := ⟨j 0, j 1, eq_ix2 j⟩
  rw [mlp_block_entry]
  show Cert.Gnn.mlpAt xb w1 b1 w2 b2 p q
    = Cert.Gnn.mlpAt (a := 50000) (K := 16) (H := 64) (b := 64) X w1 b1 w2 b2 ⟨(i 0).val, (i 0).isLt⟩ ⟨(i 1).val, (i 1).isLt⟩
  have hq : (⟨(i 1).val, (i 1).isLt⟩ : Fin 64) = q := Fin.ext hi1
  rw [hq]
  unfold Cert.Gnn.mlpAt
  refine congrArg (fun hid => Cert.Gnn.outLayer hid w2 b2 q) (funext fun jj => ?_)
  refine congrArg₂ max (congrArg₂ (· + ·) (Finset.sum_congr rfl fun k _ => ?_) rfl) rfl
  exact congrArg₂ (· * ·) (hx p k ⟨(i 0).val, (i 0).isLt⟩ hi0) rfl

/-- The index maps of the region, decided over its ten points: the row-block windows follow the point, the weights and
    biases stay at block 0. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Window 0's block at point `t` is rows `5000 t … 5000 t + 4999` of its array. -/
theorem xblock0_apply (c : Dev nD) (t : Fin cfg0.N) (p : Fin 5000) (k : Fin 16) (r : Fin 50000) (hr : r.val = 5000 * t.val + p.val) :
    (iblk0 V c 0 t : Vec Ideal S5000x16 .f32) (ix2 p k) = (V c (Pipeline.arrRef spec0 0) : S50000x16.Idx → EReal) (ix2 r k) := by
  obtain ⟨e0, e1, -⟩ := index_facts0 t
  unfold iblk0
  rw [View.read_apply]
  show (V c (Pipeline.arrRef spec0 0) : S50000x16.Idx → EReal) (((cfg0.win 0).blk t).view.emb (ix2 p k)) = _
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 16 + 1 * k.val = k.val; rw [e1]; omega

/-- Window 1's block at every point is its whole array. -/
theorem w1block0 (c : Dev nD) (t : Fin cfg0.N) :
    (iblk0 V c 1 t : Vec Ideal S16x64 .f32) = (V c (Pipeline.arrRef spec0 1) : S16x64.Idx → EReal) := by
  obtain ⟨-, -, e0, e1, -⟩ := index_facts0 t
  funext j
  unfold iblk0
  rw [View.read_apply]
  show (V c (Pipeline.arrRef spec0 1) : S16x64.Idx → EReal) (((cfg0.win 1).blk t).view.emb j) = _
  refine congrArg _ (funext fun a => Fin.ext ?_)
  match a with
  | ⟨0, _⟩ => show win0_1.index t (0 : Fin 2) * 16 + 1 * (j 0).val = (j 0).val; rw [e0]; omega
  | ⟨1, _⟩ => show win0_1.index t (1 : Fin 2) * 64 + 1 * (j 1).val = (j 1).val; rw [e1]; omega

/-- Window 2's block at every point is its whole array. -/
theorem b1block0 (c : Dev nD) (t : Fin cfg0.N) :
    (iblk0 V c 2 t : Vec Ideal S64 .f32) = (V c (Pipeline.arrRef spec0 2) : S64.Idx → EReal) := by
  obtain ⟨-, -, -, -, e0, -⟩ := index_facts0 t
  funext j
  unfold iblk0
  rw [View.read_apply]
  show (V c (Pipeline.arrRef spec0 2) : S64.Idx → EReal) (((cfg0.win 2).blk t).view.emb j) = _
  refine congrArg _ (funext fun a => Fin.ext ?_)
  match a with
  | ⟨0, _⟩ => show win0_2.index t (0 : Fin 1) * 64 + 1 * (j 0).val = (j 0).val; rw [e0]; omega

/-- Window 3's block at every point is its whole array. -/
theorem w2block0 (c : Dev nD) (t : Fin cfg0.N) :
    (iblk0 V c 3 t : Vec Ideal S64x64 .f32) = (V c (Pipeline.arrRef spec0 3) : S64x64.Idx → EReal) := by
  obtain ⟨-, -, -, -, -, e0, e1, -⟩ := index_facts0 t
  funext j
  unfold iblk0
  rw [View.read_apply]
  show (V c (Pipeline.arrRef spec0 3) : S64x64.Idx → EReal) (((cfg0.win 3).blk t).view.emb j) = _
  refine congrArg _ (funext fun a => Fin.ext ?_)
  match a with
  | ⟨0, _⟩ => show win0_3.index t (0 : Fin 2) * 64 + 1 * (j 0).val = (j 0).val; rw [e0]; omega
  | ⟨1, _⟩ => show win0_3.index t (1 : Fin 2) * 64 + 1 * (j 1).val = (j 1).val; rw [e1]; omega

/-- Window 4's block at every point is its whole array. -/
theorem b2block0 (c : Dev nD) (t : Fin cfg0.N) :
    (iblk0 V c 4 t : Vec Ideal S64 .f32) = (V c (Pipeline.arrRef spec0 4) : S64.Idx → EReal) := by
  obtain ⟨-, -, -, -, -, -, -, e0, -⟩ := index_facts0 t
  funext j
  unfold iblk0
  rw [View.read_apply]
  show (V c (Pipeline.arrRef spec0 4) : S64.Idx → EReal) (((cfg0.win 4).blk t).view.emb j) = _
  refine congrArg _ (funext fun a => Fin.ext ?_)
  match a with
  | ⟨0, _⟩ => show win0_4.index t (0 : Fin 1) * 64 + 1 * (j 0).val = (j 0).val; rw [e0]; omega

theorem zero_offsets2 : (![0, 0] : Fin 2 → Nat) = fun _ => 0 := funext fun a => by fin_cases a <;> rfl
theorem zero_offsets1 : (![0] : Fin 1 → Nat) = fun _ => 0 := funext fun a => by fin_cases a <;> rfl

/-- The perceptron of the arrays the region finds. -/
abbrev encoded (c : Dev nD) : S50000x64.Idx → EReal :=
  Cert.Gnn.mlp (a := 50000) (K := 16) (H := 64) (b := 64) (V c (Pipeline.arrRef spec0 0)) (V c (Pipeline.arrRef spec0 1))
    (V c (Pipeline.arrRef spec0 2)) (V c (Pipeline.arrRef spec0 3)) (V c (Pipeline.arrRef spec0 4))

/-- What point `t` writes back is block `t` of the perceptron of the arrays the region finds. -/
theorem flushed0_eq (c : Dev nD) (t : Fin cfg0.N) :
    (dat0 (F := Ideal) V c).flushed 5 t = ((cfg0.win 5).blk t).view.read (Elt Ideal) (encoded V c) := by
  show (cfg0.win 5).cut (grid0.coords t) ((dat0 (F := Ideal) V c).after 5 t) = _
  rw [after0_5]
  unfold out0_5
  rw [View.canon_unit_zero zero_offsets2]
  simp only [View.ld_unit_zero (S := S5000x16) zero_offsets2, View.ld_unit_zero (S := S16x64) zero_offsets2,
    View.ld_unit_zero (S := S64) zero_offsets1, View.ld_unit_zero (S := S64x64) zero_offsets2]
  rw [w1block0, b1block0, w2block0, b2block0]
  obtain ⟨-, -, -, -, -, -, -, -, e0, e1⟩ := index_facts0 t
  funext j
  show k0_pay1 (iblk0 V c 0 t) (V c (Pipeline.arrRef spec0 1)) (V c (Pipeline.arrRef spec0 2)) (V c (Pipeline.arrRef spec0 3))
      (V c (Pipeline.arrRef spec0 4)) j = encoded V c (((cfg0.win 5).blk t).view.emb j)
  refine mlp_block_in_array _ _ _ _ _ _ t.val (fun p k r hr => xblock0_apply V c t p k r hr) j _ ?_ ?_
  · show win0_5.index t (0 : Fin 2) * 5000 + 1 * (j 0).val = 5000 * t.val + (j 0).val
    rw [e0]; omega
  · show win0_5.index t (1 : Fin 2) * 64 + 1 * (j 1).val = (j 1).val
    rw [e1]; omega

/-- An index of the output array is in point `t`'s block iff each coordinate is in the block's range on its axis. -/
theorem mem_outblock0 (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v4).slice (win0_5.rect t)).set ↔ _
  rw [View.set_slice_whole, Rect.mem_set_unit]
  exact Iff.rfl

/-- Every row of the output array is in the block of the point `row / 5000`. -/
theorem cover0 (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  obtain ⟨-, -, -, -, -, -, -, -, e0, e1⟩ := index_facts0 t
  have ht : t.val = (i 0).val / 5000 := rfl
  refine ⟨t, flush0_5 t, ?_⟩
  rw [mem_outblock0]
  intro a
  match a with
  | ⟨0, _⟩ => show win0_5.index t (0 : Fin 2) * 5000 ≤ (i 0).val ∧ (i 0).val < win0_5.index t (0 : Fin 2) * 5000 + 5000; rw [e0, ht]; omega
  | ⟨1, _⟩ => show win0_5.index t (1 : Fin 2) * 64 ≤ (i 1).val ∧ (i 1).val < win0_5.index t (1 : Fin 2) * 64 + 64; rw [e1]; omega

end R0

/-- THE OUTPUT ARRAY after region 0: the perceptron of the arrays the region finds (input rows, first weight, first bias,
    second weight, second bias — windows 0 to 4). -/
theorem final0 (c : Dev nD) : (dat0 (F := Ideal) V c).arrAt 5 cfg0.N
    = Cert.Gnn.mlp (a := 50000) (K := 16) (H := 64) (b := 64) (V c (Pipeline.arrRef spec0 0)) (V c (Pipeline.arrRef spec0 1))
        (V c (Pipeline.arrRef spec0 2)) (V c (Pipeline.arrRef spec0 3)) (V c (Pipeline.arrRef spec0 4)) :=
  (dat0 (F := Ideal) V c).arrAt_eq_of_cover 5 (R0.encoded V c) (fun t _ => R0.flushed0_eq V c t) R0.cover0

/-- The windows' arrays by name. -/
theorem arrays0 : Pipeline.arrRef spec0 0 = main_arg0 ∧ Pipeline.arrRef spec0 1 = main_arg3 ∧ Pipeline.arrRef spec0 2 = main_arg4
    ∧ Pipeline.arrRef spec0 3 = main_arg5 ∧ Pipeline.arrRef spec0 4 = main_arg6 ∧ Pipeline.arrRef spec0 5 = main_v4 :=
  ⟨rfl, rfl, rfl, rfl, rfl, rfl⟩

end Cert.KernelIdeal.RegionValue

end
-- ==== Proof.KRegion1.lean ====
/-
  The message stage of round one on the kernel's side: the output array [1600000, 64] after the region is the
  message stage of the specification applied to the nine arrays the region finds.

  The region walks 200 points; point t holds rows 8000 t … 8000 t + 7999 of the three row-blocked inputs (the source
  rows and the destination rows, 64 columns each, and the edge features, 3 columns) and the whole of the three
  first-layer weight blocks, the first bias, the second-layer weight and the second bias.  Its body forms, for the
  block's row p, the hidden row  max (((s·ws + d·wd) + e·we) + b₁) 0  and the output row  hidden·w₂ + b₂ :  entry
  (p, q) of what point t writes is the specification's entry (8000 t + p, q), because that entry reads row
  8000 t + p of each row-blocked input and nothing else of them.  The 200 blocks tile the output array, row r lying
  in block r / 8000.
-/
import proofs.«102956_j57483842290055_2_alg».proof.Proof.Gen.KernelIdeal.Frame
import proofs.«102956_j57483842290055_2_alg».proof.Proof.Spec
import proofs.«102956_j57483842290055_2_alg».proof.Proof.LibMatmulIx
import proofs.«102956_j57483842290055_2_alg».proof.Proof.LibGcnBody
import Idealize.ShloMosaic.Lib.Pipeline.Value
import Idealize.ShloMosaic.Lib.ValueIdx
import Idealize.ShloMosaic.PureOps.Ideal.Laws

noncomputable section

namespace Cert.KernelIdeal.RegionValue.R1

open Cert.KernelIdeal Cert.KernelIdeal.Gen Idealize.ShloMosaic Idealize.ShloMosaic.TcCoe Idealize.SL.Sem
open Idealize.ShloMosaic.ValueIdx
open Idealize.ShloMosaic.Pipeline (Dat)

/-! ## The two contractions: which coordinates a product's entry reads

  Both products contract the left operand's columns with the right operand's rows: entry (i₀, i₁) of the result reads
  the left operand at (i₀, k) and the right operand at (k, i₁). -/

theorem dotWide_l0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem dotWide_l1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
theorem dotWide_r0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem dotWide_r1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

theorem dotThin_l0 (i : S8000x64.Idx) (q : dot_S8000x3_S3x64_S8000x64_1_0_0_1_n_n.contr.Idx) :
    (dot_S8000x3_S3x64_S8000x64_1_0_0_1_n_n.lhsIdx i q 0).val = (i 0).val := by
  unfold DotDims.lhsIdx
  rw [dif_neg (show ¬(0 : Fin S8000x3.rank) ∈ dot_S8000x3_S3x64_S8000x64_1_0_0_1_n_n.lhsBatch by decide), dif_pos (show (0 : Fin S8000x3.rank) ∈ dot_S8000x3_S3x64_S8000x64_1_0_0_1_n_n.lhsNonContracting by decide)]
  rfl
theorem dotThin_l1 (i : S8000x64.Idx) (q : dot_S8000x3_S3x64_S8000x64_1_0_0_1_n_n.contr.Idx) :
    (dot_S8000x3_S3x64_S8000x64_1_0_0_1_n_n.lhsIdx i q 1).val = (q ⟨0, by decide⟩).val :=
  dot_S8000x3_S3x64_S8000x64_1_0_0_1_n_n.lhsIdx_val_of_single rfl i q
theorem dotThin_r0 (i : S8000x64.Idx) (q : dot_S8000x3_S3x64_S8000x64_1_0_0_1_n_n.contr.Idx) :
    (dot_S8000x3_S3x64_S8000x64_1_0_0_1_n_n.rhsIdx i q 0).val = (q ⟨0, by decide⟩).val :=
  dot_S8000x3_S3x64_S8000x64_1_0_0_1_n_n.rhsIdx_val_of_single rfl i q
theorem dotThin_r1 (i : S8000x64.Idx) (q : dot_S8000x3_S3x64_S8000x64_1_0_0_1_n_n.contr.Idx) :
    (dot_S8000x3_S3x64_S8000x64_1_0_0_1_n_n.rhsIdx i q 1).val = (i 1).val := by
  unfold DotDims.rhsIdx
  rw [dif_neg (show ¬(1 : Fin S3x64.rank) ∈ dot_S8000x3_S3x64_S8000x64_1_0_0_1_n_n.rhsBatch by decide), dif_pos (show (1 : Fin S3x64.rank) ∈ dot_S8000x3_S3x64_S8000x64_1_0_0_1_n_n.rhsNonContracting by decide)]
  rfl

/-! ## The body at one entry -/

/-- The body's value at the entry (p, q) of the block: the second layer over the hidden row of the three partial
    products, the bias added and the result cut below at 0 (a change of float format is the identity on the extended
    reals; a product accumulated from the zero splat is the plain sum of products). -/
theorem edge_payload (x0 x1 : Vec Ideal S8000x64 .bf16) (x2 : Vec Ideal S8000x3 .bf16) (x3 x4 : Vec Ideal S64x64 .f32)
    (x5 : Vec Ideal S3x64 .f32) (x6 : Vec Ideal S64 .f32) (x7 : Vec Ideal S64x64 .f32) (x8 : Vec Ideal S64 .f32)
    (p : Fin 8000) (q : Fin 64) :
    k1_pay1 x0 x1 x2 x3 x4 x5 x6 x7 x8 (ix2 p q) = Cert.Gnn.edgeAt x0 x1 x2 x3 x4 x5 x6 x7 x8 p q := by
  unfold k1_pay1
  simp only [shapeCast_self]
  unfold Cert.Gnn.edgeAt Cert.Gnn.outLayer
  refine (addf_apply _ _ (ix2 p q)).trans ?_
  refine congrArg₂ (· + ·) ?_ ?_
  · refine (MatmulIx.matmul_zero_ix2 (φ₁ := .bf16) (φ₂ := .bf16) dot_S8000x64_S64x64_S8000x64_1_0_0_1_n_n rfl rfl
      dotWide_l0 dotWide_l1 dotWide_r0 dotWide_r1 none _ _ p q).trans ?_
    refine Finset.sum_congr rfl fun j _ => ?_
    refine congrArg₂ (· * ·) ?_ rfl
    refine (truncf_apply (ψ := .bf16) _ bitsLt_bf16_f32 (ix2 p j)).trans ?_
    refine (maximumf_apply _ _ (ix2 p j)).trans ?_
    refine congrArg₂ max ?_ ?_
    · refine (addf_apply _ _ (ix2 p j)).trans ?_
      refine congrArg₂ (· + ·) ?_ ?_
      · refine (addf_apply _ _ (ix2 p j)).trans ?_
        refine congrArg₂ (· + ·) ?_ ?_
        · refine (addf_apply _ _ (ix2 p j)).trans ?_
          refine congrArg₂ (· + ·) ?_ ?_
          · exact MatmulIx.matmul_zero_ix2 (φ₁ := .bf16) (φ₂ := .bf16) dot_S8000x64_S64x64_S8000x64_1_0_0_1_n_n rfl rfl
              dotWide_l0 dotWide_l1 dotWide_r0 dotWide_r1 none _ _ p j
          · exact MatmulIx.matmul_zero_ix2 (φ₁ := .bf16) (φ₂ := .bf16) dot_S8000x64_S64x64_S8000x64_1_0_0_1_n_n rfl rfl
              dotWide_l0 dotWide_l1 dotWide_r0 dotWide_r1 none _ _ p j
        · exact MatmulIx.matmul_zero_ix2 (φ₁ := .bf16) (φ₂ := .bf16) dot_S8000x3_S3x64_S8000x64_1_0_0_1_n_n rfl rfl
            dotThin_l0 dotThin_l1 dotThin_r0 dotThin_r1 none _ _ p j
      · exact (Cert.Gcn.Body.rowSpread_apply _ _ p j).trans (Cert.Gcn.Body.shapeCast_b_1b_apply x6 _ 0 j)
    · exact Ideal.ofBits_zero_f32
  · exact (Cert.Gcn.Body.rowSpread_apply _ _ p q).trans (Cert.Gcn.Body.shapeCast_b_1b_apply x8 _ 0 q)

/-! ## The grid: where each window's block sits -/

theorem hz2 : (![0, 0] : Fin 2 → Nat) = fun _ => 0 := funext fun a => by fin_cases a <;> rfl
theorem hz1 : (![0] : Fin 1 → Nat) = fun _ => 0 := funext fun a => by fin_cases a <;> rfl

/-- The index maps over the 200 points: the three row-blocked inputs and the output sit at block row t, block column 0;
    the weights and biases at block 0 throughout. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0
    ∧ win1_9.index t (0 : Fin 2) = t.val ∧ win1_9.index t (1 : Fin 2) = 0 :=
  (by decide +kernel : ∀ t : Fin grid1.N, _)

/-- An index of the output array lies in point t's block iff each coordinate lies in the block's range on its axis. -/
theorem mem_blk (t : Fin cfg1.N) (i : S1600000x64.Idx) :
    i ∈ ((cfg1.win 9).blk t).view.set ↔ ∀ a : Fin 2, win1_9.index t a * S8000x64.size a ≤ (i a).val ∧ (i a).val < win1_9.index t a * S8000x64.size a + S8000x64.size a := by
  show i ∈ ((View.whole main_v36).slice (win1_9.rect t)).set ↔ _
  rw [View.set_slice_whole, Rect.mem_set_unit]
  exact Iff.rfl

/-- Every index of the output array lies in some point's block: row r in the block of point r / 8000. -/
theorem cover (i : S1600000x64.Idx) : ∃ t : Fin cfg1.N, (cfg1.win 9).flush t = true ∧ i ∈ ((cfg1.win 9).blk t).view.set := by
  have hi0 : (i 0).val < 1600000 := (i 0).isLt
  have hi1 : (i 1).val < 64 := (i 1).isLt
  have hN : cfg1.N = 200 := N_1
  refine ⟨⟨(i 0).val / 8000, by rw [hN]; omega⟩, flush1_9 _, ?_⟩
  rw [mem_blk]
  obtain ⟨-, -, -, -, -, -, -, -, -, -, -, -, -, -, -, -, e0, e1⟩ := idx_facts ⟨(i 0).val / 8000, by rw [hN]; omega⟩
  intro a
  match a with
  | ⟨0, _⟩ =>
    show win1_9.index _ (0 : Fin 2) * 8000 ≤ (i 0).val ∧ (i 0).val < win1_9.index _ (0 : Fin 2) * 8000 + 8000
    rw [e0]; show (i 0).val / 8000 * 8000 ≤ (i 0).val ∧ (i 0).val < (i 0).val / 8000 * 8000 + 8000; omega
  | ⟨1, _⟩ =>
    show win1_9.index _ (1 : Fin 2) * 64 ≤ (i 1).val ∧ (i 1).val < win1_9.index _ (1 : Fin 2) * 64 + 64
    rw [e1]; omega

variable (V : (c : Dev nD) → (b : Ref sig .tc) → Buf (Elt Ideal) ((c : Thread nD τ).loc b))

/-- The message stage of the nine arrays the region finds. -/
abbrev edgeOf (c : Dev nD) : S1600000x64.Idx → EReal :=
  Cert.Gnn.edge (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (V c (Pipeline.arrRef spec1 6)) (V c (Pipeline.arrRef spec1 7)) (V c (Pipeline.arrRef spec1 8))

/-! ## The windows' blocks, read where the output block's entry says -/

/-- Block t of this row-blocked input is rows 8000 t … 8000 t + 7999 of its array. -/
theorem src_block (c : Dev nD) (t : Fin cfg1.N) (p : Fin 8000) (k : Fin 64) (r : Fin 1600000)
    (hr : r.val = t.val * 8000 + p.val) :
    (iblk1 V c 0 t : S8000x64.Idx → EReal) (ix2 p k)
      = (V c (Pipeline.arrRef spec1 0) : S1600000x64.Idx → EReal) (ix2 r k) := by
  obtain ⟨e0, e1, -⟩ := idx_facts t
  unfold iblk1
  rw [View.read_apply]
  show (V c (Pipeline.arrRef spec1 0) : S1600000x64.Idx → EReal) _ = _
  refine congrArg _ (funext fun a => Fin.ext ?_)
  match a with
  | ⟨0, _⟩ => show win1_0.index t (0 : Fin 2) * 8000 + 1 * p.val = r.val; rw [e0, hr]; omega
  | ⟨1, _⟩ => show win1_0.index t (1 : Fin 2) * 64 + 1 * k.val = k.val; rw [e1]; omega

/-- Block t of this row-blocked input is rows 8000 t … 8000 t + 7999 of its array. -/
theorem dst_block (c : Dev nD) (t : Fin cfg1.N) (p : Fin 8000) (k : Fin 64) (r : Fin 1600000)
    (hr : r.val = t.val * 8000 + p.val) :
    (iblk1 V c 1 t : S8000x64.Idx → EReal) (ix2 p k)
      = (V c (Pipeline.arrRef spec1 1) : S1600000x64.Idx → EReal) (ix2 r k) := by
  obtain ⟨-, -, e0, e1, -⟩ := idx_facts t
  unfold iblk1
  rw [View.read_apply]
  show (V c (Pipeline.arrRef spec1 1) : S1600000x64.Idx → EReal) _ = _
  refine congrArg _ (funext fun a => Fin.ext ?_)
  match a with
  | ⟨0, _⟩ => show win1_1.index t (0 : Fin 2) * 8000 + 1 * p.val = r.val; rw [e0, hr]; omega
  | ⟨1, _⟩ => show win1_1.index t (1 : Fin 2) * 64 + 1 * k.val = k.val; rw [e1]; omega

/-- Block t of this row-blocked input is rows 8000 t … 8000 t + 7999 of its array. -/
theorem ef_block (c : Dev nD) (t : Fin cfg1.N) (p : Fin 8000) (k : Fin 3) (r : Fin 1600000)
    (hr : r.val = t.val * 8000 + p.val) :
    (iblk1 V c 2 t : S8000x3.Idx → EReal) (ix2 p k)
      = (V c (Pipeline.arrRef spec1 2) : S1600000x3.Idx → EReal) (ix2 r k) := by
  obtain ⟨-, -, -, -, e0, e1, -⟩ := idx_facts t
  unfold iblk1
  rw [View.read_apply]
  show (V c (Pipeline.arrRef spec1 2) : S1600000x3.Idx → EReal) _ = _
  refine congrArg _ (funext fun a => Fin.ext ?_)
  match a with
  | ⟨0, _⟩ => show win1_2.index t (0 : Fin 2) * 8000 + 1 * p.val = r.val; rw [e0, hr]; omega
  | ⟨1, _⟩ => show win1_2.index t (1 : Fin 2) * 3 + 1 * k.val = k.val; rw [e1]; omega

/-! A window over a whole array holds that array at every point. -/

theorem w1s_block (c : Dev nD) (t : Fin cfg1.N) :
    (iblk1 V c 3 t : S64x64.Idx → EReal) = (V c (Pipeline.arrRef spec1 3) : S64x64.Idx → EReal) := by
  obtain ⟨-, -, -, -, -, -, e0, e1, -⟩ := idx_facts t
  funext y
  unfold iblk1
  rw [View.read_apply]
  show (V c (Pipeline.arrRef spec1 3) : S64x64.Idx → EReal) _ = _
  refine congrArg _ (funext fun a => Fin.ext ?_)
  match a with
  | ⟨0, _⟩ => show win1_3.index t (0 : Fin 2) * 64 + 1 * (y 0).val = (y 0).val; rw [e0]; omega
  | ⟨1, _⟩ => show win1_3.index t (1 : Fin 2) * 64 + 1 * (y 1).val = (y 1).val; rw [e1]; omega

theorem w1d_block (c : Dev nD) (t : Fin cfg1.N) :
    (iblk1 V c 4 t : S64x64.Idx → EReal) = (V c (Pipeline.arrRef spec1 4) : S64x64.Idx → EReal) := by
  obtain ⟨-, -, -, -, -, -, -, -, e0, e1, -⟩ := idx_facts t
  funext y
  unfold iblk1
  rw [View.read_apply]
  show (V c (Pipeline.arrRef spec1 4) : S64x64.Idx → EReal) _ = _
  refine congrArg _ (funext fun a => Fin.ext ?_)
  match a with
  | ⟨0, _⟩ => show win1_4.index t (0 : Fin 2) * 64 + 1 * (y 0).val = (y 0).val; rw [e0]; omega
  | ⟨1, _⟩ => show win1_4.index t (1 : Fin 2) * 64 + 1 * (y 1).val = (y 1).val; rw [e1]; omega

theorem w1e_block (c : Dev nD) (t : Fin cfg1.N) :
    (iblk1 V c 5 t : S3x64.Idx → EReal) = (V c (Pipeline.arrRef spec1 5) : S3x64.Idx → EReal) := by
  obtain ⟨-, -, -, -, -, -, -, -, -, -, e0, e1, -⟩ := idx_facts t
  funext y
  unfold iblk1
  rw [View.read_apply]
  show (V c (Pipeline.arrRef spec1 5) : S3x64.Idx → EReal) _ = _
  refine congrArg _ (funext fun a => Fin.ext ?_)
  match a with
  | ⟨0, _⟩ => show win1_5.index t (0 : Fin 2) * 3 + 1 * (y 0).val = (y 0).val; rw [e0]; omega
  | ⟨1, _⟩ => show win1_5.index t (1 : Fin 2) * 64 + 1 * (y 1).val = (y 1).val; rw [e1]; omega

theorem b1_block (c : Dev nD) (t : Fin cfg1.N) :
    (iblk1 V c 6 t : S64.Idx → EReal) = (V c (Pipeline.arrRef spec1 6) : S64.Idx → EReal) := by
  obtain ⟨-, -, -, -, -, -, -, -, -, -, -, -, e0, -⟩ := idx_facts t
  funext y
  unfold iblk1
  rw [View.read_apply]
  show (V c (Pipeline.arrRef spec1 6) : S64.Idx → EReal) _ = _
  refine congrArg _ (funext fun a => Fin.ext ?_)
  match a with
  | ⟨0, _⟩ => show win1_6.index t (0 : Fin 1) * 64 + 1 * (y 0).val = (y 0).val; rw [e0]; omega

theorem w2_block (c : Dev nD) (t : Fin cfg1.N) :
    (iblk1 V c 7 t : S64x64.Idx → EReal) = (V c (Pipeline.arrRef spec1 7) : S64x64.Idx → EReal) := by
  obtain ⟨-, -, -, -, -, -, -, -, -, -, -, -, -, e0, e1, -⟩ := idx_facts t
  funext y
  unfold iblk1
  rw [View.read_apply]
  show (V c (Pipeline.arrRef spec1 7) : S64x64.Idx → EReal) _ = _
  refine congrArg _ (funext fun a => Fin.ext ?_)
  match a with
  | ⟨0, _⟩ => show win1_7.index t (0 : Fin 2) * 64 + 1 * (y 0).val = (y 0).val; rw [e0]; omega
  | ⟨1, _⟩ => show win1_7.index t (1 : Fin 2) * 64 + 1 * (y 1).val = (y 1).val; rw [e1]; omega

theorem b2_block (c : Dev nD) (t : Fin cfg1.N) :
    (iblk1 V c 8 t : S64.Idx → EReal) = (V c (Pipeline.arrRef spec1 8) : S64.Idx → EReal) := by
  obtain ⟨-, -, -, -, -, -, -, -, -, -, -, -, -, -, -, e0, -⟩ := idx_facts t
  funext y
  unfold iblk1
  rw [View.read_apply]
  show (V c (Pipeline.arrRef spec1 8) : S64.Idx → EReal) _ = _
  refine congrArg _ (funext fun a => Fin.ext ?_)
  match a with
  | ⟨0, _⟩ => show win1_8.index t (0 : Fin 1) * 64 + 1 * (y 0).val = (y 0).val; rw [e0]; omega

/-! ## From the blocks to the array -/

/-- An entry of the message stage depends on one row of each of the three row-blocked inputs. -/
theorem edgeAt_of_rows (S D : Cert.Gnn.Mat 1600000 64) (E : Cert.Gnn.Mat 1600000 3) (s d : Cert.Gnn.Mat 8000 64)
    (e : Cert.Gnn.Mat 8000 3) (ws wd : Cert.Gnn.Mat 64 64) (we : Cert.Gnn.Mat 3 64) (b1 : Cert.Gnn.Vc 64)
    (w2 : Cert.Gnn.Mat 64 64) (b2 : Cert.Gnn.Vc 64) (p : Fin 8000) (q : Fin 64) (r : Fin 1600000)
    (hs : ∀ k : Fin 64, s (ix2 p k) = S (ix2 r k)) (hd : ∀ k : Fin 64, d (ix2 p k) = D (ix2 r k))
    (he : ∀ k : Fin 3, e (ix2 p k) = E (ix2 r k)) :
    Cert.Gnn.edgeAt s d e ws wd we b1 w2 b2 p q = Cert.Gnn.edge S D E ws wd we b1 w2 b2 (ix2 r q) := by
  rw [Cert.Gnn.edge_ix2]
  unfold Cert.Gnn.edgeAt
  simp only [hs, hd, he]

/-- What point t writes back is block t of the message stage of the arrays as found. -/
theorem flushed_eq (c : Dev nD) (t : Fin cfg1.N) :
    (dat1 (F := Ideal) V c).flushed 9 t = ((cfg1.win 9).blk t).view.read (Elt Ideal) (edgeOf V c) := by
  show (cfg1.win 9).cut (grid1.coords t) ((dat1 (F := Ideal) V c).after 9 t) = _
  rw [after1_9]
  unfold out1_9
  rw [View.canon_unit_zero hz2]
  simp only [View.ld_unit_zero (S := S8000x64) hz2, View.ld_unit_zero (S := S8000x3) hz2, View.ld_unit_zero (S := S64x64) hz2,
    View.ld_unit_zero (S := S3x64) hz2, View.ld_unit_zero (S := S64) hz1]
  funext j
  obtain ⟨p, q, rfl⟩ : ∃ (p : Fin 8000) (q : Fin 64), j = ix2 p q := ⟨j 0, j 1, eq_ix2 j⟩
  have hN : cfg1.N = 200 := N_1
  have ht : t.val < 200 := hN ▸ t.isLt
  obtain ⟨-, -, -, -, -, -, -, -, -, -, -, -, -, -, -, -, e0, e1⟩ := idx_facts t
  have hemb : ((cfg1.win 9).blk t).view.emb (ix2 p q) = ix2 (⟨t.val * 8000 + p.val, by omega⟩ : Fin 1600000) q := by
    funext a; apply Fin.ext
    match a with
    | ⟨0, _⟩ => show win1_9.index t (0 : Fin 2) * 8000 + 1 * p.val = t.val * 8000 + p.val; rw [e0]; omega
    | ⟨1, _⟩ => show win1_9.index t (1 : Fin 2) * 64 + 1 * q.val = q.val; rw [e1]; omega
  show k1_pay1 (iblk1 V c 0 t) (iblk1 V c 1 t) (iblk1 V c 2 t) (iblk1 V c 3 t) (iblk1 V c 4 t) (iblk1 V c 5 t) (iblk1 V c 6 t)
      (iblk1 V c 7 t) (iblk1 V c 8 t) (ix2 p q) = edgeOf V c (((cfg1.win 9).blk t).view.emb (ix2 p q))
  rw [hemb]
  refine (edge_payload (iblk1 V c 0 t) (iblk1 V c 1 t) (iblk1 V c 2 t) (iblk1 V c 3 t) (iblk1 V c 4 t) (iblk1 V c 5 t)
    (iblk1 V c 6 t) (iblk1 V c 7 t) (iblk1 V c 8 t) p q).trans ?_
  rw [w1s_block V c t, w1d_block V c t, w1e_block V c t, b1_block V c t, w2_block V c t, b2_block V c t]
  exact edgeAt_of_rows _ _ _ _ _ _ _ _ _ _ _ _ p q _ (fun k => src_block V c t p k _ rfl) (fun k => dst_block V c t p k _ rfl)
    (fun k => ef_block V c t p k _ rfl)

end Cert.KernelIdeal.RegionValue.R1

namespace Cert.KernelIdeal.RegionValue

open Cert.KernelIdeal Cert.KernelIdeal.Gen Idealize.ShloMosaic Idealize.ShloMosaic.TcCoe Idealize.SL.Sem

/-- The output array after the region is the message stage of the nine arrays the region found: the source rows, the
    destination rows, the edge features, the three row blocks of the first weight, the first bias, the second weight and
    the second bias. -/
theorem final1 (V : (c : Dev nD) → (b : Ref sig .tc) → Buf (Elt Ideal) ((c : Thread nD τ).loc b)) (c : Dev nD) :
    (dat1 (F := Ideal) V c).arrAt 9 cfg1.N
      = Cert.Gnn.edge (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))
          (V c (Pipeline.arrRef spec1 6)) (V c (Pipeline.arrRef spec1 7)) (V c (Pipeline.arrRef spec1 8)) :=
  (dat1 (F := Ideal) V c).arrAt_eq_of_cover 9 (R1.edgeOf V c) (fun t _ => R1.flushed_eq V c t) R1.cover

end Cert.KernelIdeal.RegionValue

end
-- ==== Proof.KRegion2.lean ====
/-
  Region 2 of the kernel program (an update stage): its output array after the region is, entry by entry, the node's own
  row plus the two-layer perceptron of the node's row and its aggregate, of the arrays the region finds — the first
  layer's weight given as its two row blocks, whose partial products the body adds.  The body's one store read at an
  entry of the block is that entry (the products accumulated from zero are plain sums, the cuts to bf16 and the identity
  shape casts drop out, each bias is a row spread over the block); the two row-block windows' blocks at point t are rows
  5000 t … 5000 t + 4999 of their arrays and the weights' and biases' blocks are their whole arrays; the ten output blocks
  tile the output array.
-/
import proofs.«102956_j57483842290055_2_alg».proof.Proof.Gen.KernelIdeal.Frame
import proofs.«102956_j57483842290055_2_alg».proof.Proof.Spec
import proofs.«102956_j57483842290055_2_alg».proof.Proof.LibMatmulIx
import proofs.«102956_j57483842290055_2_alg».proof.Proof.LibGcnBody
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

namespace R2

/-- The record `dot_S5000x64_S64x64_S5000x64_1_0_0_1_n_n` contracts the left operand's columns with the right operand's rows. -/
theorem dotHid_l0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem dotHid_l1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem dotHid_r0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem dotHid_r1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's one store, read at row `p`, column `q` of the block: the update stage's entry (the node's own row plus
    the perceptron of the node's row and its aggregate, the first weight given as its two row blocks). -/
theorem upd_block_entry (x0 x1 : Vec Ideal S5000x64 .f32) (x2 x3 : Vec Ideal S64x64 .f32) (x4 : Vec Ideal S64 .f32)
    (x5 : Vec Ideal S64x64 .f32) (x6 : Vec Ideal S64 .f32) (x7 : Vec Ideal S5000x64 .f32) (p : Fin 5000) (q : Fin 64) :
    k2_pay1 x0 x1 x2 x3 x4 x5 x6 x7 (ix2 p q) = Cert.Gnn.updAt x7 x0 x1 x2 x3 x4 x5 x6 p q := by
  unfold k2_pay1
  simp only [shapeCast_self]
  refine (addf_apply _ _ (ix2 p q)).trans ?_
  unfold Cert.Gnn.updAt Cert.Gnn.outLayer
  refine congrArg₂ (· + ·) rfl ?_
  refine (addf_apply _ _ (ix2 p q)).trans ?_
  refine congrArg₂ (· + ·) ?_ ?_
  · refine (MatmulIx.matmul_zero_ix2 dot_S5000x64_S64x64_S5000x64_1_0_0_1_n_n rfl rfl dotHid_l0 dotHid_l1 dotHid_r0 dotHid_r1 none _ _ p q).trans ?_
    refine Finset.sum_congr rfl fun j _ => ?_
    refine congrArg₂ (· * ·) ?_ rfl
    show max ((matmul dot_S5000x64_S64x64_S5000x64_1_0_0_1_n_n none (truncf .bf16 x0 bitsLt_bf16_f32) (truncf .bf16 x2 bitsLt_bf16_f32)
            (constant (F := Ideal) S5000x64 .f32 0x00000000#32) (ix2 p j)
          + matmul dot_S5000x64_S64x64_S5000x64_1_0_0_1_n_n none (truncf .bf16 x1 bitsLt_bf16_f32) (truncf .bf16 x3 bitsLt_bf16_f32)
            (constant (F := Ideal) S5000x64 .f32 0x00000000#32) (ix2 p j))
        + broadcastTo S5000x64 (shapeCast S1x64 x4 shapeCasts_S64_S1x64) broadcasts_S1x64_S5000x64 (ix2 p j))
      (Ideal.ofBits .f32 0x00000000#32) = _
    rw [Ideal.ofBits_zero_f32]
    refine congrArg₂ max (congrArg₂ (· + ·) (congrArg₂ (· + ·) ?_ ?_) ?_) rfl
    · exact MatmulIx.matmul_zero_ix2 dot_S5000x64_S64x64_S5000x64_1_0_0_1_n_n rfl rfl dotHid_l0 dotHid_l1 dotHid_r0 dotHid_r1 none _ _ p j
    · exact MatmulIx.matmul_zero_ix2 dot_S5000x64_S64x64_S5000x64_1_0_0_1_n_n rfl rfl dotHid_l0 dotHid_l1 dotHid_r0 dotHid_r1 none _ _ p j
    · exact (Cert.Gcn.Body.rowSpread_apply _ _ p j).trans (Cert.Gcn.Body.shapeCast_b_1b_apply x4 _ 0 j)
  · exact (Cert.Gcn.Body.rowSpread_apply _ _ p q).trans (Cert.Gcn.Body.shapeCast_b_1b_apply x6 _ 0 q)

/-- The same at an entry of the ARRAY: when the blocks `hb`, `gb` hold rows `5000 tv …` of `Hh`, `G`, the body's store at
    the block entry `j` is the update stage of `Hh`, `G` at the array entry `i` that `j` lands on. -/
theorem upd_block_in_array (Hh G : S50000x64.Idx → EReal) (hb gb : Vec Ideal S5000x64 .f32) (wh wg : Vec Ideal S64x64 .f32)
    (b1 : Vec Ideal S64 .f32) (w2 : Vec Ideal S64x64 .f32) (b2 : Vec Ideal S64 .f32) (tv : ℕ)
    (hh : ∀ (p : Fin 5000) (k : Fin 64) (r : Fin 50000), r.val = 5000 * tv + p.val → hb (ix2 p k) = Hh (ix2 r k))
    (hg : ∀ (p : Fin 5000) (k : Fin 64) (r : Fin 50000), r.val = 5000 * tv + p.val → gb (ix2 p k) = G (ix2 r k))
    (j : S5000x64.Idx) (i : S50000x64.Idx) (hi0 : (i 0).val = 5000 * tv + (j 0).val) (hi1 : (i 1).val = (j 1).val) :
    k2_pay1 hb gb wh wg b1 w2 b2 hb j
      = Cert.Gnn.upd (a := 50000) (b := 64) (H := 64) (A := 64) (B := 64) Hh Hh G wh wg b1 w2 b2 i := by
  obtain ⟨p, q, rfl⟩ : ∃ (p : Fin 5000) (q : Fin 64), j = ix2 p q := ⟨j 0, j 1, eq_ix2 j⟩
  rw [upd_block_entry]
  show Cert.Gnn.updAt hb hb gb wh wg b1 w2 b2 p q
    = Cert.Gnn.updAt (a := 50000) (b := 64) (H := 64) (A := 64) (B := 64) Hh Hh G wh wg b1 w2 b2 ⟨(i 0).val, (i 0).isLt⟩ ⟨(i 1).val, (i 1).isLt⟩
  have hq : (⟨(i 1).val, (i 1).isLt⟩ : Fin 64) = q := Fin.ext hi1
  rw [hq]
  unfold Cert.Gnn.updAt
  refine congrArg₂ (· + ·) (hh p q ⟨(i 0).val, (i 0).isLt⟩ hi0) ?_
  refine congrArg (fun hid => Cert.Gnn.outLayer hid w2 b2 q) (funext fun jj => ?_)
  refine congrArg₂ max (congrArg₂ (· + ·) (congrArg₂ (· + ·) (Finset.sum_congr rfl fun k _ => ?_) (Finset.sum_congr rfl fun k _ => ?_)) rfl) rfl
  · exact congrArg₂ (· * ·) (hh p k ⟨(i 0).val, (i 0).isLt⟩ hi0) rfl
  · exact congrArg₂ (· * ·) (hg p k ⟨(i 0).val, (i 0).isLt⟩ hi0) rfl

/-- The index maps of the region, decided over its ten points: the row-block windows follow the point, the weights and
    biases stay at block 0. -/
theorem index_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = t.val ∧ win2_7.index t (1 : Fin 2) = 0 :=
  (by decide +kernel : ∀ t : Fin grid2.N, _)

/-- Window 0's block at point `t` is rows `5000 t … 5000 t + 4999` of its array. -/
theorem hblock2_apply (c : Dev nD) (t : Fin cfg2.N) (p : Fin 5000) (k : Fin 64) (r : Fin 50000) (hr : r.val = 5000 * t.val + p.val) :
    (iblk2 V c 0 t : Vec Ideal S5000x64 .f32) (ix2 p k) = (V c (Pipeline.arrRef spec2 0) : S50000x64.Idx → EReal) (ix2 r k) := by
  obtain ⟨e0, e1, -⟩ := index_facts2 t
  unfold iblk2
  rw [View.read_apply]
  show (V c (Pipeline.arrRef spec2 0) : S50000x64.Idx → EReal) (((cfg2.win 0).blk t).view.emb (ix2 p k)) = _
  refine congrArg _ (funext fun a => Fin.ext ?_)
  match a with
  | ⟨0, _⟩ => show win2_0.index t (0 : Fin 2) * 5000 + 1 * p.val = r.val; rw [e0, hr]; omega
  | ⟨1, _⟩ => show win2_0.index t (1 : Fin 2) * 64 + 1 * k.val = k.val; rw [e1]; omega

/-- Window 1's block at point `t` is rows `5000 t … 5000 t + 4999` of its array. -/
theorem aggblock2_apply (c : Dev nD) (t : Fin cfg2.N) (p : Fin 5000) (k : Fin 64) (r : Fin 50000) (hr : r.val = 5000 * t.val + p.val) :
    (iblk2 V c 1 t : Vec Ideal S5000x64 .f32) (ix2 p k) = (V c (Pipeline.arrRef spec2 1) : S50000x64.Idx → EReal) (ix2 r k) := by
  obtain ⟨-, -, e0, e1, -⟩ := index_facts2 t
  unfold iblk2
  rw [View.read_apply]
  show (V c (Pipeline.arrRef spec2 1) : S50000x64.Idx → EReal) (((cfg2.win 1).blk t).view.emb (ix2 p k)) = _
  refine congrArg _ (funext fun a => Fin.ext ?_)
  match a with
  | ⟨0, _⟩ => show win2_1.index t (0 : Fin 2) * 5000 + 1 * p.val = r.val; rw [e0, hr]; omega
  | ⟨1, _⟩ => show win2_1.index t (1 : Fin 2) * 64 + 1 * k.val = k.val; rw [e1]; omega

/-- Window 2's block at every point is its whole array. -/
theorem w1hblock2 (c : Dev nD) (t : Fin cfg2.N) :
    (iblk2 V c 2 t : Vec Ideal S64x64 .f32) = (V c (Pipeline.arrRef spec2 2) : S64x64.Idx → EReal) := by
  obtain ⟨-, -, -, -, e0, e1, -⟩ := index_facts2 t
  funext j
  unfold iblk2
  rw [View.read_apply]
  show (V c (Pipeline.arrRef spec2 2) : S64x64.Idx → EReal) (((cfg2.win 2).blk t).view.emb j) = _
  refine congrArg _ (funext fun a => Fin.ext ?_)
  match a with
  | ⟨0, _⟩ => show win2_2.index t (0 : Fin 2) * 64 + 1 * (j 0).val = (j 0).val; rw [e0]; omega
  | ⟨1, _⟩ => show win2_2.index t (1 : Fin 2) * 64 + 1 * (j 1).val = (j 1).val; rw [e1]; omega

/-- Window 3's block at every point is its whole array. -/
theorem w1aggblock2 (c : Dev nD) (t : Fin cfg2.N) :
    (iblk2 V c 3 t : Vec Ideal S64x64 .f32) = (V c (Pipeline.arrRef spec2 3) : S64x64.Idx → EReal) := by
  obtain ⟨-, -, -, -, -, -, e0, e1, -⟩ := index_facts2 t
  funext j
  unfold iblk2
  rw [View.read_apply]
  show (V c (Pipeline.arrRef spec2 3) : S64x64.Idx → EReal) (((cfg2.win 3).blk t).view.emb j) = _
  refine congrArg _ (funext fun a => Fin.ext ?_)
  match a with
  | ⟨0, _⟩ => show win2_3.index t (0 : Fin 2) * 64 + 1 * (j 0).val = (j 0).val; rw [e0]; omega
  | ⟨1, _⟩ => show win2_3.index t (1 : Fin 2) * 64 + 1 * (j 1).val = (j 1).val; rw [e1]; omega

/-- Window 4's block at every point is its whole array. -/
theorem b1block2 (c : Dev nD) (t : Fin cfg2.N) :
    (iblk2 V c 4 t : Vec Ideal S64 .f32) = (V c (Pipeline.arrRef spec2 4) : S64.Idx → EReal) := by
  obtain ⟨-, -, -, -, -, -, -, -, e0, -⟩ := index_facts2 t
  funext j
  unfold iblk2
  rw [View.read_apply]
  show (V c (Pipeline.arrRef spec2 4) : S64.Idx → EReal) (((cfg2.win 4).blk t).view.emb j) = _
  refine congrArg _ (funext fun a => Fin.ext ?_)
  match a with
  | ⟨0, _⟩ => show win2_4.index t (0 : Fin 1) * 64 + 1 * (j 0).val = (j 0).val; rw [e0]; omega

/-- Window 5's block at every point is its whole array. -/
theorem w2block2 (c : Dev nD) (t : Fin cfg2.N) :
    (iblk2 V c 5 t : Vec Ideal S64x64 .f32) = (V c (Pipeline.arrRef spec2 5) : S64x64.Idx → EReal) := by
  obtain ⟨-, -, -, -, -, -, -, -, -, e0, e1, -⟩ := index_facts2 t
  funext j
  unfold iblk2
  rw [View.read_apply]
  show (V c (Pipeline.arrRef spec2 5) : S64x64.Idx → EReal) (((cfg2.win 5).blk t).view.emb j) = _
  refine congrArg _ (funext fun a => Fin.ext ?_)
  match a with
  | ⟨0, _⟩ => show win2_5.index t (0 : Fin 2) * 64 + 1 * (j 0).val = (j 0).val; rw [e0]; omega
  | ⟨1, _⟩ => show win2_5.index t (1 : Fin 2) * 64 + 1 * (j 1).val = (j 1).val; rw [e1]; omega

/-- Window 6's block at every point is its whole array. -/
theorem b2block2 (c : Dev nD) (t : Fin cfg2.N) :
    (iblk2 V c 6 t : Vec Ideal S64 .f32) = (V c (Pipeline.arrRef spec2 6) : S64.Idx → EReal) := by
  obtain ⟨-, -, -, -, -, -, -, -, -, -, -, e0, -⟩ := index_facts2 t
  funext j
  unfold iblk2
  rw [View.read_apply]
  show (V c (Pipeline.arrRef spec2 6) : S64.Idx → EReal) (((cfg2.win 6).blk t).view.emb j) = _
  refine congrArg _ (funext fun a => Fin.ext ?_)
  match a with
  | ⟨0, _⟩ => show win2_6.index t (0 : Fin 1) * 64 + 1 * (j 0).val = (j 0).val; rw [e0]; omega

theorem zero_offsets2 : (![0, 0] : Fin 2 → Nat) = fun _ => 0 := funext fun a => by fin_cases a <;> rfl
theorem zero_offsets1 : (![0] : Fin 1 → Nat) = fun _ => 0 := funext fun a => by fin_cases a <;> rfl

/-- The update stage of the arrays the region finds. -/
abbrev updated2 (c : Dev nD) : S50000x64.Idx → EReal :=
  Cert.Gnn.upd (a := 50000) (b := 64) (H := 64) (A := 64) (B := 64) (V c (Pipeline.arrRef spec2 0)) (V c (Pipeline.arrRef spec2 0))
    (V c (Pipeline.arrRef spec2 1)) (V c (Pipeline.arrRef spec2 2)) (V c (Pipeline.arrRef spec2 3)) (V c (Pipeline.arrRef spec2 4))
    (V c (Pipeline.arrRef spec2 5)) (V c (Pipeline.arrRef spec2 6))

/-- What point `t` writes back is block `t` of the update stage of the arrays the region finds. -/
theorem flushed2_eq (c : Dev nD) (t : Fin cfg2.N) :
    (dat2 (F := Ideal) V c).flushed 7 t = ((cfg2.win 7).blk t).view.read (Elt Ideal) (updated2 V c) := by
  show (cfg2.win 7).cut (grid2.coords t) ((dat2 (F := Ideal) V c).after 7 t) = _
  rw [after2_7]
  unfold out2_7
  rw [View.canon_unit_zero zero_offsets2]
  simp only [View.ld_unit_zero (S := S5000x64) zero_offsets2, View.ld_unit_zero (S := S64x64) zero_offsets2,
    View.ld_unit_zero (S := S64) zero_offsets1]
  rw [w1hblock2, w1aggblock2, b1block2, w2block2, b2block2]
  obtain ⟨-, -, -, -, -, -, -, -, -, -, -, -, e0, e1⟩ := index_facts2 t
  funext j
  show k2_pay1 (iblk2 V c 0 t) (iblk2 V c 1 t) (V c (Pipeline.arrRef spec2 2)) (V c (Pipeline.arrRef spec2 3))
      (V c (Pipeline.arrRef spec2 4)) (V c (Pipeline.arrRef spec2 5)) (V c (Pipeline.arrRef spec2 6)) (iblk2 V c 0 t) j
    = updated2 V c (((cfg2.win 7).blk t).view.emb j)
  refine upd_block_in_array _ _ _ _ _ _ _ _ _ t.val (fun p k r hr => hblock2_apply V c t p k r hr)
    (fun p k r hr => aggblock2_apply V c t p k r hr) j _ ?_ ?_
  · show win2_7.index t (0 : Fin 2) * 5000 + 1 * (j 0).val = 5000 * t.val + (j 0).val
    rw [e0]; omega
  · show win2_7.index t (1 : Fin 2) * 64 + 1 * (j 1).val = (j 1).val
    rw [e1]; omega

/-- An index of the output array is in point `t`'s block iff each coordinate is in the block's range on its axis. -/
theorem mem_outblock2 (t : Fin cfg2.N) (i : S50000x64.Idx) :
    i ∈ ((cfg2.win 7).blk t).view.set ↔ ∀ a : Fin 2, win2_7.index t a * S5000x64.size a ≤ (i a).val ∧ (i a).val < win2_7.index t a * S5000x64.size a + S5000x64.size a := by
  show i ∈ ((View.whole main_v52).slice (win2_7.rect t)).set ↔ _
  rw [View.set_slice_whole, Rect.mem_set_unit]
  exact Iff.rfl

/-- Every row of the output array is in the block of the point `row / 5000`. -/
theorem cover2 (i : S50000x64.Idx) : ∃ t : Fin cfg2.N, (cfg2.win 7).flush t = true ∧ i ∈ ((cfg2.win 7).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  obtain ⟨-, -, -, -, -, -, -, -, -, -, -, -, e0, e1⟩ := index_facts2 t
  have ht : t.val = (i 0).val / 5000 := rfl
  refine ⟨t, flush2_7 t, ?_⟩
  rw [mem_outblock2]
  intro a
  match a with
  | ⟨0, _⟩ => show win2_7.index t (0 : Fin 2) * 5000 ≤ (i 0).val ∧ (i 0).val < win2_7.index t (0 : Fin 2) * 5000 + 5000; rw [e0, ht]; omega
  | ⟨1, _⟩ => show win2_7.index t (1 : Fin 2) * 64 ≤ (i 1).val ∧ (i 1).val < win2_7.index t (1 : Fin 2) * 64 + 64; rw [e1]; omega

end R2

/-- THE OUTPUT ARRAY after region 2: the update stage of the arrays the region finds (the node rows — window 0, read both as
    the residual and as the perceptron's first block —, the aggregate, the first weight's two row blocks, the first bias,
    the second weight, the second bias — windows 0 to 6). -/
theorem final2 (c : Dev nD) : (dat2 (F := Ideal) V c).arrAt 7 cfg2.N
    = Cert.Gnn.upd (a := 50000) (b := 64) (H := 64) (A := 64) (B := 64) (V c (Pipeline.arrRef spec2 0)) (V c (Pipeline.arrRef spec2 0))
        (V c (Pipeline.arrRef spec2 1)) (V c (Pipeline.arrRef spec2 2)) (V c (Pipeline.arrRef spec2 3)) (V c (Pipeline.arrRef spec2 4))
        (V c (Pipeline.arrRef spec2 5)) (V c (Pipeline.arrRef spec2 6)) :=
  (dat2 (F := Ideal) V c).arrAt_eq_of_cover 7 (R2.updated2 V c) (fun t _ => R2.flushed2_eq V c t) R2.cover2

end Cert.KernelIdeal.RegionValue

end
-- ==== Proof.KRegion3.lean ====
/-
  The message stage of round two on the kernel's side: the output array [1600000, 64] after the region is the
  message stage of the specification applied to the nine arrays the region finds.

  The region walks 200 points; point t holds rows 8000 t … 8000 t + 7999 of the three row-blocked inputs (the source
  rows and the destination rows, 64 columns each, and the edge features, 3 columns) and the whole of the three
  first-layer weight blocks, the first bias, the second-layer weight and the second bias.  Its body forms, for the
  block's row p, the hidden row  max (((s·ws + d·wd) + e·we) + b₁) 0  and the output row  hidden·w₂ + b₂ :  entry
  (p, q) of what point t writes is the specification's entry (8000 t + p, q), because that entry reads row
  8000 t + p of each row-blocked input and nothing else of them.  The 200 blocks tile the output array, row r lying
  in block r / 8000.
-/
import proofs.«102956_j57483842290055_2_alg».proof.Proof.Gen.KernelIdeal.Frame
import proofs.«102956_j57483842290055_2_alg».proof.Proof.Spec
import proofs.«102956_j57483842290055_2_alg».proof.Proof.LibMatmulIx
import proofs.«102956_j57483842290055_2_alg».proof.Proof.LibGcnBody
import Idealize.ShloMosaic.Lib.Pipeline.Value
import Idealize.ShloMosaic.Lib.ValueIdx
import Idealize.ShloMosaic.PureOps.Ideal.Laws

noncomputable section

namespace Cert.KernelIdeal.RegionValue.R3

open Cert.KernelIdeal Cert.KernelIdeal.Gen Idealize.ShloMosaic Idealize.ShloMosaic.TcCoe Idealize.SL.Sem
open Idealize.ShloMosaic.ValueIdx
open Idealize.ShloMosaic.Pipeline (Dat)

/-! ## The two contractions: which coordinates a product's entry reads

  Both products contract the left operand's columns with the right operand's rows: entry (i₀, i₁) of the result reads
  the left operand at (i₀, k) and the right operand at (k, i₁). -/

theorem dotWide_l0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem dotWide_l1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
theorem dotWide_r0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem dotWide_r1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

theorem dotThin_l0 (i : S8000x64.Idx) (q : dot_S8000x3_S3x64_S8000x64_1_0_0_1_n_n.contr.Idx) :
    (dot_S8000x3_S3x64_S8000x64_1_0_0_1_n_n.lhsIdx i q 0).val = (i 0).val := by
  unfold DotDims.lhsIdx
  rw [dif_neg (show ¬(0 : Fin S8000x3.rank) ∈ dot_S8000x3_S3x64_S8000x64_1_0_0_1_n_n.lhsBatch by decide), dif_pos (show (0 : Fin S8000x3.rank) ∈ dot_S8000x3_S3x64_S8000x64_1_0_0_1_n_n.lhsNonContracting by decide)]
  rfl
theorem dotThin_l1 (i : S8000x64.Idx) (q : dot_S8000x3_S3x64_S8000x64_1_0_0_1_n_n.contr.Idx) :
    (dot_S8000x3_S3x64_S8000x64_1_0_0_1_n_n.lhsIdx i q 1).val = (q ⟨0, by decide⟩).val :=
  dot_S8000x3_S3x64_S8000x64_1_0_0_1_n_n.lhsIdx_val_of_single rfl i q
theorem dotThin_r0 (i : S8000x64.Idx) (q : dot_S8000x3_S3x64_S8000x64_1_0_0_1_n_n.contr.Idx) :
    (dot_S8000x3_S3x64_S8000x64_1_0_0_1_n_n.rhsIdx i q 0).val = (q ⟨0, by decide⟩).val :=
  dot_S8000x3_S3x64_S8000x64_1_0_0_1_n_n.rhsIdx_val_of_single rfl i q
theorem dotThin_r1 (i : S8000x64.Idx) (q : dot_S8000x3_S3x64_S8000x64_1_0_0_1_n_n.contr.Idx) :
    (dot_S8000x3_S3x64_S8000x64_1_0_0_1_n_n.rhsIdx i q 1).val = (i 1).val := by
  unfold DotDims.rhsIdx
  rw [dif_neg (show ¬(1 : Fin S3x64.rank) ∈ dot_S8000x3_S3x64_S8000x64_1_0_0_1_n_n.rhsBatch by decide), dif_pos (show (1 : Fin S3x64.rank) ∈ dot_S8000x3_S3x64_S8000x64_1_0_0_1_n_n.rhsNonContracting by decide)]
  rfl

/-! ## The body at one entry -/

/-- The body's value at the entry (p, q) of the block: the second layer over the hidden row of the three partial
    products, the bias added and the result cut below at 0 (a change of float format is the identity on the extended
    reals; a product accumulated from the zero splat is the plain sum of products). -/
theorem edge_payload (x0 x1 : Vec Ideal S8000x64 .bf16) (x2 : Vec Ideal S8000x3 .bf16) (x3 x4 : Vec Ideal S64x64 .f32)
    (x5 : Vec Ideal S3x64 .f32) (x6 : Vec Ideal S64 .f32) (x7 : Vec Ideal S64x64 .f32) (x8 : Vec Ideal S64 .f32)
    (p : Fin 8000) (q : Fin 64) :
    k3_pay1 x0 x1 x2 x3 x4 x5 x6 x7 x8 (ix2 p q) = Cert.Gnn.edgeAt x0 x1 x2 x3 x4 x5 x6 x7 x8 p q := by
  unfold k3_pay1
  simp only [shapeCast_self]
  unfold Cert.Gnn.edgeAt Cert.Gnn.outLayer
  refine (addf_apply _ _ (ix2 p q)).trans ?_
  refine congrArg₂ (· + ·) ?_ ?_
  · refine (MatmulIx.matmul_zero_ix2 (φ₁ := .bf16) (φ₂ := .bf16) dot_S8000x64_S64x64_S8000x64_1_0_0_1_n_n rfl rfl
      dotWide_l0 dotWide_l1 dotWide_r0 dotWide_r1 none _ _ p q).trans ?_
    refine Finset.sum_congr rfl fun j _ => ?_
    refine congrArg₂ (· * ·) ?_ rfl
    refine (truncf_apply (ψ := .bf16) _ bitsLt_bf16_f32 (ix2 p j)).trans ?_
    refine (maximumf_apply _ _ (ix2 p j)).trans ?_
    refine congrArg₂ max ?_ ?_
    · refine (addf_apply _ _ (ix2 p j)).trans ?_
      refine congrArg₂ (· + ·) ?_ ?_
      · refine (addf_apply _ _ (ix2 p j)).trans ?_
        refine congrArg₂ (· + ·) ?_ ?_
        · refine (addf_apply _ _ (ix2 p j)).trans ?_
          refine congrArg₂ (· + ·) ?_ ?_
          · exact MatmulIx.matmul_zero_ix2 (φ₁ := .bf16) (φ₂ := .bf16) dot_S8000x64_S64x64_S8000x64_1_0_0_1_n_n rfl rfl
              dotWide_l0 dotWide_l1 dotWide_r0 dotWide_r1 none _ _ p j
          · exact MatmulIx.matmul_zero_ix2 (φ₁ := .bf16) (φ₂ := .bf16) dot_S8000x64_S64x64_S8000x64_1_0_0_1_n_n rfl rfl
              dotWide_l0 dotWide_l1 dotWide_r0 dotWide_r1 none _ _ p j
        · exact MatmulIx.matmul_zero_ix2 (φ₁ := .bf16) (φ₂ := .bf16) dot_S8000x3_S3x64_S8000x64_1_0_0_1_n_n rfl rfl
            dotThin_l0 dotThin_l1 dotThin_r0 dotThin_r1 none _ _ p j
      · exact (Cert.Gcn.Body.rowSpread_apply _ _ p j).trans (Cert.Gcn.Body.shapeCast_b_1b_apply x6 _ 0 j)
    · exact Ideal.ofBits_zero_f32
  · exact (Cert.Gcn.Body.rowSpread_apply _ _ p q).trans (Cert.Gcn.Body.shapeCast_b_1b_apply x8 _ 0 q)

/-! ## The grid: where each window's block sits -/

theorem hz2 : (![0, 0] : Fin 2 → Nat) = fun _ => 0 := funext fun a => by fin_cases a <;> rfl
theorem hz1 : (![0] : Fin 1 → Nat) = fun _ => 0 := funext fun a => by fin_cases a <;> rfl

/-- The index maps over the 200 points: the three row-blocked inputs and the output sit at block row t, block column 0;
    the weights and biases at block 0 throughout. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 1) = 0
    ∧ win3_7.index t (0 : Fin 2) = 0 ∧ win3_7.index t (1 : Fin 2) = 0
    ∧ win3_8.index t (0 : Fin 1) = 0
    ∧ win3_9.index t (0 : Fin 2) = t.val ∧ win3_9.index t (1 : Fin 2) = 0 :=
  (by decide +kernel : ∀ t : Fin grid3.N, _)

/-- An index of the output array lies in point t's block iff each coordinate lies in the block's range on its axis. -/
theorem mem_blk (t : Fin cfg3.N) (i : S1600000x64.Idx) :
    i ∈ ((cfg3.win 9).blk t).view.set ↔ ∀ a : Fin 2, win3_9.index t a * S8000x64.size a ≤ (i a).val ∧ (i a).val < win3_9.index t a * S8000x64.size a + S8000x64.size a := by
  show i ∈ ((View.whole main_v83).slice (win3_9.rect t)).set ↔ _
  rw [View.set_slice_whole, Rect.mem_set_unit]
  exact Iff.rfl

/-- Every index of the output array lies in some point's block: row r in the block of point r / 8000. -/
theorem cover (i : S1600000x64.Idx) : ∃ t : Fin cfg3.N, (cfg3.win 9).flush t = true ∧ i ∈ ((cfg3.win 9).blk t).view.set := by
  have hi0 : (i 0).val < 1600000 := (i 0).isLt
  have hi1 : (i 1).val < 64 := (i 1).isLt
  have hN : cfg3.N = 200 := N_3
  refine ⟨⟨(i 0).val / 8000, by rw [hN]; omega⟩, flush3_9 _, ?_⟩
  rw [mem_blk]
  obtain ⟨-, -, -, -, -, -, -, -, -, -, -, -, -, -, -, -, e0, e1⟩ := idx_facts ⟨(i 0).val / 8000, by rw [hN]; omega⟩
  intro a
  match a with
  | ⟨0, _⟩ =>
    show win3_9.index _ (0 : Fin 2) * 8000 ≤ (i 0).val ∧ (i 0).val < win3_9.index _ (0 : Fin 2) * 8000 + 8000
    rw [e0]; show (i 0).val / 8000 * 8000 ≤ (i 0).val ∧ (i 0).val < (i 0).val / 8000 * 8000 + 8000; omega
  | ⟨1, _⟩ =>
    show win3_9.index _ (1 : Fin 2) * 64 ≤ (i 1).val ∧ (i 1).val < win3_9.index _ (1 : Fin 2) * 64 + 64
    rw [e1]; omega

variable (V : (c : Dev nD) → (b : Ref sig .tc) → Buf (Elt Ideal) ((c : Thread nD τ).loc b))

/-- The message stage of the nine arrays the region finds. -/
abbrev edgeOf (c : Dev nD) : S1600000x64.Idx → EReal :=
  Cert.Gnn.edge (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))
    (V c (Pipeline.arrRef spec3 6)) (V c (Pipeline.arrRef spec3 7)) (V c (Pipeline.arrRef spec3 8))

/-! ## The windows' blocks, read where the output block's entry says -/

/-- Block t of this row-blocked input is rows 8000 t … 8000 t + 7999 of its array. -/
theorem src_block (c : Dev nD) (t : Fin cfg3.N) (p : Fin 8000) (k : Fin 64) (r : Fin 1600000)
    (hr : r.val = t.val * 8000 + p.val) :
    (iblk3 V c 0 t : S8000x64.Idx → EReal) (ix2 p k)
      = (V c (Pipeline.arrRef spec3 0) : S1600000x64.Idx → EReal) (ix2 r k) := by
  obtain ⟨e0, e1, -⟩ := idx_facts t
  unfold iblk3
  rw [View.read_apply]
  show (V c (Pipeline.arrRef spec3 0) : S1600000x64.Idx → EReal) _ = _
  refine congrArg _ (funext fun a => Fin.ext ?_)
  match a with
  | ⟨0, _⟩ => show win3_0.index t (0 : Fin 2) * 8000 + 1 * p.val = r.val; rw [e0, hr]; omega
  | ⟨1, _⟩ => show win3_0.index t (1 : Fin 2) * 64 + 1 * k.val = k.val; rw [e1]; omega

/-- Block t of this row-blocked input is rows 8000 t … 8000 t + 7999 of its array. -/
theorem dst_block (c : Dev nD) (t : Fin cfg3.N) (p : Fin 8000) (k : Fin 64) (r : Fin 1600000)
    (hr : r.val = t.val * 8000 + p.val) :
    (iblk3 V c 1 t : S8000x64.Idx → EReal) (ix2 p k)
      = (V c (Pipeline.arrRef spec3 1) : S1600000x64.Idx → EReal) (ix2 r k) := by
  obtain ⟨-, -, e0, e1, -⟩ := idx_facts t
  unfold iblk3
  rw [View.read_apply]
  show (V c (Pipeline.arrRef spec3 1) : S1600000x64.Idx → EReal) _ = _
  refine congrArg _ (funext fun a => Fin.ext ?_)
  match a with
  | ⟨0, _⟩ => show win3_1.index t (0 : Fin 2) * 8000 + 1 * p.val = r.val; rw [e0, hr]; omega
  | ⟨1, _⟩ => show win3_1.index t (1 : Fin 2) * 64 + 1 * k.val = k.val; rw [e1]; omega

/-- Block t of this row-blocked input is rows 8000 t … 8000 t + 7999 of its array. -/
theorem ef_block (c : Dev nD) (t : Fin cfg3.N) (p : Fin 8000) (k : Fin 3) (r : Fin 1600000)
    (hr : r.val = t.val * 8000 + p.val) :
    (iblk3 V c 2 t : S8000x3.Idx → EReal) (ix2 p k)
      = (V c (Pipeline.arrRef spec3 2) : S1600000x3.Idx → EReal) (ix2 r k) := by
  obtain ⟨-, -, -, -, e0, e1, -⟩ := idx_facts t
  unfold iblk3
  rw [View.read_apply]
  show (V c (Pipeline.arrRef spec3 2) : S1600000x3.Idx → EReal) _ = _
  refine congrArg _ (funext fun a => Fin.ext ?_)
  match a with
  | ⟨0, _⟩ => show win3_2.index t (0 : Fin 2) * 8000 + 1 * p.val = r.val; rw [e0, hr]; omega
  | ⟨1, _⟩ => show win3_2.index t (1 : Fin 2) * 3 + 1 * k.val = k.val; rw [e1]; omega

/-! A window over a whole array holds that array at every point. -/

theorem w1s_block (c : Dev nD) (t : Fin cfg3.N) :
    (iblk3 V c 3 t : S64x64.Idx → EReal) = (V c (Pipeline.arrRef spec3 3) : S64x64.Idx → EReal) := by
  obtain ⟨-, -, -, -, -, -, e0, e1, -⟩ := idx_facts t
  funext y
  unfold iblk3
  rw [View.read_apply]
  show (V c (Pipeline.arrRef spec3 3) : S64x64.Idx → EReal) _ = _
  refine congrArg _ (funext fun a => Fin.ext ?_)
  match a with
  | ⟨0, _⟩ => show win3_3.index t (0 : Fin 2) * 64 + 1 * (y 0).val = (y 0).val; rw [e0]; omega
  | ⟨1, _⟩ => show win3_3.index t (1 : Fin 2) * 64 + 1 * (y 1).val = (y 1).val; rw [e1]; omega

theorem w1d_block (c : Dev nD) (t : Fin cfg3.N) :
    (iblk3 V c 4 t : S64x64.Idx → EReal) = (V c (Pipeline.arrRef spec3 4) : S64x64.Idx → EReal) := by
  obtain ⟨-, -, -, -, -, -, -, -, e0, e1, -⟩ := idx_facts t
  funext y
  unfold iblk3
  rw [View.read_apply]
  show (V c (Pipeline.arrRef spec3 4) : S64x64.Idx → EReal) _ = _
  refine congrArg _ (funext fun a => Fin.ext ?_)
  match a with
  | ⟨0, _⟩ => show win3_4.index t (0 : Fin 2) * 64 + 1 * (y 0).val = (y 0).val; rw [e0]; omega
  | ⟨1, _⟩ => show win3_4.index t (1 : Fin 2) * 64 + 1 * (y 1).val = (y 1).val; rw [e1]; omega

theorem w1e_block (c : Dev nD) (t : Fin cfg3.N) :
    (iblk3 V c 5 t : S3x64.Idx → EReal) = (V c (Pipeline.arrRef spec3 5) : S3x64.Idx → EReal) := by
  obtain ⟨-, -, -, -, -, -, -, -, -, -, e0, e1, -⟩ := idx_facts t
  funext y
  unfold iblk3
  rw [View.read_apply]
  show (V c (Pipeline.arrRef spec3 5) : S3x64.Idx → EReal) _ = _
  refine congrArg _ (funext fun a => Fin.ext ?_)
  match a with
  | ⟨0, _⟩ => show win3_5.index t (0 : Fin 2) * 3 + 1 * (y 0).val = (y 0).val; rw [e0]; omega
  | ⟨1, _⟩ => show win3_5.index t (1 : Fin 2) * 64 + 1 * (y 1).val = (y 1).val; rw [e1]; omega

theorem b1_block (c : Dev nD) (t : Fin cfg3.N) :
    (iblk3 V c 6 t : S64.Idx → EReal) = (V c (Pipeline.arrRef spec3 6) : S64.Idx → EReal) := by
  obtain ⟨-, -, -, -, -, -, -, -, -, -, -, -, e0, -⟩ := idx_facts t
  funext y
  unfold iblk3
  rw [View.read_apply]
  show (V c (Pipeline.arrRef spec3 6) : S64.Idx → EReal) _ = _
  refine congrArg _ (funext fun a => Fin.ext ?_)
  match a with
  | ⟨0, _⟩ => show win3_6.index t (0 : Fin 1) * 64 + 1 * (y 0).val = (y 0).val; rw [e0]; omega

theorem w2_block (c : Dev nD) (t : Fin cfg3.N) :
    (iblk3 V c 7 t : S64x64.Idx → EReal) = (V c (Pipeline.arrRef spec3 7) : S64x64.Idx → EReal) := by
  obtain ⟨-, -, -, -, -, -, -, -, -, -, -, -, -, e0, e1, -⟩ := idx_facts t
  funext y
  unfold iblk3
  rw [View.read_apply]
  show (V c (Pipeline.arrRef spec3 7) : S64x64.Idx → EReal) _ = _
  refine congrArg _ (funext fun a => Fin.ext ?_)
  match a with
  | ⟨0, _⟩ => show win3_7.index t (0 : Fin 2) * 64 + 1 * (y 0).val = (y 0).val; rw [e0]; omega
  | ⟨1, _⟩ => show win3_7.index t (1 : Fin 2) * 64 + 1 * (y 1).val = (y 1).val; rw [e1]; omega

theorem b2_block (c : Dev nD) (t : Fin cfg3.N) :
    (iblk3 V c 8 t : S64.Idx → EReal) = (V c (Pipeline.arrRef spec3 8) : S64.Idx → EReal) := by
  obtain ⟨-, -, -, -, -, -, -, -, -, -, -, -, -, -, -, e0, -⟩ := idx_facts t
  funext y
  unfold iblk3
  rw [View.read_apply]
  show (V c (Pipeline.arrRef spec3 8) : S64.Idx → EReal) _ = _
  refine congrArg _ (funext fun a => Fin.ext ?_)
  match a with
  | ⟨0, _⟩ => show win3_8.index t (0 : Fin 1) * 64 + 1 * (y 0).val = (y 0).val; rw [e0]; omega

/-! ## From the blocks to the array -/

/-- An entry of the message stage depends on one row of each of the three row-blocked inputs. -/
theorem edgeAt_of_rows (S D : Cert.Gnn.Mat 1600000 64) (E : Cert.Gnn.Mat 1600000 3) (s d : Cert.Gnn.Mat 8000 64)
    (e : Cert.Gnn.Mat 8000 3) (ws wd : Cert.Gnn.Mat 64 64) (we : Cert.Gnn.Mat 3 64) (b1 : Cert.Gnn.Vc 64)
    (w2 : Cert.Gnn.Mat 64 64) (b2 : Cert.Gnn.Vc 64) (p : Fin 8000) (q : Fin 64) (r : Fin 1600000)
    (hs : ∀ k : Fin 64, s (ix2 p k) = S (ix2 r k)) (hd : ∀ k : Fin 64, d (ix2 p k) = D (ix2 r k))
    (he : ∀ k : Fin 3, e (ix2 p k) = E (ix2 r k)) :
    Cert.Gnn.edgeAt s d e ws wd we b1 w2 b2 p q = Cert.Gnn.edge S D E ws wd we b1 w2 b2 (ix2 r q) := by
  rw [Cert.Gnn.edge_ix2]
  unfold Cert.Gnn.edgeAt
  simp only [hs, hd, he]

/-- What point t writes back is block t of the message stage of the arrays as found. -/
theorem flushed_eq (c : Dev nD) (t : Fin cfg3.N) :
    (dat3 (F := Ideal) V c).flushed 9 t = ((cfg3.win 9).blk t).view.read (Elt Ideal) (edgeOf V c) := by
  show (cfg3.win 9).cut (grid3.coords t) ((dat3 (F := Ideal) V c).after 9 t) = _
  rw [after3_9]
  unfold out3_9
  rw [View.canon_unit_zero hz2]
  simp only [View.ld_unit_zero (S := S8000x64) hz2, View.ld_unit_zero (S := S8000x3) hz2, View.ld_unit_zero (S := S64x64) hz2,
    View.ld_unit_zero (S := S3x64) hz2, View.ld_unit_zero (S := S64) hz1]
  funext j
  obtain ⟨p, q, rfl⟩ : ∃ (p : Fin 8000) (q : Fin 64), j = ix2 p q := ⟨j 0, j 1, eq_ix2 j⟩
  have hN : cfg3.N = 200 := N_3
  have ht : t.val < 200 := hN ▸ t.isLt
  obtain ⟨-, -, -, -, -, -, -, -, -, -, -, -, -, -, -, -, e0, e1⟩ := idx_facts t
  have hemb : ((cfg3.win 9).blk t).view.emb (ix2 p q) = ix2 (⟨t.val * 8000 + p.val, by omega⟩ : Fin 1600000) q := by
    funext a; apply Fin.ext
    match a with
    | ⟨0, _⟩ => show win3_9.index t (0 : Fin 2) * 8000 + 1 * p.val = t.val * 8000 + p.val; rw [e0]; omega
    | ⟨1, _⟩ => show win3_9.index t (1 : Fin 2) * 64 + 1 * q.val = q.val; rw [e1]; omega
  show k3_pay1 (iblk3 V c 0 t) (iblk3 V c 1 t) (iblk3 V c 2 t) (iblk3 V c 3 t) (iblk3 V c 4 t) (iblk3 V c 5 t) (iblk3 V c 6 t)
      (iblk3 V c 7 t) (iblk3 V c 8 t) (ix2 p q) = edgeOf V c (((cfg3.win 9).blk t).view.emb (ix2 p q))
  rw [hemb]
  refine (edge_payload (iblk3 V c 0 t) (iblk3 V c 1 t) (iblk3 V c 2 t) (iblk3 V c 3 t) (iblk3 V c 4 t) (iblk3 V c 5 t)
    (iblk3 V c 6 t) (iblk3 V c 7 t) (iblk3 V c 8 t) p q).trans ?_
  rw [w1s_block V c t, w1d_block V c t, w1e_block V c t, b1_block V c t, w2_block V c t, b2_block V c t]
  exact edgeAt_of_rows _ _ _ _ _ _ _ _ _ _ _ _ p q _ (fun k => src_block V c t p k _ rfl) (fun k => dst_block V c t p k _ rfl)
    (fun k => ef_block V c t p k _ rfl)

end Cert.KernelIdeal.RegionValue.R3

namespace Cert.KernelIdeal.RegionValue

open Cert.KernelIdeal Cert.KernelIdeal.Gen Idealize.ShloMosaic Idealize.ShloMosaic.TcCoe Idealize.SL.Sem

/-- The output array after the region is the message stage of the nine arrays the region found: the source rows, the
    destination rows, the edge features, the three row blocks of the first weight, the first bias, the second weight and
    the second bias. -/
theorem final3 (V : (c : Dev nD) → (b : Ref sig .tc) → Buf (Elt Ideal) ((c : Thread nD τ).loc b)) (c : Dev nD) :
    (dat3 (F := Ideal) V c).arrAt 9 cfg3.N
      = Cert.Gnn.edge (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5))
          (V c (Pipeline.arrRef spec3 6)) (V c (Pipeline.arrRef spec3 7)) (V c (Pipeline.arrRef spec3 8)) :=
  (dat3 (F := Ideal) V c).arrAt_eq_of_cover 9 (R3.edgeOf V c) (fun t _ => R3.flushed_eq V c t) R3.cover

end Cert.KernelIdeal.RegionValue

end
-- ==== Proof.KRegion4.lean ====
/-
  Region 4 of the kernel program (an update stage): its output array after the region is, entry by entry, the node's own
  row plus the two-layer perceptron of the node's row and its aggregate, of the arrays the region finds — the first
  layer's weight given as its two row blocks, whose partial products the body adds.  The body's one store read at an
  entry of the block is that entry (the products accumulated from zero are plain sums, the cuts to bf16 and the identity
  shape casts drop out, each bias is a row spread over the block); the two row-block windows' blocks at point t are rows
  5000 t … 5000 t + 4999 of their arrays and the weights' and biases' blocks are their whole arrays; the ten output blocks
  tile the output array.
-/
import proofs.«102956_j57483842290055_2_alg».proof.Proof.Gen.KernelIdeal.Frame
import proofs.«102956_j57483842290055_2_alg».proof.Proof.Spec
import proofs.«102956_j57483842290055_2_alg».proof.Proof.LibMatmulIx
import proofs.«102956_j57483842290055_2_alg».proof.Proof.LibGcnBody
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

namespace R4

/-- The record `dot_S5000x64_S64x64_S5000x64_1_0_0_1_n_n` contracts the left operand's columns with the right operand's rows. -/
theorem dotHid_l0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem dotHid_l1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem dotHid_r0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem dotHid_r1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's one store, read at row `p`, column `q` of the block: the update stage's entry (the node's own row plus
    the perceptron of the node's row and its aggregate, the first weight given as its two row blocks). -/
theorem upd_block_entry (x0 x1 : Vec Ideal S5000x64 .f32) (x2 x3 : Vec Ideal S64x64 .f32) (x4 : Vec Ideal S64 .f32)
    (x5 : Vec Ideal S64x64 .f32) (x6 : Vec Ideal S64 .f32) (x7 : Vec Ideal S5000x64 .f32) (p : Fin 5000) (q : Fin 64) :
    k4_pay1 x0 x1 x2 x3 x4 x5 x6 x7 (ix2 p q) = Cert.Gnn.updAt x7 x0 x1 x2 x3 x4 x5 x6 p q := by
  unfold k4_pay1
  simp only [shapeCast_self]
  refine (addf_apply _ _ (ix2 p q)).trans ?_
  unfold Cert.Gnn.updAt Cert.Gnn.outLayer
  refine congrArg₂ (· + ·) rfl ?_
  refine (addf_apply _ _ (ix2 p q)).trans ?_
  refine congrArg₂ (· + ·) ?_ ?_
  · refine (MatmulIx.matmul_zero_ix2 dot_S5000x64_S64x64_S5000x64_1_0_0_1_n_n rfl rfl dotHid_l0 dotHid_l1 dotHid_r0 dotHid_r1 none _ _ p q).trans ?_
    refine Finset.sum_congr rfl fun j _ => ?_
    refine congrArg₂ (· * ·) ?_ rfl
    show max ((matmul dot_S5000x64_S64x64_S5000x64_1_0_0_1_n_n none (truncf .bf16 x0 bitsLt_bf16_f32) (truncf .bf16 x2 bitsLt_bf16_f32)
            (constant (F := Ideal) S5000x64 .f32 0x00000000#32) (ix2 p j)
          + matmul dot_S5000x64_S64x64_S5000x64_1_0_0_1_n_n none (truncf .bf16 x1 bitsLt_bf16_f32) (truncf .bf16 x3 bitsLt_bf16_f32)
            (constant (F := Ideal) S5000x64 .f32 0x00000000#32) (ix2 p j))
        + broadcastTo S5000x64 (shapeCast S1x64 x4 shapeCasts_S64_S1x64) broadcasts_S1x64_S5000x64 (ix2 p j))
      (Ideal.ofBits .f32 0x00000000#32) = _
    rw [Ideal.ofBits_zero_f32]
    refine congrArg₂ max (congrArg₂ (· + ·) (congrArg₂ (· + ·) ?_ ?_) ?_) rfl
    · exact MatmulIx.matmul_zero_ix2 dot_S5000x64_S64x64_S5000x64_1_0_0_1_n_n rfl rfl dotHid_l0 dotHid_l1 dotHid_r0 dotHid_r1 none _ _ p j
    · exact MatmulIx.matmul_zero_ix2 dot_S5000x64_S64x64_S5000x64_1_0_0_1_n_n rfl rfl dotHid_l0 dotHid_l1 dotHid_r0 dotHid_r1 none _ _ p j
    · exact (Cert.Gcn.Body.rowSpread_apply _ _ p j).trans (Cert.Gcn.Body.shapeCast_b_1b_apply x4 _ 0 j)
  · exact (Cert.Gcn.Body.rowSpread_apply _ _ p q).trans (Cert.Gcn.Body.shapeCast_b_1b_apply x6 _ 0 q)

/-- The same at an entry of the ARRAY: when the blocks `hb`, `gb` hold rows `5000 tv …` of `Hh`, `G`, the body's store at
    the block entry `j` is the update stage of `Hh`, `G` at the array entry `i` that `j` lands on. -/
theorem upd_block_in_array (Hh G : S50000x64.Idx → EReal) (hb gb : Vec Ideal S5000x64 .f32) (wh wg : Vec Ideal S64x64 .f32)
    (b1 : Vec Ideal S64 .f32) (w2 : Vec Ideal S64x64 .f32) (b2 : Vec Ideal S64 .f32) (tv : ℕ)
    (hh : ∀ (p : Fin 5000) (k : Fin 64) (r : Fin 50000), r.val = 5000 * tv + p.val → hb (ix2 p k) = Hh (ix2 r k))
    (hg : ∀ (p : Fin 5000) (k : Fin 64) (r : Fin 50000), r.val = 5000 * tv + p.val → gb (ix2 p k) = G (ix2 r k))
    (j : S5000x64.Idx) (i : S50000x64.Idx) (hi0 : (i 0).val = 5000 * tv + (j 0).val) (hi1 : (i 1).val = (j 1).val) :
    k4_pay1 hb gb wh wg b1 w2 b2 hb j
      = Cert.Gnn.upd (a := 50000) (b := 64) (H := 64) (A := 64) (B := 64) Hh Hh G wh wg b1 w2 b2 i := by
  obtain ⟨p, q, rfl⟩ : ∃ (p : Fin 5000) (q : Fin 64), j = ix2 p q := ⟨j 0, j 1, eq_ix2 j⟩
  rw [upd_block_entry]
  show Cert.Gnn.updAt hb hb gb wh wg b1 w2 b2 p q
    = Cert.Gnn.updAt (a := 50000) (b := 64) (H := 64) (A := 64) (B := 64) Hh Hh G wh wg b1 w2 b2 ⟨(i 0).val, (i 0).isLt⟩ ⟨(i 1).val, (i 1).isLt⟩
  have hq : (⟨(i 1).val, (i 1).isLt⟩ : Fin 64) = q := Fin.ext hi1
  rw [hq]
  unfold Cert.Gnn.updAt
  refine congrArg₂ (· + ·) (hh p q ⟨(i 0).val, (i 0).isLt⟩ hi0) ?_
  refine congrArg (fun hid => Cert.Gnn.outLayer hid w2 b2 q) (funext fun jj => ?_)
  refine congrArg₂ max (congrArg₂ (· + ·) (congrArg₂ (· + ·) (Finset.sum_congr rfl fun k _ => ?_) (Finset.sum_congr rfl fun k _ => ?_)) rfl) rfl
  · exact congrArg₂ (· * ·) (hh p k ⟨(i 0).val, (i 0).isLt⟩ hi0) rfl
  · exact congrArg₂ (· * ·) (hg p k ⟨(i 0).val, (i 0).isLt⟩ hi0) rfl

/-- The index maps of the region, decided over its ten points: the row-block windows follow the point, the weights and
    biases stay at block 0. -/
theorem index_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 1) = 0
    ∧ win4_5.index t (0 : Fin 2) = 0 ∧ win4_5.index t (1 : Fin 2) = 0
    ∧ win4_6.index t (0 : Fin 1) = 0
    ∧ win4_7.index t (0 : Fin 2) = t.val ∧ win4_7.index t (1 : Fin 2) = 0 :=
  (by decide +kernel : ∀ t : Fin grid4.N, _)

/-- Window 0's block at point `t` is rows `5000 t … 5000 t + 4999` of its array. -/
theorem hblock4_apply (c : Dev nD) (t : Fin cfg4.N) (p : Fin 5000) (k : Fin 64) (r : Fin 50000) (hr : r.val = 5000 * t.val + p.val) :
    (iblk4 V c 0 t : Vec Ideal S5000x64 .f32) (ix2 p k) = (V c (Pipeline.arrRef spec4 0) : S50000x64.Idx → EReal) (ix2 r k) := by
  obtain ⟨e0, e1, -⟩ := index_facts4 t
  unfold iblk4
  rw [View.read_apply]
  show (V c (Pipeline.arrRef spec4 0) : S50000x64.Idx → EReal) (((cfg4.win 0).blk t).view.emb (ix2 p k)) = _
  refine congrArg _ (funext fun a => Fin.ext ?_)
  match a with
  | ⟨0, _⟩ => show win4_0.index t (0 : Fin 2) * 5000 + 1 * p.val = r.val; rw [e0, hr]; omega
  | ⟨1, _⟩ => show win4_0.index t (1 : Fin 2) * 64 + 1 * k.val = k.val; rw [e1]; omega

/-- Window 1's block at point `t` is rows `5000 t … 5000 t + 4999` of its array. -/
theorem aggblock4_apply (c : Dev nD) (t : Fin cfg4.N) (p : Fin 5000) (k : Fin 64) (r : Fin 50000) (hr : r.val = 5000 * t.val + p.val) :
    (iblk4 V c 1 t : Vec Ideal S5000x64 .f32) (ix2 p k) = (V c (Pipeline.arrRef spec4 1) : S50000x64.Idx → EReal) (ix2 r k) := by
  obtain ⟨-, -, e0, e1, -⟩ := index_facts4 t
  unfold iblk4
  rw [View.read_apply]
  show (V c (Pipeline.arrRef spec4 1) : S50000x64.Idx → EReal) (((cfg4.win 1).blk t).view.emb (ix2 p k)) = _
  refine congrArg _ (funext fun a => Fin.ext ?_)
  match a with
  | ⟨0, _⟩ => show win4_1.index t (0 : Fin 2) * 5000 + 1 * p.val = r.val; rw [e0, hr]; omega
  | ⟨1, _⟩ => show win4_1.index t (1 : Fin 2) * 64 + 1 * k.val = k.val; rw [e1]; omega

/-- Window 2's block at every point is its whole array. -/
theorem w1hblock4 (c : Dev nD) (t : Fin cfg4.N) :
    (iblk4 V c 2 t : Vec Ideal S64x64 .f32) = (V c (Pipeline.arrRef spec4 2) : S64x64.Idx → EReal) := by
  obtain ⟨-, -, -, -, e0, e1, -⟩ := index_facts4 t
  funext j
  unfold iblk4
  rw [View.read_apply]
  show (V c (Pipeline.arrRef spec4 2) : S64x64.Idx → EReal) (((cfg4.win 2).blk t).view.emb j) = _
  refine congrArg _ (funext fun a => Fin.ext ?_)
  match a with
  | ⟨0, _⟩ => show win4_2.index t (0 : Fin 2) * 64 + 1 * (j 0).val = (j 0).val; rw [e0]; omega
  | ⟨1, _⟩ => show win4_2.index t (1 : Fin 2) * 64 + 1 * (j 1).val = (j 1).val; rw [e1]; omega

/-- Window 3's block at every point is its whole array. -/
theorem w1aggblock4 (c : Dev nD) (t : Fin cfg4.N) :
    (iblk4 V c 3 t : Vec Ideal S64x64 .f32) = (V c (Pipeline.arrRef spec4 3) : S64x64.Idx → EReal) := by
  obtain ⟨-, -, -, -, -, -, e0, e1, -⟩ := index_facts4 t
  funext j
  unfold iblk4
  rw [View.read_apply]
  show (V c (Pipeline.arrRef spec4 3) : S64x64.Idx → EReal) (((cfg4.win 3).blk t).view.emb j) = _
  refine congrArg _ (funext fun a => Fin.ext ?_)
  match a with
  | ⟨0, _⟩ => show win4_3.index t (0 : Fin 2) * 64 + 1 * (j 0).val = (j 0).val; rw [e0]; omega
  | ⟨1, _⟩ => show win4_3.index t (1 : Fin 2) * 64 + 1 * (j 1).val = (j 1).val; rw [e1]; omega

/-- Window 4's block at every point is its whole array. -/
theorem b1block4 (c : Dev nD) (t : Fin cfg4.N) :
    (iblk4 V c 4 t : Vec Ideal S64 .f32) = (V c (Pipeline.arrRef spec4 4) : S64.Idx → EReal) := by
  obtain ⟨-, -, -, -, -, -, -, -, e0, -⟩ := index_facts4 t
  funext j
  unfold iblk4
  rw [View.read_apply]
  show (V c (Pipeline.arrRef spec4 4) : S64.Idx → EReal) (((cfg4.win 4).blk t).view.emb j) = _
  refine congrArg _ (funext fun a => Fin.ext ?_)
  match a with
  | ⟨0, _⟩ => show win4_4.index t (0 : Fin 1) * 64 + 1 * (j 0).val = (j 0).val; rw [e0]; omega

/-- Window 5's block at every point is its whole array. -/
theorem w2block4 (c : Dev nD) (t : Fin cfg4.N) :
    (iblk4 V c 5 t : Vec Ideal S64x64 .f32) = (V c (Pipeline.arrRef spec4 5) : S64x64.Idx → EReal) := by
  obtain ⟨-, -, -, -, -, -, -, -, -, e0, e1, -⟩ := index_facts4 t
  funext j
  unfold iblk4
  rw [View.read_apply]
  show (V c (Pipeline.arrRef spec4 5) : S64x64.Idx → EReal) (((cfg4.win 5).blk t).view.emb j) = _
  refine congrArg _ (funext fun a => Fin.ext ?_)
  match a with
  | ⟨0, _⟩ => show win4_5.index t (0 : Fin 2) * 64 + 1 * (j 0).val = (j 0).val; rw [e0]; omega
  | ⟨1, _⟩ => show win4_5.index t (1 : Fin 2) * 64 + 1 * (j 1).val = (j 1).val; rw [e1]; omega

/-- Window 6's block at every point is its whole array. -/
theorem b2block4 (c : Dev nD) (t : Fin cfg4.N) :
    (iblk4 V c 6 t : Vec Ideal S64 .f32) = (V c (Pipeline.arrRef spec4 6) : S64.Idx → EReal) := by
  obtain ⟨-, -, -, -, -, -, -, -, -, -, -, e0, -⟩ := index_facts4 t
  funext j
  unfold iblk4
  rw [View.read_apply]
  show (V c (Pipeline.arrRef spec4 6) : S64.Idx → EReal) (((cfg4.win 6).blk t).view.emb j) = _
  refine congrArg _ (funext fun a => Fin.ext ?_)
  match a with
  | ⟨0, _⟩ => show win4_6.index t (0 : Fin 1) * 64 + 1 * (j 0).val = (j 0).val; rw [e0]; omega

theorem zero_offsets2 : (![0, 0] : Fin 2 → Nat) = fun _ => 0 := funext fun a => by fin_cases a <;> rfl
theorem zero_offsets1 : (![0] : Fin 1 → Nat) = fun _ => 0 := funext fun a => by fin_cases a <;> rfl

/-- The update stage of the arrays the region finds. -/
abbrev updated4 (c : Dev nD) : S50000x64.Idx → EReal :=
  Cert.Gnn.upd (a := 50000) (b := 64) (H := 64) (A := 64) (B := 64) (V c (Pipeline.arrRef spec4 0)) (V c (Pipeline.arrRef spec4 0))
    (V c (Pipeline.arrRef spec4 1)) (V c (Pipeline.arrRef spec4 2)) (V c (Pipeline.arrRef spec4 3)) (V c (Pipeline.arrRef spec4 4))
    (V c (Pipeline.arrRef spec4 5)) (V c (Pipeline.arrRef spec4 6))

/-- What point `t` writes back is block `t` of the update stage of the arrays the region finds. -/
theorem flushed4_eq (c : Dev nD) (t : Fin cfg4.N) :
    (dat4 (F := Ideal) V c).flushed 7 t = ((cfg4.win 7).blk t).view.read (Elt Ideal) (updated4 V c) := by
  show (cfg4.win 7).cut (grid4.coords t) ((dat4 (F := Ideal) V c).after 7 t) = _
  rw [after4_7]
  unfold out4_7
  rw [View.canon_unit_zero zero_offsets2]
  simp only [View.ld_unit_zero (S := S5000x64) zero_offsets2, View.ld_unit_zero (S := S64x64) zero_offsets2,
    View.ld_unit_zero (S := S64) zero_offsets1]
  rw [w1hblock4, w1aggblock4, b1block4, w2block4, b2block4]
  obtain ⟨-, -, -, -, -, -, -, -, -, -, -, -, e0, e1⟩ := index_facts4 t
  funext j
  show k4_pay1 (iblk4 V c 0 t) (iblk4 V c 1 t) (V c (Pipeline.arrRef spec4 2)) (V c (Pipeline.arrRef spec4 3))
      (V c (Pipeline.arrRef spec4 4)) (V c (Pipeline.arrRef spec4 5)) (V c (Pipeline.arrRef spec4 6)) (iblk4 V c 0 t) j
    = updated4 V c (((cfg4.win 7).blk t).view.emb j)
  refine upd_block_in_array _ _ _ _ _ _ _ _ _ t.val (fun p k r hr => hblock4_apply V c t p k r hr)
    (fun p k r hr => aggblock4_apply V c t p k r hr) j _ ?_ ?_
  · show win4_7.index t (0 : Fin 2) * 5000 + 1 * (j 0).val = 5000 * t.val + (j 0).val
    rw [e0]; omega
  · show win4_7.index t (1 : Fin 2) * 64 + 1 * (j 1).val = (j 1).val
    rw [e1]; omega

/-- An index of the output array is in point `t`'s block iff each coordinate is in the block's range on its axis. -/
theorem mem_outblock4 (t : Fin cfg4.N) (i : S50000x64.Idx) :
    i ∈ ((cfg4.win 7).blk t).view.set ↔ ∀ a : Fin 2, win4_7.index t a * S5000x64.size a ≤ (i a).val ∧ (i a).val < win4_7.index t a * S5000x64.size a + S5000x64.size a := by
  show i ∈ ((View.whole main_v99).slice (win4_7.rect t)).set ↔ _
  rw [View.set_slice_whole, Rect.mem_set_unit]
  exact Iff.rfl

/-- Every row of the output array is in the block of the point `row / 5000`. -/
theorem cover4 (i : S50000x64.Idx) : ∃ t : Fin cfg4.N, (cfg4.win 7).flush t = true ∧ i ∈ ((cfg4.win 7).blk t).view.set := by
  have hi0 : (i 0).val < 50000 := (i 0).isLt
  have hi1 : (i 1).val < 64 := (i 1).isLt
  have hN : cfg4.N = 10 := N_4
  let t : Fin cfg4.N := ⟨(i 0).val / 5000, by rw [hN]; omega⟩
  obtain ⟨-, -, -, -, -, -, -, -, -, -, -, -, e0, e1⟩ := index_facts4 t
  have ht : t.val = (i 0).val / 5000 := rfl
  refine ⟨t, flush4_7 t, ?_⟩
  rw [mem_outblock4]
  intro a
  match a with
  | ⟨0, _⟩ => show win4_7.index t (0 : Fin 2) * 5000 ≤ (i 0).val ∧ (i 0).val < win4_7.index t (0 : Fin 2) * 5000 + 5000; rw [e0, ht]; omega
  | ⟨1, _⟩ => show win4_7.index t (1 : Fin 2) * 64 ≤ (i 1).val ∧ (i 1).val < win4_7.index t (1 : Fin 2) * 64 + 64; rw [e1]; omega

end R4

/-- THE OUTPUT ARRAY after region 4: the update stage of the arrays the region finds (the node rows — window 0, read both as
    the residual and as the perceptron's first block —, the aggregate, the first weight's two row blocks, the first bias,
    the second weight, the second bias — windows 0 to 6). -/
theorem final4 (c : Dev nD) : (dat4 (F := Ideal) V c).arrAt 7 cfg4.N
    = Cert.Gnn.upd (a := 50000) (b := 64) (H := 64) (A := 64) (B := 64) (V c (Pipeline.arrRef spec4 0)) (V c (Pipeline.arrRef spec4 0))
        (V c (Pipeline.arrRef spec4 1)) (V c (Pipeline.arrRef spec4 2)) (V c (Pipeline.arrRef spec4 3)) (V c (Pipeline.arrRef spec4 4))
        (V c (Pipeline.arrRef spec4 5)) (V c (Pipeline.arrRef spec4 6)) :=
  (dat4 (F := Ideal) V c).arrAt_eq_of_cover 7 (R4.updated4 V c) (fun t _ => R4.flushed4_eq V c t) R4.cover4

end Cert.KernelIdeal.RegionValue

end
-- ==== Proof.KRegion5.lean ====
/-
  Region 5 of the kernel program (the head): its output array after the region is the two-layer perceptron with one
  output column of the arrays the region finds, entry by entry.  The body's one store read at an entry of the block is
  the perceptron's entry (the two products accumulated from zero are plain sums, the cuts to bf16 and the identity shape
  cast drop out, each bias is a row spread over the block); the input block of point t is rows 5000 t … 5000 t + 4999 of
  the input array and the weights' and biases' blocks are their whole arrays; the ten output blocks tile the output array.
-/
import proofs.«102956_j57483842290055_2_alg».proof.Proof.Gen.KernelIdeal.Frame
import proofs.«102956_j57483842290055_2_alg».proof.Proof.Spec
import proofs.«102956_j57483842290055_2_alg».proof.Proof.LibMatmulIx
import proofs.«102956_j57483842290055_2_alg».proof.Proof.LibGcnBody
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

namespace R5

/-- The record `dot_S5000x64_S64x64_S5000x64_1_0_0_1_n_n` contracts the left operand's columns with the right operand's rows. -/
theorem dotHid_l0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem dotHid_l1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem dotHid_r0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem dotHid_r1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The record `dot_S5000x64_S64x1_S5000x1_1_0_0_1_n_n` contracts the left operand's columns with the right operand's rows. -/
theorem dotOut_l0 (i : S5000x1.Idx) (q : dot_S5000x64_S64x1_S5000x1_1_0_0_1_n_n.contr.Idx) : (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
theorem dotOut_l1 (i : S5000x1.Idx) (q : dot_S5000x64_S64x1_S5000x1_1_0_0_1_n_n.contr.Idx) : (dot_S5000x64_S64x1_S5000x1_1_0_0_1_n_n.lhsIdx i q 1).val = (q ⟨0, by decide⟩).val :=
  dot_S5000x64_S64x1_S5000x1_1_0_0_1_n_n.lhsIdx_val_of_single rfl i q
theorem dotOut_r0 (i : S5000x1.Idx) (q : dot_S5000x64_S64x1_S5000x1_1_0_0_1_n_n.contr.Idx) : (dot_S5000x64_S64x1_S5000x1_1_0_0_1_n_n.rhsIdx i q 0).val = (q ⟨0, by decide⟩).val :=
  dot_S5000x64_S64x1_S5000x1_1_0_0_1_n_n.rhsIdx_val_of_single rfl i q
theorem dotOut_r1 (i : S5000x1.Idx) (q : dot_S5000x64_S64x1_S5000x1_1_0_0_1_n_n.contr.Idx) : (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- The body's one store, read at row `p`, column `q` of the block: the perceptron's entry. -/
theorem mlp_block_entry (x0 : Vec Ideal S5000x64 .f32) (x1 : Vec Ideal S64x64 .f32) (x2 : Vec Ideal S64 .f32)
    (x3 : Vec Ideal S64x1 .f32) (x4 : Vec Ideal S1 .f32) (p : Fin 5000) (q : Fin 1) :
    k5_pay1 x0 x1 x2 x3 x4 (ix2 p q) = Cert.Gnn.mlpAt x0 x1 x2 x3 x4 p q := by
  unfold k5_pay1
  simp only [shapeCast_self]
  refine (addf_apply _ _ (ix2 p q)).trans ?_
  unfold Cert.Gnn.mlpAt Cert.Gnn.outLayer
  refine congrArg₂ (· + ·) ?_ ?_
  · refine (MatmulIx.matmul_zero_ix2 dot_S5000x64_S64x1_S5000x1_1_0_0_1_n_n rfl rfl dotOut_l0 dotOut_l1 dotOut_r0 dotOut_r1 none _ _ p q).trans ?_
    refine Finset.sum_congr rfl fun j _ => ?_
    refine congrArg₂ (· * ·) ?_ rfl
    show max (matmul dot_S5000x64_S64x64_S5000x64_1_0_0_1_n_n none (truncf .bf16 x0 bitsLt_bf16_f32) (truncf .bf16 x1 bitsLt_bf16_f32)
          (constant (F := Ideal) S5000x64 .f32 0x00000000#32) (ix2 p j)
        + broadcastTo S5000x64 (shapeCast S1x64 x2 shapeCasts_S64_S1x64) broadcasts_S1x64_S5000x64 (ix2 p j))
      (Ideal.ofBits .f32 0x00000000#32) = _
    rw [Ideal.ofBits_zero_f32]
    refine congrArg₂ max (congrArg₂ (· + ·) ?_ ?_) rfl
    · exact MatmulIx.matmul_zero_ix2 dot_S5000x64_S64x64_S5000x64_1_0_0_1_n_n rfl rfl dotHid_l0 dotHid_l1 dotHid_r0 dotHid_r1 none _ _ p j
    · exact (Cert.Gcn.Body.rowSpread_apply _ _ p j).trans (Cert.Gcn.Body.shapeCast_b_1b_apply x2 _ 0 j)
  · exact (Cert.Gcn.Body.rowSpread_apply _ _ p q).trans (Cert.Gcn.Body.shapeCast_b_1b_apply x4 _ 0 q)

/-- The same at an entry of the ARRAY: when the block `xb` holds rows `5000 tv …` of `X`, the body's store at the block
    entry `j` is the perceptron of `X` at the array entry `i` that `j` lands on. -/
theorem mlp_block_in_array (X : S50000x64.Idx → EReal) (xb : Vec Ideal S5000x64 .f32) (w1 : Vec Ideal S64x64 .f32)
    (b1 : Vec Ideal S64 .f32) (w2 : Vec Ideal S64x1 .f32) (b2 : Vec Ideal S1 .f32) (tv : ℕ)
    (hx : ∀ (p : Fin 5000) (k : Fin 64) (r : Fin 50000), r.val = 5000 * tv + p.val → xb (ix2 p k) = X (ix2 r k))
    (j : S5000x1.Idx) (i : S50000x1.Idx) (hi0 : (i 0).val = 5000 * tv + (j 0).val) (hi1 : (i 1).val = (j 1).val) :
    k5_pay1 xb w1 b1 w2 b2 j = Cert.Gnn.mlp (a := 50000) (K := 64) (H := 64) (b := 1) X w1 b1 w2 b2 i := by
  obtain ⟨p, q, rfl⟩ : ∃ (p : Fin 5000) (q : Fin 1), j = ix2 p q := ⟨j 0, j 1, eq_ix2 j⟩
  rw [mlp_block_entry]
  show Cert.Gnn.mlpAt xb w1 b1 w2 b2 p q
    = Cert.Gnn.mlpAt (a := 50000) (K := 64) (H := 64) (b := 1) X w1 b1 w2 b2 ⟨(i 0).val, (i 0).isLt⟩ ⟨(i 1).val, (i 1).isLt⟩
  have hq : (⟨(i 1).val, (i 1).isLt⟩ : Fin 1) = q := Fin.ext hi1
  rw [hq]
  unfold Cert.Gnn.mlpAt
  refine congrArg (fun hid => Cert.Gnn.outLayer hid w2 b2 q) (funext fun jj => ?_)
  refine congrArg₂ max (congrArg₂ (· + ·) (Finset.sum_congr rfl fun k _ => ?_) rfl) rfl
  exact congrArg₂ (· * ·) (hx p k ⟨(i 0).val, (i 0).isLt⟩ hi0) rfl

/-- The index maps of the region, decided over its ten points: the row-block windows follow the point, the weights and
    biases stay at block 0. -/
theorem index_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = 0 ∧ win5_3.index t (1 : Fin 2) = 0
    ∧ win5_4.index t (0 : Fin 1) = 0
    ∧ win5_5.index t (0 : Fin 2) = t.val ∧ win5_5.index t (1 : Fin 2) = 0 :=
  (by decide +kernel : ∀ t : Fin grid5.N, _)

/-- Window 0's block at point `t` is rows `5000 t … 5000 t + 4999` of its array. -/
theorem xblock5_apply (c : Dev nD) (t : Fin cfg5.N) (p : Fin 5000) (k : Fin 64) (r : Fin 50000) (hr : r.val = 5000 * t.val + p.val) :
    (iblk5 V c 0 t : Vec Ideal S5000x64 .f32) (ix2 p k) = (V c (Pipeline.arrRef spec5 0) : S50000x64.Idx → EReal) (ix2 r k) := by
  obtain ⟨e0, e1, -⟩ := index_facts5 t
  unfold iblk5
  rw [View.read_apply]
  show (V c (Pipeline.arrRef spec5 0) : S50000x64.Idx → EReal) (((cfg5.win 0).blk t).view.emb (ix2 p k)) = _
  refine congrArg _ (funext fun a => Fin.ext ?_)
  match a with
  | ⟨0, _⟩ => show win5_0.index t (0 : Fin 2) * 5000 + 1 * p.val = r.val; rw [e0, hr]; omega
  | ⟨1, _⟩ => show win5_0.index t (1 : Fin 2) * 64 + 1 * k.val = k.val; rw [e1]; omega

/-- Window 1's block at every point is its whole array. -/
theorem w1block5 (c : Dev nD) (t : Fin cfg5.N) :
    (iblk5 V c 1 t : Vec Ideal S64x64 .f32) = (V c (Pipeline.arrRef spec5 1) : S64x64.Idx → EReal) := by
  obtain ⟨-, -, e0, e1, -⟩ := index_facts5 t
  funext j
  unfold iblk5
  rw [View.read_apply]
  show (V c (Pipeline.arrRef spec5 1) : S64x64.Idx → EReal) (((cfg5.win 1).blk t).view.emb j) = _
  refine congrArg _ (funext fun a => Fin.ext ?_)
  match a with
  | ⟨0, _⟩ => show win5_1.index t (0 : Fin 2) * 64 + 1 * (j 0).val = (j 0).val; rw [e0]; omega
  | ⟨1, _⟩ => show win5_1.index t (1 : Fin 2) * 64 + 1 * (j 1).val = (j 1).val; rw [e1]; omega

/-- Window 2's block at every point is its whole array. -/
theorem b1block5 (c : Dev nD) (t : Fin cfg5.N) :
    (iblk5 V c 2 t : Vec Ideal S64 .f32) = (V c (Pipeline.arrRef spec5 2) : S64.Idx → EReal) := by
  obtain ⟨-, -, -, -, e0, -⟩ := index_facts5 t
  funext j
  unfold iblk5
  rw [View.read_apply]
  show (V c (Pipeline.arrRef spec5 2) : S64.Idx → EReal) (((cfg5.win 2).blk t).view.emb j) = _
  refine congrArg _ (funext fun a => Fin.ext ?_)
  match a with
  | ⟨0, _⟩ => show win5_2.index t (0 : Fin 1) * 64 + 1 * (j 0).val = (j 0).val; rw [e0]; omega

/-- Window 3's block at every point is its whole array. -/
theorem w2block5 (c : Dev nD) (t : Fin cfg5.N) :
    (iblk5 V c 3 t : Vec Ideal S64x1 .f32) = (V c (Pipeline.arrRef spec5 3) : S64x1.Idx → EReal) := by
  obtain ⟨-, -, -, -, -, e0, e1, -⟩ := index_facts5 t
  funext j
  unfold iblk5
  rw [View.read_apply]
  show (V c (Pipeline.arrRef spec5 3) : S64x1.Idx → EReal) (((cfg5.win 3).blk t).view.emb j) = _
  refine congrArg _ (funext fun a => Fin.ext ?_)
  match a with
  | ⟨0, _⟩ => show win5_3.index t (0 : Fin 2) * 64 + 1 * (j 0).val = (j 0).val; rw [e0]; omega
  | ⟨1, _⟩ => show win5_3.index t (1 : Fin 2) * 1 + 1 * (j 1).val = (j 1).val; rw [e1]; omega

/-- Window 4's block at every point is its whole array. -/
theorem b2block5 (c : Dev nD) (t : Fin cfg5.N) :
    (iblk5 V c 4 t : Vec Ideal S1 .f32) = (V c (Pipeline.arrRef spec5 4) : S1.Idx → EReal) := by
  obtain ⟨-, -, -, -, -, -, -, e0, -⟩ := index_facts5 t
  funext j
  unfold iblk5
  rw [View.read_apply]
  show (V c (Pipeline.arrRef spec5 4) : S1.Idx → EReal) (((cfg5.win 4).blk t).view.emb j) = _
  refine congrArg _ (funext fun a => Fin.ext ?_)
  match a with
  | ⟨0, _⟩ => show win5_4.index t (0 : Fin 1) * 1 + 1 * (j 0).val = (j 0).val; rw [e0]; omega

theorem zero_offsets2 : (![0, 0] : Fin 2 → Nat) = fun _ => 0 := funext fun a => by fin_cases a <;> rfl
theorem zero_offsets1 : (![0] : Fin 1 → Nat) = fun _ => 0 := funext fun a => by fin_cases a <;> rfl

/-- The perceptron of the arrays the region finds. -/
abbrev headed (c : Dev nD) : S50000x1.Idx → EReal :=
  Cert.Gnn.mlp (a := 50000) (K := 64) (H := 64) (b := 1) (V c (Pipeline.arrRef spec5 0)) (V c (Pipeline.arrRef spec5 1))
    (V c (Pipeline.arrRef spec5 2)) (V c (Pipeline.arrRef spec5 3)) (V c (Pipeline.arrRef spec5 4))

/-- What point `t` writes back is block `t` of the perceptron of the arrays the region finds. -/
theorem flushed5_eq (c : Dev nD) (t : Fin cfg5.N) :
    (dat5 (F := Ideal) V c).flushed 5 t = ((cfg5.win 5).blk t).view.read (Elt Ideal) (headed V c) := by
  show (cfg5.win 5).cut (grid5.coords t) ((dat5 (F := Ideal) V c).after 5 t) = _
  rw [after5_5]
  unfold out5_5
  rw [View.canon_unit_zero zero_offsets2]
  simp only [View.ld_unit_zero (S := S5000x64) zero_offsets2, View.ld_unit_zero (S := S64x64) zero_offsets2,
    View.ld_unit_zero (S := S64) zero_offsets1, View.ld_unit_zero (S := S64x1) zero_offsets2, View.ld_unit_zero (S := S1) zero_offsets1]
  rw [w1block5, b1block5, w2block5, b2block5]
  obtain ⟨-, -, -, -, -, -, -, -, e0, e1⟩ := index_facts5 t
  funext j
  show k5_pay1 (iblk5 V c 0 t) (V c (Pipeline.arrRef spec5 1)) (V c (Pipeline.arrRef spec5 2)) (V c (Pipeline.arrRef spec5 3))
      (V c (Pipeline.arrRef spec5 4)) j = headed V c (((cfg5.win 5).blk t).view.emb j)
  refine mlp_block_in_array _ _ _ _ _ _ t.val (fun p k r hr => xblock5_apply V c t p k r hr) j _ ?_ ?_
  · show win5_5.index t (0 : Fin 2) * 5000 + 1 * (j 0).val = 5000 * t.val + (j 0).val
    rw [e0]; omega
  · show win5_5.index t (1 : Fin 2) * 1 + 1 * (j 1).val = (j 1).val
    rw [e1]; omega

/-- An index of the output array is in point `t`'s block iff each coordinate is in the block's range on its axis. -/
theorem mem_outblock5 (t : Fin cfg5.N) (i : S50000x1.Idx) :
    i ∈ ((cfg5.win 5).blk t).view.set ↔ ∀ a : Fin 2, win5_5.index t a * S5000x1.size a ≤ (i a).val ∧ (i a).val < win5_5.index t a * S5000x1.size a + S5000x1.size a := by
  show i ∈ ((View.whole main_v100).slice (win5_5.rect t)).set ↔ _
  rw [View.set_slice_whole, Rect.mem_set_unit]
  exact Iff.rfl

/-- Every row of the output array is in the block of the point `row / 5000`. -/
theorem cover5 (i : S50000x1.Idx) : ∃ t : Fin cfg5.N, (cfg5.win 5).flush t = true ∧ i ∈ ((cfg5.win 5).blk t).view.set := by
  have hi0 : (i 0).val < 50000 := (i 0).isLt
  have hi1 : (i 1).val < 1 := (i 1).isLt
  have hN : cfg5.N = 10 := N_5
  let t : Fin cfg5.N := ⟨(i 0).val / 5000, by rw [hN]; omega⟩
  obtain ⟨-, -, -, -, -, -, -, -, e0, e1⟩ := index_facts5 t
  have ht : t.val = (i 0).val / 5000 := rfl
  refine ⟨t, flush5_5 t, ?_⟩
  rw [mem_outblock5]
  intro a
  match a with
  | ⟨0, _⟩ => show win5_5.index t (0 : Fin 2) * 5000 ≤ (i 0).val ∧ (i 0).val < win5_5.index t (0 : Fin 2) * 5000 + 5000; rw [e0, ht]; omega
  | ⟨1, _⟩ => show win5_5.index t (1 : Fin 2) * 1 ≤ (i 1).val ∧ (i 1).val < win5_5.index t (1 : Fin 2) * 1 + 1; rw [e1]; omega

end R5

/-- THE OUTPUT ARRAY after region 5: the perceptron of the arrays the region finds (input rows, first weight, first bias,
    second weight, second bias — windows 0 to 4). -/
theorem final5 (c : Dev nD) : (dat5 (F := Ideal) V c).arrAt 5 cfg5.N
    = Cert.Gnn.mlp (a := 50000) (K := 64) (H := 64) (b := 1) (V c (Pipeline.arrRef spec5 0)) (V c (Pipeline.arrRef spec5 1))
        (V c (Pipeline.arrRef spec5 2)) (V c (Pipeline.arrRef spec5 3)) (V c (Pipeline.arrRef spec5 4)) :=
  (dat5 (F := Ideal) V c).arrAt_eq_of_cover 5 (R5.headed V c) (fun t _ => R5.flushed5_eq V c t) R5.cover5

/-- The windows' arrays by name. -/
theorem arrays5 : Pipeline.arrRef spec5 0 = main_v99 ∧ Pipeline.arrRef spec5 1 = main_arg15 ∧ Pipeline.arrRef spec5 2 = main_arg16
    ∧ Pipeline.arrRef spec5 3 = main_arg17 ∧ Pipeline.arrRef spec5 4 = main_arg18 ∧ Pipeline.arrRef spec5 5 = main_v100 :=
  ⟨rfl, rfl, rfl, rfl, rfl, rfl⟩

end Cert.KernelIdeal.RegionValue

end
-- ==== Proof.RefEnc.lean ====
/-
  The reference's encoder is the two-layer perceptron of the specification: the first product plus its bias row, cut below
  at zero, the second product plus its bias row, read entry by entry.
-/
import proofs.«102956_j57483842290055_2_alg».proof.Proof.ReadP
import proofs.«102956_j57483842290055_2_alg».proof.Proof.Spec

noncomputable section

namespace Cert.ReferenceIdeal.Stages

open Cert.ReferenceIdeal Cert.ReferenceIdeal.Gen Cert.ReferenceIdeal.Read Idealize.ShloMosaic Idealize.ShloMosaic.ValueIdx

/-- Entry (p, q) of the encoder is Σ_j max (Σ_k x(p,k)·w₁(k,j) + b₁(j)) 0 · w₂(j,q) + b₂(q). -/
theorem enc_eq (x0 : (⟨S50000x16, .f32⟩ : BufTy).Contents (Elt Ideal)) (x3 : (⟨S16x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal)) :
    val_main_v9 (F := Ideal) x0 x3 x4 x5 x6 = Cert.Gnn.mlp (x0) x3 x4 x5 x6 := by
  funext i
  obtain ⟨p, q, rfl⟩ : ∃ (p : Fin 50000) (q : Fin 64), i = ix2 p q := ⟨i 0, i 1, eq_ix2 i⟩
  -- the index maps of the two products and of the two bias rows, at (p, q)
  have hl2 : ∀ k : Fin 64, lidx_main_v6 (ix2 p q) k = ix2 p k := fun k => funext fun a => by
    match a with | ⟨0, _⟩ => rfl | ⟨1, _⟩ => rfl
  have hr2 : ∀ k : Fin 64, ridx_main_v6 (ix2 p q) k = ix2 k q := fun k => funext fun a => by
    match a with | ⟨0, _⟩ => rfl | ⟨1, _⟩ => rfl
  have hl1 : ∀ (j : Fin 64) (k : Fin 16), lidx_main_v0 (ix2 p j) k = ix2 p k := fun j k => funext fun a => by
    match a with | ⟨0, _⟩ => rfl | ⟨1, _⟩ => rfl
  have hr1 : ∀ (j : Fin 64) (k : Fin 16), ridx_main_v0 (ix2 p j) k = ix2 k j := fun j k => funext fun a => by
    match a with | ⟨0, _⟩ => rfl | ⟨1, _⟩ => rfl
  have hb2 : idx_main_v7 (idx_main_v8 (ix2 p q)) = ix1 q := funext fun a => by
    match a with | ⟨0, _⟩ => rfl
  have hb1 : ∀ j : Fin 64, idx_main_v1 (idx_main_v2 (ix2 p j)) = ix1 j := fun j => funext fun a => by
    match a with | ⟨0, _⟩ => rfl
  rw [Cert.Gnn.mlp_ix2, val_main_v9_apply, val_main_v6_apply, val_main_v8_apply, val_main_v7_apply, hb2]
  simp only [hl2, hr2, val_main_v5_apply, val_main_v3_apply, val_main_v0_apply, val_main_v2_apply,
    val_main_v1_apply, val_main_v4_apply, val_main_cst_apply, hl1, hr1, hb1, Ideal.addf_def, Ideal.maximumf_def,
    Ideal.ofBits_def, Ideal.ofBits_zero_f32]
  rfl

end Cert.ReferenceIdeal.Stages

end
-- ==== Proof.RefCat.lean ====
/-
  A concatenation of matrices side by side (along the column axis), read entry by entry: entry (p, c) of [s | d | e] is
  s(p, c) for c below the width of s, d(p, c - width s) in the next span, e(p, c - width s - width d) in the last.
  Stated with the column written as "offset + position inside the block", which is how a sum over the columns of the
  concatenation splits into the sums over the blocks.
-/
import Idealize.ShloMosaic.Lib.Pipeline.Value
import Idealize.ShloMosaic.Lib.ValueIdx

namespace Cert.ReferenceIdeal.Stages

open Idealize.ShloMosaic Idealize.ShloMosaic.ValueIdx

variable {α : Type} {a A B C N : ℕ}

/-- Three blocks side by side: a column inside the first block reads the first block. -/
theorem cat3_fst (s : (⟨2, ![a, A]⟩ : Shape).Idx → α) (d : (⟨2, ![a, B]⟩ : Shape).Idx → α) (e : (⟨2, ![a, C]⟩ : Shape).Idx → α)
    (h : Shape.Concatenates ([(⟨⟨2, ![a, A]⟩, s⟩ : (s : Shape) × (s.Idx → α)), ⟨⟨2, ![a, B]⟩, d⟩, ⟨⟨2, ![a, C]⟩, e⟩].map (·.1))
      ⟨2, ![a, N]⟩ 1)
    (p : Fin a) (k : Fin A) (hk : k.val < N) :
    concatenate ⟨2, ![a, N]⟩ 1 [⟨⟨2, ![a, A]⟩, s⟩, ⟨⟨2, ![a, B]⟩, d⟩, ⟨⟨2, ![a, C]⟩, e⟩] h (ix2 p ⟨k.val, hk⟩) = s (ix2 p k) := by
  refine concatenate_apply_piece 1 _ h _ 0 (by simp) ⟨2, ![a, A]⟩ s rfl rfl 0 rfl (ix2 p k) ?_ ?_
  · intro b hb
    match b with
    | ⟨0, _⟩ => rfl
    | ⟨1, _⟩ => exact absurd rfl hb
  · exact Nat.zero_add _

/-- Three blocks side by side: a column inside the second block reads the second block. -/
theorem cat3_snd (s : (⟨2, ![a, A]⟩ : Shape).Idx → α) (d : (⟨2, ![a, B]⟩ : Shape).Idx → α) (e : (⟨2, ![a, C]⟩ : Shape).Idx → α)
    (h : Shape.Concatenates ([(⟨⟨2, ![a, A]⟩, s⟩ : (s : Shape) × (s.Idx → α)), ⟨⟨2, ![a, B]⟩, d⟩, ⟨⟨2, ![a, C]⟩, e⟩].map (·.1))
      ⟨2, ![a, N]⟩ 1)
    (p : Fin a) (k : Fin B) (hk : A + k.val < N) :
    concatenate ⟨2, ![a, N]⟩ 1 [⟨⟨2, ![a, A]⟩, s⟩, ⟨⟨2, ![a, B]⟩, d⟩, ⟨⟨2, ![a, C]⟩, e⟩] h (ix2 p ⟨A + k.val, hk⟩) = d (ix2 p k) := by
  refine concatenate_apply_piece 1 _ h _ 1 (by simp) ⟨2, ![a, B]⟩ d rfl rfl A ?_ (ix2 p k) ?_ ?_
  · simp
  · intro b hb
    match b with
    | ⟨0, _⟩ => rfl
    | ⟨1, _⟩ => exact absurd rfl hb
  · rfl

/-- Three blocks side by side: a column inside the third block reads the third block. -/
theorem cat3_trd (s : (⟨2, ![a, A]⟩ : Shape).Idx → α) (d : (⟨2, ![a, B]⟩ : Shape).Idx → α) (e : (⟨2, ![a, C]⟩ : Shape).Idx → α)
    (h : Shape.Concatenates ([(⟨⟨2, ![a, A]⟩, s⟩ : (s : Shape) × (s.Idx → α)), ⟨⟨2, ![a, B]⟩, d⟩, ⟨⟨2, ![a, C]⟩, e⟩].map (·.1))
      ⟨2, ![a, N]⟩ 1)
    (p : Fin a) (k : Fin C) (hk : A + B + k.val < N) :
    concatenate ⟨2, ![a, N]⟩ 1 [⟨⟨2, ![a, A]⟩, s⟩, ⟨⟨2, ![a, B]⟩, d⟩, ⟨⟨2, ![a, C]⟩, e⟩] h (ix2 p ⟨A + B + k.val, hk⟩) = e (ix2 p k) := by
  refine concatenate_apply_piece 1 _ h _ 2 (by simp) ⟨2, ![a, C]⟩ e rfl rfl (A + B) ?_ (ix2 p k) ?_ ?_
  · simp
  · intro b hb
    match b with
    | ⟨0, _⟩ => rfl
    | ⟨1, _⟩ => exact absurd rfl hb
  · rfl

/-- Two blocks side by side: a column inside the first block reads the first block. -/
theorem cat2_fst (s : (⟨2, ![a, A]⟩ : Shape).Idx → α) (d : (⟨2, ![a, B]⟩ : Shape).Idx → α)
    (h : Shape.Concatenates ([(⟨⟨2, ![a, A]⟩, s⟩ : (s : Shape) × (s.Idx → α)), ⟨⟨2, ![a, B]⟩, d⟩].map (·.1)) ⟨2, ![a, N]⟩ 1)
    (p : Fin a) (k : Fin A) (hk : k.val < N) :
    concatenate ⟨2, ![a, N]⟩ 1 [⟨⟨2, ![a, A]⟩, s⟩, ⟨⟨2, ![a, B]⟩, d⟩] h (ix2 p ⟨k.val, hk⟩) = s (ix2 p k) := by
  refine concatenate_apply_piece 1 _ h _ 0 (by simp) ⟨2, ![a, A]⟩ s rfl rfl 0 rfl (ix2 p k) ?_ ?_
  · intro b hb
    match b with
    | ⟨0, _⟩ => rfl
    | ⟨1, _⟩ => exact absurd rfl hb
  · exact Nat.zero_add _

/-- Two blocks side by side: a column inside the second block reads the second block. -/
theorem cat2_snd (s : (⟨2, ![a, A]⟩ : Shape).Idx → α) (d : (⟨2, ![a, B]⟩ : Shape).Idx → α)
    (h : Shape.Concatenates ([(⟨⟨2, ![a, A]⟩, s⟩ : (s : Shape) × (s.Idx → α)), ⟨⟨2, ![a, B]⟩, d⟩].map (·.1)) ⟨2, ![a, N]⟩ 1)
    (p : Fin a) (k : Fin B) (hk : A + k.val < N) :
    concatenate ⟨2, ![a, N]⟩ 1 [⟨⟨2, ![a, A]⟩, s⟩, ⟨⟨2, ![a, B]⟩, d⟩] h (ix2 p ⟨A + k.val, hk⟩) = d (ix2 p k) := by
  refine concatenate_apply_piece 1 _ h _ 1 (by simp) ⟨2, ![a, B]⟩ d rfl rfl A ?_ (ix2 p k) ?_ ?_
  · simp
  · intro b hb
    match b with
    | ⟨0, _⟩ => rfl
    | ⟨1, _⟩ => exact absurd rfl hb
  · rfl

end Cert.ReferenceIdeal.Stages
-- ==== Proof.RefMsg.lean ====
/-
  The reference's message stage is the specification's: the perceptron on [h[src] | h[dst] | edge features] against one
  stacked weight of 64 + 64 + 3 rows equals the perceptron fed the three blocks against the three row blocks of the
  weight, because a sum over the 131 columns is the sum over the first 64, the next 64 and the last 3.
-/
import proofs.«102956_j57483842290055_2_alg».proof.Proof.ReadP
import proofs.«102956_j57483842290055_2_alg».proof.Proof.Spec
import proofs.«102956_j57483842290055_2_alg».proof.Proof.RefCat

noncomputable section

namespace Cert.ReferenceIdeal.Stages

open Cert.ReferenceIdeal Cert.ReferenceIdeal.Gen Cert.ReferenceIdeal.Read Idealize.ShloMosaic Idealize.ShloMosaic.ValueIdx

/-- Entry (p, q) of the message stage: the first product runs over the 131 columns of [s | d | e]; its sum splits into the
    sums over the three blocks, each against the matching rows of the stacked weight. -/
theorem msg0_eq (x0 : (⟨S50000x16, .f32⟩ : BufTy).Contents (Elt Ideal)) (x1 : (⟨S1600000x2, .i32⟩ : BufTy).Contents (Elt Ideal)) (x2 : (⟨S1600000x3, .f32⟩ : BufTy).Contents (Elt Ideal))
    (x3 : (⟨S16x64, .f32⟩ : BufTy).Contents (Elt Ideal)) (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S2x131x64, .f32⟩ : BufTy).Contents (Elt Ideal)) (x8 : (⟨S2x64, .f32⟩ : BufTy).Contents (Elt Ideal))
    (x9 : (⟨S2x64x64, .f32⟩ : BufTy).Contents (Elt Ideal)) (x10 : (⟨S2x64, .f32⟩ : BufTy).Contents (Elt Ideal)) :
    val_main_v46 (F := Ideal) x0 x1 x2 x3 x4 x5 x6 x7 x8 x9 x10 =
      Cert.Gnn.edge (val_main_v20 (F := Ideal) x0 x1 x3 x4 x5 x6) (val_main_v27 (F := Ideal) x0 x1 x3 x4 x5 x6) x2
        (Cert.Gnn.rows 0 (show 0 + 64 ≤ 131 by decide) (val_main_v30 (F := Ideal) x7))
        (Cert.Gnn.rows 64 (show 64 + 64 ≤ 131 by decide) (val_main_v30 (F := Ideal) x7))
        (Cert.Gnn.rows 128 (show 128 + 3 ≤ 131 by decide) (val_main_v30 (F := Ideal) x7))
        (val_main_v32 (F := Ideal) x8) (val_main_v34 (F := Ideal) x9) (val_main_v36 (F := Ideal) x10) := by
  funext i
  obtain ⟨p, q, rfl⟩ : ∃ (p : Fin 1600000) (q : Fin 64), i = ix2 p q := ⟨i 0, i 1, eq_ix2 i⟩
  -- the index maps of the two products and of the two bias rows, at (p, q)
  have hl2 : ∀ k : Fin 64, lidx_main_v43 (ix2 p q) k = ix2 p k := fun k => funext fun a => by
    match a with | ⟨0, _⟩ => rfl | ⟨1, _⟩ => rfl
  have hr2 : ∀ k : Fin 64, ridx_main_v43 (ix2 p q) k = ix2 k q := fun k => funext fun a => by
    match a with | ⟨0, _⟩ => rfl | ⟨1, _⟩ => rfl
  have hl1 : ∀ (j : Fin 64) (k : Fin 131), lidx_main_v37 (ix2 p j) k = ix2 p k := fun j k => funext fun a => by
    match a with | ⟨0, _⟩ => rfl | ⟨1, _⟩ => rfl
  have hr1 : ∀ (j : Fin 64) (k : Fin 131), ridx_main_v37 (ix2 p j) k = ix2 k j := fun j k => funext fun a => by
    match a with | ⟨0, _⟩ => rfl | ⟨1, _⟩ => rfl
  have hb2 : idx_main_v44 (idx_main_v45 (ix2 p q)) = ix1 q := funext fun a => by
    match a with | ⟨0, _⟩ => rfl
  have hb1 : ∀ j : Fin 64, idx_main_v38 (idx_main_v39 (ix2 p j)) = ix1 j := fun j => funext fun a => by
    match a with | ⟨0, _⟩ => rfl
  rw [Cert.Gnn.edge_ix2, val_main_v46_apply, val_main_v43_apply, val_main_v45_apply, val_main_v44_apply, hb2]
  simp only [hl2, hr2, val_main_v42_apply, val_main_v40_apply, val_main_v37_apply, val_main_v39_apply,
    val_main_v38_apply, val_main_v41_apply, val_main_cst_3_apply, hl1, hr1, hb1, Ideal.addf_def, Ideal.maximumf_def,
    Ideal.ofBits_def, Ideal.ofBits_zero_f32]
  -- the concatenation, block by block
  unfold val_main_v28
  generalize val_main_v20 (F := Ideal) x0 x1 x3 x4 x5 x6 = s
  generalize val_main_v27 (F := Ideal) x0 x1 x3 x4 x5 x6 = d
  generalize val_main_v30 (F := Ideal) x7 = W
  -- the first block of rows starts at row 0: row 0 + k is row k
  have hrow0 : ∀ (k : Fin 64) (j : Fin 64) (hk : k.val < 131),
      W (ix2 (⟨k.val, hk⟩ : Fin 131) j) = Cert.Gnn.rows 0 (show 0 + 64 ≤ 131 by decide) W (ix2 k j) := by
    intro k j hk
    rw [Cert.Gnn.rows_ix2]
    simp only [Nat.zero_add]
  have hsum : ∀ j : Fin 64,
      (∑ k : Fin 131, concatenate S1600000x131 1 [⟨S1600000x64, s⟩, ⟨S1600000x64, d⟩, ⟨S1600000x3, x2⟩]
          concatenates_S1600000x64_S1600000x64_S1600000x3_S1600000x131_d1 (ix2 p k) * W (ix2 k j))
        = ((∑ k : Fin 64, s (ix2 p k) * Cert.Gnn.rows 0 (show 0 + 64 ≤ 131 by decide) W (ix2 k j))
            + (∑ k : Fin 64, d (ix2 p k) * Cert.Gnn.rows 64 (show 64 + 64 ≤ 131 by decide) W (ix2 k j)))
          + (∑ k : Fin 3, x2 (ix2 p k) * Cert.Gnn.rows 128 (show 128 + 3 ≤ 131 by decide) W (ix2 k j)) := by
    intro j
    rw [Cert.Gnn.sum_three (A := 64) (B := 64) (C := 3) rfl]
    refine congrArg₂ (· + ·) (congrArg₂ (· + ·) (Finset.sum_congr rfl fun k _ => ?_) (Finset.sum_congr rfl fun k _ => ?_))
      (Finset.sum_congr rfl fun k _ => ?_)
    · exact congrArg₂ (· * ·) (cat3_fst s d x2 _ p k _) (hrow0 k j _)
    · exact congrArg₂ (· * ·) (cat3_snd s d x2 _ p k _) rfl
    · exact congrArg₂ (· * ·) (cat3_trd s d x2 _ p k _) rfl
  simp only [hsum]
  rfl

/-- Entry (p, q) of the message stage: the first product runs over the 131 columns of [s | d | e]; its sum splits into the
    sums over the three blocks, each against the matching rows of the stacked weight. -/
theorem msg1_eq (x0 : (⟨S50000x16, .f32⟩ : BufTy).Contents (Elt Ideal)) (x1 : (⟨S1600000x2, .i32⟩ : BufTy).Contents (Elt Ideal)) (x2 : (⟨S1600000x3, .f32⟩ : BufTy).Contents (Elt Ideal))
    (x3 : (⟨S16x64, .f32⟩ : BufTy).Contents (Elt Ideal)) (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S2x131x64, .f32⟩ : BufTy).Contents (Elt Ideal)) (x8 : (⟨S2x64, .f32⟩ : BufTy).Contents (Elt Ideal))
    (x9 : (⟨S2x64x64, .f32⟩ : BufTy).Contents (Elt Ideal)) (x10 : (⟨S2x64, .f32⟩ : BufTy).Contents (Elt Ideal)) (x11 : (⟨S2x128x64, .f32⟩ : BufTy).Contents (Elt Ideal))
    (x12 : (⟨S2x64, .f32⟩ : BufTy).Contents (Elt Ideal)) (x13 : (⟨S2x64x64, .f32⟩ : BufTy).Contents (Elt Ideal)) (x14 : (⟨S2x64, .f32⟩ : BufTy).Contents (Elt Ideal)) :
    val_main_v102 (F := Ideal) x0 x1 x2 x3 x4 x5 x6 x7 x8 x9 x10 x11 x12 x13 x14 =
      Cert.Gnn.edge (val_main_v76 (F := Ideal) x0 x1 x2 x3 x4 x5 x6 x7 x8 x9 x10 x11 x12 x13 x14) (val_main_v83 (F := Ideal) x0 x1 x2 x3 x4 x5 x6 x7 x8 x9 x10 x11 x12 x13 x14) x2
        (Cert.Gnn.rows 0 (show 0 + 64 ≤ 131 by decide) (val_main_v86 (F := Ideal) x7))
        (Cert.Gnn.rows 64 (show 64 + 64 ≤ 131 by decide) (val_main_v86 (F := Ideal) x7))
        (Cert.Gnn.rows 128 (show 128 + 3 ≤ 131 by decide) (val_main_v86 (F := Ideal) x7))
        (val_main_v88 (F := Ideal) x8) (val_main_v90 (F := Ideal) x9) (val_main_v92 (F := Ideal) x10) := by
  funext i
  obtain ⟨p, q, rfl⟩ : ∃ (p : Fin 1600000) (q : Fin 64), i = ix2 p q := ⟨i 0, i 1, eq_ix2 i⟩
  -- the index maps of the two products and of the two bias rows, at (p, q)
  have hl2 : ∀ k : Fin 64, lidx_main_v99 (ix2 p q) k = ix2 p k := fun k => funext fun a => by
    match a with | ⟨0, _⟩ => rfl | ⟨1, _⟩ => rfl
  have hr2 : ∀ k : Fin 64, ridx_main_v99 (ix2 p q) k = ix2 k q := fun k => funext fun a => by
    match a with | ⟨0, _⟩ => rfl | ⟨1, _⟩ => rfl
  have hl1 : ∀ (j : Fin 64) (k : Fin 131), lidx_main_v93 (ix2 p j) k = ix2 p k := fun j k => funext fun a => by
    match a with | ⟨0, _⟩ => rfl | ⟨1, _⟩ => rfl
  have hr1 : ∀ (j : Fin 64) (k : Fin 131), ridx_main_v93 (ix2 p j) k = ix2 k j := fun j k => funext fun a => by
    match a with | ⟨0, _⟩ => rfl | ⟨1, _⟩ => rfl
  have hb2 : idx_main_v100 (idx_main_v101 (ix2 p q)) = ix1 q := funext fun a => by
    match a with | ⟨0, _⟩ => rfl
  have hb1 : ∀ j : Fin 64, idx_main_v94 (idx_main_v95 (ix2 p j)) = ix1 j := fun j => funext fun a => by
    match a with | ⟨0, _⟩ => rfl
  rw [Cert.Gnn.edge_ix2, val_main_v102_apply, val_main_v99_apply, val_main_v101_apply, val_main_v100_apply, hb2]
  simp only [hl2, hr2, val_main_v98_apply, val_main_v96_apply, val_main_v93_apply, val_main_v95_apply,
    val_main_v94_apply, val_main_v97_apply, val_main_cst_10_apply, hl1, hr1, hb1, Ideal.addf_def, Ideal.maximumf_def,
    Ideal.ofBits_def, Ideal.ofBits_zero_f32]
  -- the concatenation, block by block
  unfold val_main_v84
  generalize val_main_v76 (F := Ideal) x0 x1 x2 x3 x4 x5 x6 x7 x8 x9 x10 x11 x12 x13 x14 = s
  generalize val_main_v83 (F := Ideal) x0 x1 x2 x3 x4 x5 x6 x7 x8 x9 x10 x11 x12 x13 x14 = d
  generalize val_main_v86 (F := Ideal) x7 = W
  -- the first block of rows starts at row 0: row 0 + k is row k
  have hrow0 : ∀ (k : Fin 64) (j : Fin 64) (hk : k.val < 131),
      W (ix2 (⟨k.val, hk⟩ : Fin 131) j) = Cert.Gnn.rows 0 (show 0 + 64 ≤ 131 by decide) W (ix2 k j) := by
    intro k j hk
    rw [Cert.Gnn.rows_ix2]
    simp only [Nat.zero_add]
  have hsum : ∀ j : Fin 64,
      (∑ k : Fin 131, concatenate S1600000x131 1 [⟨S1600000x64, s⟩, ⟨S1600000x64, d⟩, ⟨S1600000x3, x2⟩]
          concatenates_S1600000x64_S1600000x64_S1600000x3_S1600000x131_d1 (ix2 p k) * W (ix2 k j))
        = ((∑ k : Fin 64, s (ix2 p k) * Cert.Gnn.rows 0 (show 0 + 64 ≤ 131 by decide) W (ix2 k j))
            + (∑ k : Fin 64, d (ix2 p k) * Cert.Gnn.rows 64 (show 64 + 64 ≤ 131 by decide) W (ix2 k j)))
          + (∑ k : Fin 3, x2 (ix2 p k) * Cert.Gnn.rows 128 (show 128 + 3 ≤ 131 by decide) W (ix2 k j)) := by
    intro j
    rw [Cert.Gnn.sum_three (A := 64) (B := 64) (C := 3) rfl]
    refine congrArg₂ (· + ·) (congrArg₂ (· + ·) (Finset.sum_congr rfl fun k _ => ?_) (Finset.sum_congr rfl fun k _ => ?_))
      (Finset.sum_congr rfl fun k _ => ?_)
    · exact congrArg₂ (· * ·) (cat3_fst s d x2 _ p k _) (hrow0 k j _)
    · exact congrArg₂ (· * ·) (cat3_snd s d x2 _ p k _) rfl
    · exact congrArg₂ (· * ·) (cat3_trd s d x2 _ p k _) rfl
  simp only [hsum]
  rfl

end Cert.ReferenceIdeal.Stages

end
-- ==== Proof.RefUpd.lean ====
/-
  The reference's update stage is the specification's: the perceptron on [h | agg] against one stacked weight of 64 + 64
  rows equals the perceptron fed the two blocks against the two row blocks of the weight, because a sum over the 128 columns
  is the sum over the first 64 plus the sum over the last 64; the result is added to h.
-/
import proofs.«102956_j57483842290055_2_alg».proof.Proof.ReadP
import proofs.«102956_j57483842290055_2_alg».proof.Proof.Spec
import proofs.«102956_j57483842290055_2_alg».proof.Proof.RefCat

noncomputable section

namespace Cert.ReferenceIdeal.Stages

open Cert.ReferenceIdeal Cert.ReferenceIdeal.Gen Cert.ReferenceIdeal.Read Idealize.ShloMosaic Idealize.ShloMosaic.ValueIdx

/-- Entry (p, q) of the update stage: the first product runs over the 128 columns of [h | g]; its sum splits into the sums
    over the two blocks, each against the matching rows of the stacked weight; the perceptron's result is added to h(p, q). -/
theorem upd0_eq (x0 : (⟨S50000x16, .f32⟩ : BufTy).Contents (Elt Ideal)) (x1 : (⟨S1600000x2, .i32⟩ : BufTy).Contents (Elt Ideal)) (x2 : (⟨S1600000x3, .f32⟩ : BufTy).Contents (Elt Ideal))
    (x3 : (⟨S16x64, .f32⟩ : BufTy).Contents (Elt Ideal)) (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S2x131x64, .f32⟩ : BufTy).Contents (Elt Ideal)) (x8 : (⟨S2x64, .f32⟩ : BufTy).Contents (Elt Ideal))
    (x9 : (⟨S2x64x64, .f32⟩ : BufTy).Contents (Elt Ideal)) (x10 : (⟨S2x64, .f32⟩ : BufTy).Contents (Elt Ideal)) (x11 : (⟨S2x128x64, .f32⟩ : BufTy).Contents (Elt Ideal))
    (x12 : (⟨S2x64, .f32⟩ : BufTy).Contents (Elt Ideal)) (x13 : (⟨S2x64x64, .f32⟩ : BufTy).Contents (Elt Ideal)) (x14 : (⟨S2x64, .f32⟩ : BufTy).Contents (Elt Ideal)) :
    val_main_v69 (F := Ideal) x0 x1 x2 x3 x4 x5 x6 x7 x8 x9 x10 x11 x12 x13 x14 =
      Cert.Gnn.upd (val_main_v9 (F := Ideal) x0 x3 x4 x5 x6) (val_main_v9 (F := Ideal) x0 x3 x4 x5 x6) (val_main_v49 (F := Ideal) x0 x1 x2 x3 x4 x5 x6 x7 x8 x9 x10)
        (Cert.Gnn.rows 0 (show 0 + 64 ≤ 128 by decide) (val_main_v52 (F := Ideal) x11))
        (Cert.Gnn.rows 64 (show 64 + 64 ≤ 128 by decide) (val_main_v52 (F := Ideal) x11))
        (val_main_v54 (F := Ideal) x12) (val_main_v56 (F := Ideal) x13) (val_main_v58 (F := Ideal) x14) := by
  funext i
  obtain ⟨p, q, rfl⟩ : ∃ (p : Fin 50000) (q : Fin 64), i = ix2 p q := ⟨i 0, i 1, eq_ix2 i⟩
  -- the index maps of the two products and of the two bias rows, at (p, q)
  have hl2 : ∀ k : Fin 64, lidx_main_v65 (ix2 p q) k = ix2 p k := fun k => funext fun a => by
    match a with | ⟨0, _⟩ => rfl | ⟨1, _⟩ => rfl
  have hr2 : ∀ k : Fin 64, ridx_main_v65 (ix2 p q) k = ix2 k q := fun k => funext fun a => by
    match a with | ⟨0, _⟩ => rfl | ⟨1, _⟩ => rfl
  have hl1 : ∀ (j : Fin 64) (k : Fin 128), lidx_main_v59 (ix2 p j) k = ix2 p k := fun j k => funext fun a => by
    match a with | ⟨0, _⟩ => rfl | ⟨1, _⟩ => rfl
  have hr1 : ∀ (j : Fin 64) (k : Fin 128), ridx_main_v59 (ix2 p j) k = ix2 k j := fun j k => funext fun a => by
    match a with | ⟨0, _⟩ => rfl | ⟨1, _⟩ => rfl
  have hb2 : idx_main_v66 (idx_main_v67 (ix2 p q)) = ix1 q := funext fun a => by
    match a with | ⟨0, _⟩ => rfl
  have hb1 : ∀ j : Fin 64, idx_main_v60 (idx_main_v61 (ix2 p j)) = ix1 j := fun j => funext fun a => by
    match a with | ⟨0, _⟩ => rfl
  rw [Cert.Gnn.upd_ix2, val_main_v69_apply, val_main_v68_apply, val_main_v65_apply, val_main_v67_apply,
    val_main_v66_apply, hb2]
  simp only [hl2, hr2, val_main_v64_apply, val_main_v62_apply, val_main_v59_apply, val_main_v61_apply,
    val_main_v60_apply, val_main_v63_apply, val_main_cst_5_apply, hl1, hr1, hb1, Ideal.addf_def, Ideal.maximumf_def,
    Ideal.ofBits_def, Ideal.ofBits_zero_f32]
  -- the concatenation, block by block
  unfold val_main_v50
  generalize val_main_v49 (F := Ideal) x0 x1 x2 x3 x4 x5 x6 x7 x8 x9 x10 = g
  generalize val_main_v9 (F := Ideal) x0 x3 x4 x5 x6 = h
  generalize val_main_v52 (F := Ideal) x11 = W
  -- the first block of rows starts at row 0: row 0 + k is row k
  have hrow0 : ∀ (k : Fin 64) (j : Fin 64) (hk : k.val < 128),
      W (ix2 (⟨k.val, hk⟩ : Fin 128) j) = Cert.Gnn.rows 0 (show 0 + 64 ≤ 128 by decide) W (ix2 k j) := by
    intro k j hk
    rw [Cert.Gnn.rows_ix2]
    simp only [Nat.zero_add]
  have hsum : ∀ j : Fin 64,
      (∑ k : Fin 128, concatenate S50000x128 1 [⟨S50000x64, h⟩, ⟨S50000x64, g⟩]
          concatenates_S50000x64_S50000x64_S50000x128_d1 (ix2 p k) * W (ix2 k j))
        = (∑ k : Fin 64, h (ix2 p k) * Cert.Gnn.rows 0 (show 0 + 64 ≤ 128 by decide) W (ix2 k j))
            + (∑ k : Fin 64, g (ix2 p k) * Cert.Gnn.rows 64 (show 64 + 64 ≤ 128 by decide) W (ix2 k j)) := by
    intro j
    rw [Cert.Gnn.sum_two (A := 64) (B := 64) rfl]
    refine congrArg₂ (· + ·) (Finset.sum_congr rfl fun k _ => ?_) (Finset.sum_congr rfl fun k _ => ?_)
    · exact congrArg₂ (· * ·) (cat2_fst h g _ p k _) (hrow0 k j _)
    · exact congrArg₂ (· * ·) (cat2_snd h g _ p k _) rfl
  simp only [hsum]
  rfl

/-- Entry (p, q) of the update stage: the first product runs over the 128 columns of [h | g]; its sum splits into the sums
    over the two blocks, each against the matching rows of the stacked weight; the perceptron's result is added to h(p, q). -/
theorem upd1_eq (x0 : (⟨S50000x16, .f32⟩ : BufTy).Contents (Elt Ideal)) (x1 : (⟨S1600000x2, .i32⟩ : BufTy).Contents (Elt Ideal)) (x2 : (⟨S1600000x3, .f32⟩ : BufTy).Contents (Elt Ideal))
    (x3 : (⟨S16x64, .f32⟩ : BufTy).Contents (Elt Ideal)) (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S2x131x64, .f32⟩ : BufTy).Contents (Elt Ideal)) (x8 : (⟨S2x64, .f32⟩ : BufTy).Contents (Elt Ideal))
    (x9 : (⟨S2x64x64, .f32⟩ : BufTy).Contents (Elt Ideal)) (x10 : (⟨S2x64, .f32⟩ : BufTy).Contents (Elt Ideal)) (x11 : (⟨S2x128x64, .f32⟩ : BufTy).Contents (Elt Ideal))
    (x12 : (⟨S2x64, .f32⟩ : BufTy).Contents (Elt Ideal)) (x13 : (⟨S2x64x64, .f32⟩ : BufTy).Contents (Elt Ideal)) (x14 : (⟨S2x64, .f32⟩ : BufTy).Contents (Elt Ideal)) :
    val_main_v125 (F := Ideal) x0 x1 x2 x3 x4 x5 x6 x7 x8 x9 x10 x11 x12 x13 x14 =
      Cert.Gnn.upd (val_main_v69 (F := Ideal) x0 x1 x2 x3 x4 x5 x6 x7 x8 x9 x10 x11 x12 x13 x14) (val_main_v69 (F := Ideal) x0 x1 x2 x3 x4 x5 x6 x7 x8 x9 x10 x11 x12 x13 x14) (val_main_v105 (F := Ideal) x0 x1 x2 x3 x4 x5 x6 x7 x8 x9 x10 x11 x12 x13 x14)
        (Cert.Gnn.rows 0 (show 0 + 64 ≤ 128 by decide) (val_main_v108 (F := Ideal) x11))
        (Cert.Gnn.rows 64 (show 64 + 64 ≤ 128 by decide) (val_main_v108 (F := Ideal) x11))
        (val_main_v110 (F := Ideal) x12) (val_main_v112 (F := Ideal) x13) (val_main_v114 (F := Ideal) x14) := by
  funext i
  obtain ⟨p, q, rfl⟩ : ∃ (p : Fin 50000) (q : Fin 64), i = ix2 p q := ⟨i 0, i 1, eq_ix2 i⟩
  -- the index maps of the two products and of the two bias rows, at (p, q)
  have hl2 : ∀ k : Fin 64, lidx_main_v121 (ix2 p q) k = ix2 p k := fun k => funext fun a => by
    match a with | ⟨0, _⟩ => rfl | ⟨1, _⟩ => rfl
  have hr2 : ∀ k : Fin 64, ridx_main_v121 (ix2 p q) k = ix2 k q := fun k => funext fun a => by
    match a with | ⟨0, _⟩ => rfl | ⟨1, _⟩ => rfl
  have hl1 : ∀ (j : Fin 64) (k : Fin 128), lidx_main_v115 (ix2 p j) k = ix2 p k := fun j k => funext fun a => by
    match a with | ⟨0, _⟩ => rfl | ⟨1, _⟩ => rfl
  have hr1 : ∀ (j : Fin 64) (k : Fin 128), ridx_main_v115 (ix2 p j) k = ix2 k j := fun j k => funext fun a => by
    match a with | ⟨0, _⟩ => rfl | ⟨1, _⟩ => rfl
  have hb2 : idx_main_v122 (idx_main_v123 (ix2 p q)) = ix1 q := funext fun a => by
    match a with | ⟨0, _⟩ => rfl
  have hb1 : ∀ j : Fin 64, idx_main_v116 (idx_main_v117 (ix2 p j)) = ix1 j := fun j => funext fun a => by
    match a with | ⟨0, _⟩ => rfl
  rw [Cert.Gnn.upd_ix2, val_main_v125_apply, val_main_v124_apply, val_main_v121_apply, val_main_v123_apply,
    val_main_v122_apply, hb2]
  simp only [hl2, hr2, val_main_v120_apply, val_main_v118_apply, val_main_v115_apply, val_main_v117_apply,
    val_main_v116_apply, val_main_v119_apply, val_main_cst_12_apply, hl1, hr1, hb1, Ideal.addf_def, Ideal.maximumf_def,
    Ideal.ofBits_def, Ideal.ofBits_zero_f32]
  -- the concatenation, block by block
  unfold val_main_v106
  generalize val_main_v105 (F := Ideal) x0 x1 x2 x3 x4 x5 x6 x7 x8 x9 x10 x11 x12 x13 x14 = g
  generalize val_main_v69 (F := Ideal) x0 x1 x2 x3 x4 x5 x6 x7 x8 x9 x10 x11 x12 x13 x14 = h
  generalize val_main_v108 (F := Ideal) x11 = W
  -- the first block of rows starts at row 0: row 0 + k is row k
  have hrow0 : ∀ (k : Fin 64) (j : Fin 64) (hk : k.val < 128),
      W (ix2 (⟨k.val, hk⟩ : Fin 128) j) = Cert.Gnn.rows 0 (show 0 + 64 ≤ 128 by decide) W (ix2 k j) := by
    intro k j hk
    rw [Cert.Gnn.rows_ix2]
    simp only [Nat.zero_add]
  have hsum : ∀ j : Fin 64,
      (∑ k : Fin 128, concatenate S50000x128 1 [⟨S50000x64, h⟩, ⟨S50000x64, g⟩]
          concatenates_S50000x64_S50000x64_S50000x128_d1 (ix2 p k) * W (ix2 k j))
        = (∑ k : Fin 64, h (ix2 p k) * Cert.Gnn.rows 0 (show 0 + 64 ≤ 128 by decide) W (ix2 k j))
            + (∑ k : Fin 64, g (ix2 p k) * Cert.Gnn.rows 64 (show 64 + 64 ≤ 128 by decide) W (ix2 k j)) := by
    intro j
    rw [Cert.Gnn.sum_two (A := 64) (B := 64) rfl]
    refine congrArg₂ (· + ·) (Finset.sum_congr rfl fun k _ => ?_) (Finset.sum_congr rfl fun k _ => ?_)
    · exact congrArg₂ (· * ·) (cat2_fst h g _ p k _) (hrow0 k j _)
    · exact congrArg₂ (· * ·) (cat2_snd h g _ p k _) rfl
  simp only [hsum]
  rfl

end Cert.ReferenceIdeal.Stages

end
-- ==== Proof.RefHead.lean ====
/-
  The reference's head is the two-layer perceptron of the specification on the node states after the last round, with a
  single output column.
-/
import proofs.«102956_j57483842290055_2_alg».proof.Proof.ReadP
import proofs.«102956_j57483842290055_2_alg».proof.Proof.Spec

noncomputable section

namespace Cert.ReferenceIdeal.Stages

open Cert.ReferenceIdeal Cert.ReferenceIdeal.Gen Cert.ReferenceIdeal.Read Idealize.ShloMosaic Idealize.ShloMosaic.ValueIdx

/-- Entry (p, 0) of the head is Σ_j max (Σ_k h(p,k)·w₁(k,j) + b₁(j)) 0 · w₂(j,0) + b₂(0), h the node states after the last round. -/
theorem head_eq (x0 : (⟨S50000x16, .f32⟩ : BufTy).Contents (Elt Ideal)) (x1 : (⟨S1600000x2, .i32⟩ : BufTy).Contents (Elt Ideal)) (x2 : (⟨S1600000x3, .f32⟩ : BufTy).Contents (Elt Ideal))
    (x3 : (⟨S16x64, .f32⟩ : BufTy).Contents (Elt Ideal)) (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S2x131x64, .f32⟩ : BufTy).Contents (Elt Ideal)) (x8 : (⟨S2x64, .f32⟩ : BufTy).Contents (Elt Ideal))
    (x9 : (⟨S2x64x64, .f32⟩ : BufTy).Contents (Elt Ideal)) (x10 : (⟨S2x64, .f32⟩ : BufTy).Contents (Elt Ideal)) (x11 : (⟨S2x128x64, .f32⟩ : BufTy).Contents (Elt Ideal))
    (x12 : (⟨S2x64, .f32⟩ : BufTy).Contents (Elt Ideal)) (x13 : (⟨S2x64x64, .f32⟩ : BufTy).Contents (Elt Ideal)) (x14 : (⟨S2x64, .f32⟩ : BufTy).Contents (Elt Ideal))
    (x15 : (⟨S64x64, .f32⟩ : BufTy).Contents (Elt Ideal)) (x16 : (⟨S64, .f32⟩ : BufTy).Contents (Elt Ideal)) (x17 : (⟨S64x1, .f32⟩ : BufTy).Contents (Elt Ideal))
    (x18 : (⟨S1, .f32⟩ : BufTy).Contents (Elt Ideal)) :
    val_main_v135 (F := Ideal) x0 x1 x2 x3 x4 x5 x6 x7 x8 x9 x10 x11 x12 x13 x14 x15 x16 x17 x18 = Cert.Gnn.mlp (val_main_v125 (F := Ideal) x0 x1 x2 x3 x4 x5 x6 x7 x8 x9 x10 x11 x12 x13 x14) x15 x16 x17 x18 := by
  funext i
  obtain ⟨p, q, rfl⟩ : ∃ (p : Fin 50000) (q : Fin 1), i = ix2 p q := ⟨i 0, i 1, eq_ix2 i⟩
  -- the index maps of the two products and of the two bias rows, at (p, q)
  have hl2 : ∀ k : Fin 64, lidx_main_v132 (ix2 p q) k = ix2 p k := fun k => funext fun a => by
    match a with | ⟨0, _⟩ => rfl | ⟨1, _⟩ => rfl
  have hr2 : ∀ k : Fin 64, ridx_main_v132 (ix2 p q) k = ix2 k q := fun k => funext fun a => by
    match a with | ⟨0, _⟩ => rfl | ⟨1, _⟩ => rfl
  have hl1 : ∀ (j : Fin 64) (k : Fin 64), lidx_main_v126 (ix2 p j) k = ix2 p k := fun j k => funext fun a => by
    match a with | ⟨0, _⟩ => rfl | ⟨1, _⟩ => rfl
  have hr1 : ∀ (j : Fin 64) (k : Fin 64), ridx_main_v126 (ix2 p j) k = ix2 k j := fun j k => funext fun a => by
    match a with | ⟨0, _⟩ => rfl | ⟨1, _⟩ => rfl
  have hb2 : idx_main_v133 (idx_main_v134 (ix2 p q)) = ix1 q := funext fun a => by
    match a with | ⟨0, _⟩ => exact Fin.ext (by have := q.isLt; show 0 = q.val; omega)
  have hb1 : ∀ j : Fin 64, idx_main_v127 (idx_main_v128 (ix2 p j)) = ix1 j := fun j => funext fun a => by
    match a with | ⟨0, _⟩ => rfl
  rw [Cert.Gnn.mlp_ix2, val_main_v135_apply, val_main_v132_apply, val_main_v134_apply, val_main_v133_apply, hb2]
  simp only [hl2, hr2, val_main_v131_apply, val_main_v129_apply, val_main_v126_apply, val_main_v128_apply,
    val_main_v127_apply, val_main_v130_apply, val_main_cst_13_apply, hl1, hr1, hb1, Ideal.addf_def, Ideal.maximumf_def,
    Ideal.ofBits_def, Ideal.ofBits_zero_f32]
  rfl

end Cert.ReferenceIdeal.Stages

end
-- ==== Proof.RefStages.lean ====
/-
  The reference's six stages — encoder, two rounds of message and update, head — each equal to the specification's stage
  of the same name.
-/
import proofs.«102956_j57483842290055_2_alg».proof.Proof.RefEnc
import proofs.«102956_j57483842290055_2_alg».proof.Proof.RefMsg
import proofs.«102956_j57483842290055_2_alg».proof.Proof.RefUpd
import proofs.«102956_j57483842290055_2_alg».proof.Proof.RefHead
-- ==== Proof.lean ====
/-
  The claim.  The three programs run (the generated frames; the reference's frame is its generated run with the result
  dropped), the idealization rewrote nothing, and at the ideal values the kernel and the reference end with the same
  result.  The kernel's result buffer, followed through its six regions and the host operations between them, holds the
  reference's own result term applied to the kernel's arguments: every region's output array is the specification's
  perceptron, message or update function of the arrays it reads, and every stage of the reference is the same
  specification function of the same operands (the reference's product with a stacked weight is the sum of the partial
  products with its row blocks, by associativity and commutativity of addition on the extended reals alone, so the
  precondition is never opened).  Memories that agree on the arguments therefore give equal results.
-/
import proofs.«102956_j57483842290055_2_alg».proof.Defs
import proofs.«102956_j57483842290055_2_alg».proof.Proof.Gen.Kernel
import proofs.«102956_j57483842290055_2_alg».proof.Proof.Gen.Kernel.Skeleton
import proofs.«102956_j57483842290055_2_alg».proof.Proof.Gen.Kernel.Launch
import proofs.«102956_j57483842290055_2_alg».proof.Proof.Gen.Kernel.Points
import proofs.«102956_j57483842290055_2_alg».proof.Proof.Gen.Kernel.Frame
import proofs.«102956_j57483842290055_2_alg».proof.Proof.Gen.KernelIdeal
import proofs.«102956_j57483842290055_2_alg».proof.Proof.Gen.KernelIdeal.Skeleton
import proofs.«102956_j57483842290055_2_alg».proof.Proof.Gen.KernelIdeal.Launch
import proofs.«102956_j57483842290055_2_alg».proof.Proof.Gen.KernelIdeal.Points
import proofs.«102956_j57483842290055_2_alg».proof.Proof.Gen.KernelIdeal.Frame
import proofs.«102956_j57483842290055_2_alg».proof.Proof.Gen.ReferenceIdeal
import proofs.«102956_j57483842290055_2_alg».proof.Proof.RunPa
import proofs.«102956_j57483842290055_2_alg».proof.Proof.RunPb
import proofs.«102956_j57483842290055_2_alg».proof.Proof.ReadP
import proofs.«102956_j57483842290055_2_alg».proof.Proof.Gen.Pre_finite_inputs
import proofs.«102956_j57483842290055_2_alg».proof.Proof.KRun
import proofs.«102956_j57483842290055_2_alg».proof.Proof.KStage5
import proofs.«102956_j57483842290055_2_alg».proof.Proof.KRegion0
import proofs.«102956_j57483842290055_2_alg».proof.Proof.KRegion1
import proofs.«102956_j57483842290055_2_alg».proof.Proof.KRegion2
import proofs.«102956_j57483842290055_2_alg».proof.Proof.KRegion3
import proofs.«102956_j57483842290055_2_alg».proof.Proof.KRegion4
import proofs.«102956_j57483842290055_2_alg».proof.Proof.KRegion5
import proofs.«102956_j57483842290055_2_alg».proof.Proof.RefStages
import Idealize.ShloMosaic.Adequacy
import Idealize.ShloMosaic.Init

noncomputable section

namespace Cert.Proof

open Idealize.ShloMosaic Idealize.SL.Sem

/-- The six region values and the reference's six stage readings, together. -/
theorem hyp : Cert.KernelIdeal.Stages.Hyp where
  fin0 := fun V c => Cert.KernelIdeal.RegionValue.final0 V c
  fin1 := fun V c => Cert.KernelIdeal.RegionValue.final1 V c
  fin2 := fun V c => Cert.KernelIdeal.RegionValue.final2 V c
  fin3 := fun V c => Cert.KernelIdeal.RegionValue.final3 V c
  fin4 := fun V c => Cert.KernelIdeal.RegionValue.final4 V c
  fin5 := fun V c => Cert.KernelIdeal.RegionValue.final5 V c
  enc := Cert.ReferenceIdeal.Stages.enc_eq
  msg0 := Cert.ReferenceIdeal.Stages.msg0_eq
  upd0 := Cert.ReferenceIdeal.Stages.upd0_eq
  msg1 := Cert.ReferenceIdeal.Stages.msg1_eq
  upd1 := Cert.ReferenceIdeal.Stages.upd1_eq
  head := Cert.ReferenceIdeal.Stages.head_eq

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at the reference's result term of the kernel's arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v136 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.KernelIdeal.Stages.w12_v101 m ρ c hyp), (h c).2⟩)
      (Cert.KernelIdeal.RunValue.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v136_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
